-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x1 : Shape := ⟨2, ![600000, 1]⟩
abbrev S128x128 : Shape := ⟨2, ![128, 128]⟩
abbrev S128 : Shape := ⟨1, ![128]⟩
abbrev S1x128 : Shape := ⟨2, ![1, 128]⟩
abbrev S2 : Shape := ⟨1, ![2]⟩
abbrev S2x1x128 : Shape := ⟨3, ![2, 1, 128]⟩
abbrev S2x128 : Shape := ⟨2, ![2, 128]⟩
abbrev S2x128x128 : Shape := ⟨3, ![2, 128, 128]⟩
abbrev S2x128x256 : Shape := ⟨3, ![2, 128, 256]⟩
abbrev S2x256 : Shape := ⟨2, ![2, 256]⟩
abbrev S2x256x128 : Shape := ⟨3, ![2, 256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S2 : S_.BroadcastsInDim S2 (![] : Fin 0 → Fin S2.rank)
  reducesTo_S2_S_d0 : S2.ReducesTo [0] S_
  bcast_S_S2x1x128 : S_.BroadcastsInDim S2x1x128 (![] : Fin 0 → Fin S2x1x128.rank)
  reducesTo_S2x1x128_S_d0_1_2 : S2x1x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128x256 : S_.BroadcastsInDim S2x128x256 (![] : Fin 0 → Fin S2x128x256.rank)
  reducesTo_S2x128x256_S_d0_1_2 : S2x128x256.ReducesTo [0, 1, 2] S_
  bcast_S_S2x256 : S_.BroadcastsInDim S2x256 (![] : Fin 0 → Fin S2x256.rank)
  reducesTo_S2x256_S_d0_1 : S2x256.ReducesTo [0, 1] S_
  bcast_S_S2x256x128 : S_.BroadcastsInDim S2x256x128 (![] : Fin 0 → Fin S2x256x128.rank)
  reducesTo_S2x256x128_S_d0_1_2 : S2x256x128.ReducesTo [0, 1, 2] S_

variable [Facts]

def fn_part4 {F : FTy → Type} [FloatOps F] (main_arg15 : FVec F S2x256 .f32) (main_arg16 : FVec F S2x256x128 .f32) (main_arg17 : FVec F S2x128 .f32) (main_v63 : IVec S_ 1) (main_v67 : IVec S_ 1) : IVec S_ 1 :=
  let main_v68 : IVec S_ 1 := andi main_v63 main_v67
  let main_v69 : FVec F S2x256 .f32 := Host.absf main_arg15
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2x256x128 .f32 := Host.absf main_arg16
  let main_cst_28 : FVec F S_ .f32 := constant S_ .f32 0x7F800000#32
  let main_v75 : FVec F S2x256x128 .f32 := broadcastInDim S2x256x128 ![] bcast_S_S2x256x128 main_cst_28
  let main_v76 : IVec S2x256x128 1 := cmpf .olt main_v74 main_v75
  let main_c_29 : IVec S_ 1 := constantI S_ 1 1#1
  let main_v77 : IVec S_ 1 := (fun x v => Host.reduce IntOp.andi x v reducesTo_S2x256x128_S_d0_1_2 h_S_) main_v76 main_c_29
  let main_v78 : IVec S_ 1 := andi main_v73 main_v77
  let main_v79 : FVec F S2x128 .f32 := Host.absf main_arg17
  let main_cst_30 : FVec F S_ .f32 := constant S_ .f32 0x7F800000#32
  let main_v80 : FVec F S2x128 .f32 := broadcastInDim S2x128 ![] bcast_S_S2x128 main_cst_30
  let main_v81 : IVec S2x128 1 := cmpf .olt main_v79 main_v80
  let main_c_31 : IVec S_ 1 := constantI S_ 1 1#1
  let main_v82 : IVec S_ 1 := (fun x v => Host.reduce IntOp.andi x v reducesTo_S2x128_S_d0_1 h_S_) main_v81 main_c_31
  let main_v83 : IVec S_ 1 := andi main_v78 main_v82
  main_v83

def fn_part3 {F : FTy → Type} [FloatOps F] (main_arg12 : FVec F S2x128x256 .f32) (main_arg13 : FVec F S2x256 .f32) (main_arg14 : FVec F S2x256 .f32) (main_arg15 : FVec F S2x256 .f32) (main_arg16 : FVec F S2x256x128 .f32) (main_arg17 : FVec F S2x128 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128x256 .f32 := Host.absf main_arg12
  let main_cst_20 : FVec F S_ .f32 := constant S_ .f32 0x7F800000#32
  let main_v55 : FVec F S2x128x256 .f32 := broadcastInDim S2x128x256 ![] bcast_S_S2x128x256 main_cst_20
  let main_v56 : IVec S2x128x256 1 := cmpf .olt main_v54 main_v55
  let main_c_21 : IVec S_ 1 := constantI S_ 1 1#1
  let main_v57 : IVec S_ 1 := (fun x v => Host.reduce IntOp.andi x v reducesTo_S2x128x256_S_d0_1_2 h_S_) main_v56 main_c_21
  let main_v58 : IVec S_ 1 := andi main_v53 main_v57
  let main_v59 : FVec F S2x256 .f32 := Host.absf main_arg13
  let main_cst_22 : FVec F S_ .f32 := constant S_ .f32 0x7F800000#32
  let main_v60 : FVec F S2x256 .f32 := broadcastInDim S2x256 ![] bcast_S_S2x256 main_cst_22
  let main_v61 : IVec S2x256 1 := cmpf .olt main_v59 main_v60
  let main_c_23 : IVec S_ 1 := constantI S_ 1 1#1
  let main_v62 : IVec S_ 1 := (fun x v => Host.reduce IntOp.andi x v reducesTo_S2x256_S_d0_1 h_S_) main_v61 main_c_23
  let main_v63 : IVec S_ 1 := andi main_v58 main_v62
  let main_v64 : FVec F S2x256 .f32 := Host.absf main_arg14
  let main_cst_24 : FVec F S_ .f32 := constant S_ .f32 0x7F800000#32
  let main_v65 : FVec F S2x256 .f32 := broadcastInDim S2x256 ![] bcast_S_S2x256 main_cst_24
  let main_v66 : IVec S2x256 1 := cmpf .olt main_v64 main_v65
  let main_c_25 : IVec S_ 1 := constantI S_ 1 1#1
  let main_v67 : IVec S_ 1 := (fun x v => Host.reduce IntOp.andi x v reducesTo_S2x256_S_d0_1 h_S_) main_v66 main_c_25
  fn_part4 (F := F) main_arg15 main_arg16 main_arg17 main_v63 main_v67

def fn_part2 {F : FTy → Type} [FloatOps F] (main_arg8 : FVec F S2x1x128 .f32) (main_arg9 : FVec F S2x128 .f32) (main_arg10 : FVec F S2x128x128 .f32) (main_arg11 : FVec F S2x128 .f32) (main_arg12 : FVec F S2x128x256 .f32) (main_arg13 : FVec F S2x256 .f32) (main_arg14 : FVec F S2x256 .f32) (main_arg15 : FVec F S2x256 .f32) (main_arg16 : FVec F S2x256x128 .f32) (main_arg17 : FVec F S2x128 .f32) (main_v33 : IVec S_ 1) : IVec S_ 1 :=
  let main_v34 : FVec F S2x1x128 .f32 := Host.absf main_arg8
  let main_cst_12 : FVec F S_ .f32 := constant S_ .f32 0x7F800000#32
  let main_v35 : FVec F S2x1x128 .f32 := broadcastInDim S2x1x128 ![] bcast_S_S2x1x128 main_cst_12
  let main_v36 : IVec S2x1x128 1 := cmpf .olt main_v34 main_v35
  let main_c_13 : IVec S_ 1 := constantI S_ 1 1#1
  let main_v37 : IVec S_ 1 := (fun x v => Host.reduce IntOp.andi x v reducesTo_S2x1x128_S_d0_1_2 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128x128 .f32 := Host.absf main_arg10
  let main_cst_16 : FVec F S_ .f32 := constant S_ .f32 0x7F800000#32
  let main_v45 : FVec F S2x128x128 .f32 := broadcastInDim S2x128x128 ![] bcast_S_S2x128x128 main_cst_16
  let main_v46 : IVec S2x128x128 1 := cmpf .olt main_v44 main_v45
  let main_c_17 : IVec S_ 1 := constantI S_ 1 1#1
  let main_v47 : IVec S_ 1 := (fun x v => Host.reduce IntOp.andi x v reducesTo_S2x128x128_S_d0_1_2 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_arg12 main_arg13 main_arg14 main_arg15 main_arg16 main_arg17 main_v48 main_v49 main_v50

def fn_part1 {F : FTy → Type} [FloatOps F] (main_arg5 : FVec F S1x128 .f32) (main_arg6 : FVec F S128 .f32) (main_arg7 : FVec F S2 .f32) (main_arg8 : FVec F S2x1x128 .f32) (main_arg9 : FVec F S2x128 .f32) (main_arg10 : FVec F S2x128x128 .f32) (main_arg11 : FVec F S2x128 .f32) (main_arg12 : FVec F S2x128x256 .f32) (main_arg13 : FVec F S2x256 .f32) (main_arg14 : FVec F S2x256 .f32) (main_arg15 : FVec F S2x256 .f32) (main_arg16 : FVec F S2x256x128 .f32) (main_arg17 : FVec F S2x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x600000 32) (main_arg2 : FVec F S600000x1 .f32) (main_arg3 : FVec F S128x128 .f32) (main_arg4 : FVec F S128 .f32) (main_arg5 : FVec F S1x128 .f32) (main_arg6 : FVec F S128 .f32) (main_arg7 : FVec F S2 .f32) (main_arg8 : FVec F S2x1x128 .f32) (main_arg9 : FVec F S2x128 .f32) (main_arg10 : FVec F S2x128x128 .f32) (main_arg11 : FVec F S2x128 .f32) (main_arg12 : FVec F S2x128x256 .f32) (main_arg13 : FVec F S2x256 .f32) (main_arg14 : FVec F S2x256 .f32) (main_arg15 : FVec F S2x256 .f32) (main_arg16 : FVec F S2x256x128 .f32) (main_arg17 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x1 .f32 := Host.absf main_arg2
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x600000 : Shape := ⟨2, ![2, 600000]⟩
abbrev S600000x1 : Shape := ⟨2, ![600000, 1]⟩
abbrev S128x128 : Shape := ⟨2, ![128, 128]⟩
abbrev S128 : Shape := ⟨1, ![128]⟩
abbrev S1x128 : Shape := ⟨2, ![1, 128]⟩
abbrev S2 : Shape := ⟨1, ![2]⟩
abbrev S2x1x128 : Shape := ⟨3, ![2, 1, 128]⟩
abbrev S2x128 : Shape := ⟨2, ![2, 128]⟩
abbrev S2x128x128 : Shape := ⟨3, ![2, 128, 128]⟩
abbrev S2x128x256 : Shape := ⟨3, ![2, 128, 256]⟩
abbrev S2x256 : Shape := ⟨2, ![2, 256]⟩
abbrev S2x256x128 : Shape := ⟨3, ![2, 256, 128]⟩
abbrev S1x600000 : Shape := ⟨2, ![1, 600000]⟩
abbrev S600000 : Shape := ⟨1, ![600000]⟩
abbrev S1x1x128 : Shape := ⟨3, ![1, 1, 128]⟩
abbrev S1x128x128 : Shape := ⟨3, ![1, 128, 128]⟩
abbrev S600000x128 : Shape := ⟨2, ![600000, 128]⟩
abbrev S4000x1 : Shape := ⟨2, ![4000, 1]⟩
abbrev S4000x128 : Shape := ⟨2, ![4000, 128]⟩
abbrev S10000x128 : Shape := ⟨2, ![10000, 128]⟩
abbrev S_ : Shape := ⟨0, ![]⟩
abbrev S1 : Shape := ⟨1, ![1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x1 : Shape := ⟨2, ![1, 1]⟩
abbrev S100000x256 : Shape := ⟨2, ![100000, 256]⟩
abbrev S200x256 : Shape := ⟨2, ![200, 256]⟩
abbrev S4000x256 : Shape := ⟨2, ![4000, 256]⟩
abbrev S8x256 : Shape := ⟨2, ![8, 256]⟩
abbrev S25x8x256 : Shape := ⟨3, ![25, 8, 256]⟩
abbrev S25x1x256 : Shape := ⟨3, ![25, 1, 256]⟩
abbrev S25x256 : Shape := ⟨2, ![25, 256]⟩

abbrev nBuf : Space → Nat
  | .hbm => 212
  | .vmem => 70
  | .smem => 0
  | _ => 0

abbrev hbmTy0_0 (i : Nat) : BufTy := match i % 128 with
  | 0 => ⟨S100000x128, .f32⟩
  | 1 => ⟨S2x600000, .i32⟩
  | 2 => ⟨S600000x1, .f32⟩
  | 3 => ⟨S128x128, .f32⟩
  | 4 => ⟨S128, .f32⟩
  | 5 => ⟨S1x128, .f32⟩
  | 6 => ⟨S128, .f32⟩
  | 7 => ⟨S2, .f32⟩
  | 8 => ⟨S2x1x128, .f32⟩
  | 9 => ⟨S2x128, .f32⟩
  | 10 => ⟨S2x128x128, .f32⟩
  | 11 => ⟨S2x128, .f32⟩
  | 12 => ⟨S2x128x256, .f32⟩
  | 13 => ⟨S2x256, .f32⟩
  | 14 => ⟨S2x256, .f32⟩
  | 15 => ⟨S2x256, .f32⟩
  | 16 => ⟨S2x256x128, .f32⟩
  | 17 => ⟨S2x128, .f32⟩
  | 18 => ⟨S1x600000, .i32⟩
  | 19 => ⟨S600000, .i32⟩
  | 20 => ⟨S1x600000, .i32⟩
  | 21 => ⟨S600000, .i32⟩
  | 22 => ⟨S1x128, .f32⟩
  | 23 => ⟨S1x1x128, .f32⟩
  | 24 => ⟨S1x128, .f32⟩
  | 25 => ⟨S1x1x128, .f32⟩
  | 26 => ⟨S1x128, .f32⟩
  | 27 => ⟨S1x128, .f32⟩
  | 28 => ⟨S128, .f32⟩
  | 29 => ⟨S1x128, .f32⟩
  | 30 => ⟨S1x128, .f32⟩
  | 31 => ⟨S128, .f32⟩
  | 32 => ⟨S1x128, .f32⟩
  | 33 => ⟨S1x128x128, .f32⟩
  | 34 => ⟨S128x128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S1x128, .f32⟩
  | 41 => ⟨S128, .f32⟩
  | 42 => ⟨S1x128, .f32⟩
  | 43 => ⟨S600000x128, .f32⟩
  | 44 => ⟨S600000x128, .f32⟩
  | 45 => ⟨S600000x128, .f32⟩
  | 46 => ⟨S1x128, .f32⟩
  | 47 => ⟨S100000x128, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S600000x128, .f32⟩
  | 58 => ⟨S_, .f32⟩
  | 59 => ⟨S600000x128, .f32⟩
  | 60 => ⟨S600000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S100000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S600000x128, .f32⟩
  | 80 => ⟨S_, .f32⟩
  | 81 => ⟨S600000x128, .f32⟩
  | 82 => ⟨S600000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S100000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S600000x128, .f32⟩
  | 102 => ⟨S_, .f32⟩
  | 103 => ⟨S600000x128, .f32⟩
  | 104 => ⟨S600000x128, .f32⟩
  | 105 => ⟨S_, .f32⟩
  | 106 => ⟨S100000x128, .f32⟩
  | 107 => ⟨S600000x1, .i32⟩
  | 108 => ⟨S100000x128, .f32⟩
  | 109 => ⟨S1, .f32⟩
  | 110 => ⟨S_, .f32⟩
  | 111 => ⟨S1x128x256, .f32⟩
  | 112 => ⟨S128x256, .f32⟩
  | 113 => ⟨S1x256, .f32⟩
  | 114 => ⟨S256, .f32⟩
  | 115 => ⟨S1x256, .f32⟩
  | 116 => ⟨S256, .f32⟩
  | 117 => ⟨S1x256, .f32⟩
  | 118 => ⟨S256, .f32⟩
  | 119 => ⟨S1x256x128, .f32⟩
  | 120 => ⟨S256x128, .f32⟩
  | 121 => ⟨S1x128, .f32⟩
  | 122 => ⟨S128, .f32⟩
  | 123 => ⟨S1x256, .f32⟩
  | 124 => ⟨S1x1, .f32⟩
  | 125 => ⟨S100000x256, .f32⟩
  | 126 => ⟨S200x256, .f32⟩
  | 127 => ⟨S200x256, .f32⟩
  | _ => ⟨S100000x128, .f32⟩

abbrev hbmTy0_1 (i : Nat) : BufTy := match i % 128 with
  | 0 => ⟨S25x8x256, .f32⟩
  | 1 => ⟨S25x1x256, .f32⟩
  | 2 => ⟨S25x256, .f32⟩
  | 3 => ⟨S_, .f32⟩
  | 4 => ⟨S256, .f32⟩
  | 5 => ⟨S1x256, .f32⟩
  | 6 => ⟨S25x8x256, .f32⟩
  | 7 => ⟨S25x1x256, .f32⟩
  | 8 => ⟨S25x256, .f32⟩
  | 9 => ⟨S_, .f32⟩
  | 10 => ⟨S256, .f32⟩
  | 11 => ⟨S1x256, .f32⟩
  | 12 => ⟨S_, .f32⟩
  | 13 => ⟨S1x256, .f32⟩
  | 14 => ⟨S1x256, .f32⟩
  | 15 => ⟨S_, .f32⟩
  | 16 => ⟨S1x256, .f32⟩
  | 17 => ⟨S1x256, .f32⟩
  | 18 => ⟨S1x256, .f32⟩
  | 19 => ⟨S1x256, .f32⟩
  | 20 => ⟨S1x256, .f32⟩
  | 21 => ⟨S1x256, .f32⟩
  | 22 => ⟨S1x128, .f32⟩
  | 23 => ⟨S100000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S600000x128, .f32⟩
  | 34 => ⟨S_, .f32⟩
  | 35 => ⟨S600000x128, .f32⟩
  | 36 => ⟨S600000x128, .f32⟩
  | 37 => ⟨S_, .f32⟩
  | 38 => ⟨S100000x128, .f32⟩
  | 39 => ⟨S600000x1, .i32⟩
  | 40 => ⟨S100000x128, .f32⟩
  | 41 => ⟨S1, .f32⟩
  | 42 => ⟨S_, .f32⟩
  | 43 => ⟨S1x128x256, .f32⟩
  | 44 => ⟨S128x256, .f32⟩
  | 45 => ⟨S1x256, .f32⟩
  | 46 => ⟨S256, .f32⟩
  | 47 => ⟨S1x256, .f32⟩
  | 48 => ⟨S256, .f32⟩
  | 49 => ⟨S1x256, .f32⟩
  | 50 => ⟨S256, .f32⟩
  | 51 => ⟨S1x256x128, .f32⟩
  | 52 => ⟨S256x128, .f32⟩
  | 53 => ⟨S1x128, .f32⟩
  | 54 => ⟨S128, .f32⟩
  | 55 => ⟨S1x256, .f32⟩
  | 56 => ⟨S1x1, .f32⟩
  | 57 => ⟨S100000x256, .f32⟩
  | 58 => ⟨S200x256, .f32⟩
  | 59 => ⟨S200x256, .f32⟩
  | 60 => ⟨S25x8x256, .f32⟩
  | 61 => ⟨S25x1x256, .f32⟩
  | 62 => ⟨S25x256, .f32⟩
  | 63 => ⟨S_, .f32⟩
  | 64 => ⟨S256, .f32⟩
  | 65 => ⟨S1x256, .f32⟩
  | 66 => ⟨S25x8x256, .f32⟩
  | 67 => ⟨S25x1x256, .f32⟩
  | 68 => ⟨S25x256, .f32⟩
  | 69 => ⟨S_, .f32⟩
  | 70 => ⟨S256, .f32⟩
  | 71 => ⟨S1x256, .f32⟩
  | 72 => ⟨S_, .f32⟩
  | 73 => ⟨S1x256, .f32⟩
  | 74 => ⟨S1x256, .f32⟩
  | 75 => ⟨S_, .f32⟩
  | 76 => ⟨S1x256, .f32⟩
  | 77 => ⟨S1x256, .f32⟩
  | 78 => ⟨S1x256, .f32⟩
  | 79 => ⟨S1x256, .f32⟩
  | 80 => ⟨S1x256, .f32⟩
  | 81 => ⟨S1x256, .f32⟩
  | 82 => ⟨S1x128, .f32⟩
  | 83 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x1, .f32⟩
  | .local _ .vmem, ⟨1, _⟩ => ⟨S4000x1, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S1x1, .f32⟩
  | .local _ .vmem, ⟨29, _⟩ => ⟨S128x256, .f32⟩
  | .local _ .vmem, ⟨30, _⟩ => ⟨S1x256, .f32⟩
  | .local _ .vmem, ⟨31, _⟩ => ⟨S4000x256, .f32⟩
  | .local _ .vmem, ⟨32, _⟩ => ⟨S4000x256, .f32⟩
  | .local _ .vmem, ⟨33, _⟩ => ⟨S8x256, .f32⟩
  | .local _ .vmem, ⟨34, _⟩ => ⟨S8x256, .f32⟩
  | .local _ .vmem, ⟨35, _⟩ => ⟨S8x256, .f32⟩
  | .local _ .vmem, ⟨36, _⟩ => ⟨S8x256, .f32⟩
  | .local _ .vmem, ⟨37, _⟩ => ⟨S4000x256, .f32⟩
  | .local _ .vmem, ⟨38, _⟩ => ⟨S4000x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S256x128, .f32⟩
  | .local _ .vmem, ⟨44, _⟩ => ⟨S1x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S1x1, .f32⟩
  | .local _ .vmem, ⟨52, _⟩ => ⟨S128x256, .f32⟩
  | .local _ .vmem, ⟨53, _⟩ => ⟨S1x256, .f32⟩
  | .local _ .vmem, ⟨54, _⟩ => ⟨S4000x256, .f32⟩
  | .local _ .vmem, ⟨55, _⟩ => ⟨S4000x256, .f32⟩
  | .local _ .vmem, ⟨56, _⟩ => ⟨S8x256, .f32⟩
  | .local _ .vmem, ⟨57, _⟩ => ⟨S8x256, .f32⟩
  | .local _ .vmem, ⟨58, _⟩ => ⟨S8x256, .f32⟩
  | .local _ .vmem, ⟨59, _⟩ => ⟨S8x256, .f32⟩
  | .local _ .vmem, ⟨60, _⟩ => ⟨S4000x256, .f32⟩
  | .local _ .vmem, ⟨61, _⟩ => ⟨S4000x256, .f32⟩
  | .local _ .vmem, ⟨62, _⟩ => ⟨S1x256, .f32⟩
  | .local _ .vmem, ⟨63, _⟩ => ⟨S1x256, .f32⟩
  | .local _ .vmem, ⟨64, _⟩ => ⟨S1x256, .f32⟩
  | .local _ .vmem, ⟨65, _⟩ => ⟨S1x256, .f32⟩
  | .local _ .vmem, ⟨66, _⟩ => ⟨S256x128, .f32⟩
  | .local _ .vmem, ⟨67, _⟩ => ⟨S1x128, .f32⟩
  | .local _ .vmem, ⟨68, _⟩ => ⟨S4000x128, .f32⟩
  | .local _ .vmem, ⟨69, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v25_2 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_v29 : Ref sig .tc := ⟨.hbm, 50, rfl⟩
abbrev main_c_0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call0_cst : Ref sig .tc := ⟨.hbm, 58, rfl⟩
abbrev main_call0_v0 : Ref sig .tc := ⟨.hbm, 59, rfl⟩
abbrev main_v36 : Ref sig .tc := ⟨.hbm, 60, rfl⟩
abbrev main_c_1 : Ref sig .tc := ⟨.hbm, 61, rfl⟩
abbrev main_v37 : Ref sig .tc := ⟨.hbm, 62, rfl⟩
abbrev main_v38 : Ref sig .tc := ⟨.hbm, 63, rfl⟩
abbrev main_c_2 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_3 : Ref sig .tc := ⟨.hbm, 70, rfl⟩
abbrev main_v44 : Ref sig .tc := ⟨.hbm, 71, rfl⟩
abbrev main_v45 : Ref sig .tc := ⟨.hbm, 72, rfl⟩
abbrev main_c_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call1_cst : Ref sig .tc := ⟨.hbm, 80, rfl⟩
abbrev main_call1_v0 : Ref sig .tc := ⟨.hbm, 81, rfl⟩
abbrev main_v52 : Ref sig .tc := ⟨.hbm, 82, rfl⟩
abbrev main_c_5 : Ref sig .tc := ⟨.hbm, 83, rfl⟩
abbrev main_v53 : Ref sig .tc := ⟨.hbm, 84, rfl⟩
abbrev main_v54 : Ref sig .tc := ⟨.hbm, 85, rfl⟩
abbrev main_c_6 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_7 : Ref sig .tc := ⟨.hbm, 92, rfl⟩
abbrev main_v60 : Ref sig .tc := ⟨.hbm, 93, rfl⟩
abbrev main_v61 : Ref sig .tc := ⟨.hbm, 94, rfl⟩
abbrev main_c_8 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_call2_cst : Ref sig .tc := ⟨.hbm, 102, rfl⟩
abbrev main_call2_v0 : Ref sig .tc := ⟨.hbm, 103, rfl⟩
abbrev main_v68 : Ref sig .tc := ⟨.hbm, 104, rfl⟩
abbrev main_cst : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88_0 : Ref sig .tc := ⟨.hbm, 125, rfl⟩
abbrev main_v88_1 : Ref sig .tc := ⟨.hbm, 126, rfl⟩
abbrev main_v88_2 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_9 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_10 : Ref sig .tc := ⟨.hbm, 137, rfl⟩
abbrev main_v97 : Ref sig .tc := ⟨.hbm, 138, rfl⟩
abbrev main_v98 : Ref sig .tc := ⟨.hbm, 139, rfl⟩
abbrev main_cst_11 : Ref sig .tc := ⟨.hbm, 140, rfl⟩
abbrev main_v99 : Ref sig .tc := ⟨.hbm, 141, rfl⟩
abbrev main_v100 : Ref sig .tc := ⟨.hbm, 142, rfl⟩
abbrev main_cst_12 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_c_13 : Ref sig .tc := ⟨.hbm, 152, rfl⟩
abbrev main_v109 : Ref sig .tc := ⟨.hbm, 153, rfl⟩
abbrev main_v110 : Ref sig .tc := ⟨.hbm, 154, rfl⟩
abbrev main_c_14 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_call3_cst : Ref sig .tc := ⟨.hbm, 162, rfl⟩
abbrev main_call3_v0 : Ref sig .tc := ⟨.hbm, 163, rfl⟩
abbrev main_v117 : Ref sig .tc := ⟨.hbm, 164, rfl⟩
abbrev main_cst_15 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137_0 : Ref sig .tc := ⟨.hbm, 185, rfl⟩
abbrev main_v137_1 : Ref sig .tc := ⟨.hbm, 186, rfl⟩
abbrev main_v137_2 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_16 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_17 : Ref sig .tc := ⟨.hbm, 197, rfl⟩
abbrev main_v146 : Ref sig .tc := ⟨.hbm, 198, rfl⟩
abbrev main_v147 : Ref sig .tc := ⟨.hbm, 199, rfl⟩
abbrev main_cst_18 : Ref sig .tc := ⟨.hbm, 200, rfl⟩
abbrev main_v148 : Ref sig .tc := ⟨.hbm, 201, rfl⟩
abbrev main_v149 : Ref sig .tc := ⟨.hbm, 202, rfl⟩
abbrev main_cst_19 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg7_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg5_1 : Ref sig .tc := ⟨.vmem, 55, rfl⟩
abbrev cc4_stg6_0 : Ref sig .tc := ⟨.vmem, 56, rfl⟩
abbrev cc4_stg6_1 : Ref sig .tc := ⟨.vmem, 57, rfl⟩
abbrev cc4_stg7_0 : Ref sig .tc := ⟨.vmem, 58, rfl⟩
abbrev cc4_stg7_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg6_0 : Ref sig .tc := ⟨.vmem, 67, rfl⟩
abbrev cc5_stg7_0 : Ref sig .tc := ⟨.vmem, 68, rfl⟩
abbrev cc5_stg7_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem3_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem5_1 : DmaSem sig := 32
abbrev cc2_sem6_0 : DmaSem sig := 33
abbrev cc2_sem6_1 : DmaSem sig := 34
abbrev cc2_sem7_0 : DmaSem sig := 35
abbrev cc2_sem7_1 : DmaSem sig := 36
abbrev cc3_sem0_0 : DmaSem sig := 37
abbrev cc3_sem0_1 : DmaSem sig := 38
abbrev cc3_sem1_0 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem7_1 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem5_1 : DmaSem sig := 55
abbrev cc4_sem6_0 : DmaSem sig := 56
abbrev cc4_sem6_1 : DmaSem sig := 57
abbrev cc4_sem7_0 : DmaSem sig := 58
abbrev cc4_sem7_1 : DmaSem sig := 59
abbrev cc5_sem0_0 : DmaSem sig := 60
abbrev cc5_sem0_1 : DmaSem sig := 61
abbrev cc5_sem1_0 : DmaSem sig := 62
abbrev cc5_sem2_0 : DmaSem sig := 63
abbrev cc5_sem3_0 : DmaSem sig := 64
abbrev cc5_sem4_0 : DmaSem sig := 65
abbrev cc5_sem5_0 : DmaSem sig := 66
abbrev cc5_sem6_0 : DmaSem sig := 67
abbrev cc5_sem7_0 : DmaSem sig := 68
abbrev cc5_sem7_1 : DmaSem sig := 69

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S8x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S4000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  slices_S2x1x128_S1x1x128_0_0_0 : S2x1x128.Slices ![0, 0, 0] S1x1x128
  shapeCasts_S1x1x128_S1x128 : S1x1x128.ShapeCasts S1x128
  slices_S2x1x128_S1x1x128_1_0_0 : S2x1x128.Slices ![1, 0, 0] S1x1x128
  slices_S2x128_S1x128_0_0 : S2x128.Slices ![0, 0] S1x128
  shapeCasts_S1x128_S128 : S1x128.ShapeCasts S128
  slices_S2x128_S1x128_1_0 : S2x128.Slices ![1, 0] S1x128
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  inb_S4000x1_S4000x1_0_0 : ∀ a, (![0, 0] : Fin 2 → Nat) a + S4000x1.size a ≤ S4000x1.size a
  h_S4000x1 : 0 < S4000x1.numel
  inb_S1x128_S1x128_0_0 : ∀ a, (![0, 0] : Fin 2 → Nat) a + S1x128.size a ≤ S1x128.size a
  h_S1x128 : 0 < S1x128.numel
  broadcasts_S4000x1_S4000x128 : S4000x1.Broadcasts S4000x128
  broadcasts_S1x128_S4000x128 : S1x128.Broadcasts S4000x128
  shapeCasts_S1x128_S1x128 : S1x128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x128_S10000x128_0_0 : ∀ a, (![0, 0] : Fin 2 → Nat) a + S10000x128.size a ≤ S10000x128.size a
  h_S10000x128 : 0 < S10000x128.numel
  broadcasts_S1x128_S10000x128 : S1x128.Broadcasts S10000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  slices_S2_S1_0 : S2.Slices ![0] S1
  shapeCasts_S1_S_ : S1.ShapeCasts S_
  slices_S2x128x256_S1x128x256_0_0_0 : S2x128x256.Slices ![0, 0, 0] S1x128x256
  shapeCasts_S1x128x256_S128x256 : S1x128x256.ShapeCasts S128x256
  slices_S2x256_S1x256_0_0 : S2x256.Slices ![0, 0] S1x256
  shapeCasts_S1x256_S256 : S1x256.ShapeCasts S256
  slices_S2x256x128_S1x256x128_0_0_0 : S2x256x128.Slices ![0, 0, 0] S1x256x128
  shapeCasts_S1x256x128_S256x128 : S1x256x128.ShapeCasts S256x128
  shapeCasts_S256_S1x256 : S256.ShapeCasts S1x256
  shapeCasts_S_S1x1 : S_.ShapeCasts S1x1
  shapeCasts_S4000x128_S4000x128 : S4000x128.ShapeCasts S4000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x128 : S1x1.Broadcasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  reduces_S4000x256_S256 : S4000x256.Reduces [0] S256
  broadcasts_S1x256_S8x256 : S1x256.Broadcasts S8x256
  inb_S8x256_S8x256_0_0 : ∀ a, (![0, 0] : Fin 2 → Nat) a + S8x256.size a ≤ S8x256.size a
  h_S8x256 : 0 < S8x256.numel
  shapeCasts_S200x256_S25x8x256 : S200x256.ShapeCasts S25x8x256
  slices_S25x8x256_S25x1x256_0_0_0 : S25x8x256.Slices ![0, 0, 0] S25x1x256
  shapeCasts_S25x1x256_S25x256 : S25x1x256.ShapeCasts S25x256
  reducesTo_S25x256_S256_d0 : S25x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S2_S1_1 : S2.Slices ![1] S1
  slices_S2x128x256_S1x128x256_1_0_0 : S2x128x256.Slices ![1, 0, 0] S1x128x256
  slices_S2x256_S1x256_1_0 : S2x256.Slices ![1, 0] S1x256
  slices_S2x256x128_S1x256x128_1_0_0 : S2x256x128.Slices ![1, 0, 0] S1x256x128
  dot_S4000x128_S128x128_S4000x128_1_0_0_1_n_n_wf : DotDims.WF S4000x128 S128x128 S4000x128 [1] [0] [0] [1] [] []
  dot_S10000x128_S128x128_S10000x128_1_0_0_1_n_n_wf : DotDims.WF S10000x128 S128x128 S10000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S600000x1.size a
  hwx0_0 : ∀ i : grid0.Coords, EltTy.bits .f32 = 32 ∨ (Rect.block (s := S600000x1) S4000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S600000x128.size a
  hwx0_11 : ∀ i : grid0.Coords, EltTy.bits .f32 = 32 ∨ (Rect.block (s := S600000x128) S4000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S600000x128.size a
  hwx0_12 : ∀ i : grid0.Coords, EltTy.bits .f32 = 32 ∨ (Rect.block (s := S600000x128) S4000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S600000x128.size a
  hwx0_13 : ∀ i : grid0.Coords, EltTy.bits .f32 = 32 ∨ (Rect.block (s := S600000x128) S4000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x256.size a ≤ S100000x256.size a
  hwx2_5 : ∀ i : grid2.Coords, EltTy.bits .f32 = 32 ∨ (Rect.block (s := S100000x256) S4000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x256.size a ≤ S200x256.size a
  hwx2_6 : ∀ i : grid2.Coords, EltTy.bits .f32 = 32 ∨ (Rect.block (s := S200x256) S8x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x256.size a ≤ S200x256.size a
  hwx2_7 : ∀ i : grid2.Coords, EltTy.bits .f32 = 32 ∨ (Rect.block (s := S200x256) S8x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S100000x256.size a
  hwx3_0 : ∀ i : grid3.Coords, EltTy.bits .f32 = 32 ∨ (Rect.block (s := S100000x256) S4000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S100000x128.size a
  hwx3_7 : ∀ i : grid3.Coords, EltTy.bits .f32 = 32 ∨ (Rect.block (s := S100000x128) S4000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x256.size a ≤ S128x256.size a
  hwx4_3 : ∀ i : grid4.Coords, EltTy.bits .f32 = 32 ∨ (Rect.block (s := S128x256) S128x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x256.size a ≤ S100000x256.size a
  hwx4_5 : ∀ i : grid4.Coords, EltTy.bits .f32 = 32 ∨ (Rect.block (s := S100000x256) S4000x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8x256.size a ≤ S200x256.size a
  hwx4_6 : ∀ i : grid4.Coords, EltTy.bits .f32 = 32 ∨ (Rect.block (s := S200x256) S8x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x256.size a ≤ S200x256.size a
  hwx4_7 : ∀ i : grid4.Coords, EltTy.bits .f32 = 32 ∨ (Rect.block (s := S200x256) S8x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x256.size a ≤ S100000x256.size a
  hwx5_0 : ∀ i : grid5.Coords, EltTy.bits .f32 = 32 ∨ (Rect.block (s := S100000x256) S4000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x128.size a ≤ S256x128.size a
  hwx5_5 : ∀ i : grid5.Coords, EltTy.bits .f32 = 32 ∨ (Rect.block (s := S256x128) S256x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4000x128.size a ≤ S100000x128.size a
  hwx5_7 : ∀ i : grid5.Coords, EltTy.bits .f32 = 32 ∨ (Rect.block (s := S100000x128) S4000x128.size (cc5_transform_7 i) (hinb5_7 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_arg2) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25_0) S4000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v25_1) S4000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v25_2) S4000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v87) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v86) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88_0) S4000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v88_1) S8x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v88_2) S8x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v88_0) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v100) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v104) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v105) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v106) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v107) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v108) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v108) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v120) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v136) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v124) S128x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v135) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v137_0) S4000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v137_1) S8x256.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v137_2) S8x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v137_0) S4000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v149) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v153) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v154) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v155) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v132) S256x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v156) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v157) S4000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x1 : Shape := ⟨2, ![600000, 1]⟩
abbrev S128x128 : Shape := ⟨2, ![128, 128]⟩
abbrev S128 : Shape := ⟨1, ![128]⟩
abbrev S1x128 : Shape := ⟨2, ![1, 128]⟩
abbrev S2 : Shape := ⟨1, ![2]⟩
abbrev S2x1x128 : Shape := ⟨3, ![2, 1, 128]⟩
abbrev S2x128 : Shape := ⟨2, ![2, 128]⟩
abbrev S2x128x128 : Shape := ⟨3, ![2, 128, 128]⟩
abbrev S2x128x256 : Shape := ⟨3, ![2, 128, 256]⟩
abbrev S2x256 : Shape := ⟨2, ![2, 256]⟩
abbrev S2x256x128 : Shape := ⟨3, ![2, 256, 128]⟩
abbrev S1x600000 : Shape := ⟨2, ![1, 600000]⟩
abbrev S600000 : Shape := ⟨1, ![600000]⟩
abbrev S600000x128 : Shape := ⟨2, ![600000, 128]⟩
abbrev S_ : Shape := ⟨0, ![]⟩
abbrev S1 : Shape := ⟨1, ![1]⟩
abbrev S1x1x128 : Shape := ⟨3, ![1, 1, 128]⟩
abbrev S1x128x128 : Shape := ⟨3, ![1, 128, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S100000x256 : Shape := ⟨2, ![100000, 256]⟩

abbrev nBuf : Space → Nat
  | .hbm => 269
  | .vmem => 0
  | .smem => 0
  | _ => 0

abbrev hbmTy0_0 (i : Nat) : BufTy := match i % 128 with
  | 0 => ⟨S100000x128, .f32⟩
  | 1 => ⟨S2x600000, .i32⟩
  | 2 => ⟨S600000x1, .f32⟩
  | 3 => ⟨S128x128, .f32⟩
  | 4 => ⟨S128, .f32⟩
  | 5 => ⟨S1x128, .f32⟩
  | 6 => ⟨S128, .f32⟩
  | 7 => ⟨S2, .f32⟩
  | 8 => ⟨S2x1x128, .f32⟩
  | 9 => ⟨S2x128, .f32⟩
  | 10 => ⟨S2x128x128, .f32⟩
  | 11 => ⟨S2x128, .f32⟩
  | 12 => ⟨S2x128x256, .f32⟩
  | 13 => ⟨S2x256, .f32⟩
  | 14 => ⟨S2x256, .f32⟩
  | 15 => ⟨S2x256, .f32⟩
  | 16 => ⟨S2x256x128, .f32⟩
  | 17 => ⟨S2x128, .f32⟩
  | 18 => ⟨S1x600000, .i32⟩
  | 19 => ⟨S600000, .i32⟩
  | 20 => ⟨S1x600000, .i32⟩
  | 21 => ⟨S600000, .i32⟩
  | 22 => ⟨S100000x128, .f32⟩
  | 23 => ⟨S1x128, .f32⟩
  | 24 => ⟨S100000x128, .f32⟩
  | 25 => ⟨S100000x128, .f32⟩
  | 26 => ⟨S600000x128, .f32⟩
  | 27 => ⟨S1x128, .f32⟩
  | 28 => ⟨S600000x128, .f32⟩
  | 29 => ⟨S600000x128, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .f32⟩
  | 39 => ⟨S600000x128, .f32⟩
  | 40 => ⟨S_, .f32⟩
  | 41 => ⟨S600000x128, .f32⟩
  | 42 => ⟨S600000x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S100000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S600000x128, .f32⟩
  | 62 => ⟨S_, .f32⟩
  | 63 => ⟨S600000x128, .f32⟩
  | 64 => ⟨S600000x128, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S100000x128, .f32⟩
  | 74 => ⟨S1, .f32⟩
  | 75 => ⟨S_, .f32⟩
  | 76 => ⟨S1x1x128, .f32⟩
  | 77 => ⟨S1x128, .f32⟩
  | 78 => ⟨S1x128, .f32⟩
  | 79 => ⟨S128, .f32⟩
  | 80 => ⟨S1x128x128, .f32⟩
  | 81 => ⟨S128x128, .f32⟩
  | 82 => ⟨S1x128, .f32⟩
  | 83 => ⟨S128, .f32⟩
  | 84 => ⟨S1x128x256, .f32⟩
  | 85 => ⟨S128x256, .f32⟩
  | 86 => ⟨S1x256, .f32⟩
  | 87 => ⟨S256, .f32⟩
  | 88 => ⟨S1x256, .f32⟩
  | 89 => ⟨S256, .f32⟩
  | 90 => ⟨S1x256, .f32⟩
  | 91 => ⟨S256, .f32⟩
  | 92 => ⟨S1x256x128, .f32⟩
  | 93 => ⟨S256x128, .f32⟩
  | 94 => ⟨S1x128, .f32⟩
  | 95 => ⟨S128, .f32⟩
  | 96 => ⟨S600000x128, .f32⟩
  | 97 => ⟨S1x128, .f32⟩
  | 98 => ⟨S600000x128, .f32⟩
  | 99 => ⟨S600000x128, .f32⟩
  | 100 => ⟨S_, .f32⟩
  | 101 => ⟨S600000x128, .f32⟩
  | 102 => ⟨S600000x128, .f32⟩
  | 103 => ⟨S600000x128, .f32⟩
  | 104 => ⟨S1x128, .f32⟩
  | 105 => ⟨S600000x128, .f32⟩
  | 106 => ⟨S600000x128, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S600000x128, .f32⟩
  | 117 => ⟨S_, .f32⟩
  | 118 => ⟨S600000x128, .f32⟩
  | 119 => ⟨S600000x128, .f32⟩
  | 120 => ⟨S_, .f32⟩
  | 121 => ⟨S100000x128, .f32⟩
  | 122 => ⟨S600000x1, .i32⟩
  | 123 => ⟨S100000x128, .f32⟩
  | 124 => ⟨S_, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x256, .f32⟩
  | 2 => ⟨S1x256, .f32⟩
  | 3 => ⟨S100000x256, .f32⟩
  | 4 => ⟨S100000x256, .f32⟩
  | 5 => ⟨S_, .f32⟩
  | 6 => ⟨S256, .f32⟩
  | 7 => ⟨S_, .f32⟩
  | 8 => ⟨S256, .f32⟩
  | 9 => ⟨S256, .f32⟩
  | 10 => ⟨S1x256, .f32⟩
  | 11 => ⟨S100000x256, .f32⟩
  | 12 => ⟨S100000x256, .f32⟩
  | 13 => ⟨S100000x256, .f32⟩
  | 14 => ⟨S_, .f32⟩
  | 15 => ⟨S256, .f32⟩
  | 16 => ⟨S_, .f32⟩
  | 17 => ⟨S256, .f32⟩
  | 18 => ⟨S256, .f32⟩
  | 19 => ⟨S1x256, .f32⟩
  | 20 => ⟨S100000x256, .f32⟩
  | 21 => ⟨S100000x256, .f32⟩
  | 22 => ⟨S_, .f32⟩
  | 23 => ⟨S256, .f32⟩
  | 24 => ⟨S256, .f32⟩
  | 25 => ⟨S256, .f32⟩
  | 26 => ⟨S1x256, .f32⟩
  | 27 => ⟨S100000x256, .f32⟩
  | 28 => ⟨S100000x256, .f32⟩
  | 29 => ⟨S1x256, .f32⟩
  | 30 => ⟨S100000x256, .f32⟩
  | 31 => ⟨S100000x256, .f32⟩
  | 32 => ⟨S1x256, .f32⟩
  | 33 => ⟨S100000x256, .f32⟩
  | 34 => ⟨S100000x256, .f32⟩
  | 35 => ⟨S_, .f32⟩
  | 36 => ⟨S100000x256, .f32⟩
  | 37 => ⟨S100000x256, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S1, .f32⟩
  | 46 => ⟨S_, .f32⟩
  | 47 => ⟨S1x1x128, .f32⟩
  | 48 => ⟨S1x128, .f32⟩
  | 49 => ⟨S1x128, .f32⟩
  | 50 => ⟨S128, .f32⟩
  | 51 => ⟨S1x128x128, .f32⟩
  | 52 => ⟨S128x128, .f32⟩
  | 53 => ⟨S1x128, .f32⟩
  | 54 => ⟨S128, .f32⟩
  | 55 => ⟨S1x128x256, .f32⟩
  | 56 => ⟨S128x256, .f32⟩
  | 57 => ⟨S1x256, .f32⟩
  | 58 => ⟨S256, .f32⟩
  | 59 => ⟨S1x256, .f32⟩
  | 60 => ⟨S256, .f32⟩
  | 61 => ⟨S1x256, .f32⟩
  | 62 => ⟨S256, .f32⟩
  | 63 => ⟨S1x256x128, .f32⟩
  | 64 => ⟨S256x128, .f32⟩
  | 65 => ⟨S1x128, .f32⟩
  | 66 => ⟨S128, .f32⟩
  | 67 => ⟨S600000x128, .f32⟩
  | 68 => ⟨S1x128, .f32⟩
  | 69 => ⟨S600000x128, .f32⟩
  | 70 => ⟨S600000x128, .f32⟩
  | 71 => ⟨S_, .f32⟩
  | 72 => ⟨S600000x128, .f32⟩
  | 73 => ⟨S600000x128, .f32⟩
  | 74 => ⟨S600000x128, .f32⟩
  | 75 => ⟨S1x128, .f32⟩
  | 76 => ⟨S600000x128, .f32⟩
  | 77 => ⟨S600000x128, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S600000x128, .f32⟩
  | 88 => ⟨S_, .f32⟩
  | 89 => ⟨S600000x128, .f32⟩
  | 90 => ⟨S600000x128, .f32⟩
  | 91 => ⟨S_, .f32⟩
  | 92 => ⟨S100000x128, .f32⟩
  | 93 => ⟨S600000x1, .i32⟩
  | 94 => ⟨S100000x128, .f32⟩
  | 95 => ⟨S_, .f32⟩
  | 96 => ⟨S_, .f32⟩
  | 97 => ⟨S100000x128, .f32⟩
  | 98 => ⟨S100000x128, .f32⟩
  | 99 => ⟨S100000x128, .f32⟩
  | 100 => ⟨S100000x256, .f32⟩
  | 101 => ⟨S1x256, .f32⟩
  | 102 => ⟨S100000x256, .f32⟩
  | 103 => ⟨S100000x256, .f32⟩
  | 104 => ⟨S_, .f32⟩
  | 105 => ⟨S256, .f32⟩
  | 106 => ⟨S_, .f32⟩
  | 107 => ⟨S256, .f32⟩
  | 108 => ⟨S256, .f32⟩
  | 109 => ⟨S1x256, .f32⟩
  | 110 => ⟨S100000x256, .f32⟩
  | 111 => ⟨S100000x256, .f32⟩
  | 112 => ⟨S100000x256, .f32⟩
  | 113 => ⟨S_, .f32⟩
  | 114 => ⟨S256, .f32⟩
  | 115 => ⟨S_, .f32⟩
  | 116 => ⟨S256, .f32⟩
  | 117 => ⟨S256, .f32⟩
  | 118 => ⟨S1x256, .f32⟩
  | 119 => ⟨S100000x256, .f32⟩
  | 120 => ⟨S100000x256, .f32⟩
  | 121 => ⟨S_, .f32⟩
  | 122 => ⟨S256, .f32⟩
  | 123 => ⟨S256, .f32⟩
  | 124 => ⟨S256, .f32⟩
  | 125 => ⟨S1x256, .f32⟩
  | 126 => ⟨S100000x256, .f32⟩
  | 127 => ⟨S100000x256, .f32⟩
  | _ => ⟨S100000x128, .f32⟩

abbrev hbmTy0_2 (i : Nat) : BufTy := match i % 128 with
  | 0 => ⟨S1x256, .f32⟩
  | 1 => ⟨S100000x256, .f32⟩
  | 2 => ⟨S100000x256, .f32⟩
  | 3 => ⟨S1x256, .f32⟩
  | 4 => ⟨S100000x256, .f32⟩
  | 5 => ⟨S100000x256, .f32⟩
  | 6 => ⟨S_, .f32⟩
  | 7 => ⟨S100000x256, .f32⟩
  | 8 => ⟨S100000x256, .f32⟩
  | 9 => ⟨S100000x128, .f32⟩
  | 10 => ⟨S1x128, .f32⟩
  | 11 => ⟨S100000x128, .f32⟩
  | 12 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_c_1 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_3 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_cst : Ref sig .tc := ⟨.hbm, 62, rfl⟩
abbrev main_call1_v0 : Ref sig .tc := ⟨.hbm, 63, rfl⟩
abbrev main_v36 : Ref sig .tc := ⟨.hbm, 64, rfl⟩
abbrev main_c_5 : Ref sig .tc := ⟨.hbm, 65, rfl⟩
abbrev main_v37 : Ref sig .tc := ⟨.hbm, 66, rfl⟩
abbrev main_v38 : Ref sig .tc := ⟨.hbm, 67, rfl⟩
abbrev main_c_6 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call2_cst : Ref sig .tc := ⟨.hbm, 100, rfl⟩
abbrev main_call2_v0 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_7 : Ref sig .tc := ⟨.hbm, 107, rfl⟩
abbrev main_v75 : Ref sig .tc := ⟨.hbm, 108, rfl⟩
abbrev main_v76 : Ref sig .tc := ⟨.hbm, 109, rfl⟩
abbrev main_c_8 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_9 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_10 : Ref sig .tc := ⟨.hbm, 133, rfl⟩
abbrev main_v95 : Ref sig .tc := ⟨.hbm, 134, rfl⟩
abbrev main_cst_11 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_12 : Ref sig .tc := ⟨.hbm, 142, rfl⟩
abbrev main_v102 : Ref sig .tc := ⟨.hbm, 143, rfl⟩
abbrev main_cst_13 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_14 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_call4_cst : Ref sig .tc := ⟨.hbm, 163, rfl⟩
abbrev main_call4_v0 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_call5_cst : Ref sig .tc := ⟨.hbm, 170, rfl⟩
abbrev main_call5_v0 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_call6_cst : Ref sig .tc := ⟨.hbm, 199, rfl⟩
abbrev main_call6_v0 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_c_15 : Ref sig .tc := ⟨.hbm, 206, rfl⟩
abbrev main_v157 : Ref sig .tc := ⟨.hbm, 207, rfl⟩
abbrev main_v158 : Ref sig .tc := ⟨.hbm, 208, rfl⟩
abbrev main_c_16 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_call7_cst : Ref sig .tc := ⟨.hbm, 216, rfl⟩
abbrev main_call7_v0 : Ref sig .tc := ⟨.hbm, 217, rfl⟩
abbrev main_v165 : Ref sig .tc := ⟨.hbm, 218, rfl⟩
abbrev main_cst_17 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_cst_18 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_cst_19 : Ref sig .tc := ⟨.hbm, 232, rfl⟩
abbrev main_v177 : Ref sig .tc := ⟨.hbm, 233, rfl⟩
abbrev main_cst_20 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_cst_21 : Ref sig .tc := ⟨.hbm, 241, rfl⟩
abbrev main_v184 : Ref sig .tc := ⟨.hbm, 242, rfl⟩
abbrev main_cst_22 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_cst_23 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_call8_cst : Ref sig .tc := ⟨.hbm, 262, rfl⟩
abbrev main_call8_v0 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  slices_S2_S1_0 : S2.Slices ![0] S1
  shapeCasts_S1_S_ : S1.ShapeCasts S_
  slices_S2x1x128_S1x1x128_0_0_0 : S2x1x128.Slices ![0, 0, 0] S1x1x128
  shapeCasts_S1x1x128_S1x128 : S1x1x128.ShapeCasts S1x128
  slices_S2x128_S1x128_0_0 : S2x128.Slices ![0, 0] S1x128
  shapeCasts_S1x128_S128 : S1x128.ShapeCasts S128
  slices_S2x128x128_S1x128x128_0_0_0 : S2x128x128.Slices ![0, 0, 0] S1x128x128
  shapeCasts_S1x128x128_S128x128 : S1x128x128.ShapeCasts S128x128
  slices_S2x128x256_S1x128x256_0_0_0 : S2x128x256.Slices ![0, 0, 0] S1x128x256
  shapeCasts_S1x128x256_S128x256 : S1x128x256.ShapeCasts S128x256
  slices_S2x256_S1x256_0_0 : S2x256.Slices ![0, 0] S1x256
  shapeCasts_S1x256_S256 : S1x256.ShapeCasts S256
  slices_S2x256x128_S1x256x128_0_0_0 : S2x256x128.Slices ![0, 0, 0] S1x256x128
  shapeCasts_S1x256x128_S256x128 : S1x256x128.ShapeCasts S256x128
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S100000x256 : S_.BroadcastsInDim S100000x256 (![] : Fin 0 → Fin S100000x256.rank)
  slices_S2_S1_1 : S2.Slices ![1] S1
  slices_S2x1x128_S1x1x128_1_0_0 : S2x1x128.Slices ![1, 0, 0] S1x1x128
  slices_S2x128_S1x128_1_0 : S2x128.Slices ![1, 0] S1x128
  slices_S2x128x128_S1x128x128_1_0_0 : S2x128x128.Slices ![1, 0, 0] S1x128x128
  slices_S2x128x256_S1x128x256_1_0_0 : S2x128x256.Slices ![1, 0, 0] S1x128x256
  slices_S2x256_S1x256_1_0 : S2x256.Slices ![1, 0] S1x256
  slices_S2x256x128_S1x256x128_1_0_0 : S2x256x128.Slices ![1, 0, 0] S1x256x128
  dot_S100000x128_S128x128_S100000x128_1_0_0_1_n_n_wf : DotDims.WF S100000x128 S128x128 S100000x128 [1] [0] [0] [1] [] []
  dot_S600000x1_S1x128_S600000x128_1_0_0_1_n_n_wf : DotDims.WF S600000x1 S1x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S600000x128_S128x128_S600000x128_1_0_0_1_n_n_wf : DotDims.WF S600000x128 S128x128 S600000x128 [1] [0] [0] [1] [] []
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S600000x1_S1x128_S600000x128_1_0_0_1_n_n : DotDims S600000x1 S1x128 S600000x128 where
  lhsContracting := [1]
  rhsContracting := [0]
  lhsNonContracting := [0]
  rhsNonContracting := [1]
  lhsBatch := []
  rhsBatch := []
  wf := dot_S600000x1_S1x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelRun.lean ====
/-
  The kernel's run, with the contents of its result buffer.

  The idealized kernel program is a sequence of host stretches and six pipelined device regions.  The buffer contents at
  every boundary between two segments are a fold from the launch memory: a host stretch leaves what its operations
  compute, a region leaves its arrays at what its write-backs accumulate and every other buffer as entered.  Every
  weakly fair execution from a memory with zero counters terminates without fault, and at the end every unscoped buffer
  of each device holds the last contents of that fold.  Read at the eighteen argument buffers this gives the launch
  contents (no operation and no region writes an argument); read at the result buffer it gives the fold's last contents
  there, which is what this module adds.  The launch is the one of the frame statement of this program (same segments,
  same thread states, same initial and final conditions); only the reading of the final contents differs.
-/
import proofs.«168167_j60026462929460_2_alg».proof.Proof.Gen.KernelIdeal.Frame

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program on the TensorCores terminates,
    nothing faulting, and in every final state the result buffer of each device holds the fold's last contents there
    and the eighteen argument buffers hold what they held at launch. -/
theorem run_value : θ_run defs (onTc (τ := τ) (main (F := F))) ⟨m, fun _ => 0, ρ⟩ (fun r => ∀ c : Dev nD,
      r.2.mem ((c.tc : Thread nD τ).loc main_v157) = W20 m ρ c (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v157 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c)⟩)

end Cert.KernelRun

end
-- ==== Proof.RefRun.lean ====
/-
  The reference program's run, read back.

  The reference's @main is a straight line of host operations. From any memory with zero counters every weakly fair
  execution terminates; its result buffer then holds the last stage of the computation — the stages being the
  operations' values as functions of the argument arrays, each stage defined over the earlier ones, so that a value
  used several times is named once — and the argument arrays are unchanged.
-/
import proofs.«168167_j60026462929460_2_alg».proof.Proof.RefRead
import Idealize.ShloMosaic.Lib.StableHlo.Run

noncomputable section

namespace Cert.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

set_option maxRecDepth 8192 in
set_option maxHeartbeats 100400000 in
/-- Every weakly fair execution of the reference terminates with its result at the last stage of the arguments'
    launch contents, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v206) = val_main_v206 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v206).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl)⟩)
    (run_seq scopedRefs_eq scopedSems_eq defs main (fun _ => ops) main_eq (fun _ => ops_sub) m ρ)

end Cert.RefRun

end
-- ==== Proof.FoldOps.lean ====
/-
  The host stretches of the program, read one result at a time.

  Between two device regions the program runs a stretch of host operations.  Each operation writes one buffer from the
  contents of the buffers it reads, so the contents of a written buffer after the stretch are a term in the contents
  the stretch started from.  This module names the few shapes of term the program repeats and states, for every buffer a
  later region or a later stretch reads, the contents after its stretch over ARBITRARY starting contents `v`:

  * the two rows of the edge table as vectors of node numbers (`srcIdx`, `dstIdx`);
  * a vector of node numbers as a one-column table (`idxCol`), after negative numbers have been moved up by the number
    of nodes (`wrapIdx`, `wrapCol`);
  * the rows of a node table fetched edge by edge (`gatherRows`), written back edge by edge (`scatterSet`: a later
    edge wins), or added up per node from an all-zero table (`scatterSum`);
  * the maximum with zero on an edge table (`reluE`);
  * from a table of per-block partial sums, whose first row of each group of eight carries the block's sum: the sum
    over blocks as a one-row table (`colSum`), divided by the number of nodes (`overN`, `colMean`), and the mean of
    squares minus the square of the mean (`colVar`).
-/
import proofs.«168167_j60026462929460_2_alg».proof.Proof.Gen.KernelIdeal.Launch
import Idealize.ShloMosaic.Lib.StableHlo.Run

noncomputable section

namespace Cert.Fold

open Idealize.ShloMosaic Idealize.ShloMosaic.TcCoe Idealize.ShloMosaic.StableHlo
open Cert.KernelIdeal Cert.KernelIdeal.Gen

variable {F : FTy → Type} [FloatOps F]

/-- Row 0 of the edge table: the node each edge starts from. -/
def srcIdx (a : (⟨S2x600000, .i32⟩ : BufTy).Contents (Elt F)) : (⟨S600000, .i32⟩ : BufTy).Contents (Elt F) :=
  shapeCast S600000 (extractStridedSlice S1x600000 ![0, 0] a slices_S2x600000_S1x600000_0_0) shapeCasts_S1x600000_S600000
/-- Row 1 of the edge table: the node each edge ends at. -/
def dstIdx (a : (⟨S2x600000, .i32⟩ : BufTy).Contents (Elt F)) : (⟨S600000, .i32⟩ : BufTy).Contents (Elt F) :=
  shapeCast S600000 (extractStridedSlice S1x600000 ![1, 0] a slices_S2x600000_S1x600000_1_0) shapeCasts_S1x600000_S600000
/-- A vector of node numbers as a table of one column. -/
def idxCol (w : (⟨S600000, .i32⟩ : BufTy).Contents (Elt F)) : (⟨S600000x1, .i32⟩ : BufTy).Contents (Elt F) :=
  broadcastInDim S600000x1 ![0] bcast_S600000_S600000x1_0 w
/-- Node numbers with the negative ones moved up by the number of nodes. -/
def wrapIdx (w : (⟨S600000, .i32⟩ : BufTy).Contents (Elt F)) : (⟨S600000, .i32⟩ : BufTy).Contents (Elt F) :=
  select (cmpi .slt w (broadcastInDim S600000 ![] bcast_S_S600000 (constantI S_ 32 0#32)))
    (addi w (broadcastInDim S600000 ![] bcast_S_S600000 (constantI S_ 32 100000#32))) w
/-- The same as a table of one column. -/
def wrapCol (w : (⟨S600000, .i32⟩ : BufTy).Contents (Elt F)) : (⟨S600000x1, .i32⟩ : BufTy).Contents (Elt F) := idxCol (wrapIdx w)
/-- The rows of a node table, one per edge, at the given node numbers. -/
def gatherRows (h : (⟨S100000x128, .f32⟩ : BufTy).Contents (Elt F)) (i : (⟨S600000x1, .i32⟩ : BufTy).Contents (Elt F)) : (⟨S600000x128, .f32⟩ : BufTy).Contents (Elt F) :=
  Host.gather gather_S100000x128_S600000x1_S600000x128_1_0_n_n_0_1_1128 h i
/-- A node table with the rows at the given node numbers replaced by the edge rows. -/
def scatterSet (x : (⟨S100000x128, .f32⟩ : BufTy).Contents (Elt F)) (i : (⟨S600000x1, .i32⟩ : BufTy).Contents (Elt F)) (u : (⟨S600000x128, .f32⟩ : BufTy).Contents (Elt F)) : (⟨S100000x128, .f32⟩ : BufTy).Contents (Elt F) :=
  Host.scatter scatter_S100000x128_S600000x1_S600000x128_1_0_0_1 (fun _ b => b) x i u
/-- The edge rows added up per node, from an all-zero node table. -/
def scatterSum (i : (⟨S600000x1, .i32⟩ : BufTy).Contents (Elt F)) (u : (⟨S600000x128, .f32⟩ : BufTy).Contents (Elt F)) : (⟨S100000x128, .f32⟩ : BufTy).Contents (Elt F) :=
  Host.scatterAdd scatter_S100000x128_S600000x1_S600000x128_1_0_0_1 (broadcastInDim S100000x128 ![] bcast_S_S100000x128 (constant (F := F) S_ .f32 0x00000000#32)) i u
/-- The maximum with zero, entry by entry, on an edge table. -/
def reluE (x : (⟨S600000x128, .f32⟩ : BufTy).Contents (Elt F)) : (⟨S600000x128, .f32⟩ : BufTy).Contents (Elt F) :=
  maximumf x (broadcastInDim S600000x128 ![] bcast_S_S600000x128 (constant (F := F) S_ .f32 0x00000000#32))
/-- From the table of per-block partial sums (eight rows per block, the first carrying the block's sum): the sum over
    the 25 blocks, as a table of one row. -/
def colSum (s : (⟨S200x256, .f32⟩ : BufTy).Contents (Elt F)) : (⟨S1x256, .f32⟩ : BufTy).Contents (Elt F) :=
  broadcastInDim S1x256 ![1] bcast_S256_S1x256_1
    (Host.reduceAdd (shapeCast S25x256 (extractStridedSlice S25x1x256 ![0, 0, 0] (shapeCast S25x8x256 s shapeCasts_S200x256_S25x8x256) slices_S25x8x256_S25x1x256_0_0_0) shapeCasts_S25x1x256_S25x256)
      (constant (F := F) S_ .f32 0x00000000#32) reducesTo_S25x256_S256_d0 h_S_)
/-- A one-row table divided by the number of nodes. -/
def overN (x : (⟨S1x256, .f32⟩ : BufTy).Contents (Elt F)) : (⟨S1x256, .f32⟩ : BufTy).Contents (Elt F) :=
  Host.divf x (broadcastInDim S1x256 ![] bcast_S_S1x256 (constant (F := F) S_ .f32 0x47C35000#32))
/-- The per-column mean from the per-block sums. -/
def colMean (s : (⟨S200x256, .f32⟩ : BufTy).Contents (Elt F)) : (⟨S1x256, .f32⟩ : BufTy).Contents (Elt F) := overN (colSum s)
/-- The per-column variance from the per-block sums of squares `q` and the per-block sums `s`. -/
def colVar (q s : (⟨S200x256, .f32⟩ : BufTy).Contents (Elt F)) : (⟨S1x256, .f32⟩ : BufTy).Contents (Elt F) := subf (overN (colSum q)) (mulf (colMean s) (colMean s))

theorem hostOps0_main_v1 (v : Valuation τ sig (Elt F)) :
    StableHlo.after (hostOps0 (F := F)) v (Proc.devRef .tc main_v1) = srcIdx (v (Proc.devRef .tc main_arg1)) := by
  dsimp only [hostOps0]; after_results_simp; rfl

theorem hostOps0_main_v3 (v : Valuation τ sig (Elt F)) :
    StableHlo.after (hostOps0 (F := F)) v (Proc.devRef .tc main_v3) = dstIdx (v (Proc.devRef .tc main_arg1)) := by
  dsimp only [hostOps0]; after_results_simp; rfl

theorem hostOps0_main_v4 (v : Valuation τ sig (Elt F)) :
    StableHlo.after (hostOps0 (F := F)) v (Proc.devRef .tc main_v4) = shapeCast S1x128 (v (Proc.devRef .tc main_arg6)) shapeCasts_S128_S1x128 := by
  dsimp only [hostOps0]; after_results_simp; rfl

theorem hostOps0_main_v6 (v : Valuation τ sig (Elt F)) :
    StableHlo.after (hostOps0 (F := F)) v (Proc.devRef .tc main_v6) = shapeCast S1x128 (extractStridedSlice S1x1x128 ![0, 0, 0] (v (Proc.devRef .tc main_arg8)) slices_S2x1x128_S1x1x128_0_0_0) shapeCasts_S1x1x128_S1x128 := by
  dsimp only [hostOps0]; after_results_simp; rfl

theorem hostOps0_main_v8 (v : Valuation τ sig (Elt F)) :
    StableHlo.after (hostOps0 (F := F)) v (Proc.devRef .tc main_v8) = shapeCast S1x128 (extractStridedSlice S1x1x128 ![1, 0, 0] (v (Proc.devRef .tc main_arg8)) slices_S2x1x128_S1x1x128_1_0_0) shapeCasts_S1x1x128_S1x128 := by
  dsimp only [hostOps0]; after_results_simp; rfl

theorem hostOps0_main_v11 (v : Valuation τ sig (Elt F)) :
    StableHlo.after (hostOps0 (F := F)) v (Proc.devRef .tc main_v11) = shapeCast S1x128 (shapeCast S128 (extractStridedSlice S1x128 ![0, 0] (v (Proc.devRef .tc main_arg9)) slices_S2x128_S1x128_0_0) shapeCasts_S1x128_S128) shapeCasts_S128_S1x128 := by
  dsimp only [hostOps0]; after_results_simp; rfl

theorem hostOps0_main_v14 (v : Valuation τ sig (Elt F)) :
    StableHlo.after (hostOps0 (F := F)) v (Proc.devRef .tc main_v14) = shapeCast S1x128 (shapeCast S128 (extractStridedSlice S1x128 ![1, 0] (v (Proc.devRef .tc main_arg9)) slices_S2x128_S1x128_1_0) shapeCasts_S1x128_S128) shapeCasts_S128_S1x128 := by
  dsimp only [hostOps0]; after_results_simp; rfl

theorem hostOps0_main_v21 (v : Valuation τ sig (Elt F)) :
    StableHlo.after (hostOps0 (F := F)) v (Proc.devRef .tc main_v21) = shapeCast S1x128 (shapeCast S128 (extractStridedSlice S1x128 ![0, 0] (v (Proc.devRef .tc main_arg11)) slices_S2x128_S1x128_0_0) shapeCasts_S1x128_S128) shapeCasts_S128_S1x128 := by
  dsimp only [hostOps0]; after_results_simp; rfl

theorem hostOps0_main_v24 (v : Valuation τ sig (Elt F)) :
    StableHlo.after (hostOps0 (F := F)) v (Proc.devRef .tc main_v24) = shapeCast S1x128 (shapeCast S128 (extractStridedSlice S1x128 ![1, 0] (v (Proc.devRef .tc main_arg11)) slices_S2x128_S1x128_1_0) shapeCasts_S1x128_S128) shapeCasts_S128_S1x128 := by
  dsimp only [hostOps0]; after_results_simp; rfl

theorem hostOps0_main_v16 (v : Valuation τ sig (Elt F)) :
    StableHlo.after (hostOps0 (F := F)) v (Proc.devRef .tc main_v16) = shapeCast S128x128 (extractStridedSlice S1x128x128 ![0, 0, 0] (v (Proc.devRef .tc main_arg10)) slices_S2x128x128_S1x128x128_0_0_0) shapeCasts_S1x128x128_S128x128 := by
  dsimp only [hostOps0]; after_results_simp; rfl

theorem hostOps0_main_v18 (v : Valuation τ sig (Elt F)) :
    StableHlo.after (hostOps0 (F := F)) v (Proc.devRef .tc main_v18) = shapeCast S128x128 (extractStridedSlice S1x128x128 ![1, 0, 0] (v (Proc.devRef .tc main_arg10)) slices_S2x128x128_S1x128x128_1_0_0) shapeCasts_S1x128x128_S128x128 := by
  dsimp only [hostOps0]; after_results_simp; rfl

theorem hostOps1_main_v26 (v : Valuation τ sig (Elt F)) :
    StableHlo.after (hostOps1 (F := F)) v (Proc.devRef .tc main_v26) = shapeCast S1x128 (v (Proc.devRef .tc main_arg4)) shapeCasts_S128_S1x128 := by
  dsimp only [hostOps1]; after_results; rfl

theorem hostOps2_main_v35 (v : Valuation τ sig (Elt F)) :
    StableHlo.after (hostOps2 (F := F)) v (Proc.devRef .tc main_v35) = addf (gatherRows (v (Proc.devRef .tc main_v27)) (wrapCol (v (Proc.devRef .tc main_v1)))) (v (Proc.devRef .tc main_v25_0)) := by
  dsimp only [hostOps2]; after_results; rfl

theorem hostOps2_1_main_v36 (v : Valuation τ sig (Elt F)) :
    StableHlo.after (hostOps2_1 (F := F)) v (Proc.devRef .tc main_v36) = reluE (v (Proc.devRef .tc main_v35)) := by
  dsimp only [hostOps2_1]; after_results; rfl

theorem hostOps2_2_main_v43 (v : Valuation τ sig (Elt F)) :
    StableHlo.after (hostOps2_2 (F := F)) v (Proc.devRef .tc main_v43) = scatterSet (v (Proc.devRef .tc main_v27)) (wrapCol (v (Proc.devRef .tc main_v1))) (v (Proc.devRef .tc main_v36)) := by
  dsimp only [hostOps2_2]; after_results_simp; rfl

theorem hostOps2_2_main_v51 (v : Valuation τ sig (Elt F)) :
    StableHlo.after (hostOps2_2 (F := F)) v (Proc.devRef .tc main_v51) = addf (gatherRows (v (Proc.devRef .tc main_v27)) (wrapCol (v (Proc.devRef .tc main_v3)))) (v (Proc.devRef .tc main_v25_0)) := by
  dsimp only [hostOps2_2]; after_results_simp; rfl

theorem hostOps2_3_main_v52 (v : Valuation τ sig (Elt F)) :
    StableHlo.after (hostOps2_3 (F := F)) v (Proc.devRef .tc main_v52) = reluE (v (Proc.devRef .tc main_v51)) := by
  dsimp only [hostOps2_3]; after_results; rfl

theorem hostOps2_4_main_v59 (v : Valuation τ sig (Elt F)) :
    StableHlo.after (hostOps2_4 (F := F)) v (Proc.devRef .tc main_v59) = scatterSet (v (Proc.devRef .tc main_v43)) (wrapCol (v (Proc.devRef .tc main_v3))) (v (Proc.devRef .tc main_v52)) := by
  dsimp only [hostOps2_4]; after_results_simp; rfl

theorem hostOps2_4_main_v67 (v : Valuation τ sig (Elt F)) :
    StableHlo.after (hostOps2_4 (F := F)) v (Proc.devRef .tc main_v67) = addf (gatherRows (scatterSet (v (Proc.devRef .tc main_v43)) (wrapCol (v (Proc.devRef .tc main_v3))) (v (Proc.devRef .tc main_v52))) (wrapCol (v (Proc.devRef .tc main_v1)))) (v (Proc.devRef .tc main_v25_1)) := by
  dsimp only [hostOps2_4]; after_results_simp; rfl

theorem hostOps2_5_main_v68 (v : Valuation τ sig (Elt F)) :
    StableHlo.after (hostOps2_5 (F := F)) v (Proc.devRef .tc main_v68) = reluE (v (Proc.devRef .tc main_v67)) := by
  dsimp only [hostOps2_5]; after_results; rfl

theorem hostOps2_6_main_v71 (v : Valuation τ sig (Elt F)) :
    StableHlo.after (hostOps2_6 (F := F)) v (Proc.devRef .tc main_v71) = scatterSum (idxCol (v (Proc.devRef .tc main_v3))) (v (Proc.devRef .tc main_v68)) := by
  dsimp only [hostOps2_6]; after_results_simp; rfl

theorem hostOps2_6_main_v87 (v : Valuation τ sig (Elt F)) :
    StableHlo.after (hostOps2_6 (F := F)) v (Proc.devRef .tc main_v87) = shapeCast S1x1 (shapeCast S_ (extractStridedSlice S1 ![0] (v (Proc.devRef .tc main_arg7)) slices_S2_S1_0) shapeCasts_S1_S_) shapeCasts_S_S1x1 := by
  dsimp only [hostOps2_6]; after_results_simp; rfl

theorem hostOps2_6_main_v75 (v : Valuation τ sig (Elt F)) :
    StableHlo.after (hostOps2_6 (F := F)) v (Proc.devRef .tc main_v75) = shapeCast S128x256 (extractStridedSlice S1x128x256 ![0, 0, 0] (v (Proc.devRef .tc main_arg12)) slices_S2x128x256_S1x128x256_0_0_0) shapeCasts_S1x128x256_S128x256 := by
  dsimp only [hostOps2_6]; after_results_simp; rfl

theorem hostOps2_6_main_v86 (v : Valuation τ sig (Elt F)) :
    StableHlo.after (hostOps2_6 (F := F)) v (Proc.devRef .tc main_v86) = shapeCast S1x256 (shapeCast S256 (extractStridedSlice S1x256 ![0, 0] (v (Proc.devRef .tc main_arg13)) slices_S2x256_S1x256_0_0) shapeCasts_S1x256_S256) shapeCasts_S256_S1x256 := by
  dsimp only [hostOps2_6]; after_results_simp; rfl

theorem hostOps2_6_main_v79 (v : Valuation τ sig (Elt F)) :
    StableHlo.after (hostOps2_6 (F := F)) v (Proc.devRef .tc main_v79) = shapeCast S256 (extractStridedSlice S1x256 ![0, 0] (v (Proc.devRef .tc main_arg14)) slices_S2x256_S1x256_0_0) shapeCasts_S1x256_S256 := by
  dsimp only [hostOps2_6]; after_results_simp; rfl

theorem hostOps2_6_main_v81 (v : Valuation τ sig (Elt F)) :
    StableHlo.after (hostOps2_6 (F := F)) v (Proc.devRef .tc main_v81) = shapeCast S256 (extractStridedSlice S1x256 ![0, 0] (v (Proc.devRef .tc main_arg15)) slices_S2x256_S1x256_0_0) shapeCasts_S1x256_S256 := by
  dsimp only [hostOps2_6]; after_results_simp; rfl

theorem hostOps2_6_main_v83 (v : Valuation τ sig (Elt F)) :
    StableHlo.after (hostOps2_6 (F := F)) v (Proc.devRef .tc main_v83) = shapeCast S256x128 (extractStridedSlice S1x256x128 ![0, 0, 0] (v (Proc.devRef .tc main_arg16)) slices_S2x256x128_S1x256x128_0_0_0) shapeCasts_S1x256x128_S256x128 := by
  dsimp only [hostOps2_6]; after_results_simp; rfl

theorem hostOps2_6_main_v85 (v : Valuation τ sig (Elt F)) :
    StableHlo.after (hostOps2_6 (F := F)) v (Proc.devRef .tc main_v85) = shapeCast S128 (extractStridedSlice S1x128 ![0, 0] (v (Proc.devRef .tc main_arg17)) slices_S2x128_S1x128_0_0) shapeCasts_S1x128_S128 := by
  dsimp only [hostOps2_6]; after_results_simp; rfl

theorem hostOps3_main_v100 (v : Valuation τ sig (Elt F)) :
    StableHlo.after (hostOps3 (F := F)) v (Proc.devRef .tc main_v100) = colMean (v (Proc.devRef .tc main_v88_1)) := by
  dsimp only [hostOps3]; after_results_simp; rfl

theorem hostOps3_main_v104 (v : Valuation τ sig (Elt F)) :
    StableHlo.after (hostOps3 (F := F)) v (Proc.devRef .tc main_v104) = colVar (v (Proc.devRef .tc main_v88_2)) (v (Proc.devRef .tc main_v88_1)) := by
  dsimp only [hostOps3]; after_results_simp; rfl

theorem hostOps3_main_v105 (v : Valuation τ sig (Elt F)) :
    StableHlo.after (hostOps3 (F := F)) v (Proc.devRef .tc main_v105) = shapeCast S1x256 (v (Proc.devRef .tc main_v79)) shapeCasts_S256_S1x256 := by
  dsimp only [hostOps3]; after_results_simp; rfl

theorem hostOps3_main_v106 (v : Valuation τ sig (Elt F)) :
    StableHlo.after (hostOps3 (F := F)) v (Proc.devRef .tc main_v106) = shapeCast S1x256 (v (Proc.devRef .tc main_v81)) shapeCasts_S256_S1x256 := by
  dsimp only [hostOps3]; after_results_simp; rfl

theorem hostOps3_main_v107 (v : Valuation τ sig (Elt F)) :
    StableHlo.after (hostOps3 (F := F)) v (Proc.devRef .tc main_v107) = shapeCast S1x128 (v (Proc.devRef .tc main_v85)) shapeCasts_S128_S1x128 := by
  dsimp only [hostOps3]; after_results_simp; rfl

theorem hostOps4_main_v116 (v : Valuation τ sig (Elt F)) :
    StableHlo.after (hostOps4 (F := F)) v (Proc.devRef .tc main_v116) = addf (gatherRows (v (Proc.devRef .tc main_v108)) (wrapCol (v (Proc.devRef .tc main_v1)))) (v (Proc.devRef .tc main_v25_2)) := by
  dsimp only [hostOps4]; after_results; rfl

theorem hostOps4_1_main_v117 (v : Valuation τ sig (Elt F)) :
    StableHlo.after (hostOps4_1 (F := F)) v (Proc.devRef .tc main_v117) = reluE (v (Proc.devRef .tc main_v116)) := by
  dsimp only [hostOps4_1]; after_results; rfl

theorem hostOps4_2_main_v120 (v : Valuation τ sig (Elt F)) :
    StableHlo.after (hostOps4_2 (F := F)) v (Proc.devRef .tc main_v120) = scatterSum (idxCol (v (Proc.devRef .tc main_v3))) (v (Proc.devRef .tc main_v117)) := by
  dsimp only [hostOps4_2]; after_results_simp; rfl

theorem hostOps4_2_main_v136 (v : Valuation τ sig (Elt F)) :
    StableHlo.after (hostOps4_2 (F := F)) v (Proc.devRef .tc main_v136) = shapeCast S1x1 (shapeCast S_ (extractStridedSlice S1 ![1] (v (Proc.devRef .tc main_arg7)) slices_S2_S1_1) shapeCasts_S1_S_) shapeCasts_S_S1x1 := by
  dsimp only [hostOps4_2]; after_results_simp; rfl

theorem hostOps4_2_main_v124 (v : Valuation τ sig (Elt F)) :
    StableHlo.after (hostOps4_2 (F := F)) v (Proc.devRef .tc main_v124) = shapeCast S128x256 (extractStridedSlice S1x128x256 ![1, 0, 0] (v (Proc.devRef .tc main_arg12)) slices_S2x128x256_S1x128x256_1_0_0) shapeCasts_S1x128x256_S128x256 := by
  dsimp only [hostOps4_2]; after_results_simp; rfl

theorem hostOps4_2_main_v135 (v : Valuation τ sig (Elt F)) :
    StableHlo.after (hostOps4_2 (F := F)) v (Proc.devRef .tc main_v135) = shapeCast S1x256 (shapeCast S256 (extractStridedSlice S1x256 ![1, 0] (v (Proc.devRef .tc main_arg13)) slices_S2x256_S1x256_1_0) shapeCasts_S1x256_S256) shapeCasts_S256_S1x256 := by
  dsimp only [hostOps4_2]; after_results_simp; rfl

theorem hostOps4_2_main_v128 (v : Valuation τ sig (Elt F)) :
    StableHlo.after (hostOps4_2 (F := F)) v (Proc.devRef .tc main_v128) = shapeCast S256 (extractStridedSlice S1x256 ![1, 0] (v (Proc.devRef .tc main_arg14)) slices_S2x256_S1x256_1_0) shapeCasts_S1x256_S256 := by
  dsimp only [hostOps4_2]; after_results_simp; rfl

theorem hostOps4_2_main_v130 (v : Valuation τ sig (Elt F)) :
    StableHlo.after (hostOps4_2 (F := F)) v (Proc.devRef .tc main_v130) = shapeCast S256 (extractStridedSlice S1x256 ![1, 0] (v (Proc.devRef .tc main_arg15)) slices_S2x256_S1x256_1_0) shapeCasts_S1x256_S256 := by
  dsimp only [hostOps4_2]; after_results_simp; rfl

theorem hostOps4_2_main_v132 (v : Valuation τ sig (Elt F)) :
    StableHlo.after (hostOps4_2 (F := F)) v (Proc.devRef .tc main_v132) = shapeCast S256x128 (extractStridedSlice S1x256x128 ![1, 0, 0] (v (Proc.devRef .tc main_arg16)) slices_S2x256x128_S1x256x128_1_0_0) shapeCasts_S1x256x128_S256x128 := by
  dsimp only [hostOps4_2]; after_results_simp; rfl

theorem hostOps4_2_main_v134 (v : Valuation τ sig (Elt F)) :
    StableHlo.after (hostOps4_2 (F := F)) v (Proc.devRef .tc main_v134) = shapeCast S128 (extractStridedSlice S1x128 ![1, 0] (v (Proc.devRef .tc main_arg17)) slices_S2x128_S1x128_1_0) shapeCasts_S1x128_S128 := by
  dsimp only [hostOps4_2]; after_results_simp; rfl

theorem hostOps5_main_v149 (v : Valuation τ sig (Elt F)) :
    StableHlo.after (hostOps5 (F := F)) v (Proc.devRef .tc main_v149) = colMean (v (Proc.devRef .tc main_v137_1)) := by
  dsimp only [hostOps5]; after_results_simp; rfl

theorem hostOps5_main_v153 (v : Valuation τ sig (Elt F)) :
    StableHlo.after (hostOps5 (F := F)) v (Proc.devRef .tc main_v153) = colVar (v (Proc.devRef .tc main_v137_2)) (v (Proc.devRef .tc main_v137_1)) := by
  dsimp only [hostOps5]; after_results_simp; rfl

theorem hostOps5_main_v154 (v : Valuation τ sig (Elt F)) :
    StableHlo.after (hostOps5 (F := F)) v (Proc.devRef .tc main_v154) = shapeCast S1x256 (v (Proc.devRef .tc main_v128)) shapeCasts_S256_S1x256 := by
  dsimp only [hostOps5]; after_results_simp; rfl

theorem hostOps5_main_v155 (v : Valuation τ sig (Elt F)) :
    StableHlo.after (hostOps5 (F := F)) v (Proc.devRef .tc main_v155) = shapeCast S1x256 (v (Proc.devRef .tc main_v130)) shapeCasts_S256_S1x256 := by
  dsimp only [hostOps5]; after_results_simp; rfl

theorem hostOps5_main_v156 (v : Valuation τ sig (Elt F)) :
    StableHlo.after (hostOps5 (F := F)) v (Proc.devRef .tc main_v156) = shapeCast S1x128 (v (Proc.devRef .tc main_v134)) shapeCasts_S128_S1x128 := by
  dsimp only [hostOps5]; after_results_simp; rfl

end Cert.Fold

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.Fold1.lean ====
/-
  The contents of the input arrays of regions 0 and 1 when each is entered.

  Walking the fold of buffer contents back from a region's entry: a host stretch either wrote the buffer (then its
  contents are the stretch's term in the contents before it) or left it alone; a region leaves each of its input arrays
  and every buffer that is not one of its arrays as entered, and each output array at what its write-backs accumulate.
  The arrays the regions write are named here once (`kEE0` … `kQ2`) so that later terms can mention them.
-/
import proofs.«168167_j60026462929460_2_alg».proof.Proof.Gen.KernelIdeal.Frame
import proofs.«168167_j60026462929460_2_alg».proof.Proof.FoldOps
import proofs.«168167_j60026462929460_2_alg».proof.Proof.LibHostKept

set_option maxRecDepth 16384

noncomputable section

namespace Cert.Fold

open Idealize.ShloMosaic Idealize.ShloMosaic.TcCoe Idealize.ShloMosaic.StableHlo
open Idealize.ShloMosaic.Pipeline (Dat Cfg Window)
open Cert.KernelIdeal Cert.KernelIdeal.Gen Cert.Kept

variable {F : FTy → Type} [FloatOps F]
variable (m : (ℓ : Loc nD τ sig) → Buf (Elt F) ℓ) (ρ : Dev nD → PrngReg)

/-- What region 0 leaves in its three output arrays: the three edge encodings. -/
def kEE0 (c : Dev nD) : (⟨S600000x128, .f32⟩ : BufTy).Contents (Elt F) := (dat0 (V1 m ρ) c).arrAt 11 cfg0.N
@[inherit_doc kEE0] def kEE1 (c : Dev nD) : (⟨S600000x128, .f32⟩ : BufTy).Contents (Elt F) := (dat0 (V1 m ρ) c).arrAt 12 cfg0.N
@[inherit_doc kEE0] def kEE2 (c : Dev nD) : (⟨S600000x128, .f32⟩ : BufTy).Contents (Elt F) := (dat0 (V1 m ρ) c).arrAt 13 cfg0.N
/-- What region 1 leaves in its output array: the first node table. -/
def kH0 (c : Dev nD) : (⟨S100000x128, .f32⟩ : BufTy).Contents (Elt F) := (dat1 (V3 m ρ) c).arrAt 3 cfg1.N
/-- What region 2 leaves in its three output arrays: the wide node table, its per-block column sums, and its per-block
    column sums of squares. -/
def kZ1 (c : Dev nD) : (⟨S100000x256, .f32⟩ : BufTy).Contents (Elt F) := (dat2 (V11 m ρ) c).arrAt 5 cfg2.N
@[inherit_doc kZ1] def kS1 (c : Dev nD) : (⟨S200x256, .f32⟩ : BufTy).Contents (Elt F) := (dat2 (V11 m ρ) c).arrAt 6 cfg2.N
@[inherit_doc kZ1] def kQ1 (c : Dev nD) : (⟨S200x256, .f32⟩ : BufTy).Contents (Elt F) := (dat2 (V11 m ρ) c).arrAt 7 cfg2.N
/-- What region 3 leaves in its output array: the second node table. -/
def kH2 (c : Dev nD) : (⟨S100000x128, .f32⟩ : BufTy).Contents (Elt F) := (dat3 (V13 m ρ) c).arrAt 7 cfg3.N
/-- What region 4 leaves in its three output arrays (as region 2, one layer later). -/
def kZ2 (c : Dev nD) : (⟨S100000x256, .f32⟩ : BufTy).Contents (Elt F) := (dat4 (V17 m ρ) c).arrAt 5 cfg4.N
@[inherit_doc kZ2] def kS2 (c : Dev nD) : (⟨S200x256, .f32⟩ : BufTy).Contents (Elt F) := (dat4 (V17 m ρ) c).arrAt 6 cfg4.N
@[inherit_doc kZ2] def kQ2 (c : Dev nD) : (⟨S200x256, .f32⟩ : BufTy).Contents (Elt F) := (dat4 (V17 m ρ) c).arrAt 7 cfg4.N

theorem W0_main_arg2 (c : Dev nD) : W0 m ρ c (Proc.devRef .tc main_arg2) = m ((c : Thread nD τ).loc main_arg2) :=
  rfl
theorem W1_main_arg2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by host_kept hostOps0).trans (W0_main_arg2 m ρ c)
theorem W0_main_arg5 (c : Dev nD) : W0 m ρ c (Proc.devRef .tc main_arg5) = m ((c : Thread nD τ).loc main_arg5) :=
  rfl
theorem W1_main_arg5 (c : Dev nD) : W1 m ρ c (Proc.devRef .tc main_arg5) = m ((c : Thread nD τ).loc main_arg5) :=
  (show StableHlo.after hostOps0 (W0 m ρ c) (Proc.devRef .tc main_arg5) = W0 m ρ c (Proc.devRef .tc main_arg5) by host_kept hostOps0).trans (W0_main_arg5 m ρ c)
theorem W0_main_arg6 (c : Dev nD) : W0 m ρ c (Proc.devRef .tc main_arg6) = m ((c : Thread nD τ).loc main_arg6) :=
  rfl
theorem W1_main_v4 (c : Dev nD) : W1 m ρ c (Proc.devRef .tc main_v4) = shapeCast S1x128 (m ((c : Thread nD τ).loc main_arg6)) shapeCasts_S128_S1x128 :=
  (hostOps0_main_v4 (W0 m ρ c)).trans (by rw [W0_main_arg6 m ρ c])
theorem W0_main_arg8 (c : Dev nD) : W0 m ρ c (Proc.devRef .tc main_arg8) = m ((c : Thread nD τ).loc main_arg8) :=
  rfl
theorem W1_main_v6 (c : Dev nD) : W1 m ρ c (Proc.devRef .tc main_v6) = shapeCast S1x128 (extractStridedSlice S1x1x128 ![0, 0, 0] (m ((c : Thread nD τ).loc main_arg8)) slices_S2x1x128_S1x1x128_0_0_0) shapeCasts_S1x1x128_S1x128 :=
  (hostOps0_main_v6 (W0 m ρ c)).trans (by rw [W0_main_arg8 m ρ c])
theorem W0_main_arg9 (c : Dev nD) : W0 m ρ c (Proc.devRef .tc main_arg9) = m ((c : Thread nD τ).loc main_arg9) :=
  rfl
theorem W1_main_v11 (c : Dev nD) : W1 m ρ c (Proc.devRef .tc main_v11) = shapeCast S1x128 (shapeCast S128 (extractStridedSlice S1x128 ![0, 0] (m ((c : Thread nD τ).loc main_arg9)) slices_S2x128_S1x128_0_0) shapeCasts_S1x128_S128) shapeCasts_S128_S1x128 :=
  (hostOps0_main_v11 (W0 m ρ c)).trans (by rw [W0_main_arg9 m ρ c])
theorem W0_main_arg10 (c : Dev nD) : W0 m ρ c (Proc.devRef .tc main_arg10) = m ((c : Thread nD τ).loc main_arg10) :=
  rfl
theorem W1_main_v16 (c : Dev nD) : W1 m ρ c (Proc.devRef .tc main_v16) = shapeCast S128x128 (extractStridedSlice S1x128x128 ![0, 0, 0] (m ((c : Thread nD τ).loc main_arg10)) slices_S2x128x128_S1x128x128_0_0_0) shapeCasts_S1x128x128_S128x128 :=
  (hostOps0_main_v16 (W0 m ρ c)).trans (by rw [W0_main_arg10 m ρ c])
theorem W0_main_arg11 (c : Dev nD) : W0 m ρ c (Proc.devRef .tc main_arg11) = m ((c : Thread nD τ).loc main_arg11) :=
  rfl
theorem W1_main_v21 (c : Dev nD) : W1 m ρ c (Proc.devRef .tc main_v21) = shapeCast S1x128 (shapeCast S128 (extractStridedSlice S1x128 ![0, 0] (m ((c : Thread nD τ).loc main_arg11)) slices_S2x128_S1x128_0_0) shapeCasts_S1x128_S128) shapeCasts_S128_S1x128 :=
  (hostOps0_main_v21 (W0 m ρ c)).trans (by rw [W0_main_arg11 m ρ c])
theorem W1_main_v8 (c : Dev nD) : W1 m ρ c (Proc.devRef .tc main_v8) = shapeCast S1x128 (extractStridedSlice S1x1x128 ![1, 0, 0] (m ((c : Thread nD τ).loc main_arg8)) slices_S2x1x128_S1x1x128_1_0_0) shapeCasts_S1x1x128_S1x128 :=
  (hostOps0_main_v8 (W0 m ρ c)).trans (by rw [W0_main_arg8 m ρ c])
theorem W1_main_v14 (c : Dev nD) : W1 m ρ c (Proc.devRef .tc main_v14) = shapeCast S1x128 (shapeCast S128 (extractStridedSlice S1x128 ![1, 0] (m ((c : Thread nD τ).loc main_arg9)) slices_S2x128_S1x128_1_0) shapeCasts_S1x128_S128) shapeCasts_S128_S1x128 :=
  (hostOps0_main_v14 (W0 m ρ c)).trans (by rw [W0_main_arg9 m ρ c])
theorem W1_main_v18 (c : Dev nD) : W1 m ρ c (Proc.devRef .tc main_v18) = shapeCast S128x128 (extractStridedSlice S1x128x128 ![1, 0, 0] (m ((c : Thread nD τ).loc main_arg10)) slices_S2x128x128_S1x128x128_1_0_0) shapeCasts_S1x128x128_S128x128 :=
  (hostOps0_main_v18 (W0 m ρ c)).trans (by rw [W0_main_arg10 m ρ c])
theorem W1_main_v24 (c : Dev nD) : W1 m ρ c (Proc.devRef .tc main_v24) = shapeCast S1x128 (shapeCast S128 (extractStridedSlice S1x128 ![1, 0] (m ((c : Thread nD τ).loc main_arg11)) slices_S2x128_S1x128_1_0) shapeCasts_S1x128_S128) shapeCasts_S128_S1x128 :=
  (hostOps0_main_v24 (W0 m ρ c)).trans (by rw [W0_main_arg11 m ρ c])
theorem W0_main_arg0 (c : Dev nD) : W0 m ρ c (Proc.devRef .tc main_arg0) = m ((c : Thread nD τ).loc main_arg0) :=
  rfl
theorem W1_main_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by host_kept hostOps0).trans (W0_main_arg0 m ρ c)
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (show StableHlo.after hostOps1 (W2 m ρ c) (Proc.devRef .tc main_arg0) = W2 m ρ c (Proc.devRef .tc main_arg0) by host_kept hostOps1).trans (W2_main_arg0 m ρ c)
theorem W0_main_arg3 (c : Dev nD) : W0 m ρ c (Proc.devRef .tc main_arg3) = m ((c : Thread nD τ).loc main_arg3) :=
  rfl
theorem W1_main_arg3 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) by host_kept hostOps0).trans (W0_main_arg3 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (show StableHlo.after hostOps1 (W2 m ρ c) (Proc.devRef .tc main_arg3) = W2 m ρ c (Proc.devRef .tc main_arg3) by host_kept hostOps1).trans (W2_main_arg3 m ρ c)
theorem W0_main_arg4 (c : Dev nD) : W0 m ρ c (Proc.devRef .tc main_arg4) = m ((c : Thread nD τ).loc main_arg4) :=
  rfl
theorem W1_main_arg4 (c : Dev nD) : W1 m ρ c (Proc.devRef .tc main_arg4) = m ((c : Thread nD τ).loc main_arg4) :=
  (show StableHlo.after hostOps0 (W0 m ρ c) (Proc.devRef .tc main_arg4) = W0 m ρ c (Proc.devRef .tc main_arg4) by host_kept hostOps0).trans (W0_main_arg4 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_v26 (c : Dev nD) : W3 m ρ c (Proc.devRef .tc main_v26) = shapeCast S1x128 (m ((c : Thread nD τ).loc main_arg4)) shapeCasts_S128_S1x128 :=
  (hostOps1_main_v26 (W2 m ρ c)).trans (by rw [W2_main_arg4 m ρ c])

/-! ## The input arrays of regions 0 and 1 at entry -/

theorem V1_main_arg2 (c : Dev nD) : V1 m ρ c main_arg2 = m ((c : Thread nD τ).loc main_arg2) := W1_main_arg2 m ρ c
theorem V1_main_arg5 (c : Dev nD) : V1 m ρ c main_arg5 = m ((c : Thread nD τ).loc main_arg5) := W1_main_arg5 m ρ c
theorem V1_main_v4 (c : Dev nD) : V1 m ρ c main_v4 = shapeCast S1x128 (m ((c : Thread nD τ).loc main_arg6)) shapeCasts_S128_S1x128 := W1_main_v4 m ρ c
theorem V1_main_v6 (c : Dev nD) : V1 m ρ c main_v6 = shapeCast S1x128 (extractStridedSlice S1x1x128 ![0, 0, 0] (m ((c : Thread nD τ).loc main_arg8)) slices_S2x1x128_S1x1x128_0_0_0) shapeCasts_S1x1x128_S1x128 := W1_main_v6 m ρ c
theorem V1_main_v11 (c : Dev nD) : V1 m ρ c main_v11 = shapeCast S1x128 (shapeCast S128 (extractStridedSlice S1x128 ![0, 0] (m ((c : Thread nD τ).loc main_arg9)) slices_S2x128_S1x128_0_0) shapeCasts_S1x128_S128) shapeCasts_S128_S1x128 := W1_main_v11 m ρ c
theorem V1_main_v16 (c : Dev nD) : V1 m ρ c main_v16 = shapeCast S128x128 (extractStridedSlice S1x128x128 ![0, 0, 0] (m ((c : Thread nD τ).loc main_arg10)) slices_S2x128x128_S1x128x128_0_0_0) shapeCasts_S1x128x128_S128x128 := W1_main_v16 m ρ c
theorem V1_main_v21 (c : Dev nD) : V1 m ρ c main_v21 = shapeCast S1x128 (shapeCast S128 (extractStridedSlice S1x128 ![0, 0] (m ((c : Thread nD τ).loc main_arg11)) slices_S2x128_S1x128_0_0) shapeCasts_S1x128_S128) shapeCasts_S128_S1x128 := W1_main_v21 m ρ c
theorem V1_main_v8 (c : Dev nD) : V1 m ρ c main_v8 = shapeCast S1x128 (extractStridedSlice S1x1x128 ![1, 0, 0] (m ((c : Thread nD τ).loc main_arg8)) slices_S2x1x128_S1x1x128_1_0_0) shapeCasts_S1x1x128_S1x128 := W1_main_v8 m ρ c
theorem V1_main_v14 (c : Dev nD) : V1 m ρ c main_v14 = shapeCast S1x128 (shapeCast S128 (extractStridedSlice S1x128 ![1, 0] (m ((c : Thread nD τ).loc main_arg9)) slices_S2x128_S1x128_1_0) shapeCasts_S1x128_S128) shapeCasts_S128_S1x128 := W1_main_v14 m ρ c
theorem V1_main_v18 (c : Dev nD) : V1 m ρ c main_v18 = shapeCast S128x128 (extractStridedSlice S1x128x128 ![1, 0, 0] (m ((c : Thread nD τ).loc main_arg10)) slices_S2x128x128_S1x128x128_1_0_0) shapeCasts_S1x128x128_S128x128 := W1_main_v18 m ρ c
theorem V1_main_v24 (c : Dev nD) : V1 m ρ c main_v24 = shapeCast S1x128 (shapeCast S128 (extractStridedSlice S1x128 ![1, 0] (m ((c : Thread nD τ).loc main_arg11)) slices_S2x128_S1x128_1_0) shapeCasts_S1x128_S128) shapeCasts_S128_S1x128 := W1_main_v24 m ρ c
theorem V3_main_arg0 (c : Dev nD) : V3 m ρ c main_arg0 = m ((c : Thread nD τ).loc main_arg0) := W3_main_arg0 m ρ c
theorem V3_main_arg3 (c : Dev nD) : V3 m ρ c main_arg3 = m ((c : Thread nD τ).loc main_arg3) := W3_main_arg3 m ρ c
theorem V3_main_v26 (c : Dev nD) : V3 m ρ c main_v26 = shapeCast S1x128 (m ((c : Thread nD τ).loc main_arg4)) shapeCasts_S128_S1x128 := W3_main_v26 m ρ c
end Cert.Fold

end
-- ==== Proof.Fold2.lean ====
/-
  The contents of the input arrays of region 2 when it is entered.

  Between regions 1 and 2 the program forms, per edge, the maximum with zero of (the start node's row + the edge's
  first encoding) and writes it to the start node's row, then the same at the end node; from the table so updated it
  forms per edge the maximum with zero of (the start node's row + the edge's second encoding) and adds these up per end
  node.  The two tables are region 2's first two inputs; the other three are slices of the parameter arrays.
-/
import proofs.«168167_j60026462929460_2_alg».proof.Proof.Fold1

set_option maxRecDepth 16384

noncomputable section

namespace Cert.Fold

open Idealize.ShloMosaic Idealize.ShloMosaic.TcCoe Idealize.ShloMosaic.StableHlo
open Idealize.ShloMosaic.Pipeline (Dat Cfg Window)
open Cert.KernelIdeal Cert.KernelIdeal.Gen Cert.Kept

variable {F : FTy → Type} [FloatOps F]
variable (m : (ℓ : Loc nD τ sig) → Buf (Elt F) ℓ) (ρ : Dev nD → PrngReg)

/-- Per edge: the maximum with zero of (the row of `h` at the edge's node `w`, negative numbers moved up) + (the edge's
    encoding `ee`). -/
def edgeMsg (h : (⟨S100000x128, .f32⟩ : BufTy).Contents (Elt F)) (w : (⟨S600000, .i32⟩ : BufTy).Contents (Elt F)) (ee : (⟨S600000x128, .f32⟩ : BufTy).Contents (Elt F)) : (⟨S600000x128, .f32⟩ : BufTy).Contents (Elt F) :=
  reluE (addf (gatherRows h (wrapCol w)) ee)
/-- The node table `h` with, first, each start node's row replaced by its edge's message from `h`, then each end node's
    row replaced by its edge's message from `h` (both messages read the ORIGINAL `h`; a later edge wins). -/
def hUpd (h : (⟨S100000x128, .f32⟩ : BufTy).Contents (Elt F)) (a : (⟨S2x600000, .i32⟩ : BufTy).Contents (Elt F)) (ee : (⟨S600000x128, .f32⟩ : BufTy).Contents (Elt F)) : (⟨S100000x128, .f32⟩ : BufTy).Contents (Elt F) :=
  scatterSet (scatterSet h (wrapCol (srcIdx a)) (edgeMsg h (srcIdx a) ee)) (wrapCol (dstIdx a)) (edgeMsg h (dstIdx a) ee)
/-- The messages from `h` at the start nodes added up per end node (end node numbers as given, not moved). -/
def aggMsg (h : (⟨S100000x128, .f32⟩ : BufTy).Contents (Elt F)) (a : (⟨S2x600000, .i32⟩ : BufTy).Contents (Elt F)) (ee : (⟨S600000x128, .f32⟩ : BufTy).Contents (Elt F)) : (⟨S100000x128, .f32⟩ : BufTy).Contents (Elt F) :=
  scatterSum (idxCol (dstIdx a)) (edgeMsg h (srcIdx a) ee)

theorem W4_main_v27 (c : Dev nD) : W4 m ρ c (Proc.devRef .tc main_v27) = kH0 m ρ c :=
  W4_arr m ρ c 3
theorem W5_main_v27 (c : Dev nD) : W5 m ρ c (Proc.devRef .tc main_v27) = kH0 m ρ c :=
  (show StableHlo.after hostOps2 (W4 m ρ c) (Proc.devRef .tc main_v27) = W4 m ρ c (Proc.devRef .tc main_v27) by host_kept hostOps2).trans (W4_main_v27 m ρ c)
theorem W6_main_v27 (c : Dev nD) : W6 m ρ c (Proc.devRef .tc main_v27) = kH0 m ρ c :=
  (show StableHlo.after hostOps2_1 (W5 m ρ c) (Proc.devRef .tc main_v27) = W5 m ρ c (Proc.devRef .tc main_v27) by host_kept hostOps2_1).trans (W5_main_v27 m ρ c)
theorem W0_main_arg1 (c : Dev nD) : W0 m ρ c (Proc.devRef .tc main_arg1) = m ((c : Thread nD τ).loc main_arg1) :=
  rfl
theorem W1_main_v1 (c : Dev nD) : W1 m ρ c (Proc.devRef .tc main_v1) = srcIdx (m ((c : Thread nD τ).loc main_arg1)) :=
  (hostOps0_main_v1 (W0 m ρ c)).trans (by rw [W0_main_arg1 m ρ c])
theorem W2_main_v1 (c : Dev nD) : W2 m ρ c (Proc.devRef .tc main_v1) = srcIdx (m ((c : Thread nD τ).loc main_arg1)) :=
  (W2_of_ne m ρ c main_v1 (by decide)).trans (W1_main_v1 m ρ c)
theorem W3_main_v1 (c : Dev nD) : W3 m ρ c (Proc.devRef .tc main_v1) = srcIdx (m ((c : Thread nD τ).loc main_arg1)) :=
  (show StableHlo.after hostOps1 (W2 m ρ c) (Proc.devRef .tc main_v1) = W2 m ρ c (Proc.devRef .tc main_v1) by host_kept hostOps1).trans (W2_main_v1 m ρ c)
theorem W4_main_v1 (c : Dev nD) : W4 m ρ c (Proc.devRef .tc main_v1) = srcIdx (m ((c : Thread nD τ).loc main_arg1)) :=
  (W4_of_ne m ρ c main_v1 (by decide)).trans (W3_main_v1 m ρ c)
theorem W5_main_v1 (c : Dev nD) : W5 m ρ c (Proc.devRef .tc main_v1) = srcIdx (m ((c : Thread nD τ).loc main_arg1)) :=
  (show StableHlo.after hostOps2 (W4 m ρ c) (Proc.devRef .tc main_v1) = W4 m ρ c (Proc.devRef .tc main_v1) by host_kept hostOps2).trans (W4_main_v1 m ρ c)
theorem W6_main_v1 (c : Dev nD) : W6 m ρ c (Proc.devRef .tc main_v1) = srcIdx (m ((c : Thread nD τ).loc main_arg1)) :=
  (show StableHlo.after hostOps2_1 (W5 m ρ c) (Proc.devRef .tc main_v1) = W5 m ρ c (Proc.devRef .tc main_v1) by host_kept hostOps2_1).trans (W5_main_v1 m ρ c)
theorem W2_main_v25_0 (c : Dev nD) : W2 m ρ c (Proc.devRef .tc main_v25_0) = kEE0 m ρ c :=
  W2_arr m ρ c 11
theorem W3_main_v25_0 (c : Dev nD) : W3 m ρ c (Proc.devRef .tc main_v25_0) = kEE0 m ρ c :=
  (show StableHlo.after hostOps1 (W2 m ρ c) (Proc.devRef .tc main_v25_0) = W2 m ρ c (Proc.devRef .tc main_v25_0) by host_kept hostOps1).trans (W2_main_v25_0 m ρ c)
theorem W4_main_v25_0 (c : Dev nD) : W4 m ρ c (Proc.devRef .tc main_v25_0) = kEE0 m ρ c :=
  (W4_of_ne m ρ c main_v25_0 (by decide)).trans (W3_main_v25_0 m ρ c)
theorem W5_main_v35 (c : Dev nD) : W5 m ρ c (Proc.devRef .tc main_v35) = addf (gatherRows (kH0 m ρ c) (wrapCol (srcIdx (m ((c : Thread nD τ).loc main_arg1))))) (kEE0 m ρ c) :=
  (hostOps2_main_v35 (W4 m ρ c)).trans (by rw [W4_main_v27 m ρ c, W4_main_v1 m ρ c, W4_main_v25_0 m ρ c])
theorem W6_main_v36 (c : Dev nD) : W6 m ρ c (Proc.devRef .tc main_v36) = reluE (addf (gatherRows (kH0 m ρ c) (wrapCol (srcIdx (m ((c : Thread nD τ).loc main_arg1))))) (kEE0 m ρ c)) :=
  (hostOps2_1_main_v36 (W5 m ρ c)).trans (by rw [W5_main_v35 m ρ c])
theorem W7_main_v43 (c : Dev nD) : W7 m ρ c (Proc.devRef .tc main_v43) = scatterSet (kH0 m ρ c) (wrapCol (srcIdx (m ((c : Thread nD τ).loc main_arg1)))) (reluE (addf (gatherRows (kH0 m ρ c) (wrapCol (srcIdx (m ((c : Thread nD τ).loc main_arg1))))) (kEE0 m ρ c))) :=
  (hostOps2_2_main_v43 (W6 m ρ c)).trans (by rw [W6_main_v27 m ρ c, W6_main_v1 m ρ c, W6_main_v36 m ρ c])
theorem W8_main_v43 (c : Dev nD) : W8 m ρ c (Proc.devRef .tc main_v43) = scatterSet (kH0 m ρ c) (wrapCol (srcIdx (m ((c : Thread nD τ).loc main_arg1)))) (reluE (addf (gatherRows (kH0 m ρ c) (wrapCol (srcIdx (m ((c : Thread nD τ).loc main_arg1))))) (kEE0 m ρ c))) :=
  (show StableHlo.after hostOps2_3 (W7 m ρ c) (Proc.devRef .tc main_v43) = W7 m ρ c (Proc.devRef .tc main_v43) by host_kept hostOps2_3).trans (W7_main_v43 m ρ c)
theorem W1_main_v3 (c : Dev nD) : W1 m ρ c (Proc.devRef .tc main_v3) = dstIdx (m ((c : Thread nD τ).loc main_arg1)) :=
  (hostOps0_main_v3 (W0 m ρ c)).trans (by rw [W0_main_arg1 m ρ c])
theorem W2_main_v3 (c : Dev nD) : W2 m ρ c (Proc.devRef .tc main_v3) = dstIdx (m ((c : Thread nD τ).loc main_arg1)) :=
  (W2_of_ne m ρ c main_v3 (by decide)).trans (W1_main_v3 m ρ c)
theorem W3_main_v3 (c : Dev nD) : W3 m ρ c (Proc.devRef .tc main_v3) = dstIdx (m ((c : Thread nD τ).loc main_arg1)) :=
  (show StableHlo.after hostOps1 (W2 m ρ c) (Proc.devRef .tc main_v3) = W2 m ρ c (Proc.devRef .tc main_v3) by host_kept hostOps1).trans (W2_main_v3 m ρ c)
theorem W4_main_v3 (c : Dev nD) : W4 m ρ c (Proc.devRef .tc main_v3) = dstIdx (m ((c : Thread nD τ).loc main_arg1)) :=
  (W4_of_ne m ρ c main_v3 (by decide)).trans (W3_main_v3 m ρ c)
theorem W5_main_v3 (c : Dev nD) : W5 m ρ c (Proc.devRef .tc main_v3) = dstIdx (m ((c : Thread nD τ).loc main_arg1)) :=
  (show StableHlo.after hostOps2 (W4 m ρ c) (Proc.devRef .tc main_v3) = W4 m ρ c (Proc.devRef .tc main_v3) by host_kept hostOps2).trans (W4_main_v3 m ρ c)
theorem W6_main_v3 (c : Dev nD) : W6 m ρ c (Proc.devRef .tc main_v3) = dstIdx (m ((c : Thread nD τ).loc main_arg1)) :=
  (show StableHlo.after hostOps2_1 (W5 m ρ c) (Proc.devRef .tc main_v3) = W5 m ρ c (Proc.devRef .tc main_v3) by host_kept hostOps2_1).trans (W5_main_v3 m ρ c)
theorem W7_main_v3 (c : Dev nD) : W7 m ρ c (Proc.devRef .tc main_v3) = dstIdx (m ((c : Thread nD τ).loc main_arg1)) :=
  (show StableHlo.after hostOps2_2 (W6 m ρ c) (Proc.devRef .tc main_v3) = W6 m ρ c (Proc.devRef .tc main_v3) by host_kept hostOps2_2).trans (W6_main_v3 m ρ c)
theorem W8_main_v3 (c : Dev nD) : W8 m ρ c (Proc.devRef .tc main_v3) = dstIdx (m ((c : Thread nD τ).loc main_arg1)) :=
  (show StableHlo.after hostOps2_3 (W7 m ρ c) (Proc.devRef .tc main_v3) = W7 m ρ c (Proc.devRef .tc main_v3) by host_kept hostOps2_3).trans (W7_main_v3 m ρ c)
theorem W5_main_v25_0 (c : Dev nD) : W5 m ρ c (Proc.devRef .tc main_v25_0) = kEE0 m ρ c :=
  (show StableHlo.after hostOps2 (W4 m ρ c) (Proc.devRef .tc main_v25_0) = W4 m ρ c (Proc.devRef .tc main_v25_0) by host_kept hostOps2).trans (W4_main_v25_0 m ρ c)
theorem W6_main_v25_0 (c : Dev nD) : W6 m ρ c (Proc.devRef .tc main_v25_0) = kEE0 m ρ c :=
  (show StableHlo.after hostOps2_1 (W5 m ρ c) (Proc.devRef .tc main_v25_0) = W5 m ρ c (Proc.devRef .tc main_v25_0) by host_kept hostOps2_1).trans (W5_main_v25_0 m ρ c)
theorem W7_main_v51 (c : Dev nD) : W7 m ρ c (Proc.devRef .tc main_v51) = addf (gatherRows (kH0 m ρ c) (wrapCol (dstIdx (m ((c : Thread nD τ).loc main_arg1))))) (kEE0 m ρ c) :=
  (hostOps2_2_main_v51 (W6 m ρ c)).trans (by rw [W6_main_v27 m ρ c, W6_main_v3 m ρ c, W6_main_v25_0 m ρ c])
theorem W8_main_v52 (c : Dev nD) : W8 m ρ c (Proc.devRef .tc main_v52) = reluE (addf (gatherRows (kH0 m ρ c) (wrapCol (dstIdx (m ((c : Thread nD τ).loc main_arg1))))) (kEE0 m ρ c)) :=
  (hostOps2_3_main_v52 (W7 m ρ c)).trans (by rw [W7_main_v51 m ρ c])
theorem W9_main_v59 (c : Dev nD) : W9 m ρ c (Proc.devRef .tc main_v59) = scatterSet (scatterSet (kH0 m ρ c) (wrapCol (srcIdx (m ((c : Thread nD τ).loc main_arg1)))) (reluE (addf (gatherRows (kH0 m ρ c) (wrapCol (srcIdx (m ((c : Thread nD τ).loc main_arg1))))) (kEE0 m ρ c)))) (wrapCol (dstIdx (m ((c : Thread nD τ).loc main_arg1)))) (reluE (addf (gatherRows (kH0 m ρ c) (wrapCol (dstIdx (m ((c : Thread nD τ).loc main_arg1))))) (kEE0 m ρ c))) :=
  (hostOps2_4_main_v59 (W8 m ρ c)).trans (by rw [W8_main_v43 m ρ c, W8_main_v3 m ρ c, W8_main_v52 m ρ c])
theorem W10_main_v59 (c : Dev nD) : W10 m ρ c (Proc.devRef .tc main_v59) = scatterSet (scatterSet (kH0 m ρ c) (wrapCol (srcIdx (m ((c : Thread nD τ).loc main_arg1)))) (reluE (addf (gatherRows (kH0 m ρ c) (wrapCol (srcIdx (m ((c : Thread nD τ).loc main_arg1))))) (kEE0 m ρ c)))) (wrapCol (dstIdx (m ((c : Thread nD τ).loc main_arg1)))) (reluE (addf (gatherRows (kH0 m ρ c) (wrapCol (dstIdx (m ((c : Thread nD τ).loc main_arg1))))) (kEE0 m ρ c))) :=
  (show StableHlo.after hostOps2_5 (W9 m ρ c) (Proc.devRef .tc main_v59) = W9 m ρ c (Proc.devRef .tc main_v59) by host_kept hostOps2_5).trans (W9_main_v59 m ρ c)
theorem W11_main_v59 (c : Dev nD) : W11 m ρ c (Proc.devRef .tc main_v59) = scatterSet (scatterSet (kH0 m ρ c) (wrapCol (srcIdx (m ((c : Thread nD τ).loc main_arg1)))) (reluE (addf (gatherRows (kH0 m ρ c) (wrapCol (srcIdx (m ((c : Thread nD τ).loc main_arg1))))) (kEE0 m ρ c)))) (wrapCol (dstIdx (m ((c : Thread nD τ).loc main_arg1)))) (reluE (addf (gatherRows (kH0 m ρ c) (wrapCol (dstIdx (m ((c : Thread nD τ).loc main_arg1))))) (kEE0 m ρ c))) :=
  (show StableHlo.after hostOps2_6 (W10 m ρ c) (Proc.devRef .tc main_v59) = W10 m ρ c (Proc.devRef .tc main_v59) by host_kept hostOps2_6).trans (W10_main_v59 m ρ c)
theorem W9_main_v3 (c : Dev nD) : W9 m ρ c (Proc.devRef .tc main_v3) = dstIdx (m ((c : Thread nD τ).loc main_arg1)) :=
  (show StableHlo.after hostOps2_4 (W8 m ρ c) (Proc.devRef .tc main_v3) = W8 m ρ c (Proc.devRef .tc main_v3) by host_kept hostOps2_4).trans (W8_main_v3 m ρ c)
theorem W10_main_v3 (c : Dev nD) : W10 m ρ c (Proc.devRef .tc main_v3) = dstIdx (m ((c : Thread nD τ).loc main_arg1)) :=
  (show StableHlo.after hostOps2_5 (W9 m ρ c) (Proc.devRef .tc main_v3) = W9 m ρ c (Proc.devRef .tc main_v3) by host_kept hostOps2_5).trans (W9_main_v3 m ρ c)
theorem W7_main_v1 (c : Dev nD) : W7 m ρ c (Proc.devRef .tc main_v1) = srcIdx (m ((c : Thread nD τ).loc main_arg1)) :=
  (show StableHlo.after hostOps2_2 (W6 m ρ c) (Proc.devRef .tc main_v1) = W6 m ρ c (Proc.devRef .tc main_v1) by host_kept hostOps2_2).trans (W6_main_v1 m ρ c)
theorem W8_main_v1 (c : Dev nD) : W8 m ρ c (Proc.devRef .tc main_v1) = srcIdx (m ((c : Thread nD τ).loc main_arg1)) :=
  (show StableHlo.after hostOps2_3 (W7 m ρ c) (Proc.devRef .tc main_v1) = W7 m ρ c (Proc.devRef .tc main_v1) by host_kept hostOps2_3).trans (W7_main_v1 m ρ c)
theorem W2_main_v25_1 (c : Dev nD) : W2 m ρ c (Proc.devRef .tc main_v25_1) = kEE1 m ρ c :=
  W2_arr m ρ c 12
theorem W3_main_v25_1 (c : Dev nD) : W3 m ρ c (Proc.devRef .tc main_v25_1) = kEE1 m ρ c :=
  (show StableHlo.after hostOps1 (W2 m ρ c) (Proc.devRef .tc main_v25_1) = W2 m ρ c (Proc.devRef .tc main_v25_1) by host_kept hostOps1).trans (W2_main_v25_1 m ρ c)
theorem W4_main_v25_1 (c : Dev nD) : W4 m ρ c (Proc.devRef .tc main_v25_1) = kEE1 m ρ c :=
  (W4_of_ne m ρ c main_v25_1 (by decide)).trans (W3_main_v25_1 m ρ c)
theorem W5_main_v25_1 (c : Dev nD) : W5 m ρ c (Proc.devRef .tc main_v25_1) = kEE1 m ρ c :=
  (show StableHlo.after hostOps2 (W4 m ρ c) (Proc.devRef .tc main_v25_1) = W4 m ρ c (Proc.devRef .tc main_v25_1) by host_kept hostOps2).trans (W4_main_v25_1 m ρ c)
theorem W6_main_v25_1 (c : Dev nD) : W6 m ρ c (Proc.devRef .tc main_v25_1) = kEE1 m ρ c :=
  (show StableHlo.after hostOps2_1 (W5 m ρ c) (Proc.devRef .tc main_v25_1) = W5 m ρ c (Proc.devRef .tc main_v25_1) by host_kept hostOps2_1).trans (W5_main_v25_1 m ρ c)
theorem W7_main_v25_1 (c : Dev nD) : W7 m ρ c (Proc.devRef .tc main_v25_1) = kEE1 m ρ c :=
  (show StableHlo.after hostOps2_2 (W6 m ρ c) (Proc.devRef .tc main_v25_1) = W6 m ρ c (Proc.devRef .tc main_v25_1) by host_kept hostOps2_2).trans (W6_main_v25_1 m ρ c)
theorem W8_main_v25_1 (c : Dev nD) : W8 m ρ c (Proc.devRef .tc main_v25_1) = kEE1 m ρ c :=
  (show StableHlo.after hostOps2_3 (W7 m ρ c) (Proc.devRef .tc main_v25_1) = W7 m ρ c (Proc.devRef .tc main_v25_1) by host_kept hostOps2_3).trans (W7_main_v25_1 m ρ c)
theorem W9_main_v67 (c : Dev nD) : W9 m ρ c (Proc.devRef .tc main_v67) = addf (gatherRows (scatterSet (scatterSet (kH0 m ρ c) (wrapCol (srcIdx (m ((c : Thread nD τ).loc main_arg1)))) (reluE (addf (gatherRows (kH0 m ρ c) (wrapCol (srcIdx (m ((c : Thread nD τ).loc main_arg1))))) (kEE0 m ρ c)))) (wrapCol (dstIdx (m ((c : Thread nD τ).loc main_arg1)))) (reluE (addf (gatherRows (kH0 m ρ c) (wrapCol (dstIdx (m ((c : Thread nD τ).loc main_arg1))))) (kEE0 m ρ c)))) (wrapCol (srcIdx (m ((c : Thread nD τ).loc main_arg1))))) (kEE1 m ρ c) :=
  (hostOps2_4_main_v67 (W8 m ρ c)).trans (by rw [W8_main_v43 m ρ c, W8_main_v3 m ρ c, W8_main_v52 m ρ c, W8_main_v1 m ρ c, W8_main_v25_1 m ρ c])
theorem W10_main_v68 (c : Dev nD) : W10 m ρ c (Proc.devRef .tc main_v68) = reluE (addf (gatherRows (scatterSet (scatterSet (kH0 m ρ c) (wrapCol (srcIdx (m ((c : Thread nD τ).loc main_arg1)))) (reluE (addf (gatherRows (kH0 m ρ c) (wrapCol (srcIdx (m ((c : Thread nD τ).loc main_arg1))))) (kEE0 m ρ c)))) (wrapCol (dstIdx (m ((c : Thread nD τ).loc main_arg1)))) (reluE (addf (gatherRows (kH0 m ρ c) (wrapCol (dstIdx (m ((c : Thread nD τ).loc main_arg1))))) (kEE0 m ρ c)))) (wrapCol (srcIdx (m ((c : Thread nD τ).loc main_arg1))))) (kEE1 m ρ c)) :=
  (hostOps2_5_main_v68 (W9 m ρ c)).trans (by rw [W9_main_v67 m ρ c])
theorem W11_main_v71 (c : Dev nD) : W11 m ρ c (Proc.devRef .tc main_v71) = scatterSum (idxCol (dstIdx (m ((c : Thread nD τ).loc main_arg1)))) (reluE (addf (gatherRows (scatterSet (scatterSet (kH0 m ρ c) (wrapCol (srcIdx (m ((c : Thread nD τ).loc main_arg1)))) (reluE (addf (gatherRows (kH0 m ρ c) (wrapCol (srcIdx (m ((c : Thread nD τ).loc main_arg1))))) (kEE0 m ρ c)))) (wrapCol (dstIdx (m ((c : Thread nD τ).loc main_arg1)))) (reluE (addf (gatherRows (kH0 m ρ c) (wrapCol (dstIdx (m ((c : Thread nD τ).loc main_arg1))))) (kEE0 m ρ c)))) (wrapCol (srcIdx (m ((c : Thread nD τ).loc main_arg1))))) (kEE1 m ρ c))) :=
  (hostOps2_6_main_v71 (W10 m ρ c)).trans (by rw [W10_main_v3 m ρ c, W10_main_v68 m ρ c])
theorem W0_main_arg7 (c : Dev nD) : W0 m ρ c (Proc.devRef .tc main_arg7) = m ((c : Thread nD τ).loc main_arg7) :=
  rfl
theorem W1_main_arg7 (c : Dev nD) : W1 m ρ c (Proc.devRef .tc main_arg7) = m ((c : Thread nD τ).loc main_arg7) :=
  (show StableHlo.after hostOps0 (W0 m ρ c) (Proc.devRef .tc main_arg7) = W0 m ρ c (Proc.devRef .tc main_arg7) by host_kept hostOps0).trans (W0_main_arg7 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (show StableHlo.after hostOps1 (W2 m ρ c) (Proc.devRef .tc main_arg7) = W2 m ρ c (Proc.devRef .tc main_arg7) by host_kept hostOps1).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (show StableHlo.after hostOps2 (W4 m ρ c) (Proc.devRef .tc main_arg7) = W4 m ρ c (Proc.devRef .tc main_arg7) by host_kept hostOps2).trans (W4_main_arg7 m ρ c)
theorem W6_main_arg7 (c : Dev nD) : W6 m ρ c (Proc.devRef .tc main_arg7) = m ((c : Thread nD τ).loc main_arg7) :=
  (show StableHlo.after hostOps2_1 (W5 m ρ c) (Proc.devRef .tc main_arg7) = W5 m ρ c (Proc.devRef .tc main_arg7) by host_kept hostOps2_1).trans (W5_main_arg7 m ρ c)
theorem W7_main_arg7 (c : Dev nD) : W7 m ρ c (Proc.devRef .tc main_arg7) = m ((c : Thread nD τ).loc main_arg7) :=
  (show StableHlo.after hostOps2_2 (W6 m ρ c) (Proc.devRef .tc main_arg7) = W6 m ρ c (Proc.devRef .tc main_arg7) by host_kept hostOps2_2).trans (W6_main_arg7 m ρ c)
theorem W8_main_arg7 (c : Dev nD) : W8 m ρ c (Proc.devRef .tc main_arg7) = m ((c : Thread nD τ).loc main_arg7) :=
  (show StableHlo.after hostOps2_3 (W7 m ρ c) (Proc.devRef .tc main_arg7) = W7 m ρ c (Proc.devRef .tc main_arg7) by host_kept hostOps2_3).trans (W7_main_arg7 m ρ c)
theorem W9_main_arg7 (c : Dev nD) : W9 m ρ c (Proc.devRef .tc main_arg7) = m ((c : Thread nD τ).loc main_arg7) :=
  (show StableHlo.after hostOps2_4 (W8 m ρ c) (Proc.devRef .tc main_arg7) = W8 m ρ c (Proc.devRef .tc main_arg7) by host_kept hostOps2_4).trans (W8_main_arg7 m ρ c)
theorem W10_main_arg7 (c : Dev nD) : W10 m ρ c (Proc.devRef .tc main_arg7) = m ((c : Thread nD τ).loc main_arg7) :=
  (show StableHlo.after hostOps2_5 (W9 m ρ c) (Proc.devRef .tc main_arg7) = W9 m ρ c (Proc.devRef .tc main_arg7) by host_kept hostOps2_5).trans (W9_main_arg7 m ρ c)
theorem W11_main_v87 (c : Dev nD) : W11 m ρ c (Proc.devRef .tc main_v87) = shapeCast S1x1 (shapeCast S_ (extractStridedSlice S1 ![0] (m ((c : Thread nD τ).loc main_arg7)) slices_S2_S1_0) shapeCasts_S1_S_) shapeCasts_S_S1x1 :=
  (hostOps2_6_main_v87 (W10 m ρ c)).trans (by rw [W10_main_arg7 m ρ c])
theorem W0_main_arg12 (c : Dev nD) : W0 m ρ c (Proc.devRef .tc main_arg12) = m ((c : Thread nD τ).loc main_arg12) :=
  rfl
theorem W1_main_arg12 (c : Dev nD) : W1 m ρ c (Proc.devRef .tc main_arg12) = m ((c : Thread nD τ).loc main_arg12) :=
  (show StableHlo.after hostOps0 (W0 m ρ c) (Proc.devRef .tc main_arg12) = W0 m ρ c (Proc.devRef .tc main_arg12) by host_kept hostOps0).trans (W0_main_arg12 m ρ c)
theorem W2_main_arg12 (c : Dev nD) : W2 m ρ c (Proc.devRef .tc main_arg12) = m ((c : Thread nD τ).loc main_arg12) :=
  (W2_of_ne m ρ c main_arg12 (by decide)).trans (W1_main_arg12 m ρ c)
theorem W3_main_arg12 (c : Dev nD) : W3 m ρ c (Proc.devRef .tc main_arg12) = m ((c : Thread nD τ).loc main_arg12) :=
  (show StableHlo.after hostOps1 (W2 m ρ c) (Proc.devRef .tc main_arg12) = W2 m ρ c (Proc.devRef .tc main_arg12) by host_kept hostOps1).trans (W2_main_arg12 m ρ c)
theorem W4_main_arg12 (c : Dev nD) : W4 m ρ c (Proc.devRef .tc main_arg12) = m ((c : Thread nD τ).loc main_arg12) :=
  (W4_of_ne m ρ c main_arg12 (by decide)).trans (W3_main_arg12 m ρ c)
theorem W5_main_arg12 (c : Dev nD) : W5 m ρ c (Proc.devRef .tc main_arg12) = m ((c : Thread nD τ).loc main_arg12) :=
  (show StableHlo.after hostOps2 (W4 m ρ c) (Proc.devRef .tc main_arg12) = W4 m ρ c (Proc.devRef .tc main_arg12) by host_kept hostOps2).trans (W4_main_arg12 m ρ c)
theorem W6_main_arg12 (c : Dev nD) : W6 m ρ c (Proc.devRef .tc main_arg12) = m ((c : Thread nD τ).loc main_arg12) :=
  (show StableHlo.after hostOps2_1 (W5 m ρ c) (Proc.devRef .tc main_arg12) = W5 m ρ c (Proc.devRef .tc main_arg12) by host_kept hostOps2_1).trans (W5_main_arg12 m ρ c)
theorem W7_main_arg12 (c : Dev nD) : W7 m ρ c (Proc.devRef .tc main_arg12) = m ((c : Thread nD τ).loc main_arg12) :=
  (show StableHlo.after hostOps2_2 (W6 m ρ c) (Proc.devRef .tc main_arg12) = W6 m ρ c (Proc.devRef .tc main_arg12) by host_kept hostOps2_2).trans (W6_main_arg12 m ρ c)
theorem W8_main_arg12 (c : Dev nD) : W8 m ρ c (Proc.devRef .tc main_arg12) = m ((c : Thread nD τ).loc main_arg12) :=
  (show StableHlo.after hostOps2_3 (W7 m ρ c) (Proc.devRef .tc main_arg12) = W7 m ρ c (Proc.devRef .tc main_arg12) by host_kept hostOps2_3).trans (W7_main_arg12 m ρ c)
theorem W9_main_arg12 (c : Dev nD) : W9 m ρ c (Proc.devRef .tc main_arg12) = m ((c : Thread nD τ).loc main_arg12) :=
  (show StableHlo.after hostOps2_4 (W8 m ρ c) (Proc.devRef .tc main_arg12) = W8 m ρ c (Proc.devRef .tc main_arg12) by host_kept hostOps2_4).trans (W8_main_arg12 m ρ c)
theorem W10_main_arg12 (c : Dev nD) : W10 m ρ c (Proc.devRef .tc main_arg12) = m ((c : Thread nD τ).loc main_arg12) :=
  (show StableHlo.after hostOps2_5 (W9 m ρ c) (Proc.devRef .tc main_arg12) = W9 m ρ c (Proc.devRef .tc main_arg12) by host_kept hostOps2_5).trans (W9_main_arg12 m ρ c)
theorem W11_main_v75 (c : Dev nD) : W11 m ρ c (Proc.devRef .tc main_v75) = shapeCast S128x256 (extractStridedSlice S1x128x256 ![0, 0, 0] (m ((c : Thread nD τ).loc main_arg12)) slices_S2x128x256_S1x128x256_0_0_0) shapeCasts_S1x128x256_S128x256 :=
  (hostOps2_6_main_v75 (W10 m ρ c)).trans (by rw [W10_main_arg12 m ρ c])
theorem W0_main_arg13 (c : Dev nD) : W0 m ρ c (Proc.devRef .tc main_arg13) = m ((c : Thread nD τ).loc main_arg13) :=
  rfl
theorem W1_main_arg13 (c : Dev nD) : W1 m ρ c (Proc.devRef .tc main_arg13) = m ((c : Thread nD τ).loc main_arg13) :=
  (show StableHlo.after hostOps0 (W0 m ρ c) (Proc.devRef .tc main_arg13) = W0 m ρ c (Proc.devRef .tc main_arg13) by host_kept hostOps0).trans (W0_main_arg13 m ρ c)
theorem W2_main_arg13 (c : Dev nD) : W2 m ρ c (Proc.devRef .tc main_arg13) = m ((c : Thread nD τ).loc main_arg13) :=
  (W2_of_ne m ρ c main_arg13 (by decide)).trans (W1_main_arg13 m ρ c)
theorem W3_main_arg13 (c : Dev nD) : W3 m ρ c (Proc.devRef .tc main_arg13) = m ((c : Thread nD τ).loc main_arg13) :=
  (show StableHlo.after hostOps1 (W2 m ρ c) (Proc.devRef .tc main_arg13) = W2 m ρ c (Proc.devRef .tc main_arg13) by host_kept hostOps1).trans (W2_main_arg13 m ρ c)
theorem W4_main_arg13 (c : Dev nD) : W4 m ρ c (Proc.devRef .tc main_arg13) = m ((c : Thread nD τ).loc main_arg13) :=
  (W4_of_ne m ρ c main_arg13 (by decide)).trans (W3_main_arg13 m ρ c)
theorem W5_main_arg13 (c : Dev nD) : W5 m ρ c (Proc.devRef .tc main_arg13) = m ((c : Thread nD τ).loc main_arg13) :=
  (show StableHlo.after hostOps2 (W4 m ρ c) (Proc.devRef .tc main_arg13) = W4 m ρ c (Proc.devRef .tc main_arg13) by host_kept hostOps2).trans (W4_main_arg13 m ρ c)
theorem W6_main_arg13 (c : Dev nD) : W6 m ρ c (Proc.devRef .tc main_arg13) = m ((c : Thread nD τ).loc main_arg13) :=
  (show StableHlo.after hostOps2_1 (W5 m ρ c) (Proc.devRef .tc main_arg13) = W5 m ρ c (Proc.devRef .tc main_arg13) by host_kept hostOps2_1).trans (W5_main_arg13 m ρ c)
theorem W7_main_arg13 (c : Dev nD) : W7 m ρ c (Proc.devRef .tc main_arg13) = m ((c : Thread nD τ).loc main_arg13) :=
  (show StableHlo.after hostOps2_2 (W6 m ρ c) (Proc.devRef .tc main_arg13) = W6 m ρ c (Proc.devRef .tc main_arg13) by host_kept hostOps2_2).trans (W6_main_arg13 m ρ c)
theorem W8_main_arg13 (c : Dev nD) : W8 m ρ c (Proc.devRef .tc main_arg13) = m ((c : Thread nD τ).loc main_arg13) :=
  (show StableHlo.after hostOps2_3 (W7 m ρ c) (Proc.devRef .tc main_arg13) = W7 m ρ c (Proc.devRef .tc main_arg13) by host_kept hostOps2_3).trans (W7_main_arg13 m ρ c)
theorem W9_main_arg13 (c : Dev nD) : W9 m ρ c (Proc.devRef .tc main_arg13) = m ((c : Thread nD τ).loc main_arg13) :=
  (show StableHlo.after hostOps2_4 (W8 m ρ c) (Proc.devRef .tc main_arg13) = W8 m ρ c (Proc.devRef .tc main_arg13) by host_kept hostOps2_4).trans (W8_main_arg13 m ρ c)
theorem W10_main_arg13 (c : Dev nD) : W10 m ρ c (Proc.devRef .tc main_arg13) = m ((c : Thread nD τ).loc main_arg13) :=
  (show StableHlo.after hostOps2_5 (W9 m ρ c) (Proc.devRef .tc main_arg13) = W9 m ρ c (Proc.devRef .tc main_arg13) by host_kept hostOps2_5).trans (W9_main_arg13 m ρ c)
theorem W11_main_v86 (c : Dev nD) : W11 m ρ c (Proc.devRef .tc main_v86) = shapeCast S1x256 (shapeCast S256 (extractStridedSlice S1x256 ![0, 0] (m ((c : Thread nD τ).loc main_arg13)) slices_S2x256_S1x256_0_0) shapeCasts_S1x256_S256) shapeCasts_S256_S1x256 :=
  (hostOps2_6_main_v86 (W10 m ρ c)).trans (by rw [W10_main_arg13 m ρ c])

/-! ## The input arrays of region 2 at entry -/

theorem V11_main_v59 (c : Dev nD) : V11 m ρ c main_v59 = hUpd (kH0 m ρ c) (m ((c : Thread nD τ).loc main_arg1)) (kEE0 m ρ c) := W11_main_v59 m ρ c
theorem V11_main_v71 (c : Dev nD) : V11 m ρ c main_v71 = aggMsg (hUpd (kH0 m ρ c) (m ((c : Thread nD τ).loc main_arg1)) (kEE0 m ρ c)) (m ((c : Thread nD τ).loc main_arg1)) (kEE1 m ρ c) := W11_main_v71 m ρ c
theorem V11_main_v87 (c : Dev nD) : V11 m ρ c main_v87 = shapeCast S1x1 (shapeCast S_ (extractStridedSlice S1 ![0] (m ((c : Thread nD τ).loc main_arg7)) slices_S2_S1_0) shapeCasts_S1_S_) shapeCasts_S_S1x1 := W11_main_v87 m ρ c
theorem V11_main_v75 (c : Dev nD) : V11 m ρ c main_v75 = shapeCast S128x256 (extractStridedSlice S1x128x256 ![0, 0, 0] (m ((c : Thread nD τ).loc main_arg12)) slices_S2x128x256_S1x128x256_0_0_0) shapeCasts_S1x128x256_S128x256 := W11_main_v75 m ρ c
theorem V11_main_v86 (c : Dev nD) : V11 m ρ c main_v86 = shapeCast S1x256 (shapeCast S256 (extractStridedSlice S1x256 ![0, 0] (m ((c : Thread nD τ).loc main_arg13)) slices_S2x256_S1x256_0_0) shapeCasts_S1x256_S256) shapeCasts_S256_S1x256 := W11_main_v86 m ρ c
end Cert.Fold

end
-- ==== Proof.Fold3.lean ====
/-
  The contents of the input arrays of region 3 when it is entered.

  Region 2 leaves the wide node table and, per block of rows, the column sums and the column sums of squares.  The host
  stretch before region 3 adds the per-block sums over the blocks and divides by the number of nodes: the per-column
  mean, and the mean of squares minus the square of the mean.  The remaining inputs are slices of the parameter arrays
  (some taken in the stretch before region 2).
-/
import proofs.«168167_j60026462929460_2_alg».proof.Proof.Fold2

set_option maxRecDepth 16384

noncomputable section

namespace Cert.Fold

open Idealize.ShloMosaic Idealize.ShloMosaic.TcCoe Idealize.ShloMosaic.StableHlo
open Idealize.ShloMosaic.Pipeline (Dat Cfg Window)
open Cert.KernelIdeal Cert.KernelIdeal.Gen Cert.Kept

variable {F : FTy → Type} [FloatOps F]
variable (m : (ℓ : Loc nD τ sig) → Buf (Elt F) ℓ) (ρ : Dev nD → PrngReg)

theorem W12_main_v88_0 (c : Dev nD) : W12 m ρ c (Proc.devRef .tc main_v88_0) = kZ1 m ρ c :=
  W12_arr m ρ c 5
theorem W13_main_v88_0 (c : Dev nD) : W13 m ρ c (Proc.devRef .tc main_v88_0) = kZ1 m ρ c :=
  (show StableHlo.after hostOps3 (W12 m ρ c) (Proc.devRef .tc main_v88_0) = W12 m ρ c (Proc.devRef .tc main_v88_0) by host_kept hostOps3).trans (W12_main_v88_0 m ρ c)
theorem W12_main_v88_1 (c : Dev nD) : W12 m ρ c (Proc.devRef .tc main_v88_1) = kS1 m ρ c :=
  W12_arr m ρ c 6
theorem W13_main_v100 (c : Dev nD) : W13 m ρ c (Proc.devRef .tc main_v100) = colMean (kS1 m ρ c) :=
  (hostOps3_main_v100 (W12 m ρ c)).trans (by rw [W12_main_v88_1 m ρ c])
theorem W12_main_v88_2 (c : Dev nD) : W12 m ρ c (Proc.devRef .tc main_v88_2) = kQ1 m ρ c :=
  W12_arr m ρ c 7
theorem W13_main_v104 (c : Dev nD) : W13 m ρ c (Proc.devRef .tc main_v104) = colVar (kQ1 m ρ c) (kS1 m ρ c) :=
  (hostOps3_main_v104 (W12 m ρ c)).trans (by rw [W12_main_v88_2 m ρ c, W12_main_v88_1 m ρ c])
theorem W0_main_arg14 (c : Dev nD) : W0 m ρ c (Proc.devRef .tc main_arg14) = m ((c : Thread nD τ).loc main_arg14) :=
  rfl
theorem W1_main_arg14 (c : Dev nD) : W1 m ρ c (Proc.devRef .tc main_arg14) = m ((c : Thread nD τ).loc main_arg14) :=
  (show StableHlo.after hostOps0 (W0 m ρ c) (Proc.devRef .tc main_arg14) = W0 m ρ c (Proc.devRef .tc main_arg14) by host_kept hostOps0).trans (W0_main_arg14 m ρ c)
theorem W2_main_arg14 (c : Dev nD) : W2 m ρ c (Proc.devRef .tc main_arg14) = m ((c : Thread nD τ).loc main_arg14) :=
  (W2_of_ne m ρ c main_arg14 (by decide)).trans (W1_main_arg14 m ρ c)
theorem W3_main_arg14 (c : Dev nD) : W3 m ρ c (Proc.devRef .tc main_arg14) = m ((c : Thread nD τ).loc main_arg14) :=
  (show StableHlo.after hostOps1 (W2 m ρ c) (Proc.devRef .tc main_arg14) = W2 m ρ c (Proc.devRef .tc main_arg14) by host_kept hostOps1).trans (W2_main_arg14 m ρ c)
theorem W4_main_arg14 (c : Dev nD) : W4 m ρ c (Proc.devRef .tc main_arg14) = m ((c : Thread nD τ).loc main_arg14) :=
  (W4_of_ne m ρ c main_arg14 (by decide)).trans (W3_main_arg14 m ρ c)
theorem W5_main_arg14 (c : Dev nD) : W5 m ρ c (Proc.devRef .tc main_arg14) = m ((c : Thread nD τ).loc main_arg14) :=
  (show StableHlo.after hostOps2 (W4 m ρ c) (Proc.devRef .tc main_arg14) = W4 m ρ c (Proc.devRef .tc main_arg14) by host_kept hostOps2).trans (W4_main_arg14 m ρ c)
theorem W6_main_arg14 (c : Dev nD) : W6 m ρ c (Proc.devRef .tc main_arg14) = m ((c : Thread nD τ).loc main_arg14) :=
  (show StableHlo.after hostOps2_1 (W5 m ρ c) (Proc.devRef .tc main_arg14) = W5 m ρ c (Proc.devRef .tc main_arg14) by host_kept hostOps2_1).trans (W5_main_arg14 m ρ c)
theorem W7_main_arg14 (c : Dev nD) : W7 m ρ c (Proc.devRef .tc main_arg14) = m ((c : Thread nD τ).loc main_arg14) :=
  (show StableHlo.after hostOps2_2 (W6 m ρ c) (Proc.devRef .tc main_arg14) = W6 m ρ c (Proc.devRef .tc main_arg14) by host_kept hostOps2_2).trans (W6_main_arg14 m ρ c)
theorem W8_main_arg14 (c : Dev nD) : W8 m ρ c (Proc.devRef .tc main_arg14) = m ((c : Thread nD τ).loc main_arg14) :=
  (show StableHlo.after hostOps2_3 (W7 m ρ c) (Proc.devRef .tc main_arg14) = W7 m ρ c (Proc.devRef .tc main_arg14) by host_kept hostOps2_3).trans (W7_main_arg14 m ρ c)
theorem W9_main_arg14 (c : Dev nD) : W9 m ρ c (Proc.devRef .tc main_arg14) = m ((c : Thread nD τ).loc main_arg14) :=
  (show StableHlo.after hostOps2_4 (W8 m ρ c) (Proc.devRef .tc main_arg14) = W8 m ρ c (Proc.devRef .tc main_arg14) by host_kept hostOps2_4).trans (W8_main_arg14 m ρ c)
theorem W10_main_arg14 (c : Dev nD) : W10 m ρ c (Proc.devRef .tc main_arg14) = m ((c : Thread nD τ).loc main_arg14) :=
  (show StableHlo.after hostOps2_5 (W9 m ρ c) (Proc.devRef .tc main_arg14) = W9 m ρ c (Proc.devRef .tc main_arg14) by host_kept hostOps2_5).trans (W9_main_arg14 m ρ c)
theorem W11_main_v79 (c : Dev nD) : W11 m ρ c (Proc.devRef .tc main_v79) = shapeCast S256 (extractStridedSlice S1x256 ![0, 0] (m ((c : Thread nD τ).loc main_arg14)) slices_S2x256_S1x256_0_0) shapeCasts_S1x256_S256 :=
  (hostOps2_6_main_v79 (W10 m ρ c)).trans (by rw [W10_main_arg14 m ρ c])
theorem W12_main_v79 (c : Dev nD) : W12 m ρ c (Proc.devRef .tc main_v79) = shapeCast S256 (extractStridedSlice S1x256 ![0, 0] (m ((c : Thread nD τ).loc main_arg14)) slices_S2x256_S1x256_0_0) shapeCasts_S1x256_S256 :=
  (W12_of_ne m ρ c main_v79 (by decide)).trans (W11_main_v79 m ρ c)
theorem W13_main_v105 (c : Dev nD) : W13 m ρ c (Proc.devRef .tc main_v105) = shapeCast S1x256 (shapeCast S256 (extractStridedSlice S1x256 ![0, 0] (m ((c : Thread nD τ).loc main_arg14)) slices_S2x256_S1x256_0_0) shapeCasts_S1x256_S256) shapeCasts_S256_S1x256 :=
  (hostOps3_main_v105 (W12 m ρ c)).trans (by rw [W12_main_v79 m ρ c])
theorem W0_main_arg15 (c : Dev nD) : W0 m ρ c (Proc.devRef .tc main_arg15) = m ((c : Thread nD τ).loc main_arg15) :=
  rfl
theorem W1_main_arg15 (c : Dev nD) : W1 m ρ c (Proc.devRef .tc main_arg15) = m ((c : Thread nD τ).loc main_arg15) :=
  (show StableHlo.after hostOps0 (W0 m ρ c) (Proc.devRef .tc main_arg15) = W0 m ρ c (Proc.devRef .tc main_arg15) by host_kept hostOps0).trans (W0_main_arg15 m ρ c)
theorem W2_main_arg15 (c : Dev nD) : W2 m ρ c (Proc.devRef .tc main_arg15) = m ((c : Thread nD τ).loc main_arg15) :=
  (W2_of_ne m ρ c main_arg15 (by decide)).trans (W1_main_arg15 m ρ c)
theorem W3_main_arg15 (c : Dev nD) : W3 m ρ c (Proc.devRef .tc main_arg15) = m ((c : Thread nD τ).loc main_arg15) :=
  (show StableHlo.after hostOps1 (W2 m ρ c) (Proc.devRef .tc main_arg15) = W2 m ρ c (Proc.devRef .tc main_arg15) by host_kept hostOps1).trans (W2_main_arg15 m ρ c)
theorem W4_main_arg15 (c : Dev nD) : W4 m ρ c (Proc.devRef .tc main_arg15) = m ((c : Thread nD τ).loc main_arg15) :=
  (W4_of_ne m ρ c main_arg15 (by decide)).trans (W3_main_arg15 m ρ c)
theorem W5_main_arg15 (c : Dev nD) : W5 m ρ c (Proc.devRef .tc main_arg15) = m ((c : Thread nD τ).loc main_arg15) :=
  (show StableHlo.after hostOps2 (W4 m ρ c) (Proc.devRef .tc main_arg15) = W4 m ρ c (Proc.devRef .tc main_arg15) by host_kept hostOps2).trans (W4_main_arg15 m ρ c)
theorem W6_main_arg15 (c : Dev nD) : W6 m ρ c (Proc.devRef .tc main_arg15) = m ((c : Thread nD τ).loc main_arg15) :=
  (show StableHlo.after hostOps2_1 (W5 m ρ c) (Proc.devRef .tc main_arg15) = W5 m ρ c (Proc.devRef .tc main_arg15) by host_kept hostOps2_1).trans (W5_main_arg15 m ρ c)
theorem W7_main_arg15 (c : Dev nD) : W7 m ρ c (Proc.devRef .tc main_arg15) = m ((c : Thread nD τ).loc main_arg15) :=
  (show StableHlo.after hostOps2_2 (W6 m ρ c) (Proc.devRef .tc main_arg15) = W6 m ρ c (Proc.devRef .tc main_arg15) by host_kept hostOps2_2).trans (W6_main_arg15 m ρ c)
theorem W8_main_arg15 (c : Dev nD) : W8 m ρ c (Proc.devRef .tc main_arg15) = m ((c : Thread nD τ).loc main_arg15) :=
  (show StableHlo.after hostOps2_3 (W7 m ρ c) (Proc.devRef .tc main_arg15) = W7 m ρ c (Proc.devRef .tc main_arg15) by host_kept hostOps2_3).trans (W7_main_arg15 m ρ c)
theorem W9_main_arg15 (c : Dev nD) : W9 m ρ c (Proc.devRef .tc main_arg15) = m ((c : Thread nD τ).loc main_arg15) :=
  (show StableHlo.after hostOps2_4 (W8 m ρ c) (Proc.devRef .tc main_arg15) = W8 m ρ c (Proc.devRef .tc main_arg15) by host_kept hostOps2_4).trans (W8_main_arg15 m ρ c)
theorem W10_main_arg15 (c : Dev nD) : W10 m ρ c (Proc.devRef .tc main_arg15) = m ((c : Thread nD τ).loc main_arg15) :=
  (show StableHlo.after hostOps2_5 (W9 m ρ c) (Proc.devRef .tc main_arg15) = W9 m ρ c (Proc.devRef .tc main_arg15) by host_kept hostOps2_5).trans (W9_main_arg15 m ρ c)
theorem W11_main_v81 (c : Dev nD) : W11 m ρ c (Proc.devRef .tc main_v81) = shapeCast S256 (extractStridedSlice S1x256 ![0, 0] (m ((c : Thread nD τ).loc main_arg15)) slices_S2x256_S1x256_0_0) shapeCasts_S1x256_S256 :=
  (hostOps2_6_main_v81 (W10 m ρ c)).trans (by rw [W10_main_arg15 m ρ c])
theorem W12_main_v81 (c : Dev nD) : W12 m ρ c (Proc.devRef .tc main_v81) = shapeCast S256 (extractStridedSlice S1x256 ![0, 0] (m ((c : Thread nD τ).loc main_arg15)) slices_S2x256_S1x256_0_0) shapeCasts_S1x256_S256 :=
  (W12_of_ne m ρ c main_v81 (by decide)).trans (W11_main_v81 m ρ c)
theorem W13_main_v106 (c : Dev nD) : W13 m ρ c (Proc.devRef .tc main_v106) = shapeCast S1x256 (shapeCast S256 (extractStridedSlice S1x256 ![0, 0] (m ((c : Thread nD τ).loc main_arg15)) slices_S2x256_S1x256_0_0) shapeCasts_S1x256_S256) shapeCasts_S256_S1x256 :=
  (hostOps3_main_v106 (W12 m ρ c)).trans (by rw [W12_main_v81 m ρ c])
theorem W0_main_arg16 (c : Dev nD) : W0 m ρ c (Proc.devRef .tc main_arg16) = m ((c : Thread nD τ).loc main_arg16) :=
  rfl
theorem W1_main_arg16 (c : Dev nD) : W1 m ρ c (Proc.devRef .tc main_arg16) = m ((c : Thread nD τ).loc main_arg16) :=
  (show StableHlo.after hostOps0 (W0 m ρ c) (Proc.devRef .tc main_arg16) = W0 m ρ c (Proc.devRef .tc main_arg16) by host_kept hostOps0).trans (W0_main_arg16 m ρ c)
theorem W2_main_arg16 (c : Dev nD) : W2 m ρ c (Proc.devRef .tc main_arg16) = m ((c : Thread nD τ).loc main_arg16) :=
  (W2_of_ne m ρ c main_arg16 (by decide)).trans (W1_main_arg16 m ρ c)
theorem W3_main_arg16 (c : Dev nD) : W3 m ρ c (Proc.devRef .tc main_arg16) = m ((c : Thread nD τ).loc main_arg16) :=
  (show StableHlo.after hostOps1 (W2 m ρ c) (Proc.devRef .tc main_arg16) = W2 m ρ c (Proc.devRef .tc main_arg16) by host_kept hostOps1).trans (W2_main_arg16 m ρ c)
theorem W4_main_arg16 (c : Dev nD) : W4 m ρ c (Proc.devRef .tc main_arg16) = m ((c : Thread nD τ).loc main_arg16) :=
  (W4_of_ne m ρ c main_arg16 (by decide)).trans (W3_main_arg16 m ρ c)
theorem W5_main_arg16 (c : Dev nD) : W5 m ρ c (Proc.devRef .tc main_arg16) = m ((c : Thread nD τ).loc main_arg16) :=
  (show StableHlo.after hostOps2 (W4 m ρ c) (Proc.devRef .tc main_arg16) = W4 m ρ c (Proc.devRef .tc main_arg16) by host_kept hostOps2).trans (W4_main_arg16 m ρ c)
theorem W6_main_arg16 (c : Dev nD) : W6 m ρ c (Proc.devRef .tc main_arg16) = m ((c : Thread nD τ).loc main_arg16) :=
  (show StableHlo.after hostOps2_1 (W5 m ρ c) (Proc.devRef .tc main_arg16) = W5 m ρ c (Proc.devRef .tc main_arg16) by host_kept hostOps2_1).trans (W5_main_arg16 m ρ c)
theorem W7_main_arg16 (c : Dev nD) : W7 m ρ c (Proc.devRef .tc main_arg16) = m ((c : Thread nD τ).loc main_arg16) :=
  (show StableHlo.after hostOps2_2 (W6 m ρ c) (Proc.devRef .tc main_arg16) = W6 m ρ c (Proc.devRef .tc main_arg16) by host_kept hostOps2_2).trans (W6_main_arg16 m ρ c)
theorem W8_main_arg16 (c : Dev nD) : W8 m ρ c (Proc.devRef .tc main_arg16) = m ((c : Thread nD τ).loc main_arg16) :=
  (show StableHlo.after hostOps2_3 (W7 m ρ c) (Proc.devRef .tc main_arg16) = W7 m ρ c (Proc.devRef .tc main_arg16) by host_kept hostOps2_3).trans (W7_main_arg16 m ρ c)
theorem W9_main_arg16 (c : Dev nD) : W9 m ρ c (Proc.devRef .tc main_arg16) = m ((c : Thread nD τ).loc main_arg16) :=
  (show StableHlo.after hostOps2_4 (W8 m ρ c) (Proc.devRef .tc main_arg16) = W8 m ρ c (Proc.devRef .tc main_arg16) by host_kept hostOps2_4).trans (W8_main_arg16 m ρ c)
theorem W10_main_arg16 (c : Dev nD) : W10 m ρ c (Proc.devRef .tc main_arg16) = m ((c : Thread nD τ).loc main_arg16) :=
  (show StableHlo.after hostOps2_5 (W9 m ρ c) (Proc.devRef .tc main_arg16) = W9 m ρ c (Proc.devRef .tc main_arg16) by host_kept hostOps2_5).trans (W9_main_arg16 m ρ c)
theorem W11_main_v83 (c : Dev nD) : W11 m ρ c (Proc.devRef .tc main_v83) = shapeCast S256x128 (extractStridedSlice S1x256x128 ![0, 0, 0] (m ((c : Thread nD τ).loc main_arg16)) slices_S2x256x128_S1x256x128_0_0_0) shapeCasts_S1x256x128_S256x128 :=
  (hostOps2_6_main_v83 (W10 m ρ c)).trans (by rw [W10_main_arg16 m ρ c])
theorem W12_main_v83 (c : Dev nD) : W12 m ρ c (Proc.devRef .tc main_v83) = shapeCast S256x128 (extractStridedSlice S1x256x128 ![0, 0, 0] (m ((c : Thread nD τ).loc main_arg16)) slices_S2x256x128_S1x256x128_0_0_0) shapeCasts_S1x256x128_S256x128 :=
  (W12_of_ne m ρ c main_v83 (by decide)).trans (W11_main_v83 m ρ c)
theorem W13_main_v83 (c : Dev nD) : W13 m ρ c (Proc.devRef .tc main_v83) = shapeCast S256x128 (extractStridedSlice S1x256x128 ![0, 0, 0] (m ((c : Thread nD τ).loc main_arg16)) slices_S2x256x128_S1x256x128_0_0_0) shapeCasts_S1x256x128_S256x128 :=
  (show StableHlo.after hostOps3 (W12 m ρ c) (Proc.devRef .tc main_v83) = W12 m ρ c (Proc.devRef .tc main_v83) by host_kept hostOps3).trans (W12_main_v83 m ρ c)
theorem W0_main_arg17 (c : Dev nD) : W0 m ρ c (Proc.devRef .tc main_arg17) = m ((c : Thread nD τ).loc main_arg17) :=
  rfl
theorem W1_main_arg17 (c : Dev nD) : W1 m ρ c (Proc.devRef .tc main_arg17) = m ((c : Thread nD τ).loc main_arg17) :=
  (show StableHlo.after hostOps0 (W0 m ρ c) (Proc.devRef .tc main_arg17) = W0 m ρ c (Proc.devRef .tc main_arg17) by host_kept hostOps0).trans (W0_main_arg17 m ρ c)
theorem W2_main_arg17 (c : Dev nD) : W2 m ρ c (Proc.devRef .tc main_arg17) = m ((c : Thread nD τ).loc main_arg17) :=
  (W2_of_ne m ρ c main_arg17 (by decide)).trans (W1_main_arg17 m ρ c)
theorem W3_main_arg17 (c : Dev nD) : W3 m ρ c (Proc.devRef .tc main_arg17) = m ((c : Thread nD τ).loc main_arg17) :=
  (show StableHlo.after hostOps1 (W2 m ρ c) (Proc.devRef .tc main_arg17) = W2 m ρ c (Proc.devRef .tc main_arg17) by host_kept hostOps1).trans (W2_main_arg17 m ρ c)
theorem W4_main_arg17 (c : Dev nD) : W4 m ρ c (Proc.devRef .tc main_arg17) = m ((c : Thread nD τ).loc main_arg17) :=
  (W4_of_ne m ρ c main_arg17 (by decide)).trans (W3_main_arg17 m ρ c)
theorem W5_main_arg17 (c : Dev nD) : W5 m ρ c (Proc.devRef .tc main_arg17) = m ((c : Thread nD τ).loc main_arg17) :=
  (show StableHlo.after hostOps2 (W4 m ρ c) (Proc.devRef .tc main_arg17) = W4 m ρ c (Proc.devRef .tc main_arg17) by host_kept hostOps2).trans (W4_main_arg17 m ρ c)
theorem W6_main_arg17 (c : Dev nD) : W6 m ρ c (Proc.devRef .tc main_arg17) = m ((c : Thread nD τ).loc main_arg17) :=
  (show StableHlo.after hostOps2_1 (W5 m ρ c) (Proc.devRef .tc main_arg17) = W5 m ρ c (Proc.devRef .tc main_arg17) by host_kept hostOps2_1).trans (W5_main_arg17 m ρ c)
theorem W7_main_arg17 (c : Dev nD) : W7 m ρ c (Proc.devRef .tc main_arg17) = m ((c : Thread nD τ).loc main_arg17) :=
  (show StableHlo.after hostOps2_2 (W6 m ρ c) (Proc.devRef .tc main_arg17) = W6 m ρ c (Proc.devRef .tc main_arg17) by host_kept hostOps2_2).trans (W6_main_arg17 m ρ c)
theorem W8_main_arg17 (c : Dev nD) : W8 m ρ c (Proc.devRef .tc main_arg17) = m ((c : Thread nD τ).loc main_arg17) :=
  (show StableHlo.after hostOps2_3 (W7 m ρ c) (Proc.devRef .tc main_arg17) = W7 m ρ c (Proc.devRef .tc main_arg17) by host_kept hostOps2_3).trans (W7_main_arg17 m ρ c)
theorem W9_main_arg17 (c : Dev nD) : W9 m ρ c (Proc.devRef .tc main_arg17) = m ((c : Thread nD τ).loc main_arg17) :=
  (show StableHlo.after hostOps2_4 (W8 m ρ c) (Proc.devRef .tc main_arg17) = W8 m ρ c (Proc.devRef .tc main_arg17) by host_kept hostOps2_4).trans (W8_main_arg17 m ρ c)
theorem W10_main_arg17 (c : Dev nD) : W10 m ρ c (Proc.devRef .tc main_arg17) = m ((c : Thread nD τ).loc main_arg17) :=
  (show StableHlo.after hostOps2_5 (W9 m ρ c) (Proc.devRef .tc main_arg17) = W9 m ρ c (Proc.devRef .tc main_arg17) by host_kept hostOps2_5).trans (W9_main_arg17 m ρ c)
theorem W11_main_v85 (c : Dev nD) : W11 m ρ c (Proc.devRef .tc main_v85) = shapeCast S128 (extractStridedSlice S1x128 ![0, 0] (m ((c : Thread nD τ).loc main_arg17)) slices_S2x128_S1x128_0_0) shapeCasts_S1x128_S128 :=
  (hostOps2_6_main_v85 (W10 m ρ c)).trans (by rw [W10_main_arg17 m ρ c])
theorem W12_main_v85 (c : Dev nD) : W12 m ρ c (Proc.devRef .tc main_v85) = shapeCast S128 (extractStridedSlice S1x128 ![0, 0] (m ((c : Thread nD τ).loc main_arg17)) slices_S2x128_S1x128_0_0) shapeCasts_S1x128_S128 :=
  (W12_of_ne m ρ c main_v85 (by decide)).trans (W11_main_v85 m ρ c)
theorem W13_main_v107 (c : Dev nD) : W13 m ρ c (Proc.devRef .tc main_v107) = shapeCast S1x128 (shapeCast S128 (extractStridedSlice S1x128 ![0, 0] (m ((c : Thread nD τ).loc main_arg17)) slices_S2x128_S1x128_0_0) shapeCasts_S1x128_S128) shapeCasts_S128_S1x128 :=
  (hostOps3_main_v107 (W12 m ρ c)).trans (by rw [W12_main_v85 m ρ c])

/-! ## The input arrays of region 3 at entry -/

theorem V13_main_v88_0 (c : Dev nD) : V13 m ρ c main_v88_0 = kZ1 m ρ c := W13_main_v88_0 m ρ c
theorem V13_main_v100 (c : Dev nD) : V13 m ρ c main_v100 = colMean (kS1 m ρ c) := W13_main_v100 m ρ c
theorem V13_main_v104 (c : Dev nD) : V13 m ρ c main_v104 = colVar (kQ1 m ρ c) (kS1 m ρ c) := W13_main_v104 m ρ c
theorem V13_main_v105 (c : Dev nD) : V13 m ρ c main_v105 = shapeCast S1x256 (shapeCast S256 (extractStridedSlice S1x256 ![0, 0] (m ((c : Thread nD τ).loc main_arg14)) slices_S2x256_S1x256_0_0) shapeCasts_S1x256_S256) shapeCasts_S256_S1x256 := W13_main_v105 m ρ c
theorem V13_main_v106 (c : Dev nD) : V13 m ρ c main_v106 = shapeCast S1x256 (shapeCast S256 (extractStridedSlice S1x256 ![0, 0] (m ((c : Thread nD τ).loc main_arg15)) slices_S2x256_S1x256_0_0) shapeCasts_S1x256_S256) shapeCasts_S256_S1x256 := W13_main_v106 m ρ c
theorem V13_main_v83 (c : Dev nD) : V13 m ρ c main_v83 = shapeCast S256x128 (extractStridedSlice S1x256x128 ![0, 0, 0] (m ((c : Thread nD τ).loc main_arg16)) slices_S2x256x128_S1x256x128_0_0_0) shapeCasts_S1x256x128_S256x128 := W13_main_v83 m ρ c
theorem V13_main_v107 (c : Dev nD) : V13 m ρ c main_v107 = shapeCast S1x128 (shapeCast S128 (extractStridedSlice S1x128 ![0, 0] (m ((c : Thread nD τ).loc main_arg17)) slices_S2x128_S1x128_0_0) shapeCasts_S1x128_S128) shapeCasts_S128_S1x128 := W13_main_v107 m ρ c
end Cert.Fold

end
-- ==== Proof.Fold4.lean ====
/-
  The contents of the input arrays of region 4 when it is entered.

  Region 3 leaves the second node table.  The host stretches before region 4 form per edge the maximum with zero of
  (the start node's row of that table + the edge's third encoding) and add these up per end node; the other inputs are
  the second slices of the parameter arrays.
-/
import proofs.«168167_j60026462929460_2_alg».proof.Proof.Fold3

set_option maxRecDepth 16384

noncomputable section

namespace Cert.Fold

open Idealize.ShloMosaic Idealize.ShloMosaic.TcCoe Idealize.ShloMosaic.StableHlo
open Idealize.ShloMosaic.Pipeline (Dat Cfg Window)
open Cert.KernelIdeal Cert.KernelIdeal.Gen Cert.Kept

variable {F : FTy → Type} [FloatOps F]
variable (m : (ℓ : Loc nD τ sig) → Buf (Elt F) ℓ) (ρ : Dev nD → PrngReg)

theorem W14_main_v108 (c : Dev nD) : W14 m ρ c (Proc.devRef .tc main_v108) = kH2 m ρ c :=
  W14_arr m ρ c 7
theorem W15_main_v108 (c : Dev nD) : W15 m ρ c (Proc.devRef .tc main_v108) = kH2 m ρ c :=
  (show StableHlo.after hostOps4 (W14 m ρ c) (Proc.devRef .tc main_v108) = W14 m ρ c (Proc.devRef .tc main_v108) by host_kept hostOps4).trans (W14_main_v108 m ρ c)
theorem W16_main_v108 (c : Dev nD) : W16 m ρ c (Proc.devRef .tc main_v108) = kH2 m ρ c :=
  (show StableHlo.after hostOps4_1 (W15 m ρ c) (Proc.devRef .tc main_v108) = W15 m ρ c (Proc.devRef .tc main_v108) by host_kept hostOps4_1).trans (W15_main_v108 m ρ c)
theorem W17_main_v108 (c : Dev nD) : W17 m ρ c (Proc.devRef .tc main_v108) = kH2 m ρ c :=
  (show StableHlo.after hostOps4_2 (W16 m ρ c) (Proc.devRef .tc main_v108) = W16 m ρ c (Proc.devRef .tc main_v108) by host_kept hostOps4_2).trans (W16_main_v108 m ρ c)
theorem W11_main_v3 (c : Dev nD) : W11 m ρ c (Proc.devRef .tc main_v3) = dstIdx (m ((c : Thread nD τ).loc main_arg1)) :=
  (show StableHlo.after hostOps2_6 (W10 m ρ c) (Proc.devRef .tc main_v3) = W10 m ρ c (Proc.devRef .tc main_v3) by host_kept hostOps2_6).trans (W10_main_v3 m ρ c)
theorem W12_main_v3 (c : Dev nD) : W12 m ρ c (Proc.devRef .tc main_v3) = dstIdx (m ((c : Thread nD τ).loc main_arg1)) :=
  (W12_of_ne m ρ c main_v3 (by decide)).trans (W11_main_v3 m ρ c)
theorem W13_main_v3 (c : Dev nD) : W13 m ρ c (Proc.devRef .tc main_v3) = dstIdx (m ((c : Thread nD τ).loc main_arg1)) :=
  (show StableHlo.after hostOps3 (W12 m ρ c) (Proc.devRef .tc main_v3) = W12 m ρ c (Proc.devRef .tc main_v3) by host_kept hostOps3).trans (W12_main_v3 m ρ c)
theorem W14_main_v3 (c : Dev nD) : W14 m ρ c (Proc.devRef .tc main_v3) = dstIdx (m ((c : Thread nD τ).loc main_arg1)) :=
  (W14_of_ne m ρ c main_v3 (by decide)).trans (W13_main_v3 m ρ c)
theorem W15_main_v3 (c : Dev nD) : W15 m ρ c (Proc.devRef .tc main_v3) = dstIdx (m ((c : Thread nD τ).loc main_arg1)) :=
  (show StableHlo.after hostOps4 (W14 m ρ c) (Proc.devRef .tc main_v3) = W14 m ρ c (Proc.devRef .tc main_v3) by host_kept hostOps4).trans (W14_main_v3 m ρ c)
theorem W16_main_v3 (c : Dev nD) : W16 m ρ c (Proc.devRef .tc main_v3) = dstIdx (m ((c : Thread nD τ).loc main_arg1)) :=
  (show StableHlo.after hostOps4_1 (W15 m ρ c) (Proc.devRef .tc main_v3) = W15 m ρ c (Proc.devRef .tc main_v3) by host_kept hostOps4_1).trans (W15_main_v3 m ρ c)
theorem W9_main_v1 (c : Dev nD) : W9 m ρ c (Proc.devRef .tc main_v1) = srcIdx (m ((c : Thread nD τ).loc main_arg1)) :=
  (show StableHlo.after hostOps2_4 (W8 m ρ c) (Proc.devRef .tc main_v1) = W8 m ρ c (Proc.devRef .tc main_v1) by host_kept hostOps2_4).trans (W8_main_v1 m ρ c)
theorem W10_main_v1 (c : Dev nD) : W10 m ρ c (Proc.devRef .tc main_v1) = srcIdx (m ((c : Thread nD τ).loc main_arg1)) :=
  (show StableHlo.after hostOps2_5 (W9 m ρ c) (Proc.devRef .tc main_v1) = W9 m ρ c (Proc.devRef .tc main_v1) by host_kept hostOps2_5).trans (W9_main_v1 m ρ c)
theorem W11_main_v1 (c : Dev nD) : W11 m ρ c (Proc.devRef .tc main_v1) = srcIdx (m ((c : Thread nD τ).loc main_arg1)) :=
  (show StableHlo.after hostOps2_6 (W10 m ρ c) (Proc.devRef .tc main_v1) = W10 m ρ c (Proc.devRef .tc main_v1) by host_kept hostOps2_6).trans (W10_main_v1 m ρ c)
theorem W12_main_v1 (c : Dev nD) : W12 m ρ c (Proc.devRef .tc main_v1) = srcIdx (m ((c : Thread nD τ).loc main_arg1)) :=
  (W12_of_ne m ρ c main_v1 (by decide)).trans (W11_main_v1 m ρ c)
theorem W13_main_v1 (c : Dev nD) : W13 m ρ c (Proc.devRef .tc main_v1) = srcIdx (m ((c : Thread nD τ).loc main_arg1)) :=
  (show StableHlo.after hostOps3 (W12 m ρ c) (Proc.devRef .tc main_v1) = W12 m ρ c (Proc.devRef .tc main_v1) by host_kept hostOps3).trans (W12_main_v1 m ρ c)
theorem W14_main_v1 (c : Dev nD) : W14 m ρ c (Proc.devRef .tc main_v1) = srcIdx (m ((c : Thread nD τ).loc main_arg1)) :=
  (W14_of_ne m ρ c main_v1 (by decide)).trans (W13_main_v1 m ρ c)
theorem W2_main_v25_2 (c : Dev nD) : W2 m ρ c (Proc.devRef .tc main_v25_2) = kEE2 m ρ c :=
  W2_arr m ρ c 13
theorem W3_main_v25_2 (c : Dev nD) : W3 m ρ c (Proc.devRef .tc main_v25_2) = kEE2 m ρ c :=
  (show StableHlo.after hostOps1 (W2 m ρ c) (Proc.devRef .tc main_v25_2) = W2 m ρ c (Proc.devRef .tc main_v25_2) by host_kept hostOps1).trans (W2_main_v25_2 m ρ c)
theorem W4_main_v25_2 (c : Dev nD) : W4 m ρ c (Proc.devRef .tc main_v25_2) = kEE2 m ρ c :=
  (W4_of_ne m ρ c main_v25_2 (by decide)).trans (W3_main_v25_2 m ρ c)
theorem W5_main_v25_2 (c : Dev nD) : W5 m ρ c (Proc.devRef .tc main_v25_2) = kEE2 m ρ c :=
  (show StableHlo.after hostOps2 (W4 m ρ c) (Proc.devRef .tc main_v25_2) = W4 m ρ c (Proc.devRef .tc main_v25_2) by host_kept hostOps2).trans (W4_main_v25_2 m ρ c)
theorem W6_main_v25_2 (c : Dev nD) : W6 m ρ c (Proc.devRef .tc main_v25_2) = kEE2 m ρ c :=
  (show StableHlo.after hostOps2_1 (W5 m ρ c) (Proc.devRef .tc main_v25_2) = W5 m ρ c (Proc.devRef .tc main_v25_2) by host_kept hostOps2_1).trans (W5_main_v25_2 m ρ c)
theorem W7_main_v25_2 (c : Dev nD) : W7 m ρ c (Proc.devRef .tc main_v25_2) = kEE2 m ρ c :=
  (show StableHlo.after hostOps2_2 (W6 m ρ c) (Proc.devRef .tc main_v25_2) = W6 m ρ c (Proc.devRef .tc main_v25_2) by host_kept hostOps2_2).trans (W6_main_v25_2 m ρ c)
theorem W8_main_v25_2 (c : Dev nD) : W8 m ρ c (Proc.devRef .tc main_v25_2) = kEE2 m ρ c :=
  (show StableHlo.after hostOps2_3 (W7 m ρ c) (Proc.devRef .tc main_v25_2) = W7 m ρ c (Proc.devRef .tc main_v25_2) by host_kept hostOps2_3).trans (W7_main_v25_2 m ρ c)
theorem W9_main_v25_2 (c : Dev nD) : W9 m ρ c (Proc.devRef .tc main_v25_2) = kEE2 m ρ c :=
  (show StableHlo.after hostOps2_4 (W8 m ρ c) (Proc.devRef .tc main_v25_2) = W8 m ρ c (Proc.devRef .tc main_v25_2) by host_kept hostOps2_4).trans (W8_main_v25_2 m ρ c)
theorem W10_main_v25_2 (c : Dev nD) : W10 m ρ c (Proc.devRef .tc main_v25_2) = kEE2 m ρ c :=
  (show StableHlo.after hostOps2_5 (W9 m ρ c) (Proc.devRef .tc main_v25_2) = W9 m ρ c (Proc.devRef .tc main_v25_2) by host_kept hostOps2_5).trans (W9_main_v25_2 m ρ c)
theorem W11_main_v25_2 (c : Dev nD) : W11 m ρ c (Proc.devRef .tc main_v25_2) = kEE2 m ρ c :=
  (show StableHlo.after hostOps2_6 (W10 m ρ c) (Proc.devRef .tc main_v25_2) = W10 m ρ c (Proc.devRef .tc main_v25_2) by host_kept hostOps2_6).trans (W10_main_v25_2 m ρ c)
theorem W12_main_v25_2 (c : Dev nD) : W12 m ρ c (Proc.devRef .tc main_v25_2) = kEE2 m ρ c :=
  (W12_of_ne m ρ c main_v25_2 (by decide)).trans (W11_main_v25_2 m ρ c)
theorem W13_main_v25_2 (c : Dev nD) : W13 m ρ c (Proc.devRef .tc main_v25_2) = kEE2 m ρ c :=
  (show StableHlo.after hostOps3 (W12 m ρ c) (Proc.devRef .tc main_v25_2) = W12 m ρ c (Proc.devRef .tc main_v25_2) by host_kept hostOps3).trans (W12_main_v25_2 m ρ c)
theorem W14_main_v25_2 (c : Dev nD) : W14 m ρ c (Proc.devRef .tc main_v25_2) = kEE2 m ρ c :=
  (W14_of_ne m ρ c main_v25_2 (by decide)).trans (W13_main_v25_2 m ρ c)
theorem W15_main_v116 (c : Dev nD) : W15 m ρ c (Proc.devRef .tc main_v116) = addf (gatherRows (kH2 m ρ c) (wrapCol (srcIdx (m ((c : Thread nD τ).loc main_arg1))))) (kEE2 m ρ c) :=
  (hostOps4_main_v116 (W14 m ρ c)).trans (by rw [W14_main_v108 m ρ c, W14_main_v1 m ρ c, W14_main_v25_2 m ρ c])
theorem W16_main_v117 (c : Dev nD) : W16 m ρ c (Proc.devRef .tc main_v117) = reluE (addf (gatherRows (kH2 m ρ c) (wrapCol (srcIdx (m ((c : Thread nD τ).loc main_arg1))))) (kEE2 m ρ c)) :=
  (hostOps4_1_main_v117 (W15 m ρ c)).trans (by rw [W15_main_v116 m ρ c])
theorem W17_main_v120 (c : Dev nD) : W17 m ρ c (Proc.devRef .tc main_v120) = scatterSum (idxCol (dstIdx (m ((c : Thread nD τ).loc main_arg1)))) (reluE (addf (gatherRows (kH2 m ρ c) (wrapCol (srcIdx (m ((c : Thread nD τ).loc main_arg1))))) (kEE2 m ρ c))) :=
  (hostOps4_2_main_v120 (W16 m ρ c)).trans (by rw [W16_main_v3 m ρ c, W16_main_v117 m ρ c])
theorem W11_main_arg7 (c : Dev nD) : W11 m ρ c (Proc.devRef .tc main_arg7) = m ((c : Thread nD τ).loc main_arg7) :=
  (show StableHlo.after hostOps2_6 (W10 m ρ c) (Proc.devRef .tc main_arg7) = W10 m ρ c (Proc.devRef .tc main_arg7) by host_kept hostOps2_6).trans (W10_main_arg7 m ρ c)
theorem W12_main_arg7 (c : Dev nD) : W12 m ρ c (Proc.devRef .tc main_arg7) = m ((c : Thread nD τ).loc main_arg7) :=
  (W12_of_ne m ρ c main_arg7 (by decide)).trans (W11_main_arg7 m ρ c)
theorem W13_main_arg7 (c : Dev nD) : W13 m ρ c (Proc.devRef .tc main_arg7) = m ((c : Thread nD τ).loc main_arg7) :=
  (show StableHlo.after hostOps3 (W12 m ρ c) (Proc.devRef .tc main_arg7) = W12 m ρ c (Proc.devRef .tc main_arg7) by host_kept hostOps3).trans (W12_main_arg7 m ρ c)
theorem W14_main_arg7 (c : Dev nD) : W14 m ρ c (Proc.devRef .tc main_arg7) = m ((c : Thread nD τ).loc main_arg7) :=
  (W14_of_ne m ρ c main_arg7 (by decide)).trans (W13_main_arg7 m ρ c)
theorem W15_main_arg7 (c : Dev nD) : W15 m ρ c (Proc.devRef .tc main_arg7) = m ((c : Thread nD τ).loc main_arg7) :=
  (show StableHlo.after hostOps4 (W14 m ρ c) (Proc.devRef .tc main_arg7) = W14 m ρ c (Proc.devRef .tc main_arg7) by host_kept hostOps4).trans (W14_main_arg7 m ρ c)
theorem W16_main_arg7 (c : Dev nD) : W16 m ρ c (Proc.devRef .tc main_arg7) = m ((c : Thread nD τ).loc main_arg7) :=
  (show StableHlo.after hostOps4_1 (W15 m ρ c) (Proc.devRef .tc main_arg7) = W15 m ρ c (Proc.devRef .tc main_arg7) by host_kept hostOps4_1).trans (W15_main_arg7 m ρ c)
theorem W17_main_v136 (c : Dev nD) : W17 m ρ c (Proc.devRef .tc main_v136) = shapeCast S1x1 (shapeCast S_ (extractStridedSlice S1 ![1] (m ((c : Thread nD τ).loc main_arg7)) slices_S2_S1_1) shapeCasts_S1_S_) shapeCasts_S_S1x1 :=
  (hostOps4_2_main_v136 (W16 m ρ c)).trans (by rw [W16_main_arg7 m ρ c])
theorem W11_main_arg12 (c : Dev nD) : W11 m ρ c (Proc.devRef .tc main_arg12) = m ((c : Thread nD τ).loc main_arg12) :=
  (show StableHlo.after hostOps2_6 (W10 m ρ c) (Proc.devRef .tc main_arg12) = W10 m ρ c (Proc.devRef .tc main_arg12) by host_kept hostOps2_6).trans (W10_main_arg12 m ρ c)
theorem W12_main_arg12 (c : Dev nD) : W12 m ρ c (Proc.devRef .tc main_arg12) = m ((c : Thread nD τ).loc main_arg12) :=
  (W12_of_ne m ρ c main_arg12 (by decide)).trans (W11_main_arg12 m ρ c)
theorem W13_main_arg12 (c : Dev nD) : W13 m ρ c (Proc.devRef .tc main_arg12) = m ((c : Thread nD τ).loc main_arg12) :=
  (show StableHlo.after hostOps3 (W12 m ρ c) (Proc.devRef .tc main_arg12) = W12 m ρ c (Proc.devRef .tc main_arg12) by host_kept hostOps3).trans (W12_main_arg12 m ρ c)
theorem W14_main_arg12 (c : Dev nD) : W14 m ρ c (Proc.devRef .tc main_arg12) = m ((c : Thread nD τ).loc main_arg12) :=
  (W14_of_ne m ρ c main_arg12 (by decide)).trans (W13_main_arg12 m ρ c)
theorem W15_main_arg12 (c : Dev nD) : W15 m ρ c (Proc.devRef .tc main_arg12) = m ((c : Thread nD τ).loc main_arg12) :=
  (show StableHlo.after hostOps4 (W14 m ρ c) (Proc.devRef .tc main_arg12) = W14 m ρ c (Proc.devRef .tc main_arg12) by host_kept hostOps4).trans (W14_main_arg12 m ρ c)
theorem W16_main_arg12 (c : Dev nD) : W16 m ρ c (Proc.devRef .tc main_arg12) = m ((c : Thread nD τ).loc main_arg12) :=
  (show StableHlo.after hostOps4_1 (W15 m ρ c) (Proc.devRef .tc main_arg12) = W15 m ρ c (Proc.devRef .tc main_arg12) by host_kept hostOps4_1).trans (W15_main_arg12 m ρ c)
theorem W17_main_v124 (c : Dev nD) : W17 m ρ c (Proc.devRef .tc main_v124) = shapeCast S128x256 (extractStridedSlice S1x128x256 ![1, 0, 0] (m ((c : Thread nD τ).loc main_arg12)) slices_S2x128x256_S1x128x256_1_0_0) shapeCasts_S1x128x256_S128x256 :=
  (hostOps4_2_main_v124 (W16 m ρ c)).trans (by rw [W16_main_arg12 m ρ c])
theorem W11_main_arg13 (c : Dev nD) : W11 m ρ c (Proc.devRef .tc main_arg13) = m ((c : Thread nD τ).loc main_arg13) :=
  (show StableHlo.after hostOps2_6 (W10 m ρ c) (Proc.devRef .tc main_arg13) = W10 m ρ c (Proc.devRef .tc main_arg13) by host_kept hostOps2_6).trans (W10_main_arg13 m ρ c)
theorem W12_main_arg13 (c : Dev nD) : W12 m ρ c (Proc.devRef .tc main_arg13) = m ((c : Thread nD τ).loc main_arg13) :=
  (W12_of_ne m ρ c main_arg13 (by decide)).trans (W11_main_arg13 m ρ c)
theorem W13_main_arg13 (c : Dev nD) : W13 m ρ c (Proc.devRef .tc main_arg13) = m ((c : Thread nD τ).loc main_arg13) :=
  (show StableHlo.after hostOps3 (W12 m ρ c) (Proc.devRef .tc main_arg13) = W12 m ρ c (Proc.devRef .tc main_arg13) by host_kept hostOps3).trans (W12_main_arg13 m ρ c)
theorem W14_main_arg13 (c : Dev nD) : W14 m ρ c (Proc.devRef .tc main_arg13) = m ((c : Thread nD τ).loc main_arg13) :=
  (W14_of_ne m ρ c main_arg13 (by decide)).trans (W13_main_arg13 m ρ c)
theorem W15_main_arg13 (c : Dev nD) : W15 m ρ c (Proc.devRef .tc main_arg13) = m ((c : Thread nD τ).loc main_arg13) :=
  (show StableHlo.after hostOps4 (W14 m ρ c) (Proc.devRef .tc main_arg13) = W14 m ρ c (Proc.devRef .tc main_arg13) by host_kept hostOps4).trans (W14_main_arg13 m ρ c)
theorem W16_main_arg13 (c : Dev nD) : W16 m ρ c (Proc.devRef .tc main_arg13) = m ((c : Thread nD τ).loc main_arg13) :=
  (show StableHlo.after hostOps4_1 (W15 m ρ c) (Proc.devRef .tc main_arg13) = W15 m ρ c (Proc.devRef .tc main_arg13) by host_kept hostOps4_1).trans (W15_main_arg13 m ρ c)
theorem W17_main_v135 (c : Dev nD) : W17 m ρ c (Proc.devRef .tc main_v135) = shapeCast S1x256 (shapeCast S256 (extractStridedSlice S1x256 ![1, 0] (m ((c : Thread nD τ).loc main_arg13)) slices_S2x256_S1x256_1_0) shapeCasts_S1x256_S256) shapeCasts_S256_S1x256 :=
  (hostOps4_2_main_v135 (W16 m ρ c)).trans (by rw [W16_main_arg13 m ρ c])

/-! ## The input arrays of region 4 at entry -/

theorem V17_main_v108 (c : Dev nD) : V17 m ρ c main_v108 = kH2 m ρ c := W17_main_v108 m ρ c
theorem V17_main_v120 (c : Dev nD) : V17 m ρ c main_v120 = aggMsg (kH2 m ρ c) (m ((c : Thread nD τ).loc main_arg1)) (kEE2 m ρ c) := W17_main_v120 m ρ c
theorem V17_main_v136 (c : Dev nD) : V17 m ρ c main_v136 = shapeCast S1x1 (shapeCast S_ (extractStridedSlice S1 ![1] (m ((c : Thread nD τ).loc main_arg7)) slices_S2_S1_1) shapeCasts_S1_S_) shapeCasts_S_S1x1 := W17_main_v136 m ρ c
theorem V17_main_v124 (c : Dev nD) : V17 m ρ c main_v124 = shapeCast S128x256 (extractStridedSlice S1x128x256 ![1, 0, 0] (m ((c : Thread nD τ).loc main_arg12)) slices_S2x128x256_S1x128x256_1_0_0) shapeCasts_S1x128x256_S128x256 := W17_main_v124 m ρ c
theorem V17_main_v135 (c : Dev nD) : V17 m ρ c main_v135 = shapeCast S1x256 (shapeCast S256 (extractStridedSlice S1x256 ![1, 0] (m ((c : Thread nD τ).loc main_arg13)) slices_S2x256_S1x256_1_0) shapeCasts_S1x256_S256) shapeCasts_S256_S1x256 := W17_main_v135 m ρ c
end Cert.Fold

end
-- ==== Proof.Fold5.lean ====
/-
  The contents of the input arrays of region 5 when it is entered, and the result.

  As before region 3, one layer later: the per-column mean and variance from region 4's per-block sums, and the second
  slices of the parameter arrays.  Region 5 writes the result buffer: its final contents are what the region's
  write-backs accumulate in its output array.
-/
import proofs.«168167_j60026462929460_2_alg».proof.Proof.Fold4

set_option maxRecDepth 16384

noncomputable section

namespace Cert.Fold

open Idealize.ShloMosaic Idealize.ShloMosaic.TcCoe Idealize.ShloMosaic.StableHlo
open Idealize.ShloMosaic.Pipeline (Dat Cfg Window)
open Cert.KernelIdeal Cert.KernelIdeal.Gen Cert.Kept

variable {F : FTy → Type} [FloatOps F]
variable (m : (ℓ : Loc nD τ sig) → Buf (Elt F) ℓ) (ρ : Dev nD → PrngReg)

theorem W18_main_v137_0 (c : Dev nD) : W18 m ρ c (Proc.devRef .tc main_v137_0) = kZ2 m ρ c :=
  W18_arr m ρ c 5
theorem W19_main_v137_0 (c : Dev nD) : W19 m ρ c (Proc.devRef .tc main_v137_0) = kZ2 m ρ c :=
  (show StableHlo.after hostOps5 (W18 m ρ c) (Proc.devRef .tc main_v137_0) = W18 m ρ c (Proc.devRef .tc main_v137_0) by host_kept hostOps5).trans (W18_main_v137_0 m ρ c)
theorem W18_main_v137_1 (c : Dev nD) : W18 m ρ c (Proc.devRef .tc main_v137_1) = kS2 m ρ c :=
  W18_arr m ρ c 6
theorem W19_main_v149 (c : Dev nD) : W19 m ρ c (Proc.devRef .tc main_v149) = colMean (kS2 m ρ c) :=
  (hostOps5_main_v149 (W18 m ρ c)).trans (by rw [W18_main_v137_1 m ρ c])
theorem W18_main_v137_2 (c : Dev nD) : W18 m ρ c (Proc.devRef .tc main_v137_2) = kQ2 m ρ c :=
  W18_arr m ρ c 7
theorem W19_main_v153 (c : Dev nD) : W19 m ρ c (Proc.devRef .tc main_v153) = colVar (kQ2 m ρ c) (kS2 m ρ c) :=
  (hostOps5_main_v153 (W18 m ρ c)).trans (by rw [W18_main_v137_2 m ρ c, W18_main_v137_1 m ρ c])
theorem W11_main_arg14 (c : Dev nD) : W11 m ρ c (Proc.devRef .tc main_arg14) = m ((c : Thread nD τ).loc main_arg14) :=
  (show StableHlo.after hostOps2_6 (W10 m ρ c) (Proc.devRef .tc main_arg14) = W10 m ρ c (Proc.devRef .tc main_arg14) by host_kept hostOps2_6).trans (W10_main_arg14 m ρ c)
theorem W12_main_arg14 (c : Dev nD) : W12 m ρ c (Proc.devRef .tc main_arg14) = m ((c : Thread nD τ).loc main_arg14) :=
  (W12_of_ne m ρ c main_arg14 (by decide)).trans (W11_main_arg14 m ρ c)
theorem W13_main_arg14 (c : Dev nD) : W13 m ρ c (Proc.devRef .tc main_arg14) = m ((c : Thread nD τ).loc main_arg14) :=
  (show StableHlo.after hostOps3 (W12 m ρ c) (Proc.devRef .tc main_arg14) = W12 m ρ c (Proc.devRef .tc main_arg14) by host_kept hostOps3).trans (W12_main_arg14 m ρ c)
theorem W14_main_arg14 (c : Dev nD) : W14 m ρ c (Proc.devRef .tc main_arg14) = m ((c : Thread nD τ).loc main_arg14) :=
  (W14_of_ne m ρ c main_arg14 (by decide)).trans (W13_main_arg14 m ρ c)
theorem W15_main_arg14 (c : Dev nD) : W15 m ρ c (Proc.devRef .tc main_arg14) = m ((c : Thread nD τ).loc main_arg14) :=
  (show StableHlo.after hostOps4 (W14 m ρ c) (Proc.devRef .tc main_arg14) = W14 m ρ c (Proc.devRef .tc main_arg14) by host_kept hostOps4).trans (W14_main_arg14 m ρ c)
theorem W16_main_arg14 (c : Dev nD) : W16 m ρ c (Proc.devRef .tc main_arg14) = m ((c : Thread nD τ).loc main_arg14) :=
  (show StableHlo.after hostOps4_1 (W15 m ρ c) (Proc.devRef .tc main_arg14) = W15 m ρ c (Proc.devRef .tc main_arg14) by host_kept hostOps4_1).trans (W15_main_arg14 m ρ c)
theorem W17_main_v128 (c : Dev nD) : W17 m ρ c (Proc.devRef .tc main_v128) = shapeCast S256 (extractStridedSlice S1x256 ![1, 0] (m ((c : Thread nD τ).loc main_arg14)) slices_S2x256_S1x256_1_0) shapeCasts_S1x256_S256 :=
  (hostOps4_2_main_v128 (W16 m ρ c)).trans (by rw [W16_main_arg14 m ρ c])
theorem W18_main_v128 (c : Dev nD) : W18 m ρ c (Proc.devRef .tc main_v128) = shapeCast S256 (extractStridedSlice S1x256 ![1, 0] (m ((c : Thread nD τ).loc main_arg14)) slices_S2x256_S1x256_1_0) shapeCasts_S1x256_S256 :=
  (W18_of_ne m ρ c main_v128 (by decide)).trans (W17_main_v128 m ρ c)
theorem W19_main_v154 (c : Dev nD) : W19 m ρ c (Proc.devRef .tc main_v154) = shapeCast S1x256 (shapeCast S256 (extractStridedSlice S1x256 ![1, 0] (m ((c : Thread nD τ).loc main_arg14)) slices_S2x256_S1x256_1_0) shapeCasts_S1x256_S256) shapeCasts_S256_S1x256 :=
  (hostOps5_main_v154 (W18 m ρ c)).trans (by rw [W18_main_v128 m ρ c])
theorem W11_main_arg15 (c : Dev nD) : W11 m ρ c (Proc.devRef .tc main_arg15) = m ((c : Thread nD τ).loc main_arg15) :=
  (show StableHlo.after hostOps2_6 (W10 m ρ c) (Proc.devRef .tc main_arg15) = W10 m ρ c (Proc.devRef .tc main_arg15) by host_kept hostOps2_6).trans (W10_main_arg15 m ρ c)
theorem W12_main_arg15 (c : Dev nD) : W12 m ρ c (Proc.devRef .tc main_arg15) = m ((c : Thread nD τ).loc main_arg15) :=
  (W12_of_ne m ρ c main_arg15 (by decide)).trans (W11_main_arg15 m ρ c)
theorem W13_main_arg15 (c : Dev nD) : W13 m ρ c (Proc.devRef .tc main_arg15) = m ((c : Thread nD τ).loc main_arg15) :=
  (show StableHlo.after hostOps3 (W12 m ρ c) (Proc.devRef .tc main_arg15) = W12 m ρ c (Proc.devRef .tc main_arg15) by host_kept hostOps3).trans (W12_main_arg15 m ρ c)
theorem W14_main_arg15 (c : Dev nD) : W14 m ρ c (Proc.devRef .tc main_arg15) = m ((c : Thread nD τ).loc main_arg15) :=
  (W14_of_ne m ρ c main_arg15 (by decide)).trans (W13_main_arg15 m ρ c)
theorem W15_main_arg15 (c : Dev nD) : W15 m ρ c (Proc.devRef .tc main_arg15) = m ((c : Thread nD τ).loc main_arg15) :=
  (show StableHlo.after hostOps4 (W14 m ρ c) (Proc.devRef .tc main_arg15) = W14 m ρ c (Proc.devRef .tc main_arg15) by host_kept hostOps4).trans (W14_main_arg15 m ρ c)
theorem W16_main_arg15 (c : Dev nD) : W16 m ρ c (Proc.devRef .tc main_arg15) = m ((c : Thread nD τ).loc main_arg15) :=
  (show StableHlo.after hostOps4_1 (W15 m ρ c) (Proc.devRef .tc main_arg15) = W15 m ρ c (Proc.devRef .tc main_arg15) by host_kept hostOps4_1).trans (W15_main_arg15 m ρ c)
theorem W17_main_v130 (c : Dev nD) : W17 m ρ c (Proc.devRef .tc main_v130) = shapeCast S256 (extractStridedSlice S1x256 ![1, 0] (m ((c : Thread nD τ).loc main_arg15)) slices_S2x256_S1x256_1_0) shapeCasts_S1x256_S256 :=
  (hostOps4_2_main_v130 (W16 m ρ c)).trans (by rw [W16_main_arg15 m ρ c])
theorem W18_main_v130 (c : Dev nD) : W18 m ρ c (Proc.devRef .tc main_v130) = shapeCast S256 (extractStridedSlice S1x256 ![1, 0] (m ((c : Thread nD τ).loc main_arg15)) slices_S2x256_S1x256_1_0) shapeCasts_S1x256_S256 :=
  (W18_of_ne m ρ c main_v130 (by decide)).trans (W17_main_v130 m ρ c)
theorem W19_main_v155 (c : Dev nD) : W19 m ρ c (Proc.devRef .tc main_v155) = shapeCast S1x256 (shapeCast S256 (extractStridedSlice S1x256 ![1, 0] (m ((c : Thread nD τ).loc main_arg15)) slices_S2x256_S1x256_1_0) shapeCasts_S1x256_S256) shapeCasts_S256_S1x256 :=
  (hostOps5_main_v155 (W18 m ρ c)).trans (by rw [W18_main_v130 m ρ c])
theorem W11_main_arg16 (c : Dev nD) : W11 m ρ c (Proc.devRef .tc main_arg16) = m ((c : Thread nD τ).loc main_arg16) :=
  (show StableHlo.after hostOps2_6 (W10 m ρ c) (Proc.devRef .tc main_arg16) = W10 m ρ c (Proc.devRef .tc main_arg16) by host_kept hostOps2_6).trans (W10_main_arg16 m ρ c)
theorem W12_main_arg16 (c : Dev nD) : W12 m ρ c (Proc.devRef .tc main_arg16) = m ((c : Thread nD τ).loc main_arg16) :=
  (W12_of_ne m ρ c main_arg16 (by decide)).trans (W11_main_arg16 m ρ c)
theorem W13_main_arg16 (c : Dev nD) : W13 m ρ c (Proc.devRef .tc main_arg16) = m ((c : Thread nD τ).loc main_arg16) :=
  (show StableHlo.after hostOps3 (W12 m ρ c) (Proc.devRef .tc main_arg16) = W12 m ρ c (Proc.devRef .tc main_arg16) by host_kept hostOps3).trans (W12_main_arg16 m ρ c)
theorem W14_main_arg16 (c : Dev nD) : W14 m ρ c (Proc.devRef .tc main_arg16) = m ((c : Thread nD τ).loc main_arg16) :=
  (W14_of_ne m ρ c main_arg16 (by decide)).trans (W13_main_arg16 m ρ c)
theorem W15_main_arg16 (c : Dev nD) : W15 m ρ c (Proc.devRef .tc main_arg16) = m ((c : Thread nD τ).loc main_arg16) :=
  (show StableHlo.after hostOps4 (W14 m ρ c) (Proc.devRef .tc main_arg16) = W14 m ρ c (Proc.devRef .tc main_arg16) by host_kept hostOps4).trans (W14_main_arg16 m ρ c)
theorem W16_main_arg16 (c : Dev nD) : W16 m ρ c (Proc.devRef .tc main_arg16) = m ((c : Thread nD τ).loc main_arg16) :=
  (show StableHlo.after hostOps4_1 (W15 m ρ c) (Proc.devRef .tc main_arg16) = W15 m ρ c (Proc.devRef .tc main_arg16) by host_kept hostOps4_1).trans (W15_main_arg16 m ρ c)
theorem W17_main_v132 (c : Dev nD) : W17 m ρ c (Proc.devRef .tc main_v132) = shapeCast S256x128 (extractStridedSlice S1x256x128 ![1, 0, 0] (m ((c : Thread nD τ).loc main_arg16)) slices_S2x256x128_S1x256x128_1_0_0) shapeCasts_S1x256x128_S256x128 :=
  (hostOps4_2_main_v132 (W16 m ρ c)).trans (by rw [W16_main_arg16 m ρ c])
theorem W18_main_v132 (c : Dev nD) : W18 m ρ c (Proc.devRef .tc main_v132) = shapeCast S256x128 (extractStridedSlice S1x256x128 ![1, 0, 0] (m ((c : Thread nD τ).loc main_arg16)) slices_S2x256x128_S1x256x128_1_0_0) shapeCasts_S1x256x128_S256x128 :=
  (W18_of_ne m ρ c main_v132 (by decide)).trans (W17_main_v132 m ρ c)
theorem W19_main_v132 (c : Dev nD) : W19 m ρ c (Proc.devRef .tc main_v132) = shapeCast S256x128 (extractStridedSlice S1x256x128 ![1, 0, 0] (m ((c : Thread nD τ).loc main_arg16)) slices_S2x256x128_S1x256x128_1_0_0) shapeCasts_S1x256x128_S256x128 :=
  (show StableHlo.after hostOps5 (W18 m ρ c) (Proc.devRef .tc main_v132) = W18 m ρ c (Proc.devRef .tc main_v132) by host_kept hostOps5).trans (W18_main_v132 m ρ c)
theorem W11_main_arg17 (c : Dev nD) : W11 m ρ c (Proc.devRef .tc main_arg17) = m ((c : Thread nD τ).loc main_arg17) :=
  (show StableHlo.after hostOps2_6 (W10 m ρ c) (Proc.devRef .tc main_arg17) = W10 m ρ c (Proc.devRef .tc main_arg17) by host_kept hostOps2_6).trans (W10_main_arg17 m ρ c)
theorem W12_main_arg17 (c : Dev nD) : W12 m ρ c (Proc.devRef .tc main_arg17) = m ((c : Thread nD τ).loc main_arg17) :=
  (W12_of_ne m ρ c main_arg17 (by decide)).trans (W11_main_arg17 m ρ c)
theorem W13_main_arg17 (c : Dev nD) : W13 m ρ c (Proc.devRef .tc main_arg17) = m ((c : Thread nD τ).loc main_arg17) :=
  (show StableHlo.after hostOps3 (W12 m ρ c) (Proc.devRef .tc main_arg17) = W12 m ρ c (Proc.devRef .tc main_arg17) by host_kept hostOps3).trans (W12_main_arg17 m ρ c)
theorem W14_main_arg17 (c : Dev nD) : W14 m ρ c (Proc.devRef .tc main_arg17) = m ((c : Thread nD τ).loc main_arg17) :=
  (W14_of_ne m ρ c main_arg17 (by decide)).trans (W13_main_arg17 m ρ c)
theorem W15_main_arg17 (c : Dev nD) : W15 m ρ c (Proc.devRef .tc main_arg17) = m ((c : Thread nD τ).loc main_arg17) :=
  (show StableHlo.after hostOps4 (W14 m ρ c) (Proc.devRef .tc main_arg17) = W14 m ρ c (Proc.devRef .tc main_arg17) by host_kept hostOps4).trans (W14_main_arg17 m ρ c)
theorem W16_main_arg17 (c : Dev nD) : W16 m ρ c (Proc.devRef .tc main_arg17) = m ((c : Thread nD τ).loc main_arg17) :=
  (show StableHlo.after hostOps4_1 (W15 m ρ c) (Proc.devRef .tc main_arg17) = W15 m ρ c (Proc.devRef .tc main_arg17) by host_kept hostOps4_1).trans (W15_main_arg17 m ρ c)
theorem W17_main_v134 (c : Dev nD) : W17 m ρ c (Proc.devRef .tc main_v134) = shapeCast S128 (extractStridedSlice S1x128 ![1, 0] (m ((c : Thread nD τ).loc main_arg17)) slices_S2x128_S1x128_1_0) shapeCasts_S1x128_S128 :=
  (hostOps4_2_main_v134 (W16 m ρ c)).trans (by rw [W16_main_arg17 m ρ c])
theorem W18_main_v134 (c : Dev nD) : W18 m ρ c (Proc.devRef .tc main_v134) = shapeCast S128 (extractStridedSlice S1x128 ![1, 0] (m ((c : Thread nD τ).loc main_arg17)) slices_S2x128_S1x128_1_0) shapeCasts_S1x128_S128 :=
  (W18_of_ne m ρ c main_v134 (by decide)).trans (W17_main_v134 m ρ c)
theorem W19_main_v156 (c : Dev nD) : W19 m ρ c (Proc.devRef .tc main_v156) = shapeCast S1x128 (shapeCast S128 (extractStridedSlice S1x128 ![1, 0] (m ((c : Thread nD τ).loc main_arg17)) slices_S2x128_S1x128_1_0) shapeCasts_S1x128_S128) shapeCasts_S128_S1x128 :=
  (hostOps5_main_v156 (W18 m ρ c)).trans (by rw [W18_main_v134 m ρ c])

/-! ## The input arrays of region 5 at entry, and the result -/

theorem V19_main_v137_0 (c : Dev nD) : V19 m ρ c main_v137_0 = kZ2 m ρ c := W19_main_v137_0 m ρ c
theorem V19_main_v149 (c : Dev nD) : V19 m ρ c main_v149 = colMean (kS2 m ρ c) := W19_main_v149 m ρ c
theorem V19_main_v153 (c : Dev nD) : V19 m ρ c main_v153 = colVar (kQ2 m ρ c) (kS2 m ρ c) := W19_main_v153 m ρ c
theorem V19_main_v154 (c : Dev nD) : V19 m ρ c main_v154 = shapeCast S1x256 (shapeCast S256 (extractStridedSlice S1x256 ![1, 0] (m ((c : Thread nD τ).loc main_arg14)) slices_S2x256_S1x256_1_0) shapeCasts_S1x256_S256) shapeCasts_S256_S1x256 := W19_main_v154 m ρ c
theorem V19_main_v155 (c : Dev nD) : V19 m ρ c main_v155 = shapeCast S1x256 (shapeCast S256 (extractStridedSlice S1x256 ![1, 0] (m ((c : Thread nD τ).loc main_arg15)) slices_S2x256_S1x256_1_0) shapeCasts_S1x256_S256) shapeCasts_S256_S1x256 := W19_main_v155 m ρ c
theorem V19_main_v132 (c : Dev nD) : V19 m ρ c main_v132 = shapeCast S256x128 (extractStridedSlice S1x256x128 ![1, 0, 0] (m ((c : Thread nD τ).loc main_arg16)) slices_S2x256x128_S1x256x128_1_0_0) shapeCasts_S1x256x128_S256x128 := W19_main_v132 m ρ c
theorem V19_main_v156 (c : Dev nD) : V19 m ρ c main_v156 = shapeCast S1x128 (shapeCast S128 (extractStridedSlice S1x128 ![1, 0] (m ((c : Thread nD τ).loc main_arg17)) slices_S2x128_S1x128_1_0) shapeCasts_S1x128_S128) shapeCasts_S128_S1x128 := W19_main_v156 m ρ c

/-- The result buffer ends at what region 5's write-backs accumulate in its output array. -/
theorem W20_main_v157 (c : Dev nD) : W20 m ρ c (Proc.devRef .tc main_v157) = (dat5 (V19 m ρ) c).arrAt 7 cfg5.N :=
  W20_arr m ρ c 7

end Cert.Fold

end
-- ==== Proof.Fold.lean ====
/-
  The fold of buffer contents through the program, read at every region's input arrays and at the result.

  For each of the six device regions, the contents of each of its input arrays when the region is entered, as a term in
  the launch contents of the argument buffers and in the arrays the earlier regions leave (`Fold1` regions 0 and 1,
  `Fold2` … `Fold5` regions 2 … 5); and the final contents of the result buffer as what region 5 leaves in its
  output array (`Fold5`).
-/
import proofs.«168167_j60026462929460_2_alg».proof.Proof.Fold5
-- ==== Proof.EdgeEncoderBlocks.lean ====
/-
  Which part of each array one step of the edge encoder reads and writes.

  The grid has 150 steps over the 600000 edges.  Step t reads rows 4000·t … 4000·t + 3999 of the [600000, 1] column of
  edge attributes and the ten small weight and bias arrays whole, and writes back rows 4000·t … 4000·t + 3999 of each
  of the three [600000, 128] results.  Row p of a result lies in the block of step p / 4000, so the blocks written
  back cover each result.
-/
import proofs.«168167_j60026462929460_2_alg».proof.Proof.Gen.KernelIdeal.Frame
import Idealize.ShloMosaic.Lib.Pipeline.Value
import Idealize.ShloMosaic.Lib.ValueIdx

noncomputable section

namespace Cert.KernelIdeal.EdgeEncoder

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The attribute block and the three result blocks of step t are block t of the rows. -/
theorem row_block_indices : ∀ t : Fin cfg0.N, win0_0.index t (0 : Fin 2) = t.val ∧ win0_0.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The ten weight and bias arrays are read whole at every step. -/
theorem whole_block_indices : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Entry (r, 0) of the attribute block of step t is entry (4000·t + r, 0) of the attribute column. -/
theorem attributes_block (c : Dev nD) (t : Fin cfg0.N) (r : Fin 4000) (i : S600000x1.Idx)
    (h0 : (i 0).val = t.val * 4000 + r.val) :
    (iblk0 V c 0 t : Vec Ideal S4000x1 .f32) (ix2 r (0 : Fin 1)) = (V c main_arg2 : S600000x1.Idx → EReal) i := by
  obtain ⟨e0, e1, -⟩ := row_block_indices t
  have h1 : (i 1).val = 0 := by have := idx2_lt1 i; omega
  unfold iblk0
  rw [View.read_apply]
  show (V c main_arg2 : S600000x1.Idx → EReal) _ = _
  refine congrArg (V c main_arg2 : S600000x1.Idx → EReal) ?_
  funext a
  apply Fin.ext
  match a with
  | ⟨0, _⟩ => show win0_0.index t (0 : Fin 2) * 4000 + 1 * r.val = (i 0).val; omega
  | ⟨1, _⟩ => show win0_0.index t (1 : Fin 2) * 1 + 1 * (0 : Fin 1).val = (i 1).val; rw [e1, h1]; rfl

/-- The block of the linear weight row at every step is the whole array. -/
theorem const_block_1 (c : Dev nD) (t : Fin cfg0.N) :
    (iblk0 V c 1 t : Vec Ideal S1x128 .f32) = (V c main_arg5 : S1x128.Idx → EReal) := by
  obtain ⟨e0, e1, -⟩ := whole_block_indices t
  funext y
  unfold iblk0
  rw [View.read_apply]
  show (V c main_arg5 : S1x128.Idx → EReal) _ = _
  refine congrArg (V c main_arg5 : S1x128.Idx → EReal) ?_
  funext a
  apply Fin.ext
  match a with
  | ⟨0, _⟩ => show win0_1.index t (0 : Fin 2) * 1 + 1 * (y 0).val = (y 0).val; omega
  | ⟨1, _⟩ => show win0_1.index t (1 : Fin 2) * 128 + 1 * (y 1).val = (y 1).val; omega

/-- The block of the linear bias row at every step is the whole array. -/
theorem const_block_2 (c : Dev nD) (t : Fin cfg0.N) :
    (iblk0 V c 2 t : Vec Ideal S1x128 .f32) = (V c main_v4 : S1x128.Idx → EReal) := by
  obtain ⟨-, -, e0, e1, -⟩ := whole_block_indices t
  funext y
  unfold iblk0
  rw [View.read_apply]
  show (V c main_v4 : S1x128.Idx → EReal) _ = _
  refine congrArg (V c main_v4 : S1x128.Idx → EReal) ?_
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The block of the first network's first weight row at every step is the whole array. -/
theorem const_block_3 (c : Dev nD) (t : Fin cfg0.N) :
    (iblk0 V c 3 t : Vec Ideal S1x128 .f32) = (V c main_v6 : S1x128.Idx → EReal) := by
  obtain ⟨-, -, -, -, e0, e1, -⟩ := whole_block_indices t
  funext y
  unfold iblk0
  rw [View.read_apply]
  show (V c main_v6 : S1x128.Idx → EReal) _ = _
  refine congrArg (V c main_v6 : S1x128.Idx → EReal) ?_
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The block of the first network's first bias row at every step is the whole array. -/
theorem const_block_4 (c : Dev nD) (t : Fin cfg0.N) :
    (iblk0 V c 4 t : Vec Ideal S1x128 .f32) = (V c main_v11 : S1x128.Idx → EReal) := by
  obtain ⟨-, -, -, -, -, -, e0, e1, -⟩ := whole_block_indices t
  funext y
  unfold iblk0
  rw [View.read_apply]
  show (V c main_v11 : S1x128.Idx → EReal) _ = _
  refine congrArg (V c main_v11 : S1x128.Idx → EReal) ?_
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The block of the first network's second weight matrix at every step is the whole array. -/
theorem const_block_5 (c : Dev nD) (t : Fin cfg0.N) :
    (iblk0 V c 5 t : Vec Ideal S128x128 .f32) = (V c main_v16 : S128x128.Idx → EReal) := by
  obtain ⟨-, -, -, -, -, -, -, -, e0, e1, -⟩ := whole_block_indices t
  funext y
  unfold iblk0
  rw [View.read_apply]
  show (V c main_v16 : S128x128.Idx → EReal) _ = _
  refine congrArg (V c main_v16 : S128x128.Idx → EReal) ?_
  funext a
  apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The block of the first network's second bias row at every step is the whole array. -/
theorem const_block_6 (c : Dev nD) (t : Fin cfg0.N) :
    (iblk0 V c 6 t : Vec Ideal S1x128 .f32) = (V c main_v21 : S1x128.Idx → EReal) := by
  obtain ⟨-, -, -, -, -, -, -, -, -, -, e0, e1, -⟩ := whole_block_indices t
  funext y
  unfold iblk0
  rw [View.read_apply]
  show (V c main_v21 : S1x128.Idx → EReal) _ = _
  refine congrArg (V c main_v21 : S1x128.Idx → EReal) ?_
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The block of the second network's first weight row at every step is the whole array. -/
theorem const_block_7 (c : Dev nD) (t : Fin cfg0.N) :
    (iblk0 V c 7 t : Vec Ideal S1x128 .f32) = (V c main_v8 : S1x128.Idx → EReal) := by
  obtain ⟨-, -, -, -, -, -, -, -, -, -, -, -, e0, e1, -⟩ := whole_block_indices t
  funext y
  unfold iblk0
  rw [View.read_apply]
  show (V c main_v8 : S1x128.Idx → EReal) _ = _
  refine congrArg (V c main_v8 : S1x128.Idx → EReal) ?_
  funext a
  apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- The block of the second network's first bias row at every step is the whole array. -/
theorem const_block_8 (c : Dev nD) (t : Fin cfg0.N) :
    (iblk0 V c 8 t : Vec Ideal S1x128 .f32) = (V c main_v14 : S1x128.Idx → EReal) := by
  obtain ⟨-, -, -, -, -, -, -, -, -, -, -, -, -, -, e0, e1, -⟩ := whole_block_indices t
  funext y
  unfold iblk0
  rw [View.read_apply]
  show (V c main_v14 : S1x128.Idx → EReal) _ = _
  refine congrArg (V c main_v14 : S1x128.Idx → EReal) ?_
  funext a
  apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- The block of the second network's second weight matrix at every step is the whole array. -/
theorem const_block_9 (c : Dev nD) (t : Fin cfg0.N) :
    (iblk0 V c 9 t : Vec Ideal S128x128 .f32) = (V c main_v18 : S128x128.Idx → EReal) := by
  obtain ⟨-, -, -, -, -, -, -, -, -, -, -, -, -, -, -, -, e0, e1, -⟩ := whole_block_indices t
  funext y
  unfold iblk0
  rw [View.read_apply]
  show (V c main_v18 : S128x128.Idx → EReal) _ = _
  refine congrArg (V c main_v18 : S128x128.Idx → EReal) ?_
  funext a
  apply Fin.ext
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- The block of the second network's second bias row at every step is the whole array. -/
theorem const_block_10 (c : Dev nD) (t : Fin cfg0.N) :
    (iblk0 V c 10 t : Vec Ideal S1x128 .f32) = (V c main_v24 : S1x128.Idx → EReal) := by
  obtain ⟨-, -, -, -, -, -, -, -, -, -, -, -, -, -, -, -, -, -, e0, e1⟩ := whole_block_indices t
  funext y
  unfold iblk0
  rw [View.read_apply]
  show (V c main_v24 : S1x128.Idx → EReal) _ = _
  refine congrArg (V c main_v24 : S1x128.Idx → EReal) ?_
  funext a
  apply Fin.ext
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- An index of output 1 lies in step t's block iff each coordinate lies in the block's range on its axis. -/
theorem mem_block_11 (t : Fin cfg0.N) (i : S600000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v25_0).slice (win0_11.rect t)).set ↔ _
  rw [View.set_slice_whole, Rect.mem_set_unit]
  exact Iff.rfl

/-- Row p of output 1 lies in the block of step p / 4000, which is written back. -/
theorem covered_11 (i : S600000x128.Idx) :
    ∃ t : Fin cfg0.N, (cfg0.win 11).flush t = true ∧ i ∈ ((cfg0.win 11).blk t).view.set := by
  have h0 : (i 0).val < 600000 := idx2_lt0 i
  have h1 : (i 1).val < 128 := idx2_lt1 i
  have hN : cfg0.N = 150 := N_0
  refine ⟨⟨(i 0).val / 4000, by rw [hN]; omega⟩, flush0_11 _, ?_⟩
  rw [mem_block_11]
  obtain ⟨-, -, e0, e1, -⟩ := row_block_indices ⟨(i 0).val / 4000, by rw [hN]; omega⟩
  intro a
  match a with
  | ⟨0, _⟩ =>
    show win0_11.index _ (0 : Fin 2) * 4000 ≤ (i 0).val ∧ (i 0).val < win0_11.index _ (0 : Fin 2) * 4000 + 4000
    rw [e0]; show (i 0).val / 4000 * 4000 ≤ (i 0).val ∧ (i 0).val < (i 0).val / 4000 * 4000 + 4000; omega
  | ⟨1, _⟩ =>
    show win0_11.index _ (1 : Fin 2) * 128 ≤ (i 1).val ∧ (i 1).val < win0_11.index _ (1 : Fin 2) * 128 + 128
    rw [e1]; omega

/-- An index of output 2 lies in step t's block iff each coordinate lies in the block's range on its axis. -/
theorem mem_block_12 (t : Fin cfg0.N) (i : S600000x128.Idx) :
    i ∈ ((cfg0.win 12).blk t).view.set ↔ ∀ a : Fin 2, win0_12.index t a * S4000x128.size a ≤ (i a).val
      ∧ (i a).val < win0_12.index t a * S4000x128.size a + S4000x128.size a := by
  show i ∈ ((View.whole main_v25_1).slice (win0_12.rect t)).set ↔ _
  rw [View.set_slice_whole, Rect.mem_set_unit]
  exact Iff.rfl

/-- Row p of output 2 lies in the block of step p / 4000, which is written back. -/
theorem covered_12 (i : S600000x128.Idx) :
    ∃ t : Fin cfg0.N, (cfg0.win 12).flush t = true ∧ i ∈ ((cfg0.win 12).blk t).view.set := by
  have h0 : (i 0).val < 600000 := idx2_lt0 i
  have h1 : (i 1).val < 128 := idx2_lt1 i
  have hN : cfg0.N = 150 := N_0
  refine ⟨⟨(i 0).val / 4000, by rw [hN]; omega⟩, flush0_12 _, ?_⟩
  rw [mem_block_12]
  obtain ⟨-, -, -, -, e0, e1, -⟩ := row_block_indices ⟨(i 0).val / 4000, by rw [hN]; omega⟩
  intro a
  match a with
  | ⟨0, _⟩ =>
    show win0_12.index _ (0 : Fin 2) * 4000 ≤ (i 0).val ∧ (i 0).val < win0_12.index _ (0 : Fin 2) * 4000 + 4000
    rw [e0]; show (i 0).val / 4000 * 4000 ≤ (i 0).val ∧ (i 0).val < (i 0).val / 4000 * 4000 + 4000; omega
  | ⟨1, _⟩ =>
    show win0_12.index _ (1 : Fin 2) * 128 ≤ (i 1).val ∧ (i 1).val < win0_12.index _ (1 : Fin 2) * 128 + 128
    rw [e1]; omega

/-- An index of output 3 lies in step t's block iff each coordinate lies in the block's range on its axis. -/
theorem mem_block_13 (t : Fin cfg0.N) (i : S600000x128.Idx) :
    i ∈ ((cfg0.win 13).blk t).view.set ↔ ∀ a : Fin 2, win0_13.index t a * S4000x128.size a ≤ (i a).val
      ∧ (i a).val < win0_13.index t a * S4000x128.size a + S4000x128.size a := by
  show i ∈ ((View.whole main_v25_2).slice (win0_13.rect t)).set ↔ _
  rw [View.set_slice_whole, Rect.mem_set_unit]
  exact Iff.rfl

/-- Row p of output 3 lies in the block of step p / 4000, which is written back. -/
theorem covered_13 (i : S600000x128.Idx) :
    ∃ t : Fin cfg0.N, (cfg0.win 13).flush t = true ∧ i ∈ ((cfg0.win 13).blk t).view.set := by
  have h0 : (i 0).val < 600000 := idx2_lt0 i
  have h1 : (i 1).val < 128 := idx2_lt1 i
  have hN : cfg0.N = 150 := N_0
  refine ⟨⟨(i 0).val / 4000, by rw [hN]; omega⟩, flush0_13 _, ?_⟩
  rw [mem_block_13]
  obtain ⟨-, -, -, -, -, -, e0, e1⟩ := row_block_indices ⟨(i 0).val / 4000, by rw [hN]; omega⟩
  intro a
  match a with
  | ⟨0, _⟩ =>
    show win0_13.index _ (0 : Fin 2) * 4000 ≤ (i 0).val ∧ (i 0).val < win0_13.index _ (0 : Fin 2) * 4000 + 4000
    rw [e0]; show (i 0).val / 4000 * 4000 ≤ (i 0).val ∧ (i 0).val < (i 0).val / 4000 * 4000 + 4000; omega
  | ⟨1, _⟩ =>
    show win0_13.index _ (1 : Fin 2) * 128 ≤ (i 1).val ∧ (i 1).val < win0_13.index _ (1 : Fin 2) * 128 + 128
    rw [e1]; omega

end Cert.KernelIdeal.EdgeEncoder

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibDenseLayer.lean ====
/-
  A dense layer at one entry, and how the device's and the host's vector operations compute it, at the ideal
  values where a float is an extended real and every operation is exact.

  An affine map sends a row z to (sum over c of z c · w (c, q)) + b q; followed by the positive part max(·, 0) it is
  a dense layer.  On the device, a tile product [m, k]·[k, n] into a zero accumulator plus a [1, n] bias row
  repeated down the m rows, read at (p, q), is the affine map of row p; followed by the maximum with the zero
  splat it is the dense layer of row p.  On the host, the product plus a length-n bias vector placed as a row and
  repeated down the rows is the same affine map, and the maximum with the repeated scalar zero the same dense
  layer.  Any extents m, k, n and any operand formats (a change of format is the identity at the ideal values).
-/
import Idealize.ShloMosaic.Lib.Pipeline.Value
import Idealize.ShloMosaic.Lib.ValueIdx
import Idealize.ShloMosaic.PureOps.Ideal.Laws
import proofs.«168167_j60026462929460_2_alg».proof.Proof.LibPlainProduct
import proofs.«168167_j60026462929460_2_alg».proof.Proof.LibHostProduct
import proofs.«168167_j60026462929460_2_alg».proof.Proof.LibRowsProduct
import proofs.«168167_j60026462929460_2_alg».proof.Proof.LibHostBroadcast

noncomputable section

namespace Cert.DenseLayer

open Idealize.ShloMosaic Idealize.ShloMosaic.ValueIdx

/-- The value of the float zero word. -/
abbrev Z : EReal := Ideal.ofBits .f32 0x00000000#32

/-- An affine map at output coordinate q: the row z against column q of w, plus the bias. -/
def affine {k n : ℕ} (z : Fin k → EReal) (w : (⟨2, ![k, n]⟩ : Shape).Idx → EReal) (b : Fin n → EReal) (q : Fin n) : EReal :=
  (∑ c : Fin k, z c * w (ix2 c q)) + b q

/-- A dense layer at output coordinate q: the affine map followed by the positive part. -/
def dense {k n : ℕ} (z : Fin k → EReal) (w : (⟨2, ![k, n]⟩ : Shape).Idx → EReal) (b : Fin n → EReal) (q : Fin n) : EReal :=
  max (affine z w b q) Z

section Device

variable {m k n : ℕ} {φ₁ φ₂ : FTy}

/-- The tile product into a zero accumulator plus a bias row repeated down the rows, at (p, q). -/
theorem tpu_affine_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    addf (matmul (⟨[1], [0], [0], [1], [], [], w⟩ : DotDims _ _ _) none A W (constant _ .f32 0x00000000#32))
      (broadcastTo ⟨2, ![m, n]⟩ b hb) (ix2 p q)
    = affine (fun c => A (ix2 p c)) W (fun q => b (ix2 (0 : Fin 1) q)) q := by
  rw [addf_apply]
  show FloatOps.matmul _ none A W (constant _ .f32 0x00000000#32) (ix2 p q) + _ = _
  rw [Cert.PlainProduct.matmul_nn_apply, Cert.RowsProduct.broadcastTo_1n_an_apply]
  rfl

/-- The same followed by the maximum with the zero splat: a dense layer of row p. -/
theorem tpu_dense_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    maximumf (addf (matmul (⟨[1], [0], [0], [1], [], [], w⟩ : DotDims _ _ _) none A W (constant _ .f32 0x00000000#32))
      (broadcastTo ⟨2, ![m, n]⟩ b hb)) (broadcast ⟨2, ![m, n]⟩ (Scalar.ofBits .f32 0x00000000#32)) (ix2 p q)
    = dense (fun c => A (ix2 p c)) W (fun q => b (ix2 (0 : Fin 1) q)) q := by
  rw [maximumf_apply, tpu_affine_apply]
  rfl

end Device

section Host

variable {m k n : ℕ} {φ₁ φ₂ : FTy}

/-- The host's product plus a bias vector repeated down the rows, at (p, q). -/
theorem host_affine_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (A : FVec Ideal ⟨2, ![m, k]⟩ φ₁) (W : FVec Ideal ⟨2, ![k, n]⟩ φ₂) (v : FVec Ideal ⟨1, ![n]⟩ .f32)
    (p : Fin m) (q : Fin n) :
    addf (Host.dotGeneral (⟨[1], [0], [0], [1], [], [], w⟩ : DotDims _ _ _) none A W)
      (broadcastInDim ⟨2, ![m, n]⟩ ![0, 1] h2 (broadcastInDim ⟨2, ![1, n]⟩ ![1] h1 v)) (ix2 p q)
    = affine (fun c => A (ix2 p c)) W (fun q => v (ix1 q)) q := by
  rw [addf_apply, Cert.HostProduct.dotGeneral_nn_apply, Cert.HostBroadcast.row_apply]
  rfl

/-- The same followed by the maximum with the repeated scalar zero: a dense layer of row p. -/
theorem host_dense_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![])
    (A : FVec Ideal ⟨2, ![m, k]⟩ φ₁) (W : FVec Ideal ⟨2, ![k, n]⟩ φ₂) (v : FVec Ideal ⟨1, ![n]⟩ .f32)
    (p : Fin m) (q : Fin n) :
    maximumf (addf (Host.dotGeneral (⟨[1], [0], [0], [1], [], [], w⟩ : DotDims _ _ _) none A W)
      (broadcastInDim ⟨2, ![m, n]⟩ ![0, 1] h2 (broadcastInDim ⟨2, ![1, n]⟩ ![1] h1 v)))
      (broadcastInDim ⟨2, ![m, n]⟩ ![] h0 (constant (F := Ideal) ⟨0, ![]⟩ .f32 0x00000000#32)) (ix2 p q)
    = dense (fun c => A (ix2 p c)) W (fun q => v (ix1 q)) q := by
  rw [maximumf_apply, host_affine_apply, Cert.HostBroadcast.scalar_apply]
  rfl

end Host

end Cert.DenseLayer

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.EdgeEncoderPayload.lean ====
/-
  The edge encoder's three tiles, entry by entry, at the ideal values.

  One grid step reads a column of 4000 edge attributes a and writes three [4000, 128] tiles.  The first is the
  one-input linear map: entry (r, q) is a (r, 0) · w (0, q) + b (0, q).  The other two are two-layer networks, one per
  weight set: the hidden row of edge r has entry c equal to the positive part of a (r, 0) · w₁ (0, c) + b₁ (0, c), and
  entry (r, q) of the tile is the affine map of that hidden row by the 128 × 128 matrix w₂ and the bias row b₂.  A
  [4000, 1] column repeated along the columns, a [1, 128] row repeated down the rows, a re-layout to the same shape and
  a change of number format all read through to the entry they copy.
-/
import proofs.«168167_j60026462929460_2_alg».proof.Proof.Gen.KernelIdeal.Skeleton
import proofs.«168167_j60026462929460_2_alg».proof.Proof.LibDenseLayer
import proofs.«168167_j60026462929460_2_alg».proof.Proof.LibBroadcast

noncomputable section

namespace Cert.KernelIdeal.EdgeEncoder

open Idealize.ShloMosaic Idealize.ShloMosaic.ValueIdx Cert.KernelIdeal Cert.KernelIdeal.Gen Cert.DenseLayer

/-- A column times a row plus a row, at (r, c): a (r, 0) · w (0, c) + b (0, c). -/
theorem outer_affine_apply (a : FVec Ideal S4000x1 .f32) (w b : FVec Ideal S1x128 .f32) (r : Fin 4000) (c : Fin 128) :
    addf (F := Ideal) (mulf (broadcastTo S4000x128 a broadcasts_S4000x1_S4000x128) (broadcastTo S4000x128 w broadcasts_S1x128_S4000x128))
      (broadcastTo S4000x128 b broadcasts_S1x128_S4000x128) (ix2 r c)
    = a (ix2 r (0 : Fin 1)) * w (ix2 (0 : Fin 1) c) + b (ix2 (0 : Fin 1) c) := by
  rw [addf_apply, mulf_apply, Cert.Layout.broadcastTo_a1_ab_apply, Cert.RowsProduct.broadcastTo_1n_an_apply,
    Cert.RowsProduct.broadcastTo_1n_an_apply]

/-- Its positive part, at (r, c). -/
theorem hidden_apply (a : FVec Ideal S4000x1 .f32) (w b : FVec Ideal S1x128 .f32) (r : Fin 4000) (c : Fin 128) :
    maximumf (F := Ideal) (addf (mulf (broadcastTo S4000x128 a broadcasts_S4000x1_S4000x128) (broadcastTo S4000x128 w broadcasts_S1x128_S4000x128))
      (broadcastTo S4000x128 b broadcasts_S1x128_S4000x128)) (broadcast S4000x128 (Scalar.ofBits (F := Ideal) .f32 0x00000000#32)) (ix2 r c)
    = max (a (ix2 r (0 : Fin 1)) * w (ix2 (0 : Fin 1) c) + b (ix2 (0 : Fin 1) c)) Z := by
  rw [maximumf_apply, outer_affine_apply]
  rfl

/-- Entry (r, q) of the first tile: a (r, 0) · w (0, q) + b (0, q). -/
theorem linear_payload_apply (a : Vec Ideal S4000x1 .f32) (w b : Vec Ideal S1x128 .f32) (r : Fin 4000) (q : Fin 128) :
    k0_pay2 (F := Ideal) a w b (ix2 r q) = a (ix2 r (0 : Fin 1)) * w (ix2 (0 : Fin 1) q) + b (ix2 (0 : Fin 1) q) := by
  unfold k0_pay2
  refine (outer_affine_apply a w (shapeCast S1x128 b shapeCasts_S1x128_S1x128) r q).trans ?_
  rw [shapeCast_self]

/-- Entry (r, q) of the second tile: the affine map, by w₂ and b₂, of the hidden row of edge r under w₁ and b₁. -/
theorem first_network_payload_apply (a : Vec Ideal S4000x1 .f32) (w1 b1 : Vec Ideal S1x128 .f32)
    (w2 : Vec Ideal S128x128 .f32) (b2 : Vec Ideal S1x128 .f32) (r : Fin 4000) (q : Fin 128) :
    k0_pay3 (F := Ideal) a w1 b1 w2 b2 (ix2 r q)
      = affine (fun c : Fin 128 => max (a (ix2 r (0 : Fin 1)) * w1 (ix2 (0 : Fin 1) c) + b1 (ix2 (0 : Fin 1) c)) Z) w2
          (fun q : Fin 128 => b2 (ix2 (0 : Fin 1) q)) q := by
  unfold k0_pay3
  refine (tpu_affine_apply dot_S4000x128_S128x128_S4000x128_1_0_0_1_n_n_wf broadcasts_S1x128_S4000x128
    (truncf .bf16 (maximumf (addf (mulf (broadcastTo S4000x128 a broadcasts_S4000x1_S4000x128)
        (broadcastTo S4000x128 (shapeCast S1x128 w1 shapeCasts_S1x128_S1x128) broadcasts_S1x128_S4000x128))
        (broadcastTo S4000x128 (shapeCast S1x128 b1 shapeCasts_S1x128_S1x128) broadcasts_S1x128_S4000x128))
      (broadcast S4000x128 (Scalar.ofBits (F := Ideal) .f32 0x00000000#32))) bitsLt_bf16_f32)
    (truncf .bf16 (shapeCast S128x128 w2 shapeCasts_S128x128_S128x128) bitsLt_bf16_f32)
    (shapeCast S1x128 b2 shapeCasts_S1x128_S1x128) r q).trans ?_
  simp only [shapeCast_self]
  refine congrArg (fun z : Fin 128 → EReal => affine z w2 (fun q : Fin 128 => b2 (ix2 (0 : Fin 1) q)) q) (funext fun c => ?_)
  exact hidden_apply a w1 b1 r c

/-- Entry (r, q) of the third tile: the same network with the second weight set. -/
theorem second_network_payload_apply (a : Vec Ideal S4000x1 .f32) (w1 b1 : Vec Ideal S1x128 .f32)
    (w2 : Vec Ideal S128x128 .f32) (b2 : Vec Ideal S1x128 .f32) (r : Fin 4000) (q : Fin 128) :
    k0_pay1 (F := Ideal) (k0_pay4 a) (k0_pay5 w1) b1 w2 b2 (ix2 r q)
      = affine (fun c : Fin 128 => max (a (ix2 r (0 : Fin 1)) * w1 (ix2 (0 : Fin 1) c) + b1 (ix2 (0 : Fin 1) c)) Z) w2
          (fun q : Fin 128 => b2 (ix2 (0 : Fin 1) q)) q := by
  unfold k0_pay1 k0_pay4 k0_pay5
  refine (tpu_affine_apply dot_S4000x128_S128x128_S4000x128_1_0_0_1_n_n_wf broadcasts_S1x128_S4000x128
    (truncf .bf16 (maximumf (addf (mulf (broadcastTo S4000x128 a broadcasts_S4000x1_S4000x128)
        (broadcastTo S4000x128 (shapeCast S1x128 w1 shapeCasts_S1x128_S1x128) broadcasts_S1x128_S4000x128))
        (broadcastTo S4000x128 (shapeCast S1x128 b1 shapeCasts_S1x128_S1x128) broadcasts_S1x128_S4000x128))
      (broadcast S4000x128 (Scalar.ofBits (F := Ideal) .f32 0x00000000#32))) bitsLt_bf16_f32)
    (truncf .bf16 (shapeCast S128x128 w2 shapeCasts_S128x128_S128x128) bitsLt_bf16_f32)
    (shapeCast S1x128 b2 shapeCasts_S1x128_S1x128) r q).trans ?_
  simp only [shapeCast_self]
  refine congrArg (fun z : Fin 128 → EReal => affine z w2 (fun q : Fin 128 => b2 (ix2 (0 : Fin 1) q)) q) (funext fun c => ?_)
  exact hidden_apply a w1 b1 r c

end Cert.KernelIdeal.EdgeEncoder

end
-- ==== Proof.EdgeEncoderArrays.lean ====
/-
  The three results of the edge encoder, each as one function of the arrays it reads.

  With a the [600000, 1] column of edge attributes:
    the first result at (p, q) is  a (p, 0) · w (0, q) + b (0, q);
    the second and the third at (p, q) are the affine map, by a 128 × 128 matrix w₂ and a bias row b₂, of the hidden
    row whose entry c is the positive part of  a (p, 0) · w₁ (0, c) + b₁ (0, c)  — one weight set for each.
  Step t writes back rows 4000·t … 4000·t + 3999 of each result, computed from rows 4000·t … 4000·t + 3999 of a and the
  whole weight arrays, so each block written back is the restriction of the one function; the blocks cover the result.
-/
import proofs.«168167_j60026462929460_2_alg».proof.Proof.EdgeEncoderBlocks
import proofs.«168167_j60026462929460_2_alg».proof.Proof.EdgeEncoderPayload

noncomputable section

namespace Cert.KernelIdeal.EdgeEncoder

open Idealize.ShloMosaic Idealize.ShloMosaic.TcCoe Idealize.ShloMosaic.ValueIdx Idealize.SL.Sem
open Idealize.ShloMosaic.Pipeline (Dat)
open Cert.KernelIdeal Cert.KernelIdeal.Gen Cert.DenseLayer

variable (V : (c : Dev nD) → (b : Ref sig .tc) → Buf (Elt Ideal) ((c : Thread nD τ).loc b))

/-- The one-input linear map of a whole attribute column. -/
def linearOf (A : S600000x1.Idx → EReal) (w b : S1x128.Idx → EReal) : S600000x128.Idx → EReal :=
  fun i => A (ix2 (i 0 : Fin 600000) (0 : Fin 1)) * w (ix2 (0 : Fin 1) (i 1 : Fin 128)) + b (ix2 (0 : Fin 1) (i 1 : Fin 128))

/-- The two-layer network of a whole attribute column. -/
def networkOf (A : S600000x1.Idx → EReal) (w1 b1 : S1x128.Idx → EReal) (w2 : S128x128.Idx → EReal) (b2 : S1x128.Idx → EReal) :
    S600000x128.Idx → EReal :=
  fun i => affine (fun c : Fin 128 => max (A (ix2 (i 0 : Fin 600000) (0 : Fin 1)) * w1 (ix2 (0 : Fin 1) c) + b1 (ix2 (0 : Fin 1) c)) Z) w2
    (fun q : Fin 128 => b2 (ix2 (0 : Fin 1) q)) (i 1 : Fin 128)

theorem linearOf_of_coords (A : S600000x1.Idx → EReal) (w b : S1x128.Idx → EReal) (i : S600000x128.Idx)
    (p : Fin 600000) (q : Fin 128) (h0 : (i 0).val = p.val) (h1 : (i 1).val = q.val) :
    linearOf A w b i = A (ix2 p (0 : Fin 1)) * w (ix2 (0 : Fin 1) q) + b (ix2 (0 : Fin 1) q) := by
  obtain rfl : i = ix2 p q := funext fun a => Fin.ext (by match a with | ⟨0, _⟩ => exact h0 | ⟨1, _⟩ => exact h1)
  rfl

theorem networkOf_of_coords (A : S600000x1.Idx → EReal) (w1 b1 : S1x128.Idx → EReal) (w2 : S128x128.Idx → EReal)
    (b2 : S1x128.Idx → EReal) (i : S600000x128.Idx) (p : Fin 600000) (q : Fin 128) (h0 : (i 0).val = p.val) (h1 : (i 1).val = q.val) :
    networkOf A w1 b1 w2 b2 i
      = affine (fun c : Fin 128 => max (A (ix2 p (0 : Fin 1)) * w1 (ix2 (0 : Fin 1) c) + b1 (ix2 (0 : Fin 1) c)) Z) w2
          (fun q : Fin 128 => b2 (ix2 (0 : Fin 1) q)) q := by
  obtain rfl : i = ix2 p q := funext fun a => Fin.ext (by match a with | ⟨0, _⟩ => exact h0 | ⟨1, _⟩ => exact h1)
  rfl

/-- What step t writes back to the first result is block t of the linear map of the arrays the region finds. -/
theorem flushed_linear (c : Dev nD) (t : Fin cfg0.N) :
    (dat0 V c).flushed 11 t
      = ((cfg0.win 11).blk t).view.read (Elt Ideal) (linearOf (V c main_arg2) (V c main_arg5) (V c main_v4)) := by
  show (cfg0.win 11).cut (grid0.coords t) ((dat0 V c).after 11 t) = _
  rw [after0_11]
  unfold out0_11
  rw [View.canon_unit_zero zero_offsets]
  simp only [View.ld_unit_zero (S := S4000x1) zero_offsets, View.ld_unit_zero (S := S1x128) zero_offsets]
  obtain ⟨-, -, e0, e1, -⟩ := row_block_indices t
  funext j
  obtain ⟨r, q, rfl⟩ : ∃ (r : Fin 4000) (q : Fin 128), j = ix2 r q := ⟨j 0, j 1, eq_ix2 j⟩
  rw [View.read_apply]
  show k0_pay2 (F := Ideal) (iblk0 V c 0 t) (iblk0 V c 1 t) (iblk0 V c 2 t) (ix2 r q) = _
  refine (linear_payload_apply (iblk0 V c 0 t) (iblk0 V c 1 t) (iblk0 V c 2 t) r q).trans ?_
  have ht : t.val < 150 := lt_of_lt_of_eq t.isLt N_0
  have hr : t.val * 4000 + r.val < 600000 := by have := r.isLt; omega
  refine Eq.trans ?_ (linearOf_of_coords _ _ _ _ ⟨t.val * 4000 + r.val, hr⟩ q ?_ ?_).symm
  · rw [const_block_1 V c t, const_block_2 V c t, attributes_block V c t r (ix2 ⟨t.val * 4000 + r.val, hr⟩ (0 : Fin 1)) rfl]
  · show win0_11.index t (0 : Fin 2) * 4000 + 1 * r.val = t.val * 4000 + r.val; omega
  · show win0_11.index t (1 : Fin 2) * 128 + 1 * q.val = q.val; omega

/-- What step t writes back to the second result is block t of the first network of the arrays the region finds. -/
theorem flushed_first_network (c : Dev nD) (t : Fin cfg0.N) :
    (dat0 V c).flushed 12 t
      = ((cfg0.win 12).blk t).view.read (Elt Ideal)
          (networkOf (V c main_arg2) (V c main_v6) (V c main_v11) (V c main_v16) (V c main_v21)) := by
  show (cfg0.win 12).cut (grid0.coords t) ((dat0 V c).after 12 t) = _
  rw [after0_12]
  unfold out0_12
  rw [View.canon_unit_zero zero_offsets]
  simp only [View.ld_unit_zero (S := S4000x1) zero_offsets, View.ld_unit_zero (S := S1x128) zero_offsets,
    View.ld_unit_zero (S := S128x128) zero_offsets]
  obtain ⟨-, -, -, -, e0, e1, -⟩ := row_block_indices t
  funext j
  obtain ⟨r, q, rfl⟩ : ∃ (r : Fin 4000) (q : Fin 128), j = ix2 r q := ⟨j 0, j 1, eq_ix2 j⟩
  rw [View.read_apply]
  show k0_pay3 (F := Ideal) (iblk0 V c 0 t) (iblk0 V c 3 t) (iblk0 V c 4 t) (iblk0 V c 5 t) (iblk0 V c 6 t) (ix2 r q) = _
  refine (first_network_payload_apply (iblk0 V c 0 t) (iblk0 V c 3 t) (iblk0 V c 4 t) (iblk0 V c 5 t) (iblk0 V c 6 t) r q).trans ?_
  have ht : t.val < 150 := lt_of_lt_of_eq t.isLt N_0
  have hr : t.val * 4000 + r.val < 600000 := by have := r.isLt; omega
  refine Eq.trans ?_ (networkOf_of_coords _ _ _ _ _ _ ⟨t.val * 4000 + r.val, hr⟩ q ?_ ?_).symm
  · rw [const_block_3 V c t, const_block_4 V c t, const_block_5 V c t, const_block_6 V c t,
      attributes_block V c t r (ix2 ⟨t.val * 4000 + r.val, hr⟩ (0 : Fin 1)) rfl]
  · show win0_12.index t (0 : Fin 2) * 4000 + 1 * r.val = t.val * 4000 + r.val; omega
  · show win0_12.index t (1 : Fin 2) * 128 + 1 * q.val = q.val; omega

/-- What step t writes back to the third result is block t of the second network of the arrays the region finds. -/
theorem flushed_second_network (c : Dev nD) (t : Fin cfg0.N) :
    (dat0 V c).flushed 13 t
      = ((cfg0.win 13).blk t).view.read (Elt Ideal)
          (networkOf (V c main_arg2) (V c main_v8) (V c main_v14) (V c main_v18) (V c main_v24)) := by
  show (cfg0.win 13).cut (grid0.coords t) ((dat0 V c).after 13 t) = _
  rw [after0_13]
  unfold out0_13
  rw [View.canon_unit_zero zero_offsets]
  simp only [View.ld_unit_zero (S := S4000x1) zero_offsets, View.ld_unit_zero (S := S1x128) zero_offsets,
    View.ld_unit_zero (S := S128x128) zero_offsets]
  obtain ⟨-, -, -, -, -, -, e0, e1⟩ := row_block_indices t
  funext j
  obtain ⟨r, q, rfl⟩ : ∃ (r : Fin 4000) (q : Fin 128), j = ix2 r q := ⟨j 0, j 1, eq_ix2 j⟩
  rw [View.read_apply]
  show k0_pay1 (F := Ideal) (k0_pay4 (iblk0 V c 0 t)) (k0_pay5 (iblk0 V c 7 t)) (iblk0 V c 8 t) (iblk0 V c 9 t) (iblk0 V c 10 t) (ix2 r q) = _
  refine (second_network_payload_apply (iblk0 V c 0 t) (iblk0 V c 7 t) (iblk0 V c 8 t) (iblk0 V c 9 t) (iblk0 V c 10 t) r q).trans ?_
  have ht : t.val < 150 := lt_of_lt_of_eq t.isLt N_0
  have hr : t.val * 4000 + r.val < 600000 := by have := r.isLt; omega
  refine Eq.trans ?_ (networkOf_of_coords _ _ _ _ _ _ ⟨t.val * 4000 + r.val, hr⟩ q ?_ ?_).symm
  · rw [const_block_7 V c t, const_block_8 V c t, const_block_9 V c t, const_block_10 V c t,
      attributes_block V c t r (ix2 ⟨t.val * 4000 + r.val, hr⟩ (0 : Fin 1)) rfl]
  · show win0_13.index t (0 : Fin 2) * 4000 + 1 * r.val = t.val * 4000 + r.val; omega
  · show win0_13.index t (1 : Fin 2) * 128 + 1 * q.val = q.val; omega

/-- The first result after the region. -/
theorem linear_array (c : Dev nD) :
    (dat0 V c).arrAt 11 cfg0.N = linearOf (V c main_arg2) (V c main_arg5) (V c main_v4) :=
  (dat0 V c).arrAt_eq_of_cover 11 (linearOf (V c main_arg2) (V c main_arg5) (V c main_v4))
    (fun t _ => flushed_linear V c t) covered_11

/-- The second result after the region. -/
theorem first_network_array (c : Dev nD) :
    (dat0 V c).arrAt 12 cfg0.N = networkOf (V c main_arg2) (V c main_v6) (V c main_v11) (V c main_v16) (V c main_v21) :=
  (dat0 V c).arrAt_eq_of_cover 12 (networkOf (V c main_arg2) (V c main_v6) (V c main_v11) (V c main_v16) (V c main_v21))
    (fun t _ => flushed_first_network V c t) covered_12

/-- The third result after the region. -/
theorem second_network_array (c : Dev nD) :
    (dat0 V c).arrAt 13 cfg0.N = networkOf (V c main_arg2) (V c main_v8) (V c main_v14) (V c main_v18) (V c main_v24) :=
  (dat0 V c).arrAt_eq_of_cover 13 (networkOf (V c main_arg2) (V c main_v8) (V c main_v14) (V c main_v18) (V c main_v24))
    (fun t _ => flushed_second_network V c t) covered_13

/-- Entry (p, q) of the first result, with a, w, b the attribute column, the weight row and the bias row as the region
    finds them: a (p, 0) · w (0, q) + b (0, q). -/
theorem linear_value (c : Dev nD) (p : Fin 600000) (q : Fin 128)
    (a : S600000x1.Idx → EReal) (w b : S1x128.Idx → EReal)
    (ha : a = V c main_arg2) (hw : w = V c main_arg5) (hb : b = V c main_v4) :
    ((dat0 V c).arrAt 11 cfg0.N : S600000x128.Idx → EReal) (ix2 p q)
      = a (ix2 p (0 : Fin 1)) * w (ix2 (0 : Fin 1) q) + b (ix2 (0 : Fin 1) q) := by
  subst ha hw hb
  rw [linear_array]
  rfl

/-- Entry (p, q) of the second result, with a the attribute column and w₁, b₁, w₂, b₂ the first weight set as the
    region finds them: the affine map by w₂ and b₂ of the hidden row  c ↦ max (a (p, 0) · w₁ (0, c) + b₁ (0, c)) 0. -/
theorem first_network_value (c : Dev nD) (p : Fin 600000) (q : Fin 128)
    (a : S600000x1.Idx → EReal) (w1 b1 : S1x128.Idx → EReal) (w2 : S128x128.Idx → EReal) (b2 : S1x128.Idx → EReal)
    (ha : a = V c main_arg2) (hw1 : w1 = V c main_v6) (hb1 : b1 = V c main_v11) (hw2 : w2 = V c main_v16) (hb2 : b2 = V c main_v21) :
    ((dat0 V c).arrAt 12 cfg0.N : S600000x128.Idx → EReal) (ix2 p q)
      = affine (fun k : Fin 128 => max (a (ix2 p (0 : Fin 1)) * w1 (ix2 (0 : Fin 1) k) + b1 (ix2 (0 : Fin 1) k)) Z) w2
          (fun q : Fin 128 => b2 (ix2 (0 : Fin 1) q)) q := by
  subst ha hw1 hb1 hw2 hb2
  rw [first_network_array]
  rfl

/-- Entry (p, q) of the third result: the same with the second weight set. -/
theorem second_network_value (c : Dev nD) (p : Fin 600000) (q : Fin 128)
    (a : S600000x1.Idx → EReal) (w1 b1 : S1x128.Idx → EReal) (w2 : S128x128.Idx → EReal) (b2 : S1x128.Idx → EReal)
    (ha : a = V c main_arg2) (hw1 : w1 = V c main_v8) (hb1 : b1 = V c main_v14) (hw2 : w2 = V c main_v18) (hb2 : b2 = V c main_v24) :
    ((dat0 V c).arrAt 13 cfg0.N : S600000x128.Idx → EReal) (ix2 p q)
      = affine (fun k : Fin 128 => max (a (ix2 p (0 : Fin 1)) * w1 (ix2 (0 : Fin 1) k) + b1 (ix2 (0 : Fin 1) k)) Z) w2
          (fun q : Fin 128 => b2 (ix2 (0 : Fin 1) q)) q := by
  subst ha hw1 hb1 hw2 hb2
  rw [second_network_array]
  rfl

end Cert.KernelIdeal.EdgeEncoder

end
-- ==== Proof.LinPayload.lean ====
/-
  The linear layer's tile, entry by entry, at the ideal values.

  One grid step of the node embedding multiplies a tile of 10000 rows of the feature matrix by the 128 × 128 weight
  matrix into a zero accumulator and adds the bias row to every row.  A change of number format is the identity at
  the ideal values, so entry (r, q) of the tile is the affine map of row r of the features: the sum over c of
  x (r, c) · W (c, q), plus b (0, q).
-/
import proofs.«168167_j60026462929460_2_alg».proof.Proof.Gen.KernelIdeal.Skeleton
import proofs.«168167_j60026462929460_2_alg».proof.Proof.LibDenseLayer

noncomputable section

namespace Cert.KernelIdeal.Lin

open Idealize.ShloMosaic Idealize.ShloMosaic.ValueIdx Cert.KernelIdeal Cert.KernelIdeal.Gen Cert.DenseLayer

/-- Entry (r, q) of the tile the linear layer stores: the affine map of row r of the feature tile. -/
theorem payload_apply (x : Vec Ideal S10000x128 .f32) (W : Vec Ideal S128x128 .f32) (b : Vec Ideal S1x128 .f32)
    (r : Fin 10000) (q : Fin 128) :
    k1_pay1 (F := Ideal) x W b (ix2 r q)
      = affine (fun c => x (ix2 r c)) W (fun q => b (ix2 (0 : Fin 1) q)) q := by
  unfold k1_pay1
  refine (tpu_affine_apply dot_S10000x128_S128x128_S10000x128_1_0_0_1_n_n_wf broadcasts_S1x128_S10000x128
    (truncf .bf16 x bitsLt_bf16_f32) (truncf .bf16 W bitsLt_bf16_f32)
    (shapeCast S1x128 b shapeCasts_S1x128_S1x128) r q).trans ?_
  rw [shapeCast_self]
  rfl

end Cert.KernelIdeal.Lin

end
-- ==== Proof.LinArray.lean ====
/-
  The node embedding, as one function of the feature matrix, the weight matrix and the bias row.

  The grid has ten steps.  Step t reads rows 10000·t … 10000·t + 9999 of the [100000, 128] feature matrix, the whole
  weight matrix and the whole bias row, and writes back rows 10000·t … 10000·t + 9999 of the result.  Entry (r, q) of the
  block it writes is the affine map of row 10000·t + r of the features, so the block is the restriction of one function
  of the three arrays.  Row p of the result lies in the block of step p / 10000, every row lies in some block, and the
  result array ends holding that function: entry (p, q) is  Σ_c x (p, c) · W (c, q) + b (0, q).
-/
import proofs.«168167_j60026462929460_2_alg».proof.Proof.Gen.KernelIdeal.Frame
import proofs.«168167_j60026462929460_2_alg».proof.Proof.LinPayload
import Idealize.ShloMosaic.Lib.Pipeline.Value

noncomputable section

namespace Cert.KernelIdeal.Lin

open Idealize.ShloMosaic Idealize.ShloMosaic.TcCoe Idealize.ShloMosaic.ValueIdx Idealize.SL.Sem
open Idealize.ShloMosaic.Pipeline (Dat)
open Cert.KernelIdeal Cert.KernelIdeal.Gen Cert.DenseLayer

variable (V : (c : Dev nD) → (b : Ref sig .tc) → Buf (Elt Ideal) ((c : Thread nD τ).loc b))

/-- The linear layer of a whole feature matrix: entry i is the affine map of row i₀ at column i₁. -/
def linOf (X : S100000x128.Idx → EReal) (W : S128x128.Idx → EReal) (B : S1x128.Idx → EReal) : S100000x128.Idx → EReal :=
  fun i => affine (fun k : Fin 128 => X (ix2 (i 0 : Fin 100000) k)) W (fun q : Fin 128 => B (ix2 (0 : Fin 1) q)) (i 1 : Fin 128)

/-- The function at an index whose coordinates are p and q. -/
theorem linOf_of_coords (X : S100000x128.Idx → EReal) (W : S128x128.Idx → EReal) (B : S1x128.Idx → EReal)
    (i : S100000x128.Idx) (p : Fin 100000) (q : Fin 128) (h0 : (i 0).val = p.val) (h1 : (i 1).val = q.val) :
    linOf X W B i = affine (fun k : Fin 128 => X (ix2 p k)) W (fun q : Fin 128 => B (ix2 (0 : Fin 1) q)) q := by
  obtain rfl : i = ix2 p q := funext fun a => Fin.ext (by match a with | ⟨0, _⟩ => exact h0 | ⟨1, _⟩ => exact h1)
  rfl

theorem zero_offsets : (![0, 0] : Fin 2 → Nat) = fun _ => 0 := funext fun a => by fin_cases a <;> rfl

/-- Which blocks a step touches: the feature block and the result block are block t of the rows; the weight matrix and
    the bias row are read whole. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (r, k) of the feature block of step t is entry (10000·t + r, k) of the feature matrix. -/
theorem features_block (c : Dev nD) (t : Fin cfg1.N) (r : Fin 10000) (k : Fin 128) (i : S100000x128.Idx)
    (h0 : (i 0).val = t.val * 10000 + r.val) (h1 : (i 1).val = k.val) :
    (iblk1 V c 0 t : Vec Ideal S10000x128 .f32) (ix2 r k) = (V c main_arg0 : S100000x128.Idx → EReal) i := by
  obtain ⟨e0, e1, -⟩ := block_indices t
  unfold iblk1
  rw [View.read_apply]
  show (V c main_arg0 : S100000x128.Idx → EReal) _ = _
  refine congrArg (V c main_arg0 : S100000x128.Idx → EReal) ?_
  funext a
  apply Fin.ext
  match a with
  | ⟨0, _⟩ => show win1_0.index t (0 : Fin 2) * 10000 + 1 * r.val = (i 0).val; omega
  | ⟨1, _⟩ => show win1_0.index t (1 : Fin 2) * 128 + 1 * k.val = (i 1).val; omega

/-- The weight block of every step is the weight matrix. -/
theorem weights_block (c : Dev nD) (t : Fin cfg1.N) :
    (iblk1 V c 1 t : Vec Ideal S128x128 .f32) = (V c main_arg3 : S128x128.Idx → EReal) := by
  obtain ⟨-, -, e0, e1, -⟩ := block_indices t
  funext y
  unfold iblk1
  rw [View.read_apply]
  show (V c main_arg3 : S128x128.Idx → EReal) _ = _
  refine congrArg (V c main_arg3 : S128x128.Idx → EReal) ?_
  funext a
  apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The bias block of every step is the bias row. -/
theorem bias_block (c : Dev nD) (t : Fin cfg1.N) :
    (iblk1 V c 2 t : Vec Ideal S1x128 .f32) = (V c main_v26 : S1x128.Idx → EReal) := by
  obtain ⟨-, -, -, -, e0, e1, -⟩ := block_indices t
  funext y
  unfold iblk1
  rw [View.read_apply]
  show (V c main_v26 : S1x128.Idx → EReal) _ = _
  refine congrArg (V c main_v26 : S1x128.Idx → EReal) ?_
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What step t writes back is block t of the linear layer of the arrays the region finds. -/
theorem flushed_eq (c : Dev nD) (t : Fin cfg1.N) :
    (dat1 V c).flushed 3 t
      = ((cfg1.win 3).blk t).view.read (Elt Ideal) (linOf (V c main_arg0) (V c main_arg3) (V c main_v26)) := by
  show (cfg1.win 3).cut (grid1.coords t) ((dat1 V c).after 3 t) = _
  rw [after1_3]
  unfold out1_3
  rw [View.canon_unit_zero zero_offsets]
  simp only [View.ld_unit_zero (S := S10000x128) zero_offsets, View.ld_unit_zero (S := S128x128) zero_offsets,
    View.ld_unit_zero (S := S1x128) zero_offsets]
  obtain ⟨-, -, -, -, -, -, e0, e1⟩ := block_indices t
  funext j
  obtain ⟨r, q, rfl⟩ : ∃ (r : Fin 10000) (q : Fin 128), j = ix2 r q := ⟨j 0, j 1, eq_ix2 j⟩
  rw [View.read_apply]
  show k1_pay1 (F := Ideal) (iblk1 V c 0 t) (iblk1 V c 1 t) (iblk1 V c 2 t) (ix2 r q) = _
  refine (payload_apply (iblk1 V c 0 t) (iblk1 V c 1 t) (iblk1 V c 2 t) r q).trans ?_
  have ht : t.val < 10 := lt_of_lt_of_eq t.isLt N_1
  have hr : t.val * 10000 + r.val < 100000 := by have := r.isLt; omega
  refine Eq.trans ?_ (linOf_of_coords _ _ _ _ ⟨t.val * 10000 + r.val, hr⟩ q ?_ ?_).symm
  · rw [weights_block V c t, bias_block V c t]
    refine congrArg (fun z => affine z (V c main_arg3 : S128x128.Idx → EReal) (fun q : Fin 128 => (V c main_v26 : S1x128.Idx → EReal) (ix2 (0 : Fin 1) q)) q) ?_
    funext k
    exact features_block V c t r k _ rfl rfl
  · show win1_3.index t (0 : Fin 2) * 10000 + 1 * r.val = t.val * 10000 + r.val; omega
  · show win1_3.index t (1 : Fin 2) * 128 + 1 * q.val = q.val; omega

/-- An index of the result lies in step t's block iff each coordinate lies in the block's range on its axis. -/
theorem mem_block (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v27).slice (win1_3.rect t)).set ↔ _
  rw [View.set_slice_whole, Rect.mem_set_unit]
  exact Iff.rfl

/-- Row p of the result lies in the block of step p / 10000, which is written back. -/
theorem covered (i : S100000x128.Idx) :
    ∃ t : Fin cfg1.N, (cfg1.win 3).flush t = true ∧ i ∈ ((cfg1.win 3).blk t).view.set := by
  have h0 : (i 0).val < 100000 := idx2_lt0 i
  have h1 : (i 1).val < 128 := idx2_lt1 i
  have hN : cfg1.N = 10 := N_1
  refine ⟨⟨(i 0).val / 10000, by rw [hN]; omega⟩, flush1_3 _, ?_⟩
  rw [mem_block]
  obtain ⟨-, -, -, -, -, -, e0, e1⟩ := block_indices ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e0]; show (i 0).val / 10000 * 10000 ≤ (i 0).val ∧ (i 0).val < (i 0).val / 10000 * 10000 + 10000; omega
  | ⟨1, _⟩ =>
    show win1_3.index _ (1 : Fin 2) * 128 ≤ (i 1).val ∧ (i 1).val < win1_3.index _ (1 : Fin 2) * 128 + 128
    rw [e1]; omega

/-- The result array after the region: the linear layer of the feature matrix, the weight matrix and the bias row as the
    region finds them. -/
theorem lin_array (c : Dev nD) :
    (dat1 V c).arrAt 3 cfg1.N = linOf (V c main_arg0) (V c main_arg3) (V c main_v26) :=
  (dat1 V c).arrAt_eq_of_cover 3 (linOf (V c main_arg0) (V c main_arg3) (V c main_v26))
    (fun t _ => flushed_eq V c t) covered

/-- Entry (p, q) of the result: Σ_c x (p, c) · W (c, q) + b (0, q). -/
theorem lin_value (c : Dev nD) (p : Fin 100000) (q : Fin 128) :
    ((dat1 V c).arrAt 3 cfg1.N : S100000x128.Idx → EReal) (ix2 p q)
      = affine (fun k : Fin 128 => (V c main_arg0 : S100000x128.Idx → EReal) (ix2 p k))
          (V c main_arg3 : S128x128.Idx → EReal)
          (fun q : Fin 128 => (V c main_v26 : S1x128.Idx → EReal) (ix2 (0 : Fin 1) q)) q := by
  rw [lin_array]
  rfl

end Cert.KernelIdeal.Lin

end
-- ==== Proof.RefStages.lean ====
/-
  The reference computation, stage by stage, read at an entry.

  The reference is a two-layer message-passing network on N = 100000 nodes and E = 600000 edges:
  a node projection h0 = x·W + b, edge encodings ee = (relu of an affine map of the edge attribute)·W' + b',
  two overwrite-scatters of relu(h0[src] + ee0) and relu(h0[dst] + ee0) into h0, and per layer
  agg = scatter-add over dst of relu(h[src] + ee), z = (1 + eps)·h + agg, z1 = z·M1 + c1,
  batch normalisation of z1 over the node axis, relu, and a second affine map.
  Every affine stage is read here at an entry (p, q) as the affine map of row p against column q,
  in the spelling shared with the kernel's tiles; the gathers and scatters are kept as whole-array operations.
-/
import proofs.«168167_j60026462929460_2_alg».proof.Proof.RefRead
import proofs.«168167_j60026462929460_2_alg».proof.Proof.LibDenseLayer
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Cert.ReferenceIdeal Cert.ReferenceIdeal.Read Cert.DenseLayer

/-- The eighteen argument arrays of either program, at the ideal instance. -/
structure Args where
  a0 : (⟨S100000x128, .f32⟩ : BufTy).Contents (Elt Ideal)
  a1 : (⟨S2x600000, .i32⟩ : BufTy).Contents (Elt Ideal)
  a2 : (⟨S600000x1, .f32⟩ : BufTy).Contents (Elt Ideal)
  a3 : (⟨S128x128, .f32⟩ : BufTy).Contents (Elt Ideal)
  a4 : (⟨S128, .f32⟩ : BufTy).Contents (Elt Ideal)
  a5 : (⟨S1x128, .f32⟩ : BufTy).Contents (Elt Ideal)
  a6 : (⟨S128, .f32⟩ : BufTy).Contents (Elt Ideal)
  a7 : (⟨S2, .f32⟩ : BufTy).Contents (Elt Ideal)
  a8 : (⟨S2x1x128, .f32⟩ : BufTy).Contents (Elt Ideal)
  a9 : (⟨S2x128, .f32⟩ : BufTy).Contents (Elt Ideal)
  a10 : (⟨S2x128x128, .f32⟩ : BufTy).Contents (Elt Ideal)
  a11 : (⟨S2x128, .f32⟩ : BufTy).Contents (Elt Ideal)
  a12 : (⟨S2x128x256, .f32⟩ : BufTy).Contents (Elt Ideal)
  a13 : (⟨S2x256, .f32⟩ : BufTy).Contents (Elt Ideal)
  a14 : (⟨S2x256, .f32⟩ : BufTy).Contents (Elt Ideal)
  a15 : (⟨S2x256, .f32⟩ : BufTy).Contents (Elt Ideal)
  a16 : (⟨S2x256x128, .f32⟩ : BufTy).Contents (Elt Ideal)
  a17 : (⟨S2x128, .f32⟩ : BufTy).Contents (Elt Ideal)

variable (A : Args)

/-- The node projection h0 = x·W + b. -/
def rH0 := val_main_v7 (F := Ideal) A.a0 A.a3 A.a4
/-- The edge encoding used by the two overwrite-scatters. -/
def rEE0 := val_main_v11 (F := Ideal) A.a2 A.a5 A.a6
/-- The node features after the two overwrite-scatters. -/
def rH1 := val_main_v43 (F := Ideal) A.a0 A.a1 A.a2 A.a3 A.a4 A.a5 A.a6
/-- Layer 1's edge encoding. -/
def rEE1 := val_main_v74 (F := Ideal) A.a2 A.a8 A.a9 A.a10 A.a11
/-- Layer 1's aggregated messages. -/
def rAgg1 := val_main_v86 (F := Ideal) A.a0 A.a1 A.a2 A.a3 A.a4 A.a5 A.a6 A.a8 A.a9 A.a10 A.a11
/-- Layer 1's pre-normalisation activations z1. -/
def rZ1 := val_main_v94 (F := Ideal) A.a0 A.a1 A.a2 A.a3 A.a4 A.a5 A.a6 A.a7 A.a8 A.a9 A.a10 A.a11 A.a12 A.a13
/-- Layer 1's batch mean and variance, one entry per column. -/
def rMu1 := val_main_v97 (F := Ideal) A.a0 A.a1 A.a2 A.a3 A.a4 A.a5 A.a6 A.a7 A.a8 A.a9 A.a10 A.a11 A.a12 A.a13
def rVar1 := val_main_v104 (F := Ideal) A.a0 A.a1 A.a2 A.a3 A.a4 A.a5 A.a6 A.a7 A.a8 A.a9 A.a10 A.a11 A.a12 A.a13
/-- Layer 1's output (after the relu between the layers). -/
def rH2 := val_main_v125 (F := Ideal) A.a0 A.a1 A.a2 A.a3 A.a4 A.a5 A.a6 A.a7 A.a8 A.a9 A.a10 A.a11 A.a12 A.a13 A.a14 A.a15 A.a16 A.a17
/-- Layer 2's edge encoding, aggregated messages, activations, statistics and output. -/
def rEE2 := val_main_v156 (F := Ideal) A.a2 A.a8 A.a9 A.a10 A.a11
def rAgg2 := val_main_v168 (F := Ideal) A.a0 A.a1 A.a2 A.a3 A.a4 A.a5 A.a6 A.a7 A.a8 A.a9 A.a10 A.a11 A.a12 A.a13 A.a14 A.a15 A.a16 A.a17
def rZ2 := val_main_v176 (F := Ideal) A.a0 A.a1 A.a2 A.a3 A.a4 A.a5 A.a6 A.a7 A.a8 A.a9 A.a10 A.a11 A.a12 A.a13 A.a14 A.a15 A.a16 A.a17
def rMu2 := val_main_v179 (F := Ideal) A.a0 A.a1 A.a2 A.a3 A.a4 A.a5 A.a6 A.a7 A.a8 A.a9 A.a10 A.a11 A.a12 A.a13 A.a14 A.a15 A.a16 A.a17
def rVar2 := val_main_v186 (F := Ideal) A.a0 A.a1 A.a2 A.a3 A.a4 A.a5 A.a6 A.a7 A.a8 A.a9 A.a10 A.a11 A.a12 A.a13 A.a14 A.a15 A.a16 A.a17
def rOut := val_main_v206 (F := Ideal) A.a0 A.a1 A.a2 A.a3 A.a4 A.a5 A.a6 A.a7 A.a8 A.a9 A.a10 A.a11 A.a12 A.a13 A.a14 A.a15 A.a16 A.a17

/-- h0 at (p, q): row p of x against column q of W, plus b q. -/
theorem rH0_at (p : Fin 100000) (q : Fin 128) :
    rH0 A (ix2 p q) = affine (fun c => A.a0 (ix2 p c)) A.a3 (fun q => A.a4 (ix1 q)) q :=
  host_affine_apply _ _ _ A.a0 A.a3 A.a4 p q

/-- ee0 at (e, q): the edge attribute times the encoder weight's column q, plus the bias. -/
theorem rEE0_at (e : Fin 600000) (q : Fin 128) :
    rEE0 A (ix2 e q) = affine (fun c => A.a2 (ix2 e c)) A.a5 (fun q => A.a6 (ix1 q)) q :=
  host_affine_apply _ _ _ A.a2 A.a5 A.a6 e q

/-- Layer 1's edge encoding at (e, q): a dense layer of the edge attribute followed by an affine map. -/
theorem rEE1_at (e : Fin 600000) (q : Fin 128) :
    rEE1 A (ix2 e q) = affine (fun c => dense (fun c' => A.a2 (ix2 e c')) (val_main_v47 (F := Ideal) A.a8)
        (fun c => val_main_v49 (F := Ideal) A.a9 (ix1 c)) c)
      (val_main_v51 (F := Ideal) A.a10) (fun q => val_main_v53 (F := Ideal) A.a11 (ix1 q)) q :=
  (host_affine_apply _ _ _ (val_main_v70 (F := Ideal) A.a2 A.a8 A.a9) (val_main_v51 (F := Ideal) A.a10)
      (val_main_v53 (F := Ideal) A.a11) e q).trans
    (congrArg (fun z => affine z (val_main_v51 (F := Ideal) A.a10) (fun q => val_main_v53 (F := Ideal) A.a11 (ix1 q)) q)
      (funext fun c => host_dense_apply _ _ _ _ A.a2 (val_main_v47 (F := Ideal) A.a8) (val_main_v49 (F := Ideal) A.a9) e c))

/-- Layer 2's edge encoding at (e, q), over the second slices of the stacked weights. -/
theorem rEE2_at (e : Fin 600000) (q : Fin 128) :
    rEE2 A (ix2 e q) = affine (fun c => dense (fun c' => A.a2 (ix2 e c')) (val_main_v129 (F := Ideal) A.a8)
        (fun c => val_main_v131 (F := Ideal) A.a9 (ix1 c)) c)
      (val_main_v133 (F := Ideal) A.a10) (fun q => val_main_v135 (F := Ideal) A.a11 (ix1 q)) q :=
  (host_affine_apply _ _ _ (val_main_v152 (F := Ideal) A.a2 A.a8 A.a9) (val_main_v133 (F := Ideal) A.a10)
      (val_main_v135 (F := Ideal) A.a11) e q).trans
    (congrArg (fun z => affine z (val_main_v133 (F := Ideal) A.a10) (fun q => val_main_v135 (F := Ideal) A.a11 (ix1 q)) q)
      (funext fun c => host_dense_apply _ _ _ _ A.a2 (val_main_v129 (F := Ideal) A.a8) (val_main_v131 (F := Ideal) A.a9) e c))

/-- Layer 1's z1 at (p, q): the affine map of the row (1 + eps)·h(p, ·) + agg(p, ·). -/
theorem rZ1_at (p : Fin 100000) (q : Fin 256) :
    rZ1 A (ix2 p q) = affine (fun c => val_main_v87 (F := Ideal) A.a7 ix0 * rH1 A (ix2 p c) + rAgg1 A (ix2 p c))
      (val_main_v55 (F := Ideal) A.a12) (fun q => val_main_v57 (F := Ideal) A.a13 (ix1 q)) q :=
  (host_affine_apply _ _ _ (val_main_v90 (F := Ideal) A.a0 A.a1 A.a2 A.a3 A.a4 A.a5 A.a6 A.a7 A.a8 A.a9 A.a10 A.a11)
      (val_main_v55 (F := Ideal) A.a12) (val_main_v57 (F := Ideal) A.a13) p q).trans
    (congrArg (fun z => affine z (val_main_v55 (F := Ideal) A.a12) (fun q => val_main_v57 (F := Ideal) A.a13 (ix1 q)) q)
      (funext fun c => by
        show val_main_v88 (F := Ideal) A.a7 (ix2 p c) * _ + _ = _
        rw [val_main_v88_apply]; rfl))

/-- Layer 2's z1 at (p, q). -/
theorem rZ2_at (p : Fin 100000) (q : Fin 256) :
    rZ2 A (ix2 p q) = affine (fun c => val_main_v169 (F := Ideal) A.a7 ix0 * rH2 A (ix2 p c) + rAgg2 A (ix2 p c))
      (val_main_v137 (F := Ideal) A.a12) (fun q => val_main_v139 (F := Ideal) A.a13 (ix1 q)) q :=
  (host_affine_apply _ _ _ (val_main_v172 (F := Ideal) A.a0 A.a1 A.a2 A.a3 A.a4 A.a5 A.a6 A.a7 A.a8 A.a9 A.a10 A.a11 A.a12 A.a13 A.a14 A.a15 A.a16 A.a17)
      (val_main_v137 (F := Ideal) A.a12) (val_main_v139 (F := Ideal) A.a13) p q).trans
    (congrArg (fun z => affine z (val_main_v137 (F := Ideal) A.a12) (fun q => val_main_v139 (F := Ideal) A.a13 (ix1 q)) q)
      (funext fun c => by
        show val_main_v170 (F := Ideal) A.a7 (ix2 p c) * _ + _ = _
        rw [val_main_v170_apply]; rfl))

end Cert.Bridge

end
-- ==== Proof.Bridge1.lean ====
/-
  The kernel's node projection is the reference's.

  The first tiled product of the kernel writes h0 = x·W + b block by block (ten blocks of 10000 rows); read as one
  array it is the affine map of each row, which is what the reference's product plus broadcast bias is. The bias
  reaches the kernel re-laid as a [1, 128] row; entry (0, q) of that row is entry q of the vector.
-/
import proofs.«168167_j60026462929460_2_alg».proof.Proof.LinArray
import proofs.«168167_j60026462929460_2_alg».proof.Proof.Fold1
import proofs.«168167_j60026462929460_2_alg».proof.Proof.RefStages
import proofs.«168167_j60026462929460_2_alg».proof.Proof.LibBroadcast

noncomputable section

namespace Cert.Bridge

open Idealize.ShloMosaic Idealize.ShloMosaic.TcCoe Idealize.ShloMosaic.ValueIdx Idealize.SL.Sem
open Cert.KernelIdeal Cert.KernelIdeal.Gen Cert.DenseLayer Cert.Layout

variable (m : (ℓ : Loc nD τ sig) → Buf (Elt Ideal) ℓ) (ρ : Dev nD → PrngReg)

/-- The kernel program's eighteen argument arrays on core c, as launched. -/
def kA (c : Dev nD) : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17)⟩

/-- The kernel's h0, as one array, is the reference's h0 of the same arguments. -/
theorem kH0_eq (c : Dev nD) : Cert.Fold.kH0 m ρ c = rH0 (kA m c) := by
  unfold Cert.Fold.kH0
  rw [Cert.KernelIdeal.Lin.lin_array (V3 m ρ) c, Cert.Fold.V3_main_arg0, Cert.Fold.V3_main_arg3, Cert.Fold.V3_main_v26]
  funext i
  obtain ⟨p, q, rfl⟩ : ∃ (p : Fin 100000) (q : Fin 128), i = ix2 p q := ⟨i 0, i 1, eq_ix2 i⟩
  rw [rH0_at]
  show affine _ _ (fun q => shapeCast S1x128 _ shapeCasts_S128_S1x128 (ix2 (0 : Fin 1) q)) q = _
  simp only [shapeCast_row_apply]
  rfl

end Cert.Bridge

end
-- ==== Proof.Bridge0.lean ====
/-
  The kernel's three edge encodings are the reference's.

  The edge encoder writes, block by block (150 blocks of 4000 edges), the one-input linear map of the edge attribute and
  two two-layer networks of it.  Read as whole arrays these are, entry by entry, what the reference's products compute:
  the attribute matrix has one column, so a product against it is a sum over a one-element range, which is its single
  term.  The bias vectors reach the kernel re-laid as [1, 128] rows; entry (0, q) of such a row is entry q of the
  vector.  The slices of the stacked weights are the same terms in both programs.
-/
import proofs.«168167_j60026462929460_2_alg».proof.Proof.EdgeEncoderArrays
import proofs.«168167_j60026462929460_2_alg».proof.Proof.Bridge1

noncomputable section

namespace Cert.Bridge

open Idealize.ShloMosaic Idealize.ShloMosaic.TcCoe Idealize.ShloMosaic.ValueIdx Idealize.SL.Sem
open Cert.KernelIdeal Cert.KernelIdeal.Gen Cert.DenseLayer Cert.Layout Cert.KernelIdeal.EdgeEncoder

variable (m : (ℓ : Loc nD τ sig) → Buf (Elt Ideal) ℓ) (ρ : Dev nD → PrngReg)

/-- An affine map of a one-entry row: the entry times the one weight row, plus the bias. -/
theorem affine_one {n : ℕ} (z : Fin 1 → EReal) (w : (⟨2, ![1, n]⟩ : Shape).Idx → EReal) (b : Fin n → EReal) (q : Fin n) :
    affine z w b q = z 0 * w (ix2 (0 : Fin 1) q) + b q := by
  unfold affine
  rw [Fin.sum_univ_one]

/-- A dense layer of a one-entry row. -/
theorem dense_one {n : ℕ} (z : Fin 1 → EReal) (w : (⟨2, ![1, n]⟩ : Shape).Idx → EReal) (b : Fin n → EReal) (q : Fin n) :
    dense z w b q = max (z 0 * w (ix2 (0 : Fin 1) q) + b q) Z := by
  unfold dense
  rw [affine_one]

/-- The kernel's first edge encoding, as one array, is the reference's of the same arguments. -/
theorem kEE0_eq (c : Dev nD) : Cert.Fold.kEE0 m ρ c = rEE0 (kA m c) := by
  unfold Cert.Fold.kEE0
  rw [linear_array (V1 m ρ) c, Cert.Fold.V1_main_arg2, Cert.Fold.V1_main_arg5, Cert.Fold.V1_main_v4]
  funext i
  obtain ⟨p, q, rfl⟩ : ∃ (p : Fin 600000) (q : Fin 128), i = ix2 p q := ⟨i 0, i 1, eq_ix2 i⟩
  rw [rEE0_at, affine_one, linearOf_of_coords _ _ _ (ix2 p q) p q rfl rfl]
  simp only [shapeCast_row_apply]
  rfl

/-- The kernel's second edge encoding is the reference's layer-one edge encoding. -/
theorem kEE1_eq (c : Dev nD) : Cert.Fold.kEE1 m ρ c = rEE1 (kA m c) := by
  unfold Cert.Fold.kEE1
  rw [first_network_array (V1 m ρ) c, Cert.Fold.V1_main_arg2, Cert.Fold.V1_main_v6, Cert.Fold.V1_main_v11,
    Cert.Fold.V1_main_v16, Cert.Fold.V1_main_v21]
  funext i
  obtain ⟨p, q, rfl⟩ : ∃ (p : Fin 600000) (q : Fin 128), i = ix2 p q := ⟨i 0, i 1, eq_ix2 i⟩
  rw [rEE1_at, networkOf_of_coords _ _ _ _ _ (ix2 p q) p q rfl rfl]
  simp only [shapeCast_row_apply, dense_one]
  rfl

/-- The kernel's third edge encoding is the reference's layer-two edge encoding. -/
theorem kEE2_eq (c : Dev nD) : Cert.Fold.kEE2 m ρ c = rEE2 (kA m c) := by
  unfold Cert.Fold.kEE2
  rw [second_network_array (V1 m ρ) c, Cert.Fold.V1_main_arg2, Cert.Fold.V1_main_v8, Cert.Fold.V1_main_v14,
    Cert.Fold.V1_main_v18, Cert.Fold.V1_main_v24]
  funext i
  obtain ⟨p, q, rfl⟩ : ∃ (p : Fin 600000) (q : Fin 128), i = ix2 p q := ⟨i 0, i 1, eq_ix2 i⟩
  rw [rEE2_at, networkOf_of_coords _ _ _ _ _ (ix2 p q) p q rfl rfl]
  simp only [shapeCast_row_apply, dense_one]
  rfl

end Cert.Bridge

end
-- ==== Proof.GlueBridge.lean ====
/-
  The host operations between the device regions are the reference's own operations.

  Between its regions the device program updates the node table and aggregates edge messages on the host:
  per edge, the maximum with zero of (a node's row + the edge's encoding), written back to the start nodes and then
  to the end nodes (a later edge wins), and, per layer, the messages from the start nodes added up per end node.
  The reference program performs the same gathers, overwrite-scatters and add-scatters, with the same dimension
  numbers, on the same node numbers (the two rows of the edge table, negative numbers moved up by the number of nodes
  where the program does so).  So each of these host stretches, applied to the reference's own node table and edge
  encoding, is the reference's corresponding stage: the two sides are the same term, operation for operation.
-/
import proofs.«168167_j60026462929460_2_alg».proof.Proof.RefStages
import proofs.«168167_j60026462929460_2_alg».proof.Proof.Fold2

noncomputable section

namespace Cert.Bridge

open Idealize.ShloMosaic Cert.ReferenceIdeal Cert.ReferenceIdeal.Read

variable (A : Args)

/-- The node table after the two overwrite-scatters: the host stretch on the reference's projection and first edge
    encoding is the reference's updated node table. -/
theorem hUpd_ref : Cert.Fold.hUpd (F := Ideal) (rH0 A) A.a1 (rEE0 A) = rH1 A := rfl

/-- Layer 1's aggregated messages. -/
theorem aggMsg_ref1 : Cert.Fold.aggMsg (F := Ideal) (rH1 A) A.a1 (rEE1 A) = rAgg1 A := rfl

/-- Layer 2's aggregated messages. -/
theorem aggMsg_ref2 : Cert.Fold.aggMsg (F := Ideal) (rH2 A) A.a1 (rEE2 A) = rAgg2 A := rfl

end Cert.Bridge

end
-- ==== Proof.AffineRowsSpec.lean ====
/-
  One layer of the graph network's update, row by row, at the ideal values (a float is an extended real, every
  operation exact).

  Row p of the layer's input is (1 + eps) · h p + agg p, where eps is a single number; the layer sends it through
  an affine map: zrow p q = (sum over c of ((1 + eps) · h (p, c) + agg (p, c)) · W (c, q)) + b q.  The batch
  statistics taken afterwards need, per tile of L consecutive rows, the column sums of zrow and of its square;
  the device keeps each tile's sums in 8 identical rows of a [8 · T, n] array.
-/
import Idealize.ShloMosaic.Lib.Pipeline.Value
import Idealize.ShloMosaic.Lib.ValueIdx
import Idealize.ShloMosaic.PureOps.Ideal.Laws
import proofs.«168167_j60026462929460_2_alg».proof.Proof.LibDenseLayer

noncomputable section

namespace Cert.AffineRows

open Idealize.ShloMosaic Idealize.ShloMosaic.ValueIdx Cert.DenseLayer

/-- The value of the float word of one. -/
abbrev one : EReal := Ideal.ofBits .f32 0x3F800000#32

/-- Entry (p, q) of the layer's output: the affine map of row p of (1 + eps) · h + agg. -/
def zrow {N k n : ℕ} (h agg : (⟨2, ![N, k]⟩ : Shape).Idx → EReal) (eps : (⟨2, ![1, 1]⟩ : Shape).Idx → EReal)
    (W : (⟨2, ![k, n]⟩ : Shape).Idx → EReal) (b : (⟨2, ![1, n]⟩ : Shape).Idx → EReal) (p : Fin N) (q : Fin n) : EReal :=
  affine (fun c => (one + eps (ix2 (0 : Fin 1) (0 : Fin 1))) * h (ix2 p c) + agg (ix2 p c)) W (fun q => b (ix2 (0 : Fin 1) q)) q

/-- A [1, 1] array repeated over [a, b] reads, everywhere, its one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The output depends only on row p of h and agg, the one entry of eps, and W and b: two settings that agree
    on those give the same entry (the row may sit at different positions of arrays of different heights). -/
theorem zrow_congr {N N' k n : ℕ} {h agg : (⟨2, ![N, k]⟩ : Shape).Idx → EReal} {h' agg' : (⟨2, ![N', k]⟩ : Shape).Idx → EReal}
    {eps eps' : (⟨2, ![1, 1]⟩ : Shape).Idx → EReal} {W W' : (⟨2, ![k, n]⟩ : Shape).Idx → EReal}
    {b b' : (⟨2, ![1, n]⟩ : Shape).Idx → EReal} {p : Fin N} {p' : Fin N'} (q : Fin n)
    (hh : ∀ c : Fin k, h (ix2 p c) = h' (ix2 p' c)) (ha : ∀ c : Fin k, agg (ix2 p c) = agg' (ix2 p' c))
    (he : eps (ix2 (0 : Fin 1) (0 : Fin 1)) = eps' (ix2 (0 : Fin 1) (0 : Fin 1)))
    (hW : ∀ (c : Fin k) (q : Fin n), W (ix2 c q) = W' (ix2 c q))
    (hb : ∀ q : Fin n, b (ix2 (0 : Fin 1) q) = b' (ix2 (0 : Fin 1) q)) :
    zrow h agg eps W b p q = zrow h' agg' eps' W' b' p' q := by
  unfold zrow affine
  dsimp only
  rw [he, hb q]
  exact congrArg (· + b' (ix2 (0 : Fin 1) q)) (Finset.sum_congr rfl fun c _ => by rw [hh c, ha c, hW c q])

/-- Row j of tile r / 8, for the 25 tiles of 4000 rows whose sums sit in 8 rows each of a 200-row array. -/
def tileRow (r : Fin 200) (j : Fin 4000) : Fin 100000 :=
  ⟨r.val / 8 * 4000 + j.val, by have := r.isLt; have := j.isLt; omega⟩

theorem tileRow_val (r : Fin 200) (j : Fin 4000) : (tileRow r j).val = r.val / 8 * 4000 + j.val := rfl

end Cert.AffineRows

end
-- ==== Proof.AffineTile2.lean ====
/-
  The first affine-layer kernel's tile arithmetic read entry by entry, at the ideal values.

  From a tile of L = 4000 rows of h and of agg, the number eps, the matrix W and the bias row b, the kernel forms
  (1 + eps) · h + agg, multiplies by W into a zero accumulator and adds b to every row: entry (r, q) of the result is
  zrow at row r of the tile.  The changes of float format on the way into the product are the identity here.  The
  second and third results repeat, down 8 rows, the column sums over the tile's rows of that result and of its square.
-/
import proofs.«168167_j60026462929460_2_alg».proof.Proof.Gen.KernelIdeal.Skeleton
import proofs.«168167_j60026462929460_2_alg».proof.Proof.AffineRowsSpec
import proofs.«168167_j60026462929460_2_alg».proof.Proof.LibBroadcast
import proofs.«168167_j60026462929460_2_alg».proof.Proof.LibRowsProduct

noncomputable section

namespace Cert.AffineRows.Tile2

open Idealize.ShloMosaic Idealize.ShloMosaic.ValueIdx Cert.DenseLayer Cert.AffineRows
open Cert.KernelIdeal Cert.KernelIdeal.Gen

/-- Entry (r, q) of the tile's affine result. -/
theorem affine_apply (v0 v2 : Vec Ideal S4000x128 .f32) (v4 : Vec Ideal S1x1 .f32) (v12 : Vec Ideal S128x256 .f32)
    (v16 : Vec Ideal S1x256 .f32) (r : Fin 4000) (q : Fin 256) :
    k2_pay1 (F := Ideal) v0 v2 v4 v12 v16 (ix2 r q) = zrow v0 v2 v4 v12 v16 r q := by
  unfold k2_pay1
  refine (tpu_affine_apply _ _ _ _ _ r q).trans ?_
  unfold zrow
  simp only [shapeCast_self]
  refine congrArg (fun z : Fin 128 → EReal => affine z v12 (fun q => v16 (ix2 (0 : Fin 1) q)) q) (funext fun c => ?_)
  rw [truncf_apply, addf_apply, mulf_apply, broadcastTo_11_ab_apply, addf_apply, broadcast_apply]
  rfl

/-- The lane sum over the tile's rows, read at column q. -/
theorem colsum_apply (x : FVec Ideal S4000x256 .f32) (q : Fin 256) :
    multiReduction .add [0] S256 x 0x00000000#32 reduces_S4000x256_S256 (.inl rfl) rfl (ix1 q)
      = ∑ j : Fin 4000, x (ix2 j q) := by
  refine (Ideal.multiReduction_add_single x 0x00000000#32 reduces_S4000x256_S256 (.inl rfl) rfl (ix1 q)).trans ?_
  exact Finset.sum_congr rfl fun j _ => congrArg x (funext fun a => by match a with | ⟨0, _⟩ => rfl | ⟨1, _⟩ => rfl)

/-- Entry (r, q) of the tile's repeated column sums: the sum over the tile's rows of the affine result. -/
theorem sums_apply (v0 v2 : Vec Ideal S4000x128 .f32) (v4 : Vec Ideal S1x1 .f32) (v12 : Vec Ideal S128x256 .f32)
    (v16 : Vec Ideal S1x256 .f32) (r : Fin 8) (q : Fin 256) :
    k2_pay2 (F := Ideal) v0 v2 v4 v12 v16 (ix2 r q) = ∑ j : Fin 4000, zrow v0 v2 v4 v12 v16 j q := by
  unfold k2_pay2
  refine (Cert.RowsProduct.broadcastTo_1n_an_apply _ _ r q).trans ?_
  rw [shapeCast_self]
  refine (Cert.Layout.shapeCast_row_apply _ _ q).trans ?_
  refine (colsum_apply _ q).trans ?_
  exact Finset.sum_congr rfl fun j _ => affine_apply v0 v2 v4 v12 v16 j q

/-- Entry (r, q) of the tile's repeated column sums of squares. -/
theorem sumsq_apply (v0 v2 : Vec Ideal S4000x128 .f32) (v4 : Vec Ideal S1x1 .f32) (v12 : Vec Ideal S128x256 .f32)
    (v16 : Vec Ideal S1x256 .f32) (r : Fin 8) (q : Fin 256) :
    k2_pay3 (F := Ideal) v0 v2 v4 v12 v16 (ix2 r q)
      = ∑ j : Fin 4000, zrow v0 v2 v4 v12 v16 j q * zrow v0 v2 v4 v12 v16 j q := by
  unfold k2_pay3
  refine (Cert.RowsProduct.broadcastTo_1n_an_apply _ _ r q).trans ?_
  rw [shapeCast_self]
  refine (Cert.Layout.shapeCast_row_apply _ _ q).trans ?_
  refine (colsum_apply _ q).trans ?_
  exact Finset.sum_congr rfl fun j _ => by rw [mulf_apply, affine_apply]

end Cert.AffineRows.Tile2

end
-- ==== Proof.AffineBlocks2.lean ====
/-
  The first affine-layer region: what each grid point reads and writes back, as rows of the arrays.

  The grid has 25 points; point t works on rows 4000 t … 4000 t + 3999 of h and agg (tiles of 4000 rows), reads eps, W
  and b whole, and writes back rows 4000 t … of the affine result and rows 8 t … 8 t + 7 of the two sums arrays.  So each
  tile entry the kernel computes from its blocks is the same expression of the arrays at the tile's rows.
-/
import proofs.«168167_j60026462929460_2_alg».proof.Proof.Gen.KernelIdeal.Frame
import proofs.«168167_j60026462929460_2_alg».proof.Proof.AffineTile2
import Idealize.ShloMosaic.Lib.Pipeline.Value

set_option maxRecDepth 16384

noncomputable section

namespace Cert.AffineRows.Region2

open Idealize.ShloMosaic Idealize.ShloMosaic.TcCoe Idealize.ShloMosaic.ValueIdx Idealize.SL.Sem
open Idealize.ShloMosaic.Pipeline (Dat)
open Cert.DenseLayer Cert.AffineRows
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-tiled windows are at block (t, 0), the whole-array
    windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Row r of point t's block of h is row 4000 t + r of h. -/
theorem h_block (c : Dev nD) (t : Fin cfg2.N) (r : Fin 4000) (k : Fin 128) (p : Fin 100000) (hp : p.val = t.val * 4000 + r.val) :
    (iblk2 (F := Ideal) V c 0 t : Vec Ideal S4000x128 .f32) (ix2 r k) = (V c main_v59 : S100000x128.Idx → EReal) (ix2 p k) := by
  obtain ⟨e0, e1, -⟩ := idx_facts t
  unfold iblk2
  rw [View.read_apply]
  show V c main_v59 _ = V c main_v59 _
  refine congrArg (V c main_v59) (funext fun a => Fin.ext ?_)
  match a with
  | ⟨0, _⟩ => show win2_0.index t (0 : Fin 2) * 4000 + 1 * r.val = p.val; omega
  | ⟨1, _⟩ => show win2_0.index t (1 : Fin 2) * 128 + 1 * k.val = k.val; omega

/-- Row r of point t's block of agg is row 4000 t + r of agg. -/
theorem agg_block (c : Dev nD) (t : Fin cfg2.N) (r : Fin 4000) (k : Fin 128) (p : Fin 100000) (hp : p.val = t.val * 4000 + r.val) :
    (iblk2 (F := Ideal) V c 1 t : Vec Ideal S4000x128 .f32) (ix2 r k) = (V c main_v71 : S100000x128.Idx → EReal) (ix2 p k) := by
  obtain ⟨-, -, e0, e1, -⟩ := idx_facts t
  unfold iblk2
  rw [View.read_apply]
  show V c main_v71 _ = V c main_v71 _
  refine congrArg (V c main_v71) (funext fun a => Fin.ext ?_)
  match a with
  | ⟨0, _⟩ => show win2_1.index t (0 : Fin 2) * 4000 + 1 * r.val = p.val; omega
  | ⟨1, _⟩ => show win2_1.index t (1 : Fin 2) * 128 + 1 * k.val = k.val; omega

/-- Every point's block of eps is eps. -/
theorem eps_block (c : Dev nD) (t : Fin cfg2.N) :
    (iblk2 (F := Ideal) V c 2 t : Vec Ideal S1x1 .f32) (ix2 (0 : Fin 1) (0 : Fin 1)) = (V c main_v87 : S1x1.Idx → EReal) (ix2 (0 : Fin 1) (0 : Fin 1)) := by
  obtain ⟨-, -, -, -, e0, e1, -⟩ := idx_facts t
  unfold iblk2
  rw [View.read_apply]
  show V c main_v87 _ = V c main_v87 _
  refine congrArg (V c main_v87) (funext fun a => Fin.ext ?_)
  match a with
  | ⟨0, _⟩ => show win2_2.index t (0 : Fin 2) * 1 + 1 * 0 = 0; omega
  | ⟨1, _⟩ => show win2_2.index t (1 : Fin 2) * 1 + 1 * 0 = 0; omega

/-- Every point's block of W is W. -/
theorem W_block (c : Dev nD) (t : Fin cfg2.N) (k : Fin 128) (q : Fin 256) :
    (iblk2 (F := Ideal) V c 3 t : Vec Ideal S128x256 .f32) (ix2 k q) = (V c main_v75 : S128x256.Idx → EReal) (ix2 k q) := by
  obtain ⟨-, -, -, -, -, -, e0, e1, -⟩ := idx_facts t
  unfold iblk2
  rw [View.read_apply]
  show V c main_v75 _ = V c main_v75 _
  refine congrArg (V c main_v75) (funext fun a => Fin.ext ?_)
  match a with
  | ⟨0, _⟩ => show win2_3.index t (0 : Fin 2) * 128 + 1 * k.val = k.val; omega
  | ⟨1, _⟩ => show win2_3.index t (1 : Fin 2) * 256 + 1 * q.val = q.val; omega

/-- Every point's block of b is b. -/
theorem b_block (c : Dev nD) (t : Fin cfg2.N) (q : Fin 256) :
    (iblk2 (F := Ideal) V c 4 t : Vec Ideal S1x256 .f32) (ix2 (0 : Fin 1) q) = (V c main_v86 : S1x256.Idx → EReal) (ix2 (0 : Fin 1) q) := by
  obtain ⟨-, -, -, -, -, -, -, -, e0, e1, -⟩ := idx_facts t
  unfold iblk2
  rw [View.read_apply]
  show V c main_v86 _ = V c main_v86 _
  refine congrArg (V c main_v86) (funext fun a => Fin.ext ?_)
  match a with
  | ⟨0, _⟩ => show win2_4.index t (0 : Fin 2) * 1 + 1 * 0 = 0; omega
  | ⟨1, _⟩ => show win2_4.index t (1 : Fin 2) * 256 + 1 * q.val = q.val; omega

/-- Entry (p, q) of the layer's output, from the arrays as the region finds them. -/
abbrev z (c : Dev nD) : Fin 100000 → Fin 256 → EReal :=
  zrow (V c main_v59 : S100000x128.Idx → EReal) (V c main_v71 : S100000x128.Idx → EReal) (V c main_v87 : S1x1.Idx → EReal)
    (V c main_v75 : S128x256.Idx → EReal) (V c main_v86 : S1x256.Idx → EReal)

/-- The tile's affine entry at row r of point t's blocks is the layer's output at row 4000 t + r of the arrays. -/
theorem zrow_block (c : Dev nD) (t : Fin cfg2.N) (r : Fin 4000) (q : Fin 256) (p : Fin 100000) (hp : p.val = t.val * 4000 + r.val) :
    zrow (iblk2 (F := Ideal) V c 0 t : Vec Ideal S4000x128 .f32) (iblk2 (F := Ideal) V c 1 t : Vec Ideal S4000x128 .f32)
      (iblk2 (F := Ideal) V c 2 t : Vec Ideal S1x1 .f32) (iblk2 (F := Ideal) V c 3 t : Vec Ideal S128x256 .f32)
      (iblk2 (F := Ideal) V c 4 t : Vec Ideal S1x256 .f32) r q = z V c p q :=
  zrow_congr q (fun k => h_block V c t r k p hp) (fun k => agg_block V c t r k p hp) (eps_block V c t)
    (fun k q => W_block V c t k q) (fun q => b_block V c t q)

end Cert.AffineRows.Region2

end
-- ==== Proof.AffineArrays2.lean ====
/-
  The first affine-layer region: the three output arrays after the run, entry by entry.

  Every point writes back its block, and the blocks tile each output array: row p of the affine result lies in the
  block of point p / 4000, row r of a sums array in the block of point r / 8.  So the affine result ends holding the
  layer's output zrow at every (p, q); the sums array holds, in row r, the column sums of zrow over the 4000 rows of
  tile r / 8, and the sums-of-squares array the column sums of zrow squared over the same rows.
-/
import proofs.«168167_j60026462929460_2_alg».proof.Proof.AffineBlocks2

set_option maxRecDepth 16384

noncomputable section

namespace Cert.AffineRows.Region2

open Idealize.ShloMosaic Idealize.ShloMosaic.TcCoe Idealize.ShloMosaic.ValueIdx Idealize.SL.Sem
open Idealize.ShloMosaic.Pipeline (Dat)
open Cert.DenseLayer Cert.AffineRows
open Cert.KernelIdeal Cert.KernelIdeal.Gen

variable (V : (c : Dev nD) → (b : Ref sig .tc) → Buf (Elt Ideal) ((c : Thread nD τ).loc b))

/-- The affine result as one function of its index. -/
def zArr (c : Dev nD) : S100000x256.Idx → EReal := fun i => z V c ⟨(i 0).val, idx2_lt0 i⟩ ⟨(i 1).val, idx2_lt1 i⟩

/-- The sums array as one function of its index. -/
def sumsArr (c : Dev nD) : S200x256.Idx → EReal := fun i =>
  ∑ j : Fin 4000, z V c (tileRow ⟨(i 0).val, idx2_lt0 i⟩ j) ⟨(i 1).val, idx2_lt1 i⟩

/-- The sums-of-squares array as one function of its index. -/
def sumsqArr (c : Dev nD) : S200x256.Idx → EReal := fun i =>
  ∑ j : Fin 4000, z V c (tileRow ⟨(i 0).val, idx2_lt0 i⟩ j) ⟨(i 1).val, idx2_lt1 i⟩
    * z V c (tileRow ⟨(i 0).val, idx2_lt0 i⟩ j) ⟨(i 1).val, idx2_lt1 i⟩

theorem N_eq : cfg2.N = 25 := N_2

/-- What point t writes back into the affine result is block t of zArr. -/
theorem flushed_z (c : Dev nD) (t : Fin cfg2.N) :
    (dat2 (F := Ideal) V c).flushed 5 t = ((cfg2.win 5).blk t).view.read (Elt Ideal) (zArr V c) := by
  show (cfg2.win 5).cut (grid2.coords t) ((dat2 V c).after 5 t) = _
  rw [after2_5]
  unfold out2_5
  rw [View.canon_unit_zero hz]
  simp only [View.ld_unit_zero (S := S4000x128) hz, View.ld_unit_zero (S := S1x1) hz, View.ld_unit_zero (S := S128x256) hz,
    View.ld_unit_zero (S := S1x256) hz]
  obtain ⟨-, -, -, -, -, -, -, -, -, -, e0, e1, -⟩ := idx_facts t
  have ht : t.val < 25 := lt_of_lt_of_eq t.isLt N_eq
  funext j
  obtain ⟨r, q, rfl⟩ : ∃ (r : Fin 4000) (q : Fin 256), j = ix2 r q := ⟨j 0, j 1, eq_ix2 j⟩
  have hr := r.isLt
  show k2_pay1 (F := Ideal) (iblk2 V c 0 t) (iblk2 V c 1 t) (iblk2 V c 2 t) (iblk2 V c 3 t) (iblk2 V c 4 t) (ix2 r q)
    = zArr V c (((cfg2.win 5).blk t).view.emb (ix2 r q))
  refine (Tile2.affine_apply _ _ _ _ _ r q).trans ?_
  refine (zrow_block V c t r q ⟨t.val * 4000 + r.val, by omega⟩ rfl).trans ?_
  unfold zArr
  refine congrArg₂ (z V c) (Fin.ext ?_) (Fin.ext ?_)
  · show t.val * 4000 + r.val = win2_5.index t (0 : Fin 2) * 4000 + 1 * r.val
    omega
  · show q.val = win2_5.index t (1 : Fin 2) * 256 + 1 * q.val
    omega

/-- What point t writes back into the sums array is block t of sumsArr. -/
theorem flushed_sums (c : Dev nD) (t : Fin cfg2.N) :
    (dat2 (F := Ideal) V c).flushed 6 t = ((cfg2.win 6).blk t).view.read (Elt Ideal) (sumsArr V c) := by
  show (cfg2.win 6).cut (grid2.coords t) ((dat2 V c).after 6 t) = _
  rw [after2_6]
  unfold out2_6
  rw [View.canon_unit_zero hz]
  simp only [View.ld_unit_zero (S := S4000x128) hz, View.ld_unit_zero (S := S1x1) hz, View.ld_unit_zero (S := S128x256) hz,
    View.ld_unit_zero (S := S1x256) hz]
  obtain ⟨-, -, -, -, -, -, -, -, -, -, -, -, e0, e1, -⟩ := idx_facts t
  have ht : t.val < 25 := lt_of_lt_of_eq t.isLt N_eq
  funext j
  obtain ⟨r, q, rfl⟩ : ∃ (r : Fin 8) (q : Fin 256), j = ix2 r q := ⟨j 0, j 1, eq_ix2 j⟩
  have hr := r.isLt
  show k2_pay2 (F := Ideal) (iblk2 V c 0 t) (iblk2 V c 1 t) (iblk2 V c 2 t) (iblk2 V c 3 t) (iblk2 V c 4 t) (ix2 r q)
    = sumsArr V c (((cfg2.win 6).blk t).view.emb (ix2 r q))
  refine (Tile2.sums_apply _ _ _ _ _ r q).trans ?_
  unfold sumsArr
  refine Finset.sum_congr rfl fun k _ => ?_
  have hk := k.isLt
  refine (zrow_block V c t k q ⟨t.val * 4000 + k.val, by omega⟩ rfl).trans ?_
  refine congrArg₂ (z V c) (Fin.ext ?_) (Fin.ext ?_)
  · show t.val * 4000 + k.val = (win2_6.index t (0 : Fin 2) * 8 + 1 * r.val) / 8 * 4000 + k.val
    omega
  · show q.val = win2_6.index t (1 : Fin 2) * 256 + 1 * q.val
    omega

/-- What point t writes back into the sums-of-squares array is block t of sumsqArr. -/
theorem flushed_sumsq (c : Dev nD) (t : Fin cfg2.N) :
    (dat2 (F := Ideal) V c).flushed 7 t = ((cfg2.win 7).blk t).view.read (Elt Ideal) (sumsqArr V c) := by
  show (cfg2.win 7).cut (grid2.coords t) ((dat2 V c).after 7 t) = _
  rw [after2_7]
  unfold out2_7
  rw [View.canon_unit_zero hz]
  simp only [View.ld_unit_zero (S := S4000x128) hz, View.ld_unit_zero (S := S1x1) hz, View.ld_unit_zero (S := S128x256) hz,
    View.ld_unit_zero (S := S1x256) hz]
  obtain ⟨-, -, -, -, -, -, -, -, -, -, -, -, -, -, e0, e1⟩ := idx_facts t
  have ht : t.val < 25 := lt_of_lt_of_eq t.isLt N_eq
  funext j
  obtain ⟨r, q, rfl⟩ : ∃ (r : Fin 8) (q : Fin 256), j = ix2 r q := ⟨j 0, j 1, eq_ix2 j⟩
  have hr := r.isLt
  show k2_pay3 (F := Ideal) (iblk2 V c 0 t) (iblk2 V c 1 t) (iblk2 V c 2 t) (iblk2 V c 3 t) (iblk2 V c 4 t) (ix2 r q)
    = sumsqArr V c (((cfg2.win 7).blk t).view.emb (ix2 r q))
  refine (Tile2.sumsq_apply _ _ _ _ _ r q).trans ?_
  unfold sumsqArr
  refine Finset.sum_congr rfl fun k _ => ?_
  have hk := k.isLt
  have e : zrow (iblk2 (F := Ideal) V c 0 t : Vec Ideal S4000x128 .f32) (iblk2 (F := Ideal) V c 1 t : Vec Ideal S4000x128 .f32)
      (iblk2 (F := Ideal) V c 2 t : Vec Ideal S1x1 .f32) (iblk2 (F := Ideal) V c 3 t : Vec Ideal S128x256 .f32)
      (iblk2 (F := Ideal) V c 4 t : Vec Ideal S1x256 .f32) k q
      = z V c (tileRow ⟨((((cfg2.win 7).blk t).view.emb (ix2 r q)) 0).val, idx2_lt0 _⟩ k)
          ⟨((((cfg2.win 7).blk t).view.emb (ix2 r q)) 1).val, idx2_lt1 _⟩ := by
    refine (zrow_block V c t k q ⟨t.val * 4000 + k.val, by omega⟩ rfl).trans ?_
    refine congrArg₂ (z V c) (Fin.ext ?_) (Fin.ext ?_)
    · show t.val * 4000 + k.val = (win2_7.index t (0 : Fin 2) * 8 + 1 * r.val) / 8 * 4000 + k.val
      omega
    · show q.val = win2_7.index t (1 : Fin 2) * 256 + 1 * q.val
      omega
  rw [e]

/-- An index of the affine result is in point t's block iff each coordinate is in the block's range on its axis. -/
theorem mem_blk_z (t : Fin cfg2.N) (i : S100000x256.Idx) :
    i ∈ ((cfg2.win 5).blk t).view.set ↔ ∀ a : Fin 2, win2_5.index t a * S4000x256.size a ≤ (i a).val
      ∧ (i a).val < win2_5.index t a * S4000x256.size a + S4000x256.size a := by
  show i ∈ ((View.whole main_v88_0).slice (win2_5.rect t)).set ↔ _
  rw [View.set_slice_whole, Rect.mem_set_unit]
  exact Iff.rfl

/-- Likewise for the sums array. -/
theorem mem_blk_sums (t : Fin cfg2.N) (i : S200x256.Idx) :
    i ∈ ((cfg2.win 6).blk t).view.set ↔ ∀ a : Fin 2, win2_6.index t a * S8x256.size a ≤ (i a).val
      ∧ (i a).val < win2_6.index t a * S8x256.size a + S8x256.size a := by
  show i ∈ ((View.whole main_v88_1).slice (win2_6.rect t)).set ↔ _
  rw [View.set_slice_whole, Rect.mem_set_unit]
  exact Iff.rfl

/-- Likewise for the sums-of-squares array. -/
theorem mem_blk_sumsq (t : Fin cfg2.N) (i : S200x256.Idx) :
    i ∈ ((cfg2.win 7).blk t).view.set ↔ ∀ a : Fin 2, win2_7.index t a * S8x256.size a ≤ (i a).val
      ∧ (i a).val < win2_7.index t a * S8x256.size a + S8x256.size a := by
  show i ∈ ((View.whole main_v88_2).slice (win2_7.rect t)).set ↔ _
  rw [View.set_slice_whole, Rect.mem_set_unit]
  exact Iff.rfl

/-- Row p of the affine result lies in the block of point p / 4000. -/
theorem cover_z (i : S100000x256.Idx) :
    ∃ t : Fin cfg2.N, (cfg2.win 5).flush t = true ∧ i ∈ ((cfg2.win 5).blk t).view.set := by
  have h0 := idx2_lt0 i
  have h1 := idx2_lt1 i
  obtain ⟨t, ht⟩ : ∃ t : Fin cfg2.N, t.val = (i 0).val / 4000 := ⟨⟨(i 0).val / 4000, by rw [N_eq]; omega⟩, rfl⟩
  obtain ⟨-, -, -, -, -, -, -, -, -, -, e0, e1, -⟩ := idx_facts t
  refine ⟨t, flush2_5 t, ?_⟩
  rw [mem_blk_z]
  intro a
  match a with
  | ⟨0, _⟩ =>
    show win2_5.index t (0 : Fin 2) * 4000 ≤ (i 0).val ∧ (i 0).val < win2_5.index t (0 : Fin 2) * 4000 + 4000
    omega
  | ⟨1, _⟩ =>
    show win2_5.index t (1 : Fin 2) * 256 ≤ (i 1).val ∧ (i 1).val < win2_5.index t (1 : Fin 2) * 256 + 256
    omega

/-- Row r of the sums array lies in the block of point r / 8. -/
theorem cover_sums (i : S200x256.Idx) :
    ∃ t : Fin cfg2.N, (cfg2.win 6).flush t = true ∧ i ∈ ((cfg2.win 6).blk t).view.set := by
  have h0 := idx2_lt0 i
  have h1 := idx2_lt1 i
  obtain ⟨t, ht⟩ : ∃ t : Fin cfg2.N, t.val = (i 0).val / 8 := ⟨⟨(i 0).val / 8, by rw [N_eq]; omega⟩, rfl⟩
  obtain ⟨-, -, -, -, -, -, -, -, -, -, -, -, e0, e1, -⟩ := idx_facts t
  refine ⟨t, flush2_6 t, ?_⟩
  rw [mem_blk_sums]
  intro a
  match a with
  | ⟨0, _⟩ =>
    show win2_6.index t (0 : Fin 2) * 8 ≤ (i 0).val ∧ (i 0).val < win2_6.index t (0 : Fin 2) * 8 + 8
    omega
  | ⟨1, _⟩ =>
    show win2_6.index t (1 : Fin 2) * 256 ≤ (i 1).val ∧ (i 1).val < win2_6.index t (1 : Fin 2) * 256 + 256
    omega

/-- Row r of the sums-of-squares array lies in the block of point r / 8. -/
theorem cover_sumsq (i : S200x256.Idx) :
    ∃ t : Fin cfg2.N, (cfg2.win 7).flush t = true ∧ i ∈ ((cfg2.win 7).blk t).view.set := by
  have h0 := idx2_lt0 i
  have h1 := idx2_lt1 i
  obtain ⟨t, ht⟩ : ∃ t : Fin cfg2.N, t.val = (i 0).val / 8 := ⟨⟨(i 0).val / 8, by rw [N_eq]; omega⟩, rfl⟩
  obtain ⟨-, -, -, -, -, -, -, -, -, -, -, -, -, -, e0, e1⟩ := idx_facts t
  refine ⟨t, flush2_7 t, ?_⟩
  rw [mem_blk_sumsq]
  intro a
  match a with
  | ⟨0, _⟩ =>
    show win2_7.index t (0 : Fin 2) * 8 ≤ (i 0).val ∧ (i 0).val < win2_7.index t (0 : Fin 2) * 8 + 8
    omega
  | ⟨1, _⟩ =>
    show win2_7.index t (1 : Fin 2) * 256 ≤ (i 1).val ∧ (i 1).val < win2_7.index t (1 : Fin 2) * 256 + 256
    omega

/-- The affine result after the run is zArr. -/
theorem z_array (c : Dev nD) : (dat2 (F := Ideal) V c).arrAt 5 cfg2.N = zArr V c :=
  (dat2 (F := Ideal) V c).arrAt_eq_of_cover 5 (zArr V c) (fun t _ => flushed_z V c t) cover_z

/-- The sums array after the run is sumsArr. -/
theorem sums_array (c : Dev nD) : (dat2 (F := Ideal) V c).arrAt 6 cfg2.N = sumsArr V c :=
  (dat2 (F := Ideal) V c).arrAt_eq_of_cover 6 (sumsArr V c) (fun t _ => flushed_sums V c t) cover_sums

/-- The sums-of-squares array after the run is sumsqArr. -/
theorem sumsq_array (c : Dev nD) : (dat2 (F := Ideal) V c).arrAt 7 cfg2.N = sumsqArr V c :=
  (dat2 (F := Ideal) V c).arrAt_eq_of_cover 7 (sumsqArr V c) (fun t _ => flushed_sumsq V c t) cover_sumsq

/-- THE AFFINE RESULT at (p, q): the layer's output at row p. -/
theorem z_apply (c : Dev nD) (p : Fin 100000) (q : Fin 256) :
    ((dat2 (F := Ideal) V c).arrAt 5 cfg2.N (ix2 p q) : EReal)
      = zrow (V c main_v59 : S100000x128.Idx → EReal) (V c main_v71 : S100000x128.Idx → EReal) (V c main_v87 : S1x1.Idx → EReal)
          (V c main_v75 : S128x256.Idx → EReal) (V c main_v86 : S1x256.Idx → EReal) p q :=
  (congrFun (z_array V c) (ix2 p q)).trans rfl

/-- THE SUMS ARRAY at (r, q): the column sum of the layer's output over the 4000 rows of tile r / 8. -/
theorem sums_apply (c : Dev nD) (r : Fin 200) (q : Fin 256) :
    ((dat2 (F := Ideal) V c).arrAt 6 cfg2.N (ix2 r q) : EReal)
      = ∑ j : Fin 4000, zrow (V c main_v59 : S100000x128.Idx → EReal) (V c main_v71 : S100000x128.Idx → EReal)
          (V c main_v87 : S1x1.Idx → EReal) (V c main_v75 : S128x256.Idx → EReal) (V c main_v86 : S1x256.Idx → EReal)
          (tileRow r j) q :=
  (congrFun (sums_array V c) (ix2 r q)).trans rfl

/-- THE SUMS-OF-SQUARES ARRAY at (r, q): the column sum of the squared output over the same rows. -/
theorem sumsq_apply (c : Dev nD) (r : Fin 200) (q : Fin 256) :
    ((dat2 (F := Ideal) V c).arrAt 7 cfg2.N (ix2 r q) : EReal)
      = ∑ j : Fin 4000, zrow (V c main_v59 : S100000x128.Idx → EReal) (V c main_v71 : S100000x128.Idx → EReal)
          (V c main_v87 : S1x1.Idx → EReal) (V c main_v75 : S128x256.Idx → EReal) (V c main_v86 : S1x256.Idx → EReal)
          (tileRow r j) q
        * zrow (V c main_v59 : S100000x128.Idx → EReal) (V c main_v71 : S100000x128.Idx → EReal)
          (V c main_v87 : S1x1.Idx → EReal) (V c main_v75 : S128x256.Idx → EReal) (V c main_v86 : S1x256.Idx → EReal)
          (tileRow r j) q :=
  (congrFun (sumsq_array V c) (ix2 r q)).trans rfl

end Cert.AffineRows.Region2

end
-- ==== Proof.LibBlockSum.lean ====
/-
  Sums over `L · B` indices taken as `B` runs of `L` consecutive terms. The runs' sums add up to the whole sum, and an
  accumulator that starts from zero and adds one run at each step holds, after the last run, the whole sum. Both are
  stated for a sequence on the naturals (sums over `Finset.range`) and for a function on `Fin N`, `N = L · B` (sums
  over `Fin`), and once more at `8192 = 8 · 1024` over the extended reals. Only the laws of a commutative additive
  monoid are used, so no finiteness hypothesis is needed.
-/
import Mathlib.Algebra.BigOperators.Fin
import Mathlib.Algebra.BigOperators.Intervals
import Mathlib.Data.EReal.Basic

noncomputable section

open scoped BigOperators

open Finset

namespace Cert.BlockSum

section General

variable {M : Type*} [AddCommMonoid M]

/-- The `k`-th block of length `L` of a sequence on the naturals. -/
def blkN (L : ℕ) (g : ℕ → M) (k : ℕ) : M := ∑ j ∈ range L, g (L * k + j)

/-- The accumulator after the blocks `0, …, n`, started from zero. -/
def accN (L : ℕ) (g : ℕ → M) : ℕ → M
  | 0 => 0 + blkN L g 0
  | n + 1 => accN L g n + blkN L g (n + 1)

theorem accN_eq (L : ℕ) (g : ℕ → M) (n : ℕ) : accN L g n = ∑ t ∈ range (L * (n + 1)), g t := by
  induction n with
  | zero => simp [accN, blkN]
  | succ n ih => rw [accN, ih, blkN, Nat.mul_succ L (n + 1), Finset.sum_range_add]

/-- A function on `Fin N` extended by zero to the naturals. -/
def ext {N : ℕ} (f : Fin N → M) : ℕ → M := fun t => if h : t < N then f ⟨t, h⟩ else 0

theorem ext_val {N : ℕ} (f : Fin N → M) (t : ℕ) (h : t < N) : ext f t = f ⟨t, h⟩ := by
  simp [ext, h]

theorem sum_ext {N : ℕ} (f : Fin N → M) : ∑ j : Fin N, f j = ∑ t ∈ range N, ext f t := by
  rw [← Fin.sum_univ_eq_sum_range]
  exact Finset.sum_congr rfl fun j _ => (ext_val f j.val j.isLt).symm

theorem lt_of_blk {L B N : ℕ} (h : L * B = N) {k : ℕ} (hk : k < B) (j : Fin L) : L * k + j.val < N :=
  calc L * k + j.val < L * k + L := Nat.add_lt_add_left j.isLt _
    _ = L * (k + 1) := (Nat.mul_succ L k).symm
    _ ≤ L * B := Nat.mul_le_mul_left L hk
    _ = N := h

/-- The `k`-th block of length `L` of a function on `Fin N`, `N = L · B`. -/
def blkG {L B N : ℕ} (h : L * B = N) (f : Fin N → M) (k : ℕ) (hk : k < B) : M :=
  ∑ j : Fin L, f ⟨L * k + j.val, lt_of_blk h hk j⟩

/-- The accumulator over the blocks `0, …, n` of a function on `Fin N`, started from zero. -/
def accG {L B N : ℕ} (h : L * B = N) (f : Fin N → M) : (n : ℕ) → n < B → M
  | 0, hn => 0 + blkG h f 0 hn
  | n + 1, hn => accG h f n (Nat.lt_of_succ_lt hn) + blkG h f (n + 1) hn

theorem blkG_eq {L B N : ℕ} (h : L * B = N) (f : Fin N → M) (k : ℕ) (hk : k < B) :
    blkG h f k hk = blkN L (ext f) k := by
  unfold blkG blkN
  rw [← Fin.sum_univ_eq_sum_range (fun j => ext f (L * k + j)) L]
  exact Finset.sum_congr rfl fun j _ => (ext_val f _ (lt_of_blk h hk j)).symm

theorem accG_eq {L B N : ℕ} (h : L * B = N) (f : Fin N → M) :
    ∀ (n : ℕ) (hn : n < B), accG h f n hn = accN L (ext f) n
  | 0, hn => by rw [accG, accN, blkG_eq]
  | n + 1, hn => by rw [accG, accN, blkG_eq, accG_eq h f n]

/-- After the last block the accumulator holds the whole sum. -/
theorem accG_last {L B N : ℕ} (h : L * B = N) (f : Fin N → M) (n : ℕ) (hn : n < B) (hlast : n + 1 = B) :
    accG h f n hn = ∑ j : Fin N, f j := by
  rw [accG_eq, accN_eq, sum_ext, hlast, h]

/-- The blocks' sums add up to the whole sum (range form). -/
theorem sum_range_blkN (L : ℕ) (g : ℕ → M) (B : ℕ) :
    ∑ s ∈ range B, blkN L g s = ∑ t ∈ range (L * B), g t := by
  induction B with
  | zero => simp
  | succ B ih => rw [Finset.sum_range_succ, ih, blkN, Nat.mul_succ, Finset.sum_range_add]

/-- The blocks' sums add up to the whole sum. -/
theorem sum_blkG {L B N : ℕ} (h : L * B = N) (f : Fin N → M) :
    ∑ s : Fin B, blkG h f s.val s.isLt = ∑ j : Fin N, f j := by
  have hN : ∑ t ∈ range N, ext f t = ∑ t ∈ range (L * B), ext f t := by rw [h]
  rw [sum_ext f, hN, ← sum_range_blkN, ← Fin.sum_univ_eq_sum_range]
  exact Finset.sum_congr rfl fun s _ => blkG_eq h f s.val s.isLt

/-- The same for any sequence `G` on the naturals that agrees with the blocks' sums below `B` (its values from `B` on
    are not used). -/
theorem sum_range_of_blkG {L B N : ℕ} (h : L * B = N) (f : Fin N → M) (G : ℕ → M)
    (hG : ∀ (s : ℕ) (hs : s < B), G s = blkG h f s hs) : ∑ s ∈ range B, G s = ∑ j : Fin N, f j := by
  rw [← sum_blkG h f, ← Fin.sum_univ_eq_sum_range]
  exact Finset.sum_congr rfl fun s _ => hG s.val s.isLt

end General

/-! ### 8192 = 8 blocks of 1024, extended reals -/

/-- The `k`-th block of 1024 consecutive terms. -/
def blk (f : Fin 8192 → EReal) (k : ℕ) (hk : k < 8) : EReal :=
  ∑ j : Fin 1024, f ⟨1024 * k + j.val, by omega⟩

/-- The accumulator over the blocks `0, …, n`, started from zero. -/
def acc (f : Fin 8192 → EReal) : (n : ℕ) → n < 8 → EReal
  | 0, hn => 0 + blk f 0 hn
  | n + 1, hn => acc f n (Nat.lt_of_succ_lt hn) + blk f (n + 1) hn

theorem blk_eq_blkG (f : Fin 8192 → EReal) (k : ℕ) (hk : k < 8) :
    blk f k hk = blkG (L := 1024) (B := 8) (by norm_num) f k hk := rfl

theorem acc_eq_accG (f : Fin 8192 → EReal) :
    ∀ (n : ℕ) (hn : n < 8), acc f n hn = accG (L := 1024) (B := 8) (by norm_num) f n hn
  | 0, hn => by rw [acc, accG, blk_eq_blkG]
  | n + 1, hn => by rw [acc, accG, blk_eq_blkG, acc_eq_accG f n]

/-- After the eighth block the accumulator holds the sum over all 8192 terms. -/
theorem acc_last (f : Fin 8192 → EReal) : acc f 7 (by decide) = ∑ j : Fin 8192, f j := by
  rw [acc_eq_accG]
  exact accG_last _ f 7 _ rfl

/-- The eight blocks' sums add up to the whole sum. -/
theorem sum_blk (f : Fin 8192 → EReal) : ∑ s : Fin 8, blk f s.val s.isLt = ∑ j : Fin 8192, f j :=
  sum_blkG (L := 1024) (B := 8) (by norm_num) f

/-- Zero plus eight consecutive addends, the `s`-th being the `s`-th block's sum, is the whole sum (the values of `G`
    from 8 on are not used). -/
theorem zero_add_sum_range (f : Fin 8192 → EReal) (G : ℕ → EReal)
    (hG : ∀ (s : ℕ) (hs : s < 8), G s = blk f s hs) :
    0 + ∑ s ∈ range (7 + 1), G s = ∑ j : Fin 8192, f j := by
  rw [zero_add]
  exact sum_range_of_blkG (L := 1024) (B := 8) (by norm_num) f G hG

end Cert.BlockSum

end
-- ==== Proof.LibBatchStats.lean ====
/-
  Batch statistics of one column, computed two ways, over the extended reals.

  A column of N = L * T real numbers x has mean mu = (sum x) / N and (biased) variance
  v = (sum (x - mu)^2) / N.  Over the reals v = (sum x^2) / N - mu^2, and v is nonnegative, so taking the
  maximum of that difference with zero changes nothing.

  One side sums the column tile by tile: T tiles of L consecutive entries; each tile's sum S t (and sum of
  squares Q t) is written c times over, the c * T copies are added up from zero, the total is multiplied by
  a number e with e * c = 1, divided by N, and the variance is max (E[x^2] - mu * mu) 0.  The other side adds
  the whole column from zero, divides by N, subtracts that mean from every entry, squares, adds from zero
  and divides by N.  For real entries both are the coercions of mu and v.  The arithmetic is the extended
  reals' own (+, *, max) and the division is the one float division denotes there (Ideal.div), which by a
  nonzero real is multiplication by its reciprocal.
-/
import Idealize.ShloMosaic.PureOps.Ideal
import proofs.«168167_j60026462929460_2_alg».proof.Proof.LibBlockSum

noncomputable section

namespace Cert.BatchStats

open Idealize.ShloMosaic Finset

/-- The coercion of reals into the extended reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-! ## Over the reals -/

/-- The sum of squared deviations from any number mu, expanded. -/
theorem sum_centered (n : ℕ) (x : Fin n → ℝ) (μ : ℝ) :
    ∑ i, (x i - μ) * (x i - μ) = ∑ i, x i * x i - 2 * μ * ∑ i, x i + n * (μ * μ) := by
  have h : ∀ i, (x i - μ) * (x i - μ) = x i * x i - 2 * μ * x i + μ * μ := fun i => by ring
  simp only [h, Finset.sum_add_distrib, Finset.sum_sub_distrib, ← Finset.mul_sum, Finset.sum_const,
    Finset.card_univ, Fintype.card_fin, nsmul_eq_mul]
  ring

/-- The mean of squared deviations from the mean is the mean of squares minus the squared mean. -/
theorem variance_eq (n : ℕ) (hn : (n : ℝ) ≠ 0) (x : Fin n → ℝ) :
    (∑ i, (x i - (∑ j, x j) / n) * (x i - (∑ j, x j) / n)) / n
      = (∑ i, x i * x i) / n - ((∑ j, x j) / n) * ((∑ j, x j) / n) := by
  rw [sum_centered]; field_simp; ring

/-- A mean of squares is nonnegative. -/
theorem variance_nonneg (n : ℕ) (x : Fin n → ℝ) (μ : ℝ) : 0 ≤ (∑ i, (x i - μ) * (x i - μ)) / n :=
  div_nonneg (Finset.sum_nonneg fun i _ => mul_self_nonneg _) (Nat.cast_nonneg n)

/-- Entry j of tile t of a column of L * T entries. -/
def tileIdx {L T N : ℕ} (h : L * T = N) (t : Fin T) (p : Fin L) : Fin N :=
  ⟨L * t.val + p.val, Cert.BlockSum.lt_of_blk h t.isLt p⟩

/-- The tiles' sums add up to the column's sum. -/
theorem sum_tiles {L T N : ℕ} (h : L * T = N) (x : Fin N → ℝ) :
    ∑ t : Fin T, ∑ p : Fin L, x (tileIdx h t p) = ∑ i, x i :=
  Cert.BlockSum.sum_blkG h x

/-- The tile a copy belongs to: copies c * t, …, c * t + c - 1 are tile t's. -/
def tileOf {c T : ℕ} (r : Fin (c * T)) : Fin T :=
  ⟨r.val / c, by
    have hpos : 0 < c * T := Nat.lt_of_le_of_lt (Nat.zero_le _) r.isLt
    have hc : 0 < c := Nat.pos_of_ne_zero fun h0 => by
      rw [h0, Nat.zero_mul] at hpos; exact Nat.lt_irrefl _ hpos
    exact Nat.div_lt_of_lt_mul r.isLt⟩

/-- Adding up c copies of every tile's number gives c times their sum. -/
theorem sum_copies {c T : ℕ} (S : Fin T → ℝ) : ∑ r : Fin (c * T), S (tileOf r) = c * ∑ t, S t := by
  rcases Nat.eq_zero_or_pos c with hc | hc
  · subst hc
    have : IsEmpty (Fin (0 * T)) := by rw [Nat.zero_mul]; infer_instance
    simp
  rw [← Cert.BlockSum.sum_blkG (L := c) (B := T) rfl fun r : Fin (c * T) => S (tileOf r), Finset.mul_sum]
  refine Finset.sum_congr rfl fun t _ => ?_
  unfold Cert.BlockSum.blkG
  have : ∀ j : Fin c, S (tileOf (⟨c * t.val + j.val, Cert.BlockSum.lt_of_blk rfl t.isLt j⟩ : Fin (c * T))) = S t := by
    intro j
    congr 1
    apply Fin.ext
    show (c * t.val + j.val) / c = t.val
    rw [Nat.mul_add_div hc, Nat.div_eq_of_lt j.isLt, Nat.add_zero]
  simp only [this, Finset.sum_const, Finset.card_univ, Fintype.card_fin, nsmul_eq_mul]

/-! ## Over the extended reals, for real entries -/

section Ext

variable {L T N c : ℕ} (h : L * T = N) (x : Fin N → ℝ) (n e : ℝ)

/-- The tiled side's scaled total: c * T copies of the tiles' sums added from zero, times e, over n — the
    coercion of (sum x) / n when e * c = 1. -/
theorem tiled_total (hn : n ≠ 0) (he : e * c = 1) (S : Fin (c * T) → EReal)
    (hS : ∀ r, S r = ∑ p : Fin L, (x (tileIdx h (tileOf r) p) : EReal)) :
    Ideal.div ((0 + ∑ r, S r) * (e : EReal)) (n : EReal) = (((∑ i, x i) / n : ℝ) : EReal) := by
  have h1 : ∑ r, S r = ((c * ∑ i, x i : ℝ) : EReal) := by
    rw [← sum_tiles h x, ← sum_copies (c := c) fun t => ∑ p : Fin L, x (tileIdx h t p), coe_sum]
    exact Finset.sum_congr rfl fun r _ => by rw [hS r, coe_sum]
  rw [h1, zero_add, ← EReal.coe_mul, Ideal.div_coe hn, ← EReal.coe_mul]
  congr 1
  have : (c : ℝ) * (∑ i, x i) * e = ∑ i, x i := by rw [mul_comm (c : ℝ), mul_assoc, mul_comm _ e, he, mul_one]
  rw [this, one_div, div_eq_mul_inv]

/-- The whole-column side's total from zero over n. -/
theorem whole_total (hn : n ≠ 0) (y : Fin N → ℝ) :
    Ideal.div (0 + ∑ i, (y i : EReal)) (n : EReal) = (((∑ i, y i) / n : ℝ) : EReal) := by
  rw [zero_add, ← coe_sum, Ideal.div_coe hn, ← EReal.coe_mul, one_div, div_eq_mul_inv]

/-- The tiled side's variance, max (E[x^2] - mu * mu) 0 with both means as real numbers, is the coercion of the
    mean squared deviation. -/
theorem tiled_variance (hn : n = (N : ℝ)) (hN : (N : ℝ) ≠ 0) :
    max ((((∑ i, x i * x i) / n : ℝ) : EReal) - (((∑ i, x i) / n : ℝ) : EReal) * (((∑ i, x i) / n : ℝ) : EReal)) 0
      = (((∑ i, (x i - (∑ j, x j) / n) * (x i - (∑ j, x j) / n)) / n : ℝ) : EReal) := by
  subst hn
  rw [← EReal.coe_mul, ← EReal.coe_sub, ← variance_eq N hN x]
  exact max_eq_left (by exact_mod_cast variance_nonneg N x _)

end Ext

end Cert.BatchStats

end
-- ==== Proof.LibRealEntries.lean ====
/-
  Real entries of arrays over the extended reals, and how a finiteness precondition gives them.

  `IsReal x` says the extended real `x` is a real number.  Real numbers are closed under sums, products, maxima and
  finite sums.  A precondition of the usual form — for an input array `x`, the `and`-reduction over all axes, from
  `true`, of the entrywise test `|x| < +∞` came out `true` — makes every entry of `x` real: the reduction met `true`
  at every entry, and an extended real whose absolute value `max x (-x)` is below `+∞` is neither infinity.
-/
import Idealize.ShloMosaic.Lib.ReduceAll
import Idealize.ShloMosaic.Lib.Pipeline.Value
import Idealize.ShloMosaic.Lib.ValueIdx
import Idealize.ShloMosaic.PureOps.Ideal.Laws

noncomputable section

open scoped BigOperators

namespace Cert.RealEntries

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of real numbers is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The single-precision word of 0.0 denotes a real number. -/
theorem isReal_zero_word : IsReal (Ideal.ofBits .f32 0x00000000#32) := ⟨0, by rw [Ideal.ofBits_zero_f32]; rfl⟩

/-- The single-precision word `0x7F800000` denotes `+∞`. -/
theorem ofBits_inf : Ideal.ofBits .f32 0x7F800000#32 = (⊤ : EReal) := by
  simp [Ideal.ofBits, Ideal.ieee]

/-- An extended real with `|x| < +∞`, as the ordered comparison of `max x (-x)` with the word of `+∞` reads it, is a
    real number. -/
theorem isReal_of_abs_lt (x : EReal)
    (h : Ideal.cmp .olt (Max.max x (-x)) (Ideal.ofBits .f32 0x7F800000#32) = 1#1) : IsReal x := by
  rw [ofBits_inf] at h
  have hlt : Max.max x (-x) < (⊤ : EReal) := by
    by_contra hc
    have h0 : Ideal.cmp .olt (Max.max x (-x)) (⊤ : EReal) = 0#1 := by
      show BitVec.ofBool (decide (Max.max x (-x) < (⊤ : EReal))) = 0#1
      rw [decide_eq_false hc]; rfl
    rw [h0] at h
    exact absurd h (by decide)
  induction x using EReal.rec with
  | bot => exact absurd hlt (by simp)
  | coe r => exact ⟨r, rfl⟩
  | top => exact absurd hlt (by simp)

instance : Subsingleton (⟨0, ![]⟩ : Shape).Idx := ⟨fun a b => funext fun d => d.elim0⟩

/-- ONE INPUT'S SHARE OF A FINITENESS PRECONDITION: when the `and`-reduction of `|x| < +∞` over the whole array `x`,
    started from `true`, came out `true`, every entry of `x` is real.  Any shape, any list of reduced axes. -/
theorem entries_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : IsReal (x i) := by
  have h := Host.reduce_andi_all _ _ hr hu ValueIdx.ix0 e i
  refine isReal_of_abs_lt (x i) ?_
  have hb' : broadcastInDim s ![] hb (constant (F := Ideal) ⟨0, ![]⟩ .f32 0x7F800000#32) i = Ideal.ofBits .f32 0x7F800000#32 :=
    broadcastInDim_apply _ hb _ i (fun a => a.elim0) (fun a => a.elim0)
  rw [← hb']
  exact h

end Cert.RealEntries

end
-- ==== Proof.LibRealClosure.lean ====
/-
  Real numbers among the extended reals are closed under the operations a normalised dense layer uses.

  Besides sums, products and maxima: the difference of two reals is real; a real divided by a nonzero real is real
  (the division floats denote is, off zero, multiplication by the reciprocal); the reciprocal square root of a
  positive real is a positive real; an affine map (a row against a column of weights plus a bias) of reals is real,
  and so is its positive part.  Four single-precision words are read: 100000.0, 1.0, a small positive number
  (about 1e-5) and 0.0.
-/
import Idealize.ShloMosaic.PureOps.Ideal.Laws
import Idealize.ShloMosaic.Lib.IdealHost
import proofs.«168167_j60026462929460_2_alg».proof.Proof.LibRealEntries
import proofs.«168167_j60026462929460_2_alg».proof.Proof.LibDenseLayer

noncomputable section

open scoped BigOperators

namespace Cert.RealEntries

open Idealize.ShloMosaic Idealize.ShloMosaic.ValueIdx

/-! ## Differences, negations, quotients -/

theorem IsReal.coe (r : ℝ) : IsReal (r : EReal) := ⟨r, rfl⟩

theorem isReal_zero : IsReal (0 : EReal) := ⟨0, rfl⟩

theorem isReal_one : IsReal (1 : EReal) := ⟨1, rfl⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The negation of a real is real. -/
theorem IsReal.neg {x : EReal} (hx : IsReal x) : IsReal (-x) := by
  obtain ⟨a, rfl⟩ := hx; exact ⟨-a, (EReal.coe_neg a).symm⟩

/-- The float subtraction, at the ideal values, of two reals is real. -/
theorem IsReal.subf {φ : FTy} {x y : Ideal φ} (hx : IsReal x) (hy : IsReal y) : IsReal (FloatOps.subf x y) :=
  IsReal.sub hx hy

/-- The float addition, at the ideal values, of two reals is real. -/
theorem IsReal.addf {φ : FTy} {x y : Ideal φ} (hx : IsReal x) (hy : IsReal y) : IsReal (FloatOps.addf x y) :=
  IsReal.add hx hy

/-- The float multiplication, at the ideal values, of two reals is real. -/
theorem IsReal.mulf {φ : FTy} {x y : Ideal φ} (hx : IsReal x) (hy : IsReal y) : IsReal (FloatOps.mulf x y) :=
  IsReal.mul hx hy

/-- A real divided by a nonzero real is real. -/
theorem IsReal.div_coe {x : EReal} (hx : IsReal x) {d : ℝ} (hd : d ≠ 0) : IsReal (Ideal.div x (d : EReal)) := by
  obtain ⟨a, rfl⟩ := hx
  rw [Ideal.div_coe hd, ← EReal.coe_mul]
  exact ⟨_, rfl⟩

/-- A real divided by a real that is not zero is real. -/
theorem IsReal.div {x D : EReal} (hx : IsReal x) (hD : IsReal D) (h0 : D ≠ 0) : IsReal (Ideal.div x D) := by
  obtain ⟨d, rfl⟩ := hD
  exact hx.div_coe (fun h => h0 (by rw [h]; rfl))

/-- The same for the device's and for the host's float division at the ideal values. -/
theorem IsReal.divf {φ : FTy} {x D : Ideal φ} (hx : IsReal x) (hD : IsReal D) (h0 : D ≠ 0) :
    IsReal (FloatOps.divf x D) := IsReal.div hx hD h0

theorem IsReal.hostDivf {φ : FTy} {x D : Ideal φ} (hx : IsReal x) (hD : IsReal D) (h0 : D ≠ 0) :
    IsReal (FloatOps.hostDivf x D) := IsReal.div hx hD h0

/-! ## The reciprocal square root -/

/-- The reciprocal square root of a positive real is a positive real. -/
theorem rsqrt_pos_real {x : EReal} (hx : IsReal x) (hpos : 0 < x) : ∃ s : ℝ, 0 < s ∧ Ideal.rsqrt x = (s : EReal) := by
  obtain ⟨a, rfl⟩ := hx
  have ha : 0 < a := by exact_mod_cast hpos
  refine ⟨(Real.sqrt a)⁻¹, inv_pos.mpr (Real.sqrt_pos.mpr ha), ?_⟩
  rw [Ideal.rsqrt_coe, if_neg (not_lt.mpr ha.le), if_neg ha.ne']

/-- The reciprocal square root of a positive real is real. -/
theorem IsReal.rsqrt {x : EReal} (hx : IsReal x) (hpos : 0 < x) : IsReal (Ideal.rsqrt x) := by
  obtain ⟨s, _, hs⟩ := rsqrt_pos_real hx hpos
  exact ⟨s, hs⟩

/-- The device's reciprocal square root at the ideal values, at a positive real. -/
theorem IsReal.rsqrt_device {φ : FTy} {x : Ideal φ} (hx : IsReal x) (hpos : (0 : EReal) < x) :
    IsReal (FloatOps.rsqrt x) := IsReal.rsqrt hx hpos

/-- The host's reciprocal square root of one element at the ideal values, at a positive real. -/
theorem IsReal.rsqrt_host {φ : FTy} {x : Ideal φ} (hx : IsReal x) (hpos : (0 : EReal) < x) :
    IsReal (FloatOps.hostUnary .rsqrt x) := IsReal.rsqrt hx hpos

/-- The host's reciprocal square root of an array, at an entry that is a positive real. -/
theorem IsReal.rsqrt_hostVec {s : Shape} {φ : FTy} (v : FVec Ideal s φ) (i : s.Idx) (hx : IsReal (v i))
    (hpos : (0 : EReal) < v i) : IsReal (Host.rsqrt v i) := IsReal.rsqrt hx hpos

/-- A nonnegative real plus a positive real is a positive real. -/
theorem add_pos_real {v e : EReal} (hv : IsReal v) (hv0 : 0 ≤ v) (he : IsReal e) (he0 : 0 < e) :
    IsReal (v + e) ∧ 0 < v + e := by
  refine ⟨hv.add he, ?_⟩
  obtain ⟨a, rfl⟩ := hv; obtain ⟨b, rfl⟩ := he
  have ha : 0 ≤ a := by exact_mod_cast hv0
  have hb : 0 < b := by exact_mod_cast he0
  rw [← EReal.coe_add]
  exact_mod_cast add_pos_of_nonneg_of_pos ha hb

/-! ## Affine maps and dense layers -/

/-- An affine map of a real row by real weights and a real bias is real. -/
theorem isReal_affine {k n : ℕ} (z : Fin k → EReal) (w : (⟨2, ![k, n]⟩ : Shape).Idx → EReal) (b : Fin n → EReal)
    (hz : ∀ c, IsReal (z c)) (hw : ∀ i, IsReal (w i)) (hb : ∀ q, IsReal (b q)) (q : Fin n) :
    IsReal (Cert.DenseLayer.affine z w b q) := by
  unfold Cert.DenseLayer.affine
  exact (IsReal.sum _ _ fun c _ => (hz c).mul (hw _)).add (hb q)

/-- A dense layer (the positive part of an affine map) of a real row by real weights and a real bias is real. -/
theorem isReal_dense {k n : ℕ} (z : Fin k → EReal) (w : (⟨2, ![k, n]⟩ : Shape).Idx → EReal) (b : Fin n → EReal)
    (hz : ∀ c, IsReal (z c)) (hw : ∀ i, IsReal (w i)) (hb : ∀ q, IsReal (b q)) (q : Fin n) :
    IsReal (Cert.DenseLayer.dense z w b q) := by
  unfold Cert.DenseLayer.dense
  exact (isReal_affine z w b hz hw hb q).max isReal_zero_word

/-! ## Four single-precision words -/

/-- The word `0x47C35000` is 100000.0. -/
theorem ofBits_100000 : Ideal.ofBits .f32 0x47C35000#32 = ((100000 : ℝ) : EReal) := by
  simp [Ideal.ofBits, Ideal.ieee, -EReal.coe_mul]; norm_num

/-- The word `0x3F800000` is 1.0. -/
theorem ofBits_one : Ideal.ofBits .f32 0x3F800000#32 = 1 := Ideal.ofBits_one_f32

/-- The word `0x00000000` is 0.0. -/
theorem ofBits_zero : Ideal.ofBits .f32 0x00000000#32 = 0 := Ideal.ofBits_zero_f32

/-- The word `0x3727C5AC` is a positive real (10995116 · 2⁻⁴⁰, about 1e-5). -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

theorem isReal_100000_word : IsReal (Ideal.ofBits .f32 0x47C35000#32) := ⟨_, ofBits_100000⟩

theorem isReal_one_word : IsReal (Ideal.ofBits .f32 0x3F800000#32) := ⟨1, by rw [ofBits_one]; rfl⟩

theorem isReal_eps_word : IsReal (Ideal.ofBits .f32 0x3727C5AC#32) := by
  obtain ⟨e, _, he⟩ := ofBits_eps; exact ⟨e, he⟩

theorem eps_word_pos : (0 : EReal) < Ideal.ofBits .f32 0x3727C5AC#32 := by
  obtain ⟨e, he0, he⟩ := ofBits_eps; rw [he]; exact_mod_cast he0

/-- 100000.0 is not zero. -/
theorem ofBits_100000_ne_zero : Ideal.ofBits .f32 0x47C35000#32 ≠ 0 := by
  rw [ofBits_100000]; exact_mod_cast (by norm_num : (100000 : ℝ) ≠ 0)

end Cert.RealEntries

end
-- ==== Proof.BatchStats.lean ====
/-
  Batch statistics of one column of 100000 entries, computed two ways, over the extended reals.

  The column is read as 25 tiles of 4000 consecutive rows; row j of tile t is entry 4000 · t + j.

  MEAN.  Adding each tile from zero and then the 25 tile sums from zero gives the column's sum: the extended reals
  are a commutative additive monoid in which 0 + x = x, so no finiteness is needed.  Dividing both by the same
  number gives the same mean.

  VARIANCE, for a column of real numbers.  With mu the mean, the mean of the squares minus mu · mu equals the mean of
  the squared deviations (z i − mu)²: over the reals this is the usual identity, and for real entries every
  extended-real operation involved is the coercion of the real one, the division by 100000 being multiplication by
  its reciprocal.  The common value is a nonnegative real, so adding a positive real to it gives a positive real,
  whose reciprocal square root is real.

  Each law is stated with the zero and the divisor as parameters Z = 0 and D = 100000, and then once more with the
  single-precision words of 0.0 and 100000.0 in their places, for the division floats denote and for the host's.
-/
import Idealize.ShloMosaic.PureOps.Ideal.Laws
import proofs.«168167_j60026462929460_2_alg».proof.Proof.LibBlockSum
import proofs.«168167_j60026462929460_2_alg».proof.Proof.LibBatchStats
import proofs.«168167_j60026462929460_2_alg».proof.Proof.LibRealEntries
import proofs.«168167_j60026462929460_2_alg».proof.Proof.LibRealClosure

noncomputable section

open scoped BigOperators

namespace Cert.ColumnStats

open Idealize.ShloMosaic Finset Cert.RealEntries

/-! ## Tiles -/

/-- Row j of tile t of the column: entry 4000 · t + j. -/
def row (t : Fin 25) (j : Fin 4000) : Fin 100000 :=
  ⟨t.val * 4000 + j.val, by have := t.isLt; have := j.isLt; omega⟩

@[simp] theorem row_val (t : Fin 25) (j : Fin 4000) : (row t j).val = t.val * 4000 + j.val := rfl

/-- Any indexing of the tiles' rows with these values is this one. -/
theorem eq_row (r : Fin 25 → Fin 4000 → Fin 100000) (hr : ∀ t j, (r t j).val = t.val * 4000 + j.val) : r = row :=
  funext fun t => funext fun j => Fin.ext (hr t j)

/-- THE TILES' SUMS ADD UP TO THE COLUMN'S SUM, in any commutative additive monoid. -/
theorem sum_rows {M : Type*} [AddCommMonoid M] (f : Fin 100000 → M) :
    ∑ t : Fin 25, ∑ j : Fin 4000, f (row t j) = ∑ i, f i := by
  rw [← Cert.BlockSum.sum_blkG (L := 4000) (B := 25) (by norm_num) f]
  refine Finset.sum_congr rfl fun t _ => ?_
  unfold Cert.BlockSum.blkG
  refine Finset.sum_congr rfl fun j _ => congrArg f (Fin.ext ?_)
  show t.val * 4000 + j.val = 4000 * t.val + j.val
  rw [Nat.mul_comm]

/-- The same with every sum started from a zero Z. -/
theorem zsum_rows {Z : EReal} (hZ : Z = 0) (f : Fin 100000 → EReal) :
    Z + ∑ t : Fin 25, (Z + ∑ j : Fin 4000, f (row t j)) = Z + ∑ i, f i := by
  subst hZ
  simp only [zero_add]
  exact sum_rows f

/-! ## The mean -/

/-- THE MEAN, TILE BY TILE AND AT ONCE: no finiteness needed. -/
theorem mean_tiled {Z : EReal} (hZ : Z = 0) (D : EReal) (z : Fin 100000 → EReal) :
    Ideal.div (Z + ∑ t : Fin 25, (Z + ∑ j : Fin 4000, z (row t j))) D = Ideal.div (Z + ∑ i, z i) D := by
  rw [zsum_rows hZ z]

/-- The mean of squares likewise. -/
theorem meansq_tiled {Z : EReal} (hZ : Z = 0) (D : EReal) (z : Fin 100000 → EReal) :
    Ideal.div (Z + ∑ t : Fin 25, (Z + ∑ j : Fin 4000, z (row t j) * z (row t j))) D
      = Ideal.div (Z + ∑ i, z i * z i) D := by
  rw [zsum_rows hZ fun i => z i * z i]

/-! ## Real columns -/

/-- The sum of a real column over 100000 is the coercion of the real quotient. -/
theorem div_sum_coe (y : Fin 100000 → ℝ) :
    Ideal.div (∑ i, (y i : EReal)) ((100000 : ℝ) : EReal) = (((∑ i, y i) / 100000 : ℝ) : EReal) := by
  have h := Cert.BatchStats.whole_total (100000 : ℝ) (by norm_num) y
  rwa [zero_add] at h

/-- The real identity at 100000 entries: the mean of squares minus the squared mean is the mean squared deviation. -/
theorem variance_eq_real (x : Fin 100000 → ℝ) :
    (∑ i, x i * x i) / 100000 - ((∑ j, x j) / 100000) * ((∑ j, x j) / 100000)
      = (∑ i, (x i - (∑ j, x j) / 100000) * (x i - (∑ j, x j) / 100000)) / 100000 := by
  have h := Cert.BatchStats.variance_eq 100000 (by norm_num) x
  simp only [Nat.cast_ofNat] at h
  exact h.symm

/-- REAL WITNESSES of the statistics of a real column: the mean is a real m, and both forms of the variance are
    the same nonnegative real v. -/
theorem stats_real (z : Fin 100000 → EReal) (hz : ∀ i, IsReal (z i)) :
    ∃ m v : ℝ, 0 ≤ v
      ∧ Ideal.div (∑ i, z i) ((100000 : ℝ) : EReal) = (m : EReal)
      ∧ Ideal.div (∑ i, z i * z i) ((100000 : ℝ) : EReal) - (m : EReal) * (m : EReal) = (v : EReal)
      ∧ Ideal.div (∑ i, (z i - (m : EReal)) * (z i - (m : EReal))) ((100000 : ℝ) : EReal) = (v : EReal) := by
  choose x hx using hz
  refine ⟨(∑ i, x i) / 100000, (∑ i, (x i - (∑ j, x j) / 100000) * (x i - (∑ j, x j) / 100000)) / 100000, ?_, ?_, ?_, ?_⟩
  · have h := Cert.BatchStats.variance_nonneg 100000 x ((∑ j, x j) / 100000)
    simp only [Nat.cast_ofNat] at h
    exact h
  · rw [show (∑ i, z i) = ∑ i, (x i : EReal) from Finset.sum_congr rfl fun i _ => hx i]
    exact div_sum_coe x
  · rw [show (∑ i, z i * z i) = ∑ i, ((x i * x i : ℝ) : EReal) from
      Finset.sum_congr rfl fun i _ => by rw [hx i, EReal.coe_mul]]
    rw [div_sum_coe fun i => x i * x i, ← EReal.coe_mul, ← EReal.coe_sub, variance_eq_real x]
  · rw [show (∑ i, (z i - (((∑ j, x j) / 100000 : ℝ) : EReal)) * (z i - (((∑ j, x j) / 100000 : ℝ) : EReal)))
        = ∑ i, (((x i - (∑ j, x j) / 100000) * (x i - (∑ j, x j) / 100000) : ℝ) : EReal) from
      Finset.sum_congr rfl fun i _ => by rw [hx i, ← EReal.coe_sub, ← EReal.coe_mul]]
    exact div_sum_coe fun i => (x i - (∑ j, x j) / 100000) * (x i - (∑ j, x j) / 100000)

section Real

variable (z : Fin 100000 → EReal) (hz : ∀ i, IsReal (z i)) {Z D mu : EReal} (hZ : Z = 0)
  (hD : D = ((100000 : ℝ) : EReal)) (hmu : mu = Ideal.div (Z + ∑ i, z i) D)

include hz hZ hD hmu

/-- The mean of a real column is real. -/
theorem mean_real : IsReal mu := by
  obtain ⟨m, v, _, hm, _, _⟩ := stats_real z hz
  subst hZ; subst hD
  rw [zero_add] at hmu
  exact ⟨m, hmu.trans hm⟩

/-- THE VARIANCE, TWO WAYS, for a real column: the mean of squares summed tile by tile minus mu · mu is the mean of the
    squared deviations from mu. -/
theorem variance_tiled :
    Ideal.div (Z + ∑ t : Fin 25, (Z + ∑ j : Fin 4000, z (row t j) * z (row t j))) D - mu * mu
      = Ideal.div (Z + ∑ i, (z i - mu) * (z i - mu)) D := by
  obtain ⟨m, v, _, hm, hv1, hv2⟩ := stats_real z hz
  rw [meansq_tiled hZ D z]
  subst hZ; subst hD
  rw [zero_add] at hmu
  have hmu' : mu = (m : EReal) := hmu.trans hm
  subst hmu'
  rw [zero_add, zero_add, hv1, hv2]

/-- The variance of a real column (mean squared deviation) is a nonnegative real. -/
theorem variance_real_nonneg :
    IsReal (Ideal.div (Z + ∑ i, (z i - mu) * (z i - mu)) D) ∧ 0 ≤ Ideal.div (Z + ∑ i, (z i - mu) * (z i - mu)) D := by
  obtain ⟨m, v, hv0, hm, _, hv2⟩ := stats_real z hz
  subst hZ; subst hD
  rw [zero_add] at hmu
  have hmu' : mu = (m : EReal) := hmu.trans hm
  subst hmu'
  rw [zero_add, hv2]
  exact ⟨⟨v, rfl⟩, by exact_mod_cast hv0⟩

/-- The same for the tiled form (mean of squares minus mu · mu). -/
theorem variance_tiled_real_nonneg :
    IsReal (Ideal.div (Z + ∑ t : Fin 25, (Z + ∑ j : Fin 4000, z (row t j) * z (row t j))) D - mu * mu)
      ∧ 0 ≤ Ideal.div (Z + ∑ t : Fin 25, (Z + ∑ j : Fin 4000, z (row t j) * z (row t j))) D - mu * mu := by
  rw [variance_tiled z hz hZ hD hmu]
  exact variance_real_nonneg z hz hZ hD hmu

/-- The reciprocal square root of the variance plus a positive real is real (deviation form). -/
theorem rsqrt_variance_real {e : EReal} (he : IsReal e) (he0 : 0 < e) :
    IsReal (Ideal.rsqrt (Ideal.div (Z + ∑ i, (z i - mu) * (z i - mu)) D + e)) := by
  obtain ⟨hv, hv0⟩ := variance_real_nonneg z hz hZ hD hmu
  obtain ⟨h1, h2⟩ := add_pos_real hv hv0 he he0
  exact IsReal.rsqrt h1 h2

/-- The reciprocal square root of the variance plus a positive real is real (tiled form). -/
theorem rsqrt_variance_tiled_real {e : EReal} (he : IsReal e) (he0 : 0 < e) :
    IsReal (Ideal.rsqrt
      (Ideal.div (Z + ∑ t : Fin 25, (Z + ∑ j : Fin 4000, z (row t j) * z (row t j))) D - mu * mu + e)) := by
  rw [variance_tiled z hz hZ hD hmu]
  exact rsqrt_variance_real z hz hZ hD hmu he he0

end Real

/-! ## The same laws with the words of 0.0 and 100000.0 written out -/

/-- The word of 0.0. -/
abbrev Zw : EReal := Ideal.ofBits .f32 0x00000000#32

/-- The word of 100000.0. -/
abbrev Dw : EReal := Ideal.ofBits .f32 0x47C35000#32

theorem Zw_eq : Zw = 0 := Ideal.ofBits_zero_f32

theorem Dw_eq : Dw = ((100000 : ℝ) : EReal) := ofBits_100000

/-- The mean, words written out. -/
theorem mean_tiled_words (z : Fin 100000 → EReal) :
    Ideal.div (Ideal.ofBits .f32 0x00000000#32
        + ∑ t : Fin 25, (Ideal.ofBits .f32 0x00000000#32 + ∑ j : Fin 4000, z (row t j)))
        (Ideal.ofBits .f32 0x47C35000#32)
      = Ideal.div (Ideal.ofBits .f32 0x00000000#32 + ∑ i, z i) (Ideal.ofBits .f32 0x47C35000#32) :=
  mean_tiled Zw_eq Dw z

/-- The mean, words written out, the host's division. -/
theorem mean_tiled_words_host (z : Fin 100000 → EReal) :
    FloatOps.hostDivf (F := Ideal) (φ := .f32) (Ideal.ofBits .f32 0x00000000#32
        + ∑ t : Fin 25, (Ideal.ofBits .f32 0x00000000#32 + ∑ j : Fin 4000, z (row t j)))
        (Ideal.ofBits .f32 0x47C35000#32)
      = FloatOps.hostDivf (F := Ideal) (φ := .f32) (Ideal.ofBits .f32 0x00000000#32 + ∑ i, z i)
        (Ideal.ofBits .f32 0x47C35000#32) :=
  mean_tiled Zw_eq Dw z

/-- The variance two ways, words written out. -/
theorem variance_tiled_words (z : Fin 100000 → EReal) (hz : ∀ i, IsReal (z i)) {mu : EReal}
    (hmu : mu = Ideal.div (Ideal.ofBits .f32 0x00000000#32 + ∑ i, z i) (Ideal.ofBits .f32 0x47C35000#32)) :
    Ideal.div (Ideal.ofBits .f32 0x00000000#32
        + ∑ t : Fin 25, (Ideal.ofBits .f32 0x00000000#32 + ∑ j : Fin 4000, z (row t j) * z (row t j)))
        (Ideal.ofBits .f32 0x47C35000#32) - mu * mu
      = Ideal.div (Ideal.ofBits .f32 0x00000000#32 + ∑ i, (z i - mu) * (z i - mu))
        (Ideal.ofBits .f32 0x47C35000#32) :=
  variance_tiled z hz Zw_eq Dw_eq hmu

/-- The variance two ways, words written out, the host's division. -/
theorem variance_tiled_words_host (z : Fin 100000 → EReal) (hz : ∀ i, IsReal (z i)) {mu : EReal}
    (hmu : mu = FloatOps.hostDivf (F := Ideal) (φ := .f32) (Ideal.ofBits .f32 0x00000000#32 + ∑ i, z i)
      (Ideal.ofBits .f32 0x47C35000#32)) :
    FloatOps.hostDivf (F := Ideal) (φ := .f32) (Ideal.ofBits .f32 0x00000000#32
        + ∑ t : Fin 25, (Ideal.ofBits .f32 0x00000000#32 + ∑ j : Fin 4000, z (row t j) * z (row t j)))
        (Ideal.ofBits .f32 0x47C35000#32) - mu * mu
      = FloatOps.hostDivf (F := Ideal) (φ := .f32)
        (Ideal.ofBits .f32 0x00000000#32 + ∑ i, (z i - mu) * (z i - mu)) (Ideal.ofBits .f32 0x47C35000#32) :=
  variance_tiled z hz Zw_eq Dw_eq hmu

/-- The variance is a nonnegative real, words written out. -/
theorem variance_real_nonneg_words (z : Fin 100000 → EReal) (hz : ∀ i, IsReal (z i)) {mu : EReal}
    (hmu : mu = Ideal.div (Ideal.ofBits .f32 0x00000000#32 + ∑ i, z i) (Ideal.ofBits .f32 0x47C35000#32)) :
    IsReal (Ideal.div (Ideal.ofBits .f32 0x00000000#32 + ∑ i, (z i - mu) * (z i - mu))
        (Ideal.ofBits .f32 0x47C35000#32))
      ∧ 0 ≤ Ideal.div (Ideal.ofBits .f32 0x00000000#32 + ∑ i, (z i - mu) * (z i - mu))
        (Ideal.ofBits .f32 0x47C35000#32) :=
  variance_real_nonneg z hz Zw_eq Dw_eq hmu

/-- The reciprocal square root of the variance plus the small positive word is real, words written out
    (deviation form). -/
theorem rsqrt_variance_real_words (z : Fin 100000 → EReal) (hz : ∀ i, IsReal (z i)) {mu : EReal}
    (hmu : mu = Ideal.div (Ideal.ofBits .f32 0x00000000#32 + ∑ i, z i) (Ideal.ofBits .f32 0x47C35000#32)) :
    IsReal (Ideal.rsqrt (Ideal.div (Ideal.ofBits .f32 0x00000000#32 + ∑ i, (z i - mu) * (z i - mu))
        (Ideal.ofBits .f32 0x47C35000#32) + Ideal.ofBits .f32 0x3727C5AC#32)) :=
  rsqrt_variance_real z hz Zw_eq Dw_eq hmu isReal_eps_word eps_word_pos

/-- The same, tiled form. -/
theorem rsqrt_variance_tiled_real_words (z : Fin 100000 → EReal) (hz : ∀ i, IsReal (z i)) {mu : EReal}
    (hmu : mu = Ideal.div (Ideal.ofBits .f32 0x00000000#32 + ∑ i, z i) (Ideal.ofBits .f32 0x47C35000#32)) :
    IsReal (Ideal.rsqrt (Ideal.div (Ideal.ofBits .f32 0x00000000#32
        + ∑ t : Fin 25, (Ideal.ofBits .f32 0x00000000#32 + ∑ j : Fin 4000, z (row t j) * z (row t j)))
        (Ideal.ofBits .f32 0x47C35000#32) - mu * mu + Ideal.ofBits .f32 0x3727C5AC#32)) :=
  rsqrt_variance_tiled_real z hz Zw_eq Dw_eq hmu isReal_eps_word eps_word_pos

end Cert.ColumnStats

end
-- ==== Proof.Bridge2.lean ====
/-
  The kernel's first affine layer is the reference's.

  The region writes z1 = ((1 + eps) · h + agg) · W + b tile by tile; read as one array it is the affine map of each
  row, which is what the reference's scaled sum, product and broadcast bias compute, given that the region finds the
  reference's h and agg in its two row-tiled inputs.  The three parameters reach the kernel as slices of the stacked
  weights re-laid as a [1, 1] array, a matrix and a [1, 256] row: the one entry of the first is the scalar the reference
  adds to one, the matrix is the reference's slice, and entry (0, q) of the row is entry q of the reference's vector.
  The two sums arrays hold, in row r, the column sums of z1 and of its square over the 4000 rows of tile r / 8.
-/
import proofs.«168167_j60026462929460_2_alg».proof.Proof.AffineArrays2
import proofs.«168167_j60026462929460_2_alg».proof.Proof.Bridge1
import proofs.«168167_j60026462929460_2_alg».proof.Proof.Fold2
import proofs.«168167_j60026462929460_2_alg».proof.Proof.RefStages
import proofs.«168167_j60026462929460_2_alg».proof.Proof.BatchStats
import proofs.«168167_j60026462929460_2_alg».proof.Proof.LibBroadcast

noncomputable section

namespace Cert.Bridge

open Idealize.ShloMosaic Idealize.ShloMosaic.TcCoe Idealize.ShloMosaic.ValueIdx Idealize.SL.Sem
open Cert.KernelIdeal Cert.KernelIdeal.Gen Cert.DenseLayer Cert.Layout Cert.AffineRows

variable (m : (ℓ : Loc nD τ sig) → Buf (Elt Ideal) ℓ) (ρ : Dev nD → PrngReg)

/-- A scalar re-laid as a [1, 1] array: its one entry is the scalar. -/
theorem shapeCast_scalar_apply {α : Type} (v : (⟨0, ![]⟩ : Shape).Idx → α)
    (h : (⟨0, ![]⟩ : Shape).ShapeCasts ⟨2, ![1, 1]⟩) :
    shapeCast (⟨2, ![1, 1]⟩ : Shape) v h (ix2 (0 : Fin 1) (0 : Fin 1)) = v ix0 := by
  unfold shapeCast
  exact congrArg v (funext fun a => a.elim0)

/-- Entry (p, q) of the layer's output over the arrays region 2 finds is the reference's z1 there. -/
theorem zrow1_eq (c : Dev nD) (hH : V11 m ρ c main_v59 = rH1 (kA m c)) (hG : V11 m ρ c main_v71 = rAgg1 (kA m c))
    (p : Fin 100000) (q : Fin 256) :
    zrow (V11 m ρ c main_v59 : S100000x128.Idx → EReal) (V11 m ρ c main_v71 : S100000x128.Idx → EReal)
      (V11 m ρ c main_v87 : S1x1.Idx → EReal) (V11 m ρ c main_v75 : S128x256.Idx → EReal)
      (V11 m ρ c main_v86 : S1x256.Idx → EReal) p q = rZ1 (kA m c) (ix2 p q) := by
  rw [rZ1_at, hH, hG, Cert.Fold.V11_main_v87, Cert.Fold.V11_main_v75, Cert.Fold.V11_main_v86]
  unfold zrow
  simp only [shapeCast_row_apply, shapeCast_scalar_apply]
  rfl

/-- The kernel's z1, as one array, is the reference's z1 of the same arguments. -/
theorem kZ1_eq (c : Dev nD) (hH : V11 m ρ c main_v59 = rH1 (kA m c)) (hG : V11 m ρ c main_v71 = rAgg1 (kA m c)) :
    Cert.Fold.kZ1 m ρ c = rZ1 (kA m c) := by
  unfold Cert.Fold.kZ1
  funext i
  obtain ⟨p, q, rfl⟩ : ∃ (p : Fin 100000) (q : Fin 256), i = ix2 p q := ⟨i 0, i 1, eq_ix2 i⟩
  exact (Region2.z_apply (V11 m ρ) c p q).trans (zrow1_eq m ρ c hH hG p q)

/-- Row j of tile r / 8, in the two spellings. -/
theorem tileRow_eq_row (r : Fin 200) (j : Fin 4000) :
    tileRow r j = Cert.ColumnStats.row ⟨r.val / 8, by have := r.isLt; omega⟩ j := Fin.ext rfl

/-- Row r of the kernel's sums array: zero plus the column sums of the reference's z1 over the rows of tile r / 8. -/
theorem kS1_at (c : Dev nD) (hH : V11 m ρ c main_v59 = rH1 (kA m c)) (hG : V11 m ρ c main_v71 = rAgg1 (kA m c))
    (r : Fin 200) (q : Fin 256) :
    Cert.Fold.kS1 m ρ c (ix2 r q) = Cert.ColumnStats.Zw
      + ∑ j : Fin 4000, rZ1 (kA m c) (ix2 (Cert.ColumnStats.row ⟨r.val / 8, by have := r.isLt; omega⟩ j) q) := by
  refine (show (Cert.Fold.kS1 m ρ c (ix2 r q) : EReal) = _ from Region2.sums_apply (V11 m ρ) c r q).trans ?_
  rw [Cert.ColumnStats.Zw_eq, zero_add]
  exact Finset.sum_congr rfl fun j _ => by rw [zrow1_eq m ρ c hH hG, tileRow_eq_row]

/-- Row r of the kernel's sums-of-squares array likewise. -/
theorem kQ1_at (c : Dev nD) (hH : V11 m ρ c main_v59 = rH1 (kA m c)) (hG : V11 m ρ c main_v71 = rAgg1 (kA m c))
    (r : Fin 200) (q : Fin 256) :
    Cert.Fold.kQ1 m ρ c (ix2 r q) = Cert.ColumnStats.Zw
      + ∑ j : Fin 4000, rZ1 (kA m c) (ix2 (Cert.ColumnStats.row ⟨r.val / 8, by have := r.isLt; omega⟩ j) q)
          * rZ1 (kA m c) (ix2 (Cert.ColumnStats.row ⟨r.val / 8, by have := r.isLt; omega⟩ j) q) := by
  refine (show (Cert.Fold.kQ1 m ρ c (ix2 r q) : EReal) = _ from Region2.sumsq_apply (V11 m ρ) c r q).trans ?_
  rw [Cert.ColumnStats.Zw_eq, zero_add]
  exact Finset.sum_congr rfl fun j _ => by rw [zrow1_eq m ρ c hH hG, tileRow_eq_row]

end Cert.Bridge

end
-- ==== Proof.NormalizedEntry.lean ====
/-
  One entry of a batch-normalised, rescaled, shifted and clamped activation, at the ideal values where a float is
  an extended real and every operation is exact.

  Given a pre-activation z, a per-column mean mu, variance var, scale g and shift beta, the entry is
    max ((z - mu) · rsqrt (var + eps) · g + beta, 0),
  with eps the value of a fixed float word.  On the device the per-column quantities are [1, k] rows repeated down
  the m rows of the tile; read at (p, c) the tile-wide expression is this entry of z (p, c) and column c's
  quantities.  Any extents m, k.
-/
import Idealize.ShloMosaic.Lib.Pipeline.Value
import Idealize.ShloMosaic.Lib.ValueIdx
import Idealize.ShloMosaic.PureOps.Ideal.Laws
import proofs.«168167_j60026462929460_2_alg».proof.Proof.LibRowsProduct

noncomputable section

namespace Cert.NormalizedEntry

open Idealize.ShloMosaic Idealize.ShloMosaic.ValueIdx

/-- The value of the float zero word. -/
abbrev Z : EReal := Ideal.ofBits .f32 0x00000000#32

/-- The value of the small constant added to the variance before the reciprocal square root. -/
abbrev epsBN : EReal := Ideal.ofBits .f32 0x3727C5AC#32

/-- The normalised, rescaled, shifted and clamped entry. -/
def normRelu (z mu var g beta : EReal) : EReal :=
  max ((z - mu) * Ideal.rsqrt (var + epsBN) * g + beta) Z

variable {m k : ℕ}

/-- The tile-wide expression read at (p, c): the rows mu, var, g, beta are repeated down the m rows, so the entry
    depends on z (p, c) and on column c of each row. -/
theorem normRelu_apply (hb : (⟨2, ![1, k]⟩ : Shape).Broadcasts ⟨2, ![m, k]⟩)
    (z : FVec Ideal ⟨2, ![m, k]⟩ .f32) (mu var g beta : FVec Ideal ⟨2, ![1, k]⟩ .f32) (p : Fin m) (c : Fin k) :
    maximumf
      (addf
        (mulf
          (mulf (subf z (broadcastTo ⟨2, ![m, k]⟩ mu hb))
            (broadcastTo ⟨2, ![m, k]⟩
              (rsqrt (addf var (broadcast ⟨2, ![1, k]⟩ (Scalar.ofBits .f32 0x3727C5AC#32)))) hb))
          (broadcastTo ⟨2, ![m, k]⟩ g hb))
        (broadcastTo ⟨2, ![m, k]⟩ beta hb))
      (broadcast ⟨2, ![m, k]⟩ (Scalar.ofBits .f32 0x00000000#32)) (ix2 p c)
    = normRelu (z (ix2 p c)) (mu (ix2 (0 : Fin 1) c)) (var (ix2 (0 : Fin 1) c)) (g (ix2 (0 : Fin 1) c))
        (beta (ix2 (0 : Fin 1) c)) := by
  rw [maximumf_apply, addf_apply, mulf_apply, mulf_apply, subf_apply,
    Cert.RowsProduct.broadcastTo_1n_an_apply, Cert.RowsProduct.broadcastTo_1n_an_apply,
    Cert.RowsProduct.broadcastTo_1n_an_apply, Cert.RowsProduct.broadcastTo_1n_an_apply]
  rfl

end Cert.NormalizedEntry

end
-- ==== Proof.UpdateEntry.lean ====
/-
  The node-update layer's tile at one entry, at the ideal values.

  Both update kernels compute, on a tile of 4000 rows, the batch-normalised, rescaled, shifted and clamped
  activations n (r, c) of the 256 pre-activation columns, and then an affine map of each row of n against a
  [256, 128] weight and a [1, 128] bias.  The first kernel follows the affine map by the positive part (a dense
  layer); the second stores the affine map itself.  A change of float format is the identity at the ideal values,
  so the rounded operands of the product are the operands.
-/
import proofs.«168167_j60026462929460_2_alg».proof.Proof.Gen.KernelIdeal.Skeleton
import proofs.«168167_j60026462929460_2_alg».proof.Proof.LibDenseLayer
import proofs.«168167_j60026462929460_2_alg».proof.Proof.NormalizedEntry

noncomputable section

namespace Cert.UpdateEntry

open Idealize.ShloMosaic Idealize.ShloMosaic.ValueIdx
open Cert.KernelIdeal Cert.KernelIdeal.Gen
open Cert.DenseLayer (affine dense)
open Cert.NormalizedEntry (normRelu)

/-- The normalised activations of tile row r, as a function of the column. -/
abbrev normRow (z : S4000x256.Idx → EReal) (mu var g beta : S1x256.Idx → EReal) (r : Fin 4000) : Fin 256 → EReal :=
  fun c => normRelu (z (ix2 r c)) (mu (ix2 (0 : Fin 1) c)) (var (ix2 (0 : Fin 1) c)) (g (ix2 (0 : Fin 1) c))
    (beta (ix2 (0 : Fin 1) c))

/-- The first update kernel's stored tile at (r, q): the dense layer of row r of the normalised activations. -/
theorem k3_pay1_apply (v0 : Vec Ideal S4000x256 .f32) (v2 v4 v13 v17 : Vec Ideal S1x256 .f32)
    (v24 : Vec Ideal S256x128 .f32) (v28 : Vec Ideal S1x128 .f32) (r : Fin 4000) (q : Fin 128) :
    k3_pay1 (F := Ideal) v0 v2 v4 v13 v17 v24 v28 (ix2 r q)
      = dense (normRow v0 v2 v4 v13 v17 r) v24 (fun q => v28 (ix2 (0 : Fin 1) q)) q := by
  unfold k3_pay1
  refine (Cert.DenseLayer.tpu_dense_apply dot_S4000x256_S256x128_S4000x128_1_0_0_1_n_n_wf
    broadcasts_S1x128_S4000x128 _ _ _ r q).trans ?_
  simp only [shapeCast_self]
  refine congrArg (fun z : Fin 256 → EReal => dense z v24 (fun q => v28 (ix2 (0 : Fin 1) q)) q) ?_
  funext c
  exact Cert.NormalizedEntry.normRelu_apply broadcasts_S1x256_S4000x256 v0 v2 v4 v13 v17 r c

/-- The second update kernel's stored tile at (r, q): the affine map of row r of the normalised activations. -/
theorem k5_pay1_apply (v0 : Vec Ideal S4000x256 .f32) (v2 v4 v13 v17 : Vec Ideal S1x256 .f32)
    (v24 : Vec Ideal S256x128 .f32) (v28 : Vec Ideal S1x128 .f32) (r : Fin 4000) (q : Fin 128) :
    k5_pay1 (F := Ideal) v0 v2 v4 v13 v17 v24 v28 (ix2 r q)
      = affine (normRow v0 v2 v4 v13 v17 r) v24 (fun q => v28 (ix2 (0 : Fin 1) q)) q := by
  unfold k5_pay1
  refine (Cert.DenseLayer.tpu_affine_apply dot_S4000x256_S256x128_S4000x128_1_0_0_1_n_n_wf
    broadcasts_S1x128_S4000x128 _ _ _ r q).trans ?_
  simp only [shapeCast_self]
  refine congrArg (fun z : Fin 256 → EReal => affine z v24 (fun q => v28 (ix2 (0 : Fin 1) q)) q) ?_
  funext c
  exact Cert.NormalizedEntry.normRelu_apply broadcasts_S1x256_S4000x256 v0 v2 v4 v13 v17 r c

end Cert.UpdateEntry

end
-- ==== Proof.FirstUpdateArray.lean ====
/-
  The array the first node-update layer leaves, entry by entry, at the ideal values.

  The layer runs over 25 grid points.  Point t reads rows 4000 t … 4000 t + 3999 of the [100000, 256]
  pre-activation array and, whole, the five small arrays (mean, variance, scale and shift rows of 256 columns, a
  [256, 128] weight and a [1, 128] bias row), and writes rows 4000 t … 4000 t + 3999 of the [100000, 128] output.
  The stored tile at (r, q) is the dense layer of row r of the normalised activations, so the block written at t
  is block t of ONE whole-array function: output (p, q) is the dense layer of row p of the normalised
  pre-activations.  Row p lies in block p / 4000, so the 25 blocks cover the output and it ends holding that
  function.  Everything is stated for arbitrary contents of the buffers when the layer starts.
-/
import proofs.«168167_j60026462929460_2_alg».proof.Proof.Gen.KernelIdeal.Frame
import proofs.«168167_j60026462929460_2_alg».proof.Proof.UpdateEntry
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.FirstUpdateArray

open Cert.KernelIdeal Cert.KernelIdeal.Gen
open Cert.DenseLayer (affine dense)
open Cert.NormalizedEntry (normRelu)
open Cert.UpdateEntry (normRow)

variable (V : (c : Dev nD) → (b : Ref sig .tc) → Buf (Elt Ideal) ((c : Thread nD τ).loc b))

theorem hz : (![0, 0] : Fin 2 → Nat) = fun _ => 0 := funext fun a => by fin_cases a <;> rfl

/-- Output entry (p, q) as a function of the seven input arrays: the dense layer of row p of the normalised
    pre-activations. -/
def entry (z1 : S100000x256.Idx → EReal) (mu var g beta : S1x256.Idx → EReal) (w2 : S256x128.Idx → EReal)
    (b2 : S1x128.Idx → EReal) (p : Fin 100000) (q : Fin 128) : EReal :=
  dense (fun k => normRelu (z1 (ix2 p k)) (mu (ix2 (0 : Fin 1) k)) (var (ix2 (0 : Fin 1) k)) (g (ix2 (0 : Fin 1) k))
    (beta (ix2 (0 : Fin 1) k))) w2 (fun q => b2 (ix2 (0 : Fin 1) q)) q

/-- The whole output array as one function of the buffers' contents when the layer starts. -/
def whole (c : Dev nD) : S100000x128.Idx → EReal := fun i =>
  entry (V c main_v88_0) (V c main_v100) (V c main_v104) (V c main_v105) (V c main_v106) (V c main_v83) (V c main_v107)
    ⟨(i 0).val, idx2_lt0 i⟩ ⟨(i 1).val, idx2_lt1 i⟩

/-- Where each window's block sits at grid point t: the pre-activation and output blocks are block row t, the
    five small arrays are read whole. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The stored tile at (r, q), from blocks whose entries are the arrays' entries: row r of the pre-activation block
    is row p of the array, and the small blocks are the small arrays. -/
theorem tile_entry (x0 : Vec Ideal S4000x256 .f32) (x1 x2 x3 x4 : Vec Ideal S1x256 .f32)
    (x5 : Vec Ideal S256x128 .f32) (x6 : Vec Ideal S1x128 .f32)
    (z1 : S100000x256.Idx → EReal) (mu var g beta : S1x256.Idx → EReal) (w2 : S256x128.Idx → EReal)
    (b2 : S1x128.Idx → EReal) (r : Fin 4000) (p : Fin 100000) (q : Fin 128)
    (h0 : ∀ k : Fin 256, x0 (ix2 r k) = z1 (ix2 p k)) (h1 : x1 = mu) (h2 : x2 = var) (h3 : x3 = g) (h4 : x4 = beta)
    (h5 : x5 = w2) (h6 : x6 = b2) :
    out3_7 (F := Ideal) x0 x1 x2 x3 x4 x5 x6 (ix2 r q) = entry z1 mu var g beta w2 b2 p q := by
  subst h1 h2 h3 h4 h5 h6
  unfold out3_7
  rw [View.canon_unit_zero hz]
  simp only [View.ld_unit_zero (S := S4000x256) hz, View.ld_unit_zero (S := S1x256) hz,
    View.ld_unit_zero (S := S256x128) hz, View.ld_unit_zero (S := S1x128) hz]
  refine (Cert.UpdateEntry.k3_pay1_apply x0 x1 x2 x3 x4 x5 x6 r q).trans ?_
  refine congrArg (fun z : Fin 256 → EReal => dense z x5 (fun q => x6 (ix2 (0 : Fin 1) q)) q) ?_
  funext k
  show normRelu (x0 (ix2 r k)) _ _ _ _ = _
  rw [h0 k]

/-- Row r of the pre-activation block at point t is row 4000 t + r of the array. -/
theorem rows_read (c : Dev nD) (t : Fin cfg3.N) (r : Fin 4000) (k : Fin 256) (p : Fin 100000)
    (hp : p.val = t.val * 4000 + r.val) :
    (iblk3 V c 0 t : S4000x256.Idx → EReal) (ix2 r k) = (V c main_v88_0 : S100000x256.Idx → EReal) (ix2 p k) := by
  obtain ⟨e0, e1, -⟩ := idx_facts t
  unfold iblk3
  rw [View.read_apply]
  show (V c main_v88_0 : S100000x256.Idx → EReal) (((cfg3.win 0).blk t).view.emb (ix2 r k)) = _
  refine congrArg (V c main_v88_0 : S100000x256.Idx → EReal) ?_
  funext a; apply Fin.ext
  match a with
  | ⟨0, _⟩ => show win3_0.index t (0 : Fin 2) * 4000 + 1 * r.val = p.val; omega
  | ⟨1, _⟩ => show win3_0.index t (1 : Fin 2) * 256 + 1 * k.val = k.val; omega

/-- The mean row's block is the mean row. -/
theorem whole_read1 (c : Dev nD) (t : Fin cfg3.N) :
    (iblk3 V c 1 t : S1x256.Idx → EReal) = (V c main_v100 : S1x256.Idx → EReal) := by
  obtain ⟨-, -, e0, e1, -⟩ := idx_facts t
  funext y
  unfold iblk3
  rw [View.read_apply]
  show (V c main_v100 : S1x256.Idx → EReal) (((cfg3.win 1).blk t).view.emb y) = _
  refine congrArg (V c main_v100 : S1x256.Idx → EReal) ?_
  funext a; apply Fin.ext
  match a with
  | ⟨0, _⟩ => show win3_1.index t (0 : Fin 2) * 1 + 1 * (y 0).val = (y 0).val; omega
  | ⟨1, _⟩ => show win3_1.index t (1 : Fin 2) * 256 + 1 * (y 1).val = (y 1).val; omega

/-- The variance row's block is the variance row. -/
theorem whole_read2 (c : Dev nD) (t : Fin cfg3.N) :
    (iblk3 V c 2 t : S1x256.Idx → EReal) = (V c main_v104 : S1x256.Idx → EReal) := by
  obtain ⟨-, -, -, -, e0, e1, -⟩ := idx_facts t
  funext y
  unfold iblk3
  rw [View.read_apply]
  show (V c main_v104 : S1x256.Idx → EReal) (((cfg3.win 2).blk t).view.emb y) = _
  refine congrArg (V c main_v104 : S1x256.Idx → EReal) ?_
  funext a; apply Fin.ext
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- The scale row's block is the scale row. -/
theorem whole_read3 (c : Dev nD) (t : Fin cfg3.N) :
    (iblk3 V c 3 t : S1x256.Idx → EReal) = (V c main_v105 : S1x256.Idx → EReal) := by
  obtain ⟨-, -, -, -, -, -, e0, e1, -⟩ := idx_facts t
  funext y
  unfold iblk3
  rw [View.read_apply]
  show (V c main_v105 : S1x256.Idx → EReal) (((cfg3.win 3).blk t).view.emb y) = _
  refine congrArg (V c main_v105 : S1x256.Idx → EReal) ?_
  funext a; apply Fin.ext
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- The shift row's block is the shift row. -/
theorem whole_read4 (c : Dev nD) (t : Fin cfg3.N) :
    (iblk3 V c 4 t : S1x256.Idx → EReal) = (V c main_v106 : S1x256.Idx → EReal) := by
  obtain ⟨-, -, -, -, -, -, -, -, e0, e1, -⟩ := idx_facts t
  funext y
  unfold iblk3
  rw [View.read_apply]
  show (V c main_v106 : S1x256.Idx → EReal) (((cfg3.win 4).blk t).view.emb y) = _
  refine congrArg (V c main_v106 : S1x256.Idx → EReal) ?_
  funext a; apply Fin.ext
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- The weight's block is the weight. -/
theorem whole_read5 (c : Dev nD) (t : Fin cfg3.N) :
    (iblk3 V c 5 t : S256x128.Idx → EReal) = (V c main_v83 : S256x128.Idx → EReal) := by
  obtain ⟨-, -, -, -, -, -, -, -, -, -, e0, e1, -⟩ := idx_facts t
  funext y
  unfold iblk3
  rw [View.read_apply]
  show (V c main_v83 : S256x128.Idx → EReal) (((cfg3.win 5).blk t).view.emb y) = _
  refine congrArg (V c main_v83 : S256x128.Idx → EReal) ?_
  funext a; apply Fin.ext
  match a with
  | ⟨0, _⟩ => show win3_5.index t (0 : Fin 2) * 256 + 1 * (y 0).val = (y 0).val; omega
  | ⟨1, _⟩ => show win3_5.index t (1 : Fin 2) * 128 + 1 * (y 1).val = (y 1).val; omega

/-- The bias row's block is the bias row. -/
theorem whole_read6 (c : Dev nD) (t : Fin cfg3.N) :
    (iblk3 V c 6 t : S1x128.Idx → EReal) = (V c main_v107 : S1x128.Idx → EReal) := by
  obtain ⟨-, -, -, -, -, -, -, -, -, -, -, -, e0, e1, -⟩ := idx_facts t
  funext y
  unfold iblk3
  rw [View.read_apply]
  show (V c main_v107 : S1x128.Idx → EReal) (((cfg3.win 6).blk t).view.emb y) = _
  refine congrArg (V c main_v107 : S1x128.Idx → EReal) ?_
  funext a; apply Fin.ext
  match a with
  | ⟨0, _⟩ => show win3_6.index t (0 : Fin 2) * 1 + 1 * (y 0).val = (y 0).val; omega
  | ⟨1, _⟩ => show win3_6.index t (1 : Fin 2) * 128 + 1 * (y 1).val = (y 1).val; omega

/-- What point t writes back is block t of the whole-array function. -/
theorem flushed_eq (c : Dev nD) (t : Fin cfg3.N) :
    (dat3 V c).flushed 7 t = ((cfg3.win 7).blk t).view.read (Elt Ideal) (whole V c) := by
  have hN : cfg3.N = 25 := N_3
  have ht : t.val < 25 := hN ▸ t.isLt
  obtain ⟨-, -, -, -, -, -, -, -, -, -, -, -, -, -, e0, e1⟩ := idx_facts t
  show (cfg3.win 7).cut (grid3.coords t) ((dat3 V c).after 7 t) = _
  rw [after3_7]
  funext j
  have hr : (j 0).val < 4000 := Nat.lt_of_lt_of_le (j 0).isLt ((cfg3.win 7).xsize_le (grid3.coords t) 0)
  have hq : (j 1).val < 128 := Nat.lt_of_lt_of_le (j 1).isLt ((cfg3.win 7).xsize_le (grid3.coords t) 1)
  have hp : t.val * 4000 + (j 0).val < 100000 := by omega
  have hx : (cfg3.win 7).xinj (grid3.coords t) j
      = ix2 (⟨(j 0).val, hr⟩ : Fin 4000) (⟨(j 1).val, hq⟩ : Fin 128) := by
    funext a
    match a with
    | ⟨0, _⟩ => rfl
    | ⟨1, _⟩ => rfl
  have hemb : ((cfg3.win 7).blk t).view.emb j
      = ix2 (⟨t.val * 4000 + (j 0).val, hp⟩ : Fin 100000) (⟨(j 1).val, hq⟩ : Fin 128) := by
    funext a; apply Fin.ext
    match a with
    | ⟨0, _⟩ => show win3_7.index t (0 : Fin 2) * 4000 + 1 * (j 0).val = t.val * 4000 + (j 0).val; omega
    | ⟨1, _⟩ => show win3_7.index t (1 : Fin 2) * 128 + 1 * (j 1).val = (j 1).val; omega
  rw [View.read_apply]
  show out3_7 (iblk3 V c 0 t) (iblk3 V c 1 t) (iblk3 V c 2 t) (iblk3 V c 3 t) (iblk3 V c 4 t) (iblk3 V c 5 t)
      (iblk3 V c 6 t) ((cfg3.win 7).xinj (grid3.coords t) j)
    = whole V c (((cfg3.win 7).blk t).view.emb j)
  refine ((congrArg (out3_7 (F := Ideal) (iblk3 V c 0 t) (iblk3 V c 1 t) (iblk3 V c 2 t) (iblk3 V c 3 t)
    (iblk3 V c 4 t) (iblk3 V c 5 t) (iblk3 V c 6 t)) hx).trans ?_).trans (congrArg (whole V c) hemb).symm
  exact tile_entry (iblk3 V c 0 t) (iblk3 V c 1 t) (iblk3 V c 2 t) (iblk3 V c 3 t) (iblk3 V c 4 t) (iblk3 V c 5 t)
    (iblk3 V c 6 t) (V c main_v88_0) (V c main_v100) (V c main_v104) (V c main_v105) (V c main_v106) (V c main_v83)
    (V c main_v107) ⟨(j 0).val, hr⟩ ⟨t.val * 4000 + (j 0).val, hp⟩ ⟨(j 1).val, hq⟩
    (fun k => rows_read V c t ⟨(j 0).val, hr⟩ k ⟨t.val * 4000 + (j 0).val, hp⟩ rfl)
    (whole_read1 V c t) (whole_read2 V c t) (whole_read3 V c t) (whole_read4 V c t) (whole_read5 V c t)
    (whole_read6 V c t)

/-- An index of the output is in point t's block iff each coordinate is in the block's range on its axis. -/
theorem mem_blk (t : Fin cfg3.N) (i : S100000x128.Idx) :
    i ∈ ((cfg3.win 7).blk t).view.set ↔ ∀ a : Fin 2, win3_7.index t a * S4000x128.size a ≤ (i a).val
      ∧ (i a).val < win3_7.index t a * S4000x128.size a + S4000x128.size a := by
  show i ∈ ((View.whole main_v108).slice (win3_7.rect t)).set ↔ _
  rw [View.set_slice_whole, Rect.mem_set_unit]
  exact Iff.rfl

/-- Row p of the output lies in the block of point p / 4000. -/
theorem cover (i : S100000x128.Idx) :
    ∃ t : Fin cfg3.N, (cfg3.win 7).flush t = true ∧ i ∈ ((cfg3.win 7).blk t).view.set := by
  have hN : cfg3.N = 25 := N_3
  have hi0 : (i 0).val < 100000 := idx2_lt0 i
  have hi1 : (i 1).val < 128 := idx2_lt1 i
  refine ⟨⟨(i 0).val / 4000, by rw [hN]; omega⟩, flush3_7 _, ?_⟩
  rw [mem_blk]
  obtain ⟨-, -, -, -, -, -, -, -, -, -, -, -, -, -, e0, e1⟩ := idx_facts ⟨(i 0).val / 4000, by rw [hN]; omega⟩
  intro a
  match a with
  | ⟨0, _⟩ =>
    show win3_7.index _ (0 : Fin 2) * 4000 ≤ (i 0).val ∧ (i 0).val < win3_7.index _ (0 : Fin 2) * 4000 + 4000
    rw [e0]; show (i 0).val / 4000 * 4000 ≤ (i 0).val ∧ (i 0).val < (i 0).val / 4000 * 4000 + 4000; omega
  | ⟨1, _⟩ =>
    show win3_7.index _ (1 : Fin 2) * 128 ≤ (i 1).val ∧ (i 1).val < win3_7.index _ (1 : Fin 2) * 128 + 128
    rw [e1]; omega

/-- The output array after the layer is the whole-array function. -/
theorem final (c : Dev nD) : (dat3 V c).arrAt 7 cfg3.N = whole V c :=
  (dat3 V c).arrAt_eq_of_cover 7 (whole V c) (fun t _ => flushed_eq V c t) cover

/-- THE OUTPUT AT (p, q): the dense layer, against the weight and bias, of row p of the normalised pre-activations
    n (p, k) = max ((z1 (p, k) - mu (0, k)) · rsqrt (var (0, k) + eps) · g (0, k) + beta (0, k), 0). -/
theorem arrAt_apply (c : Dev nD) (p : Fin 100000) (q : Fin 128) :
    ((dat3 V c).arrAt 7 cfg3.N : S100000x128.Idx → EReal) (ix2 p q)
      = dense (fun k => normRelu ((V c main_v88_0 : S100000x256.Idx → EReal) (ix2 p k))
          ((V c main_v100 : S1x256.Idx → EReal) (ix2 (0 : Fin 1) k))
          ((V c main_v104 : S1x256.Idx → EReal) (ix2 (0 : Fin 1) k))
          ((V c main_v105 : S1x256.Idx → EReal) (ix2 (0 : Fin 1) k))
          ((V c main_v106 : S1x256.Idx → EReal) (ix2 (0 : Fin 1) k)))
        (V c main_v83 : S256x128.Idx → EReal) (fun q => (V c main_v107 : S1x128.Idx → EReal) (ix2 (0 : Fin 1) q)) q := by
  rw [final V c]
  rfl

end Cert.FirstUpdateArray

end
-- ==== Proof.RefNorm.lean ====
/-
  The reference's batch statistics and normalisation, read at an entry, for both layers.

  For a layer's pre-normalisation activations z : [100000, 256]: the batch mean of column q is the column's sum
  started from zero divided by 100000; the batch variance is the sum, started from zero, of the squared deviations
  (z (i, q) − mean q)² divided by 100000; the normalised activation at (p, c) is
  max ((z (p, c) − mean c) · rsqrt (variance c + eps) · g c + beta c, 0); and the layer's output at (p, r) is an
  affine map of row p of the normalised activations (followed by the positive part in layer 1, not in layer 2).
-/
import proofs.«168167_j60026462929460_2_alg».proof.Proof.RefStages
import proofs.«168167_j60026462929460_2_alg».proof.Proof.NormalizedEntry
import proofs.«168167_j60026462929460_2_alg».proof.Proof.BatchStats

noncomputable section

open scoped BigOperators

namespace Cert.Bridge

open Idealize.ShloMosaic Idealize.ShloMosaic.ValueIdx Cert.ReferenceIdeal Cert.ReferenceIdeal.Read Cert.DenseLayer
  Cert.NormalizedEntry Cert.ColumnStats

variable (A : Args)

/-! ## Layer 1 -/

/-- Layer 1's normalised, rescaled, shifted and clamped activations. -/
def rN1 := val_main_v120 (F := Ideal) A.a0 A.a1 A.a2 A.a3 A.a4 A.a5 A.a6 A.a7 A.a8 A.a9 A.a10 A.a11 A.a12 A.a13 A.a14 A.a15

theorem idx_sum1a (q : Fin 256) (k : Fin 100000) : idx_main_v95 (ix1 q) k = ix2 k q := by
  funext d; match d with | ⟨0, _⟩ => rfl | ⟨1, _⟩ => rfl

theorem idx_sum1b (q : Fin 256) (k : Fin 100000) : idx_main_v102 (ix1 q) k = ix2 k q := by
  funext d; match d with | ⟨0, _⟩ => rfl | ⟨1, _⟩ => rfl

theorem idx_row1a (p : Fin 100000) (c : Fin 256) : idx_main_v98 (idx_main_v99 (ix2 p c)) = ix1 c := by
  funext d; match d with | ⟨0, _⟩ => rfl

theorem idx_row1b (p : Fin 100000) (c : Fin 256) : idx_main_v105 (idx_main_v106 (ix2 p c)) = ix1 c := by
  funext d; match d with | ⟨0, _⟩ => rfl

theorem idx_row1c (p : Fin 100000) (c : Fin 256) : idx_main_v111 (idx_main_v112 (ix2 p c)) = ix1 c := by
  funext d; match d with | ⟨0, _⟩ => rfl

theorem idx_row1d (p : Fin 100000) (c : Fin 256) : idx_main_v114 (idx_main_v115 (ix2 p c)) = ix1 c := by
  funext d; match d with | ⟨0, _⟩ => rfl

theorem idx_row1e (p : Fin 100000) (c : Fin 256) : idx_main_v117 (idx_main_v118 (ix2 p c)) = ix1 c := by
  funext d; match d with | ⟨0, _⟩ => rfl

/-- Layer 1's batch mean of column q: the column's sum from zero over 100000. -/
theorem rMu1_at (q : Fin 256) :
    rMu1 A (ix1 q) = Ideal.div (Zw + ∑ i : Fin 100000, rZ1 A (ix2 i q)) Dw := by
  unfold rMu1 rZ1
  rw [val_main_v97_apply, val_main_v95_apply, val_main_v96_apply]
  refine congrArg (fun s => Ideal.div (Zw + s) Dw) (Finset.sum_congr rfl fun k _ => ?_)
  rw [idx_sum1a q k]

/-- Layer 1's batch variance of column q: the sum from zero of the squared deviations from the mean, over 100000. -/
theorem rVar1_at (q : Fin 256) :
    rVar1 A (ix1 q) = Ideal.div (Zw + ∑ i : Fin 100000,
      (rZ1 A (ix2 i q) - rMu1 A (ix1 q)) * (rZ1 A (ix2 i q) - rMu1 A (ix1 q))) Dw := by
  unfold rVar1 rZ1 rMu1
  rw [val_main_v104_apply, val_main_v102_apply, val_main_v103_apply]
  refine congrArg (fun s => Ideal.div (Zw + s) Dw) (Finset.sum_congr rfl fun k _ => ?_)
  rw [val_main_v101_apply, val_main_v100_apply, val_main_v99_apply, val_main_v98_apply,
    idx_sum1b q k, idx_row1a k q]
  rfl

/-- Layer 1's normalised activation at (p, c): the entry of z (p, c) with column c's mean, variance, scale and
    shift. -/
theorem rN1_at (p : Fin 100000) (c : Fin 256) :
    rN1 A (ix2 p c) = normRelu (rZ1 A (ix2 p c)) (rMu1 A (ix1 c)) (rVar1 A (ix1 c))
      (val_main_v59 (F := Ideal) A.a14 (ix1 c)) (val_main_v61 (F := Ideal) A.a15 (ix1 c)) := by
  unfold rN1 rZ1 rMu1 rVar1
  rw [val_main_v120_apply, val_main_v119_apply, val_main_v116_apply, val_main_v113_apply,
    val_main_v107_apply, val_main_v106_apply, val_main_v105_apply, val_main_v112_apply,
    val_main_v111_apply, val_main_v110_apply, val_main_v109_apply, val_main_v115_apply,
    val_main_v114_apply, val_main_v118_apply, val_main_v117_apply,
    idx_row1b p c, idx_row1c p c, idx_row1d p c, idx_row1e p c]
  rfl

/-- Layer 1's output at (p, r): a dense layer of row p of the normalised activations. -/
theorem rH2_at (p : Fin 100000) (r : Fin 128) :
    rH2 A (ix2 p r) = dense (fun c => normRelu (rZ1 A (ix2 p c)) (rMu1 A (ix1 c)) (rVar1 A (ix1 c))
        (val_main_v59 (F := Ideal) A.a14 (ix1 c)) (val_main_v61 (F := Ideal) A.a15 (ix1 c)))
      (val_main_v63 (F := Ideal) A.a16) (fun r => val_main_v65 (F := Ideal) A.a17 (ix1 r)) r :=
  (host_dense_apply _ _ _ _ (rN1 A) (val_main_v63 (F := Ideal) A.a16) (val_main_v65 (F := Ideal) A.a17) p r).trans
    (congrArg (fun z => dense z (val_main_v63 (F := Ideal) A.a16)
        (fun r => val_main_v65 (F := Ideal) A.a17 (ix1 r)) r)
      (funext fun c => rN1_at A p c))

/-! ## Layer 2 -/

/-- Layer 2's normalised, rescaled, shifted and clamped activations. -/
def rN2 := val_main_v202 (F := Ideal) A.a0 A.a1 A.a2 A.a3 A.a4 A.a5 A.a6 A.a7 A.a8 A.a9 A.a10 A.a11 A.a12 A.a13 A.a14 A.a15 A.a16 A.a17

theorem idx_sum2a (q : Fin 256) (k : Fin 100000) : idx_main_v177 (ix1 q) k = ix2 k q := by
  funext d; match d with | ⟨0, _⟩ => rfl | ⟨1, _⟩ => rfl

theorem idx_sum2b (q : Fin 256) (k : Fin 100000) : idx_main_v184 (ix1 q) k = ix2 k q := by
  funext d; match d with | ⟨0, _⟩ => rfl | ⟨1, _⟩ => rfl

theorem idx_row2a (p : Fin 100000) (c : Fin 256) : idx_main_v180 (idx_main_v181 (ix2 p c)) = ix1 c := by
  funext d; match d with | ⟨0, _⟩ => rfl

theorem idx_row2b (p : Fin 100000) (c : Fin 256) : idx_main_v187 (idx_main_v188 (ix2 p c)) = ix1 c := by
  funext d; match d with | ⟨0, _⟩ => rfl

theorem idx_row2c (p : Fin 100000) (c : Fin 256) : idx_main_v193 (idx_main_v194 (ix2 p c)) = ix1 c := by
  funext d; match d with | ⟨0, _⟩ => rfl

theorem idx_row2d (p : Fin 100000) (c : Fin 256) : idx_main_v196 (idx_main_v197 (ix2 p c)) = ix1 c := by
  funext d; match d with | ⟨0, _⟩ => rfl

theorem idx_row2e (p : Fin 100000) (c : Fin 256) : idx_main_v199 (idx_main_v200 (ix2 p c)) = ix1 c := by
  funext d; match d with | ⟨0, _⟩ => rfl

/-- Layer 2's batch mean of column q: the column's sum from zero over 100000. -/
theorem rMu2_at (q : Fin 256) :
    rMu2 A (ix1 q) = Ideal.div (Zw + ∑ i : Fin 100000, rZ2 A (ix2 i q)) Dw := by
  unfold rMu2 rZ2
  rw [val_main_v179_apply, val_main_v177_apply, val_main_v178_apply]
  refine congrArg (fun s => Ideal.div (Zw + s) Dw) (Finset.sum_congr rfl fun k _ => ?_)
  rw [idx_sum2a q k]

/-- Layer 2's batch variance of column q: the sum from zero of the squared deviations from the mean, over 100000. -/
theorem rVar2_at (q : Fin 256) :
    rVar2 A (ix1 q) = Ideal.div (Zw + ∑ i : Fin 100000,
      (rZ2 A (ix2 i q) - rMu2 A (ix1 q)) * (rZ2 A (ix2 i q) - rMu2 A (ix1 q))) Dw := by
  unfold rVar2 rZ2 rMu2
  rw [val_main_v186_apply, val_main_v184_apply, val_main_v185_apply]
  refine congrArg (fun s => Ideal.div (Zw + s) Dw) (Finset.sum_congr rfl fun k _ => ?_)
  rw [val_main_v183_apply, val_main_v182_apply, val_main_v181_apply, val_main_v180_apply,
    idx_sum2b q k, idx_row2a k q]
  rfl

/-- Layer 2's normalised activation at (p, c): the entry of z (p, c) with column c's mean, variance, scale and
    shift. -/
theorem rN2_at (p : Fin 100000) (c : Fin 256) :
    rN2 A (ix2 p c) = normRelu (rZ2 A (ix2 p c)) (rMu2 A (ix1 c)) (rVar2 A (ix1 c))
      (val_main_v141 (F := Ideal) A.a14 (ix1 c)) (val_main_v143 (F := Ideal) A.a15 (ix1 c)) := by
  unfold rN2 rZ2 rMu2 rVar2
  rw [val_main_v202_apply, val_main_v201_apply, val_main_v198_apply, val_main_v195_apply,
    val_main_v189_apply, val_main_v188_apply, val_main_v187_apply, val_main_v194_apply,
    val_main_v193_apply, val_main_v192_apply, val_main_v191_apply, val_main_v197_apply,
    val_main_v196_apply, val_main_v200_apply, val_main_v199_apply,
    idx_row2b p c, idx_row2c p c, idx_row2d p c, idx_row2e p c]
  rfl

/-- Layer 2's output at (p, r): an affine map of row p of the normalised activations. -/
theorem rOut_at (p : Fin 100000) (r : Fin 128) :
    rOut A (ix2 p r) = affine (fun c => normRelu (rZ2 A (ix2 p c)) (rMu2 A (ix1 c)) (rVar2 A (ix1 c))
        (val_main_v141 (F := Ideal) A.a14 (ix1 c)) (val_main_v143 (F := Ideal) A.a15 (ix1 c)))
      (val_main_v145 (F := Ideal) A.a16) (fun r => val_main_v147 (F := Ideal) A.a17 (ix1 r)) r :=
  (host_affine_apply _ _ _ (rN2 A) (val_main_v145 (F := Ideal) A.a16) (val_main_v147 (F := Ideal) A.a17) p r).trans
    (congrArg (fun z => affine z (val_main_v145 (F := Ideal) A.a16)
        (fun r => val_main_v147 (F := Ideal) A.a17 (ix1 r)) r)
      (funext fun c => rN2_at A p c))

end Cert.Bridge

end
-- ==== Proof.Bridge3.lean ====
/-
  The kernel's first node-update layer is the reference's.

  The kernel's layer, read as one array, is at (p, q) the dense layer of row p of the normalised activations
  n (p, k) = max ((z1 (p, k) - mu k) · rsqrt (var k + eps) · g k + beta k, 0) against the layer's weight and bias;
  so is the reference's.  Given that the two programs agree on z1 and on the per-column mean and variance, they
  agree on the layer's output: the scale, shift, weight and bias are the same slices of the stacked parameter
  arrays on both sides, and a vector re-laid as a [1, n] row has the vector's entry k at (0, k).
-/
import proofs.«168167_j60026462929460_2_alg».proof.Proof.FirstUpdateArray
import proofs.«168167_j60026462929460_2_alg».proof.Proof.Fold3
import proofs.«168167_j60026462929460_2_alg».proof.Proof.RefNorm
import proofs.«168167_j60026462929460_2_alg».proof.Proof.LibBroadcast
import proofs.«168167_j60026462929460_2_alg».proof.Proof.Bridge1

noncomputable section

namespace Cert.Bridge

open Idealize.ShloMosaic Idealize.ShloMosaic.TcCoe Idealize.ShloMosaic.ValueIdx Idealize.SL.Sem
open Cert.KernelIdeal Cert.KernelIdeal.Gen Cert.DenseLayer Cert.Layout Cert.NormalizedEntry

variable (m : (ℓ : Loc nD τ sig) → Buf (Elt Ideal) ℓ) (ρ : Dev nD → PrngReg)

/-- Two dense layers with equal rows, weights and biases agree. -/
theorem dense_congr {k n : ℕ} {z z' : Fin k → EReal} {w w' : (⟨2, ![k, n]⟩ : Shape).Idx → EReal} {b b' : Fin n → EReal}
    (hz : z = z') (hw : w = w') (hb : b = b') (q : Fin n) : dense z w b q = dense z' w' b' q := by
  subst hz hw hb; rfl

/-- The kernel's first-layer output, as one array, is the reference's, given the same z1, mean and variance. -/
theorem kH2_eq (c : Dev nD) (hZ : V13 m ρ c main_v88_0 = rZ1 (kA m c))
    (hMu : ∀ q : Fin 256, (V13 m ρ c main_v100 : S1x256.Idx → EReal) (ix2 (0 : Fin 1) q) = rMu1 (kA m c) (ix1 q))
    (hVar : ∀ q : Fin 256, (V13 m ρ c main_v104 : S1x256.Idx → EReal) (ix2 (0 : Fin 1) q) = rVar1 (kA m c) (ix1 q)) :
    Cert.Fold.kH2 m ρ c = rH2 (kA m c) := by
  unfold Cert.Fold.kH2
  funext i
  obtain ⟨p, q, rfl⟩ : ∃ (p : Fin 100000) (q : Fin 128), i = ix2 p q := ⟨i 0, i 1, eq_ix2 i⟩
  rw [rH2_at]
  refine (Cert.FirstUpdateArray.arrAt_apply (V13 m ρ) c p q).trans ?_
  refine dense_congr (funext fun k => ?_) ?_ (funext fun r => ?_) q
  · rw [hZ, hMu k, hVar k, Cert.Fold.V13_main_v105, Cert.Fold.V13_main_v106, shapeCast_row_apply,
      shapeCast_row_apply]
    rfl
  · rw [Cert.Fold.V13_main_v83]
    rfl
  · rw [Cert.Fold.V13_main_v107, shapeCast_row_apply]
    rfl

end Cert.Bridge

end
-- ==== Proof.AffineTile4.lean ====
/-
  The second affine-layer kernel's tile arithmetic read entry by entry, at the ideal values.

  From a tile of L = 4000 rows of h and of agg, the number eps, the matrix W and the bias row b, the kernel forms
  (1 + eps) · h + agg, multiplies by W into a zero accumulator and adds b to every row: entry (r, q) of the result is
  zrow at row r of the tile.  The changes of float format on the way into the product are the identity here.  The
  second and third results repeat, down 8 rows, the column sums over the tile's rows of that result and of its square.
-/
import proofs.«168167_j60026462929460_2_alg».proof.Proof.Gen.KernelIdeal.Skeleton
import proofs.«168167_j60026462929460_2_alg».proof.Proof.AffineRowsSpec
import proofs.«168167_j60026462929460_2_alg».proof.Proof.LibBroadcast
import proofs.«168167_j60026462929460_2_alg».proof.Proof.LibRowsProduct

noncomputable section

namespace Cert.AffineRows.Tile4

open Idealize.ShloMosaic Idealize.ShloMosaic.ValueIdx Cert.DenseLayer Cert.AffineRows
open Cert.KernelIdeal Cert.KernelIdeal.Gen

/-- Entry (r, q) of the tile's affine result. -/
theorem affine_apply (v0 v2 : Vec Ideal S4000x128 .f32) (v4 : Vec Ideal S1x1 .f32) (v12 : Vec Ideal S128x256 .f32)
    (v16 : Vec Ideal S1x256 .f32) (r : Fin 4000) (q : Fin 256) :
    k4_pay1 (F := Ideal) v0 v2 v4 v12 v16 (ix2 r q) = zrow v0 v2 v4 v12 v16 r q := by
  unfold k4_pay1
  refine (tpu_affine_apply _ _ _ _ _ r q).trans ?_
  unfold zrow
  simp only [shapeCast_self]
  refine congrArg (fun z : Fin 128 → EReal => affine z v12 (fun q => v16 (ix2 (0 : Fin 1) q)) q) (funext fun c => ?_)
  rw [truncf_apply, addf_apply, mulf_apply, broadcastTo_11_ab_apply, addf_apply, broadcast_apply]
  rfl

/-- The lane sum over the tile's rows, read at column q. -/
theorem colsum_apply (x : FVec Ideal S4000x256 .f32) (q : Fin 256) :
    multiReduction .add [0] S256 x 0x00000000#32 reduces_S4000x256_S256 (.inl rfl) rfl (ix1 q)
      = ∑ j : Fin 4000, x (ix2 j q) := by
  refine (Ideal.multiReduction_add_single x 0x00000000#32 reduces_S4000x256_S256 (.inl rfl) rfl (ix1 q)).trans ?_
  exact Finset.sum_congr rfl fun j _ => congrArg x (funext fun a => by match a with | ⟨0, _⟩ => rfl | ⟨1, _⟩ => rfl)

/-- Entry (r, q) of the tile's repeated column sums: the sum over the tile's rows of the affine result. -/
theorem sums_apply (v0 v2 : Vec Ideal S4000x128 .f32) (v4 : Vec Ideal S1x1 .f32) (v12 : Vec Ideal S128x256 .f32)
    (v16 : Vec Ideal S1x256 .f32) (r : Fin 8) (q : Fin 256) :
    k4_pay2 (F := Ideal) v0 v2 v4 v12 v16 (ix2 r q) = ∑ j : Fin 4000, zrow v0 v2 v4 v12 v16 j q := by
  unfold k4_pay2
  refine (Cert.RowsProduct.broadcastTo_1n_an_apply _ _ r q).trans ?_
  rw [shapeCast_self]
  refine (Cert.Layout.shapeCast_row_apply _ _ q).trans ?_
  refine (colsum_apply _ q).trans ?_
  exact Finset.sum_congr rfl fun j _ => affine_apply v0 v2 v4 v12 v16 j q

/-- Entry (r, q) of the tile's repeated column sums of squares. -/
theorem sumsq_apply (v0 v2 : Vec Ideal S4000x128 .f32) (v4 : Vec Ideal S1x1 .f32) (v12 : Vec Ideal S128x256 .f32)
    (v16 : Vec Ideal S1x256 .f32) (r : Fin 8) (q : Fin 256) :
    k4_pay3 (F := Ideal) v0 v2 v4 v12 v16 (ix2 r q)
      = ∑ j : Fin 4000, zrow v0 v2 v4 v12 v16 j q * zrow v0 v2 v4 v12 v16 j q := by
  unfold k4_pay3
  refine (Cert.RowsProduct.broadcastTo_1n_an_apply _ _ r q).trans ?_
  rw [shapeCast_self]
  refine (Cert.Layout.shapeCast_row_apply _ _ q).trans ?_
  refine (colsum_apply _ q).trans ?_
  exact Finset.sum_congr rfl fun j _ => by rw [mulf_apply, affine_apply]

end Cert.AffineRows.Tile4

end
-- ==== Proof.AffineBlocks4.lean ====
/-
  The second affine-layer region: what each grid point reads and writes back, as rows of the arrays.

  The grid has 25 points; point t works on rows 4000 t … 4000 t + 3999 of h and agg (tiles of 4000 rows), reads eps, W
  and b whole, and writes back rows 4000 t … of the affine result and rows 8 t … 8 t + 7 of the two sums arrays.  So each
  tile entry the kernel computes from its blocks is the same expression of the arrays at the tile's rows.
-/
import proofs.«168167_j60026462929460_2_alg».proof.Proof.Gen.KernelIdeal.Frame
import proofs.«168167_j60026462929460_2_alg».proof.Proof.AffineTile4
import Idealize.ShloMosaic.Lib.Pipeline.Value

set_option maxRecDepth 16384

noncomputable section

namespace Cert.AffineRows.Region4

open Idealize.ShloMosaic Idealize.ShloMosaic.TcCoe Idealize.ShloMosaic.ValueIdx Idealize.SL.Sem
open Idealize.ShloMosaic.Pipeline (Dat)
open Cert.DenseLayer Cert.AffineRows
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-tiled windows are at block (t, 0), the whole-array
    windows at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

/-- Row r of point t's block of h is row 4000 t + r of h. -/
theorem h_block (c : Dev nD) (t : Fin cfg4.N) (r : Fin 4000) (k : Fin 128) (p : Fin 100000) (hp : p.val = t.val * 4000 + r.val) :
    (iblk4 (F := Ideal) V c 0 t : Vec Ideal S4000x128 .f32) (ix2 r k) = (V c main_v108 : S100000x128.Idx → EReal) (ix2 p k) := by
  obtain ⟨e0, e1, -⟩ := idx_facts t
  unfold iblk4
  rw [View.read_apply]
  show V c main_v108 _ = V c main_v108 _
  refine congrArg (V c main_v108) (funext fun a => Fin.ext ?_)
  match a with
  | ⟨0, _⟩ => show win4_0.index t (0 : Fin 2) * 4000 + 1 * r.val = p.val; omega
  | ⟨1, _⟩ => show win4_0.index t (1 : Fin 2) * 128 + 1 * k.val = k.val; omega

/-- Row r of point t's block of agg is row 4000 t + r of agg. -/
theorem agg_block (c : Dev nD) (t : Fin cfg4.N) (r : Fin 4000) (k : Fin 128) (p : Fin 100000) (hp : p.val = t.val * 4000 + r.val) :
    (iblk4 (F := Ideal) V c 1 t : Vec Ideal S4000x128 .f32) (ix2 r k) = (V c main_v120 : S100000x128.Idx → EReal) (ix2 p k) := by
  obtain ⟨-, -, e0, e1, -⟩ := idx_facts t
  unfold iblk4
  rw [View.read_apply]
  show V c main_v120 _ = V c main_v120 _
  refine congrArg (V c main_v120) (funext fun a => Fin.ext ?_)
  match a with
  | ⟨0, _⟩ => show win4_1.index t (0 : Fin 2) * 4000 + 1 * r.val = p.val; omega
  | ⟨1, _⟩ => show win4_1.index t (1 : Fin 2) * 128 + 1 * k.val = k.val; omega

/-- Every point's block of eps is eps. -/
theorem eps_block (c : Dev nD) (t : Fin cfg4.N) :
    (iblk4 (F := Ideal) V c 2 t : Vec Ideal S1x1 .f32) (ix2 (0 : Fin 1) (0 : Fin 1)) = (V c main_v136 : S1x1.Idx → EReal) (ix2 (0 : Fin 1) (0 : Fin 1)) := by
  obtain ⟨-, -, -, -, e0, e1, -⟩ := idx_facts t
  unfold iblk4
  rw [View.read_apply]
  show V c main_v136 _ = V c main_v136 _
  refine congrArg (V c main_v136) (funext fun a => Fin.ext ?_)
  match a with
  | ⟨0, _⟩ => show win4_2.index t (0 : Fin 2) * 1 + 1 * 0 = 0; omega
  | ⟨1, _⟩ => show win4_2.index t (1 : Fin 2) * 1 + 1 * 0 = 0; omega

/-- Every point's block of W is W. -/
theorem W_block (c : Dev nD) (t : Fin cfg4.N) (k : Fin 128) (q : Fin 256) :
    (iblk4 (F := Ideal) V c 3 t : Vec Ideal S128x256 .f32) (ix2 k q) = (V c main_v124 : S128x256.Idx → EReal) (ix2 k q) := by
  obtain ⟨-, -, -, -, -, -, e0, e1, -⟩ := idx_facts t
  unfold iblk4
  rw [View.read_apply]
  show V c main_v124 _ = V c main_v124 _
  refine congrArg (V c main_v124) (funext fun a => Fin.ext ?_)
  match a with
  | ⟨0, _⟩ => show win4_3.index t (0 : Fin 2) * 128 + 1 * k.val = k.val; omega
  | ⟨1, _⟩ => show win4_3.index t (1 : Fin 2) * 256 + 1 * q.val = q.val; omega

/-- Every point's block of b is b. -/
theorem b_block (c : Dev nD) (t : Fin cfg4.N) (q : Fin 256) :
    (iblk4 (F := Ideal) V c 4 t : Vec Ideal S1x256 .f32) (ix2 (0 : Fin 1) q) = (V c main_v135 : S1x256.Idx → EReal) (ix2 (0 : Fin 1) q) := by
  obtain ⟨-, -, -, -, -, -, -, -, e0, e1, -⟩ := idx_facts t
  unfold iblk4
  rw [View.read_apply]
  show V c main_v135 _ = V c main_v135 _
  refine congrArg (V c main_v135) (funext fun a => Fin.ext ?_)
  match a with
  | ⟨0, _⟩ => show win4_4.index t (0 : Fin 2) * 1 + 1 * 0 = 0; omega
  | ⟨1, _⟩ => show win4_4.index t (1 : Fin 2) * 256 + 1 * q.val = q.val; omega

/-- Entry (p, q) of the layer's output, from the arrays as the region finds them. -/
abbrev z (c : Dev nD) : Fin 100000 → Fin 256 → EReal :=
  zrow (V c main_v108 : S100000x128.Idx → EReal) (V c main_v120 : S100000x128.Idx → EReal) (V c main_v136 : S1x1.Idx → EReal)
    (V c main_v124 : S128x256.Idx → EReal) (V c main_v135 : S1x256.Idx → EReal)

/-- The tile's affine entry at row r of point t's blocks is the layer's output at row 4000 t + r of the arrays. -/
theorem zrow_block (c : Dev nD) (t : Fin cfg4.N) (r : Fin 4000) (q : Fin 256) (p : Fin 100000) (hp : p.val = t.val * 4000 + r.val) :
    zrow (iblk4 (F := Ideal) V c 0 t : Vec Ideal S4000x128 .f32) (iblk4 (F := Ideal) V c 1 t : Vec Ideal S4000x128 .f32)
      (iblk4 (F := Ideal) V c 2 t : Vec Ideal S1x1 .f32) (iblk4 (F := Ideal) V c 3 t : Vec Ideal S128x256 .f32)
      (iblk4 (F := Ideal) V c 4 t : Vec Ideal S1x256 .f32) r q = z V c p q :=
  zrow_congr q (fun k => h_block V c t r k p hp) (fun k => agg_block V c t r k p hp) (eps_block V c t)
    (fun k q => W_block V c t k q) (fun q => b_block V c t q)

end Cert.AffineRows.Region4

end
-- ==== Proof.AffineArrays4.lean ====
/-
  The second affine-layer region: the three output arrays after the run, entry by entry.

  Every point writes back its block, and the blocks tile each output array: row p of the affine result lies in the
  block of point p / 4000, row r of a sums array in the block of point r / 8.  So the affine result ends holding the
  layer's output zrow at every (p, q); the sums array holds, in row r, the column sums of zrow over the 4000 rows of
  tile r / 8, and the sums-of-squares array the column sums of zrow squared over the same rows.
-/
import proofs.«168167_j60026462929460_2_alg».proof.Proof.AffineBlocks4

set_option maxRecDepth 16384

noncomputable section

namespace Cert.AffineRows.Region4

open Idealize.ShloMosaic Idealize.ShloMosaic.TcCoe Idealize.ShloMosaic.ValueIdx Idealize.SL.Sem
open Idealize.ShloMosaic.Pipeline (Dat)
open Cert.DenseLayer Cert.AffineRows
open Cert.KernelIdeal Cert.KernelIdeal.Gen

variable (V : (c : Dev nD) → (b : Ref sig .tc) → Buf (Elt Ideal) ((c : Thread nD τ).loc b))

/-- The affine result as one function of its index. -/
def zArr (c : Dev nD) : S100000x256.Idx → EReal := fun i => z V c ⟨(i 0).val, idx2_lt0 i⟩ ⟨(i 1).val, idx2_lt1 i⟩

/-- The sums array as one function of its index. -/
def sumsArr (c : Dev nD) : S200x256.Idx → EReal := fun i =>
  ∑ j : Fin 4000, z V c (tileRow ⟨(i 0).val, idx2_lt0 i⟩ j) ⟨(i 1).val, idx2_lt1 i⟩

/-- The sums-of-squares array as one function of its index. -/
def sumsqArr (c : Dev nD) : S200x256.Idx → EReal := fun i =>
  ∑ j : Fin 4000, z V c (tileRow ⟨(i 0).val, idx2_lt0 i⟩ j) ⟨(i 1).val, idx2_lt1 i⟩
    * z V c (tileRow ⟨(i 0).val, idx2_lt0 i⟩ j) ⟨(i 1).val, idx2_lt1 i⟩

theorem N_eq : cfg4.N = 25 := N_4

/-- What point t writes back into the affine result is block t of zArr. -/
theorem flushed_z (c : Dev nD) (t : Fin cfg4.N) :
    (dat4 (F := Ideal) V c).flushed 5 t = ((cfg4.win 5).blk t).view.read (Elt Ideal) (zArr V c) := by
  show (cfg4.win 5).cut (grid4.coords t) ((dat4 V c).after 5 t) = _
  rw [after4_5]
  unfold out4_5
  rw [View.canon_unit_zero hz]
  simp only [View.ld_unit_zero (S := S4000x128) hz, View.ld_unit_zero (S := S1x1) hz, View.ld_unit_zero (S := S128x256) hz,
    View.ld_unit_zero (S := S1x256) hz]
  obtain ⟨-, -, -, -, -, -, -, -, -, -, e0, e1, -⟩ := idx_facts t
  have ht : t.val < 25 := lt_of_lt_of_eq t.isLt N_eq
  funext j
  obtain ⟨r, q, rfl⟩ : ∃ (r : Fin 4000) (q : Fin 256), j = ix2 r q := ⟨j 0, j 1, eq_ix2 j⟩
  have hr := r.isLt
  show k4_pay1 (F := Ideal) (iblk4 V c 0 t) (iblk4 V c 1 t) (iblk4 V c 2 t) (iblk4 V c 3 t) (iblk4 V c 4 t) (ix2 r q)
    = zArr V c (((cfg4.win 5).blk t).view.emb (ix2 r q))
  refine (Tile4.affine_apply _ _ _ _ _ r q).trans ?_
  refine (zrow_block V c t r q ⟨t.val * 4000 + r.val, by omega⟩ rfl).trans ?_
  unfold zArr
  refine congrArg₂ (z V c) (Fin.ext ?_) (Fin.ext ?_)
  · show t.val * 4000 + r.val = win4_5.index t (0 : Fin 2) * 4000 + 1 * r.val
    omega
  · show q.val = win4_5.index t (1 : Fin 2) * 256 + 1 * q.val
    omega

/-- What point t writes back into the sums array is block t of sumsArr. -/
theorem flushed_sums (c : Dev nD) (t : Fin cfg4.N) :
    (dat4 (F := Ideal) V c).flushed 6 t = ((cfg4.win 6).blk t).view.read (Elt Ideal) (sumsArr V c) := by
  show (cfg4.win 6).cut (grid4.coords t) ((dat4 V c).after 6 t) = _
  rw [after4_6]
  unfold out4_6
  rw [View.canon_unit_zero hz]
  simp only [View.ld_unit_zero (S := S4000x128) hz, View.ld_unit_zero (S := S1x1) hz, View.ld_unit_zero (S := S128x256) hz,
    View.ld_unit_zero (S := S1x256) hz]
  obtain ⟨-, -, -, -, -, -, -, -, -, -, -, -, e0, e1, -⟩ := idx_facts t
  have ht : t.val < 25 := lt_of_lt_of_eq t.isLt N_eq
  funext j
  obtain ⟨r, q, rfl⟩ : ∃ (r : Fin 8) (q : Fin 256), j = ix2 r q := ⟨j 0, j 1, eq_ix2 j⟩
  have hr := r.isLt
  show k4_pay2 (F := Ideal) (iblk4 V c 0 t) (iblk4 V c 1 t) (iblk4 V c 2 t) (iblk4 V c 3 t) (iblk4 V c 4 t) (ix2 r q)
    = sumsArr V c (((cfg4.win 6).blk t).view.emb (ix2 r q))
  refine (Tile4.sums_apply _ _ _ _ _ r q).trans ?_
  unfold sumsArr
  refine Finset.sum_congr rfl fun k _ => ?_
  have hk := k.isLt
  refine (zrow_block V c t k q ⟨t.val * 4000 + k.val, by omega⟩ rfl).trans ?_
  refine congrArg₂ (z V c) (Fin.ext ?_) (Fin.ext ?_)
  · show t.val * 4000 + k.val = (win4_6.index t (0 : Fin 2) * 8 + 1 * r.val) / 8 * 4000 + k.val
    omega
  · show q.val = win4_6.index t (1 : Fin 2) * 256 + 1 * q.val
    omega

/-- What point t writes back into the sums-of-squares array is block t of sumsqArr. -/
theorem flushed_sumsq (c : Dev nD) (t : Fin cfg4.N) :
    (dat4 (F := Ideal) V c).flushed 7 t = ((cfg4.win 7).blk t).view.read (Elt Ideal) (sumsqArr V c) := by
  show (cfg4.win 7).cut (grid4.coords t) ((dat4 V c).after 7 t) = _
  rw [after4_7]
  unfold out4_7
  rw [View.canon_unit_zero hz]
  simp only [View.ld_unit_zero (S := S4000x128) hz, View.ld_unit_zero (S := S1x1) hz, View.ld_unit_zero (S := S128x256) hz,
    View.ld_unit_zero (S := S1x256) hz]
  obtain ⟨-, -, -, -, -, -, -, -, -, -, -, -, -, -, e0, e1⟩ := idx_facts t
  have ht : t.val < 25 := lt_of_lt_of_eq t.isLt N_eq
  funext j
  obtain ⟨r, q, rfl⟩ : ∃ (r : Fin 8) (q : Fin 256), j = ix2 r q := ⟨j 0, j 1, eq_ix2 j⟩
  have hr := r.isLt
  show k4_pay3 (F := Ideal) (iblk4 V c 0 t) (iblk4 V c 1 t) (iblk4 V c 2 t) (iblk4 V c 3 t) (iblk4 V c 4 t) (ix2 r q)
    = sumsqArr V c (((cfg4.win 7).blk t).view.emb (ix2 r q))
  refine (Tile4.sumsq_apply _ _ _ _ _ r q).trans ?_
  unfold sumsqArr
  refine Finset.sum_congr rfl fun k _ => ?_
  have hk := k.isLt
  have e : zrow (iblk4 (F := Ideal) V c 0 t : Vec Ideal S4000x128 .f32) (iblk4 (F := Ideal) V c 1 t : Vec Ideal S4000x128 .f32)
      (iblk4 (F := Ideal) V c 2 t : Vec Ideal S1x1 .f32) (iblk4 (F := Ideal) V c 3 t : Vec Ideal S128x256 .f32)
      (iblk4 (F := Ideal) V c 4 t : Vec Ideal S1x256 .f32) k q
      = z V c (tileRow ⟨((((cfg4.win 7).blk t).view.emb (ix2 r q)) 0).val, idx2_lt0 _⟩ k)
          ⟨((((cfg4.win 7).blk t).view.emb (ix2 r q)) 1).val, idx2_lt1 _⟩ := by
    refine (zrow_block V c t k q ⟨t.val * 4000 + k.val, by omega⟩ rfl).trans ?_
    refine congrArg₂ (z V c) (Fin.ext ?_) (Fin.ext ?_)
    · show t.val * 4000 + k.val = (win4_7.index t (0 : Fin 2) * 8 + 1 * r.val) / 8 * 4000 + k.val
      omega
    · show q.val = win4_7.index t (1 : Fin 2) * 256 + 1 * q.val
      omega
  rw [e]

/-- An index of the affine result is in point t's block iff each coordinate is in the block's range on its axis. -/
theorem mem_blk_z (t : Fin cfg4.N) (i : S100000x256.Idx) :
    i ∈ ((cfg4.win 5).blk t).view.set ↔ ∀ a : Fin 2, win4_5.index t a * S4000x256.size a ≤ (i a).val
      ∧ (i a).val < win4_5.index t a * S4000x256.size a + S4000x256.size a := by
  show i ∈ ((View.whole main_v137_0).slice (win4_5.rect t)).set ↔ _
  rw [View.set_slice_whole, Rect.mem_set_unit]
  exact Iff.rfl

/-- Likewise for the sums array. -/
theorem mem_blk_sums (t : Fin cfg4.N) (i : S200x256.Idx) :
    i ∈ ((cfg4.win 6).blk t).view.set ↔ ∀ a : Fin 2, win4_6.index t a * S8x256.size a ≤ (i a).val
      ∧ (i a).val < win4_6.index t a * S8x256.size a + S8x256.size a := by
  show i ∈ ((View.whole main_v137_1).slice (win4_6.rect t)).set ↔ _
  rw [View.set_slice_whole, Rect.mem_set_unit]
  exact Iff.rfl

/-- Likewise for the sums-of-squares array. -/
theorem mem_blk_sumsq (t : Fin cfg4.N) (i : S200x256.Idx) :
    i ∈ ((cfg4.win 7).blk t).view.set ↔ ∀ a : Fin 2, win4_7.index t a * S8x256.size a ≤ (i a).val
      ∧ (i a).val < win4_7.index t a * S8x256.size a + S8x256.size a := by
  show i ∈ ((View.whole main_v137_2).slice (win4_7.rect t)).set ↔ _
  rw [View.set_slice_whole, Rect.mem_set_unit]
  exact Iff.rfl

/-- Row p of the affine result lies in the block of point p / 4000. -/
theorem cover_z (i : S100000x256.Idx) :
    ∃ t : Fin cfg4.N, (cfg4.win 5).flush t = true ∧ i ∈ ((cfg4.win 5).blk t).view.set := by
  have h0 := idx2_lt0 i
  have h1 := idx2_lt1 i
  obtain ⟨t, ht⟩ : ∃ t : Fin cfg4.N, t.val = (i 0).val / 4000 := ⟨⟨(i 0).val / 4000, by rw [N_eq]; omega⟩, rfl⟩
  obtain ⟨-, -, -, -, -, -, -, -, -, -, e0, e1, -⟩ := idx_facts t
  refine ⟨t, flush4_5 t, ?_⟩
  rw [mem_blk_z]
  intro a
  match a with
  | ⟨0, _⟩ =>
    show win4_5.index t (0 : Fin 2) * 4000 ≤ (i 0).val ∧ (i 0).val < win4_5.index t (0 : Fin 2) * 4000 + 4000
    omega
  | ⟨1, _⟩ =>
    show win4_5.index t (1 : Fin 2) * 256 ≤ (i 1).val ∧ (i 1).val < win4_5.index t (1 : Fin 2) * 256 + 256
    omega

/-- Row r of the sums array lies in the block of point r / 8. -/
theorem cover_sums (i : S200x256.Idx) :
    ∃ t : Fin cfg4.N, (cfg4.win 6).flush t = true ∧ i ∈ ((cfg4.win 6).blk t).view.set := by
  have h0 := idx2_lt0 i
  have h1 := idx2_lt1 i
  obtain ⟨t, ht⟩ : ∃ t : Fin cfg4.N, t.val = (i 0).val / 8 := ⟨⟨(i 0).val / 8, by rw [N_eq]; omega⟩, rfl⟩
  obtain ⟨-, -, -, -, -, -, -, -, -, -, -, -, e0, e1, -⟩ := idx_facts t
  refine ⟨t, flush4_6 t, ?_⟩
  rw [mem_blk_sums]
  intro a
  match a with
  | ⟨0, _⟩ =>
    show win4_6.index t (0 : Fin 2) * 8 ≤ (i 0).val ∧ (i 0).val < win4_6.index t (0 : Fin 2) * 8 + 8
    omega
  | ⟨1, _⟩ =>
    show win4_6.index t (1 : Fin 2) * 256 ≤ (i 1).val ∧ (i 1).val < win4_6.index t (1 : Fin 2) * 256 + 256
    omega

/-- Row r of the sums-of-squares array lies in the block of point r / 8. -/
theorem cover_sumsq (i : S200x256.Idx) :
    ∃ t : Fin cfg4.N, (cfg4.win 7).flush t = true ∧ i ∈ ((cfg4.win 7).blk t).view.set := by
  have h0 := idx2_lt0 i
  have h1 := idx2_lt1 i
  obtain ⟨t, ht⟩ : ∃ t : Fin cfg4.N, t.val = (i 0).val / 8 := ⟨⟨(i 0).val / 8, by rw [N_eq]; omega⟩, rfl⟩
  obtain ⟨-, -, -, -, -, -, -, -, -, -, -, -, -, -, e0, e1⟩ := idx_facts t
  refine ⟨t, flush4_7 t, ?_⟩
  rw [mem_blk_sumsq]
  intro a
  match a with
  | ⟨0, _⟩ =>
    show win4_7.index t (0 : Fin 2) * 8 ≤ (i 0).val ∧ (i 0).val < win4_7.index t (0 : Fin 2) * 8 + 8
    omega
  | ⟨1, _⟩ =>
    show win4_7.index t (1 : Fin 2) * 256 ≤ (i 1).val ∧ (i 1).val < win4_7.index t (1 : Fin 2) * 256 + 256
    omega

/-- The affine result after the run is zArr. -/
theorem z_array (c : Dev nD) : (dat4 (F := Ideal) V c).arrAt 5 cfg4.N = zArr V c :=
  (dat4 (F := Ideal) V c).arrAt_eq_of_cover 5 (zArr V c) (fun t _ => flushed_z V c t) cover_z

/-- The sums array after the run is sumsArr. -/
theorem sums_array (c : Dev nD) : (dat4 (F := Ideal) V c).arrAt 6 cfg4.N = sumsArr V c :=
  (dat4 (F := Ideal) V c).arrAt_eq_of_cover 6 (sumsArr V c) (fun t _ => flushed_sums V c t) cover_sums

/-- The sums-of-squares array after the run is sumsqArr. -/
theorem sumsq_array (c : Dev nD) : (dat4 (F := Ideal) V c).arrAt 7 cfg4.N = sumsqArr V c :=
  (dat4 (F := Ideal) V c).arrAt_eq_of_cover 7 (sumsqArr V c) (fun t _ => flushed_sumsq V c t) cover_sumsq

/-- THE AFFINE RESULT at (p, q): the layer's output at row p. -/
theorem z_apply (c : Dev nD) (p : Fin 100000) (q : Fin 256) :
    ((dat4 (F := Ideal) V c).arrAt 5 cfg4.N (ix2 p q) : EReal)
      = zrow (V c main_v108 : S100000x128.Idx → EReal) (V c main_v120 : S100000x128.Idx → EReal) (V c main_v136 : S1x1.Idx → EReal)
          (V c main_v124 : S128x256.Idx → EReal) (V c main_v135 : S1x256.Idx → EReal) p q :=
  (congrFun (z_array V c) (ix2 p q)).trans rfl

/-- THE SUMS ARRAY at (r, q): the column sum of the layer's output over the 4000 rows of tile r / 8. -/
theorem sums_apply (c : Dev nD) (r : Fin 200) (q : Fin 256) :
    ((dat4 (F := Ideal) V c).arrAt 6 cfg4.N (ix2 r q) : EReal)
      = ∑ j : Fin 4000, zrow (V c main_v108 : S100000x128.Idx → EReal) (V c main_v120 : S100000x128.Idx → EReal)
          (V c main_v136 : S1x1.Idx → EReal) (V c main_v124 : S128x256.Idx → EReal) (V c main_v135 : S1x256.Idx → EReal)
          (tileRow r j) q :=
  (congrFun (sums_array V c) (ix2 r q)).trans rfl

/-- THE SUMS-OF-SQUARES ARRAY at (r, q): the column sum of the squared output over the same rows. -/
theorem sumsq_apply (c : Dev nD) (r : Fin 200) (q : Fin 256) :
    ((dat4 (F := Ideal) V c).arrAt 7 cfg4.N (ix2 r q) : EReal)
      = ∑ j : Fin 4000, zrow (V c main_v108 : S100000x128.Idx → EReal) (V c main_v120 : S100000x128.Idx → EReal)
          (V c main_v136 : S1x1.Idx → EReal) (V c main_v124 : S128x256.Idx → EReal) (V c main_v135 : S1x256.Idx → EReal)
          (tileRow r j) q
        * zrow (V c main_v108 : S100000x128.Idx → EReal) (V c main_v120 : S100000x128.Idx → EReal)
          (V c main_v136 : S1x1.Idx → EReal) (V c main_v124 : S128x256.Idx → EReal) (V c main_v135 : S1x256.Idx → EReal)
          (tileRow r j) q :=
  (congrFun (sumsq_array V c) (ix2 r q)).trans rfl

end Cert.AffineRows.Region4

end
-- ==== Proof.Bridge4.lean ====
/-
  The kernel's second affine layer is the reference's.

  The region writes z2 = ((1 + eps) · h + agg) · W + b tile by tile; read as one array it is the affine map of each
  row, which is what the reference's scaled sum, product and broadcast bias compute, given that the region finds the
  reference's h and agg in its two row-tiled inputs.  The three parameters reach the kernel as slices of the stacked
  weights re-laid as a [1, 1] array, a matrix and a [1, 256] row: the one entry of the first is the scalar the reference
  adds to one, the matrix is the reference's slice, and entry (0, q) of the row is entry q of the reference's vector.
  The two sums arrays hold, in row r, the column sums of z2 and of its square over the 4000 rows of tile r / 8.
-/
import proofs.«168167_j60026462929460_2_alg».proof.Proof.AffineArrays4
import proofs.«168167_j60026462929460_2_alg».proof.Proof.Bridge2
import proofs.«168167_j60026462929460_2_alg».proof.Proof.Fold4
import proofs.«168167_j60026462929460_2_alg».proof.Proof.RefStages
import proofs.«168167_j60026462929460_2_alg».proof.Proof.BatchStats
import proofs.«168167_j60026462929460_2_alg».proof.Proof.LibBroadcast

noncomputable section

namespace Cert.Bridge

open Idealize.ShloMosaic Idealize.ShloMosaic.TcCoe Idealize.ShloMosaic.ValueIdx Idealize.SL.Sem
open Cert.KernelIdeal Cert.KernelIdeal.Gen Cert.DenseLayer Cert.Layout Cert.AffineRows

variable (m : (ℓ : Loc nD τ sig) → Buf (Elt Ideal) ℓ) (ρ : Dev nD → PrngReg)

/-- Entry (p, q) of the layer's output over the arrays region 4 finds is the reference's z2 there. -/
theorem zrow2_eq (c : Dev nD) (hH : V17 m ρ c main_v108 = rH2 (kA m c)) (hG : V17 m ρ c main_v120 = rAgg2 (kA m c))
    (p : Fin 100000) (q : Fin 256) :
    zrow (V17 m ρ c main_v108 : S100000x128.Idx → EReal) (V17 m ρ c main_v120 : S100000x128.Idx → EReal)
      (V17 m ρ c main_v136 : S1x1.Idx → EReal) (V17 m ρ c main_v124 : S128x256.Idx → EReal)
      (V17 m ρ c main_v135 : S1x256.Idx → EReal) p q = rZ2 (kA m c) (ix2 p q) := by
  rw [rZ2_at, hH, hG, Cert.Fold.V17_main_v136, Cert.Fold.V17_main_v124, Cert.Fold.V17_main_v135]
  unfold zrow
  simp only [shapeCast_row_apply, shapeCast_scalar_apply]
  rfl

/-- The kernel's z2, as one array, is the reference's z2 of the same arguments. -/
theorem kZ2_eq (c : Dev nD) (hH : V17 m ρ c main_v108 = rH2 (kA m c)) (hG : V17 m ρ c main_v120 = rAgg2 (kA m c)) :
    Cert.Fold.kZ2 m ρ c = rZ2 (kA m c) := by
  unfold Cert.Fold.kZ2
  funext i
  obtain ⟨p, q, rfl⟩ : ∃ (p : Fin 100000) (q : Fin 256), i = ix2 p q := ⟨i 0, i 1, eq_ix2 i⟩
  exact (Region4.z_apply (V17 m ρ) c p q).trans (zrow2_eq m ρ c hH hG p q)

/-- Row r of the kernel's sums array: zero plus the column sums of the reference's z2 over the rows of tile r / 8. -/
theorem kS2_at (c : Dev nD) (hH : V17 m ρ c main_v108 = rH2 (kA m c)) (hG : V17 m ρ c main_v120 = rAgg2 (kA m c))
    (r : Fin 200) (q : Fin 256) :
    Cert.Fold.kS2 m ρ c (ix2 r q) = Cert.ColumnStats.Zw
      + ∑ j : Fin 4000, rZ2 (kA m c) (ix2 (Cert.ColumnStats.row ⟨r.val / 8, by have := r.isLt; omega⟩ j) q) := by
  refine (show (Cert.Fold.kS2 m ρ c (ix2 r q) : EReal) = _ from Region4.sums_apply (V17 m ρ) c r q).trans ?_
  rw [Cert.ColumnStats.Zw_eq, zero_add]
  exact Finset.sum_congr rfl fun j _ => by rw [zrow2_eq m ρ c hH hG, tileRow_eq_row]

/-- Row r of the kernel's sums-of-squares array likewise. -/
theorem kQ2_at (c : Dev nD) (hH : V17 m ρ c main_v108 = rH2 (kA m c)) (hG : V17 m ρ c main_v120 = rAgg2 (kA m c))
    (r : Fin 200) (q : Fin 256) :
    Cert.Fold.kQ2 m ρ c (ix2 r q) = Cert.ColumnStats.Zw
      + ∑ j : Fin 4000, rZ2 (kA m c) (ix2 (Cert.ColumnStats.row ⟨r.val / 8, by have := r.isLt; omega⟩ j) q)
          * rZ2 (kA m c) (ix2 (Cert.ColumnStats.row ⟨r.val / 8, by have := r.isLt; omega⟩ j) q) := by
  refine (show (Cert.Fold.kQ2 m ρ c (ix2 r q) : EReal) = _ from Region4.sumsq_apply (V17 m ρ) c r q).trans ?_
  rw [Cert.ColumnStats.Zw_eq, zero_add]
  exact Finset.sum_congr rfl fun j _ => by rw [zrow2_eq m ρ c hH hG, tileRow_eq_row]

end Cert.Bridge

end
-- ==== Proof.SecondUpdateArray.lean ====
/-
  The array the second node-update layer leaves, entry by entry, at the ideal values.

  The layer runs over 25 grid points.  Point t reads rows 4000 t … 4000 t + 3999 of the [100000, 256]
  pre-activation array and, whole, the five small arrays (mean, variance, scale and shift rows of 256 columns, a
  [256, 128] weight and a [1, 128] bias row), and writes rows 4000 t … 4000 t + 3999 of the [100000, 128] output.
  The stored tile at (r, q) is the affine map of row r of the normalised activations (this layer has no final
  positive part), so the block written at t is block t of ONE whole-array function: output (p, q) is the affine
  map of row p of the normalised pre-activations.  Row p lies in block p / 4000, so the 25 blocks cover the output and it ends holding that
  function.  Everything is stated for arbitrary contents of the buffers when the layer starts.
-/
import proofs.«168167_j60026462929460_2_alg».proof.Proof.Gen.KernelIdeal.Frame
import proofs.«168167_j60026462929460_2_alg».proof.Proof.UpdateEntry
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.SecondUpdateArray

open Cert.KernelIdeal Cert.KernelIdeal.Gen
open Cert.DenseLayer (affine dense)
open Cert.NormalizedEntry (normRelu)
open Cert.UpdateEntry (normRow)

variable (V : (c : Dev nD) → (b : Ref sig .tc) → Buf (Elt Ideal) ((c : Thread nD τ).loc b))

theorem hz : (![0, 0] : Fin 2 → Nat) = fun _ => 0 := funext fun a => by fin_cases a <;> rfl

/-- Output entry (p, q) as a function of the seven input arrays: the affine map of row p of the normalised
    pre-activations. -/
def entry (z1 : S100000x256.Idx → EReal) (mu var g beta : S1x256.Idx → EReal) (w2 : S256x128.Idx → EReal)
    (b2 : S1x128.Idx → EReal) (p : Fin 100000) (q : Fin 128) : EReal :=
  affine (fun k => normRelu (z1 (ix2 p k)) (mu (ix2 (0 : Fin 1) k)) (var (ix2 (0 : Fin 1) k)) (g (ix2 (0 : Fin 1) k))
    (beta (ix2 (0 : Fin 1) k))) w2 (fun q => b2 (ix2 (0 : Fin 1) q)) q

/-- The whole output array as one function of the buffers' contents when the layer starts. -/
def whole (c : Dev nD) : S100000x128.Idx → EReal := fun i =>
  entry (V c main_v137_0) (V c main_v149) (V c main_v153) (V c main_v154) (V c main_v155) (V c main_v132) (V c main_v156)
    ⟨(i 0).val, idx2_lt0 i⟩ ⟨(i 1).val, idx2_lt1 i⟩

/-- Where each window's block sits at grid point t: the pre-activation and output blocks are block row t, the
    five small arrays are read whole. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- The stored tile at (r, q), from blocks whose entries are the arrays' entries: row r of the pre-activation block
    is row p of the array, and the small blocks are the small arrays. -/
theorem tile_entry (x0 : Vec Ideal S4000x256 .f32) (x1 x2 x3 x4 : Vec Ideal S1x256 .f32)
    (x5 : Vec Ideal S256x128 .f32) (x6 : Vec Ideal S1x128 .f32)
    (z1 : S100000x256.Idx → EReal) (mu var g beta : S1x256.Idx → EReal) (w2 : S256x128.Idx → EReal)
    (b2 : S1x128.Idx → EReal) (r : Fin 4000) (p : Fin 100000) (q : Fin 128)
    (h0 : ∀ k : Fin 256, x0 (ix2 r k) = z1 (ix2 p k)) (h1 : x1 = mu) (h2 : x2 = var) (h3 : x3 = g) (h4 : x4 = beta)
    (h5 : x5 = w2) (h6 : x6 = b2) :
    out5_7 (F := Ideal) x0 x1 x2 x3 x4 x5 x6 (ix2 r q) = entry z1 mu var g beta w2 b2 p q := by
  subst h1 h2 h3 h4 h5 h6
  unfold out5_7
  rw [View.canon_unit_zero hz]
  simp only [View.ld_unit_zero (S := S4000x256) hz, View.ld_unit_zero (S := S1x256) hz,
    View.ld_unit_zero (S := S256x128) hz, View.ld_unit_zero (S := S1x128) hz]
  refine (Cert.UpdateEntry.k5_pay1_apply x0 x1 x2 x3 x4 x5 x6 r q).trans ?_
  refine congrArg (fun z : Fin 256 → EReal => affine z x5 (fun q => x6 (ix2 (0 : Fin 1) q)) q) ?_
  funext k
  show normRelu (x0 (ix2 r k)) _ _ _ _ = _
  rw [h0 k]

/-- Row r of the pre-activation block at point t is row 4000 t + r of the array. -/
theorem rows_read (c : Dev nD) (t : Fin cfg5.N) (r : Fin 4000) (k : Fin 256) (p : Fin 100000)
    (hp : p.val = t.val * 4000 + r.val) :
    (iblk5 V c 0 t : S4000x256.Idx → EReal) (ix2 r k) = (V c main_v137_0 : S100000x256.Idx → EReal) (ix2 p k) := by
  obtain ⟨e0, e1, -⟩ := idx_facts t
  unfold iblk5
  rw [View.read_apply]
  show (V c main_v137_0 : S100000x256.Idx → EReal) (((cfg5.win 0).blk t).view.emb (ix2 r k)) = _
  refine congrArg (V c main_v137_0 : S100000x256.Idx → EReal) ?_
  funext a; apply Fin.ext
  match a with
  | ⟨0, _⟩ => show win5_0.index t (0 : Fin 2) * 4000 + 1 * r.val = p.val; omega
  | ⟨1, _⟩ => show win5_0.index t (1 : Fin 2) * 256 + 1 * k.val = k.val; omega

/-- The mean row's block is the mean row. -/
theorem whole_read1 (c : Dev nD) (t : Fin cfg5.N) :
    (iblk5 V c 1 t : S1x256.Idx → EReal) = (V c main_v149 : S1x256.Idx → EReal) := by
  obtain ⟨-, -, e0, e1, -⟩ := idx_facts t
  funext y
  unfold iblk5
  rw [View.read_apply]
  show (V c main_v149 : S1x256.Idx → EReal) (((cfg5.win 1).blk t).view.emb y) = _
  refine congrArg (V c main_v149 : S1x256.Idx → EReal) ?_
  funext a; apply Fin.ext
  match a with
  | ⟨0, _⟩ => show win5_1.index t (0 : Fin 2) * 1 + 1 * (y 0).val = (y 0).val; omega
  | ⟨1, _⟩ => show win5_1.index t (1 : Fin 2) * 256 + 1 * (y 1).val = (y 1).val; omega

/-- The variance row's block is the variance row. -/
theorem whole_read2 (c : Dev nD) (t : Fin cfg5.N) :
    (iblk5 V c 2 t : S1x256.Idx → EReal) = (V c main_v153 : S1x256.Idx → EReal) := by
  obtain ⟨-, -, -, -, e0, e1, -⟩ := idx_facts t
  funext y
  unfold iblk5
  rw [View.read_apply]
  show (V c main_v153 : S1x256.Idx → EReal) (((cfg5.win 2).blk t).view.emb y) = _
  refine congrArg (V c main_v153 : S1x256.Idx → EReal) ?_
  funext a; apply Fin.ext
  match a with
  | ⟨0, _⟩ => show win5_2.index t (0 : Fin 2) * 1 + 1 * (y 0).val = (y 0).val; omega
  | ⟨1, _⟩ => show win5_2.index t (1 : Fin 2) * 256 + 1 * (y 1).val = (y 1).val; omega

/-- The scale row's block is the scale row. -/
theorem whole_read3 (c : Dev nD) (t : Fin cfg5.N) :
    (iblk5 V c 3 t : S1x256.Idx → EReal) = (V c main_v154 : S1x256.Idx → EReal) := by
  obtain ⟨-, -, -, -, -, -, e0, e1, -⟩ := idx_facts t
  funext y
  unfold iblk5
  rw [View.read_apply]
  show (V c main_v154 : S1x256.Idx → EReal) (((cfg5.win 3).blk t).view.emb y) = _
  refine congrArg (V c main_v154 : S1x256.Idx → EReal) ?_
  funext a; apply Fin.ext
  match a with
  | ⟨0, _⟩ => show win5_3.index t (0 : Fin 2) * 1 + 1 * (y 0).val = (y 0).val; omega
  | ⟨1, _⟩ => show win5_3.index t (1 : Fin 2) * 256 + 1 * (y 1).val = (y 1).val; omega

/-- The shift row's block is the shift row. -/
theorem whole_read4 (c : Dev nD) (t : Fin cfg5.N) :
    (iblk5 V c 4 t : S1x256.Idx → EReal) = (V c main_v155 : S1x256.Idx → EReal) := by
  obtain ⟨-, -, -, -, -, -, -, -, e0, e1, -⟩ := idx_facts t
  funext y
  unfold iblk5
  rw [View.read_apply]
  show (V c main_v155 : S1x256.Idx → EReal) (((cfg5.win 4).blk t).view.emb y) = _
  refine congrArg (V c main_v155 : S1x256.Idx → EReal) ?_
  funext a; apply Fin.ext
  match a with
  | ⟨0, _⟩ => show win5_4.index t (0 : Fin 2) * 1 + 1 * (y 0).val = (y 0).val; omega
  | ⟨1, _⟩ => show win5_4.index t (1 : Fin 2) * 256 + 1 * (y 1).val = (y 1).val; omega

/-- The weight's block is the weight. -/
theorem whole_read5 (c : Dev nD) (t : Fin cfg5.N) :
    (iblk5 V c 5 t : S256x128.Idx → EReal) = (V c main_v132 : S256x128.Idx → EReal) := by
  obtain ⟨-, -, -, -, -, -, -, -, -, -, e0, e1, -⟩ := idx_facts t
  funext y
  unfold iblk5
  rw [View.read_apply]
  show (V c main_v132 : S256x128.Idx → EReal) (((cfg5.win 5).blk t).view.emb y) = _
  refine congrArg (V c main_v132 : S256x128.Idx → EReal) ?_
  funext a; apply Fin.ext
  match a with
  | ⟨0, _⟩ => show win5_5.index t (0 : Fin 2) * 256 + 1 * (y 0).val = (y 0).val; omega
  | ⟨1, _⟩ => show win5_5.index t (1 : Fin 2) * 128 + 1 * (y 1).val = (y 1).val; omega

/-- The bias row's block is the bias row. -/
theorem whole_read6 (c : Dev nD) (t : Fin cfg5.N) :
    (iblk5 V c 6 t : S1x128.Idx → EReal) = (V c main_v156 : S1x128.Idx → EReal) := by
  obtain ⟨-, -, -, -, -, -, -, -, -, -, -, -, e0, e1, -⟩ := idx_facts t
  funext y
  unfold iblk5
  rw [View.read_apply]
  show (V c main_v156 : S1x128.Idx → EReal) (((cfg5.win 6).blk t).view.emb y) = _
  refine congrArg (V c main_v156 : S1x128.Idx → EReal) ?_
  funext a; apply Fin.ext
  match a with
  | ⟨0, _⟩ => show win5_6.index t (0 : Fin 2) * 1 + 1 * (y 0).val = (y 0).val; omega
  | ⟨1, _⟩ => show win5_6.index t (1 : Fin 2) * 128 + 1 * (y 1).val = (y 1).val; omega

/-- What point t writes back is block t of the whole-array function. -/
theorem flushed_eq (c : Dev nD) (t : Fin cfg5.N) :
    (dat5 V c).flushed 7 t = ((cfg5.win 7).blk t).view.read (Elt Ideal) (whole V c) := by
  have hN : cfg5.N = 25 := N_5
  have ht : t.val < 25 := hN ▸ t.isLt
  obtain ⟨-, -, -, -, -, -, -, -, -, -, -, -, -, -, e0, e1⟩ := idx_facts t
  show (cfg5.win 7).cut (grid5.coords t) ((dat5 V c).after 7 t) = _
  rw [after5_7]
  funext j
  have hr : (j 0).val < 4000 := Nat.lt_of_lt_of_le (j 0).isLt ((cfg5.win 7).xsize_le (grid5.coords t) 0)
  have hq : (j 1).val < 128 := Nat.lt_of_lt_of_le (j 1).isLt ((cfg5.win 7).xsize_le (grid5.coords t) 1)
  have hp : t.val * 4000 + (j 0).val < 100000 := by omega
  have hx : (cfg5.win 7).xinj (grid5.coords t) j
      = ix2 (⟨(j 0).val, hr⟩ : Fin 4000) (⟨(j 1).val, hq⟩ : Fin 128) := by
    funext a
    match a with
    | ⟨0, _⟩ => rfl
    | ⟨1, _⟩ => rfl
  have hemb : ((cfg5.win 7).blk t).view.emb j
      = ix2 (⟨t.val * 4000 + (j 0).val, hp⟩ : Fin 100000) (⟨(j 1).val, hq⟩ : Fin 128) := by
    funext a; apply Fin.ext
    match a with
    | ⟨0, _⟩ => show win5_7.index t (0 : Fin 2) * 4000 + 1 * (j 0).val = t.val * 4000 + (j 0).val; omega
    | ⟨1, _⟩ => show win5_7.index t (1 : Fin 2) * 128 + 1 * (j 1).val = (j 1).val; omega
  rw [View.read_apply]
  show out5_7 (iblk5 V c 0 t) (iblk5 V c 1 t) (iblk5 V c 2 t) (iblk5 V c 3 t) (iblk5 V c 4 t) (iblk5 V c 5 t)
      (iblk5 V c 6 t) ((cfg5.win 7).xinj (grid5.coords t) j)
    = whole V c (((cfg5.win 7).blk t).view.emb j)
  refine ((congrArg (out5_7 (F := Ideal) (iblk5 V c 0 t) (iblk5 V c 1 t) (iblk5 V c 2 t) (iblk5 V c 3 t)
    (iblk5 V c 4 t) (iblk5 V c 5 t) (iblk5 V c 6 t)) hx).trans ?_).trans (congrArg (whole V c) hemb).symm
  exact tile_entry (iblk5 V c 0 t) (iblk5 V c 1 t) (iblk5 V c 2 t) (iblk5 V c 3 t) (iblk5 V c 4 t) (iblk5 V c 5 t)
    (iblk5 V c 6 t) (V c main_v137_0) (V c main_v149) (V c main_v153) (V c main_v154) (V c main_v155) (V c main_v132)
    (V c main_v156) ⟨(j 0).val, hr⟩ ⟨t.val * 4000 + (j 0).val, hp⟩ ⟨(j 1).val, hq⟩
    (fun k => rows_read V c t ⟨(j 0).val, hr⟩ k ⟨t.val * 4000 + (j 0).val, hp⟩ rfl)
    (whole_read1 V c t) (whole_read2 V c t) (whole_read3 V c t) (whole_read4 V c t) (whole_read5 V c t)
    (whole_read6 V c t)

/-- An index of the output is in point t's block iff each coordinate is in the block's range on its axis. -/
theorem mem_blk (t : Fin cfg5.N) (i : S100000x128.Idx) :
    i ∈ ((cfg5.win 7).blk t).view.set ↔ ∀ a : Fin 2, win5_7.index t a * S4000x128.size a ≤ (i a).val
      ∧ (i a).val < win5_7.index t a * S4000x128.size a + S4000x128.size a := by
  show i ∈ ((View.whole main_v157).slice (win5_7.rect t)).set ↔ _
  rw [View.set_slice_whole, Rect.mem_set_unit]
  exact Iff.rfl

/-- Row p of the output lies in the block of point p / 4000. -/
theorem cover (i : S100000x128.Idx) :
    ∃ t : Fin cfg5.N, (cfg5.win 7).flush t = true ∧ i ∈ ((cfg5.win 7).blk t).view.set := by
  have hN : cfg5.N = 25 := N_5
  have hi0 : (i 0).val < 100000 := idx2_lt0 i
  have hi1 : (i 1).val < 128 := idx2_lt1 i
  refine ⟨⟨(i 0).val / 4000, by rw [hN]; omega⟩, flush5_7 _, ?_⟩
  rw [mem_blk]
  obtain ⟨-, -, -, -, -, -, -, -, -, -, -, -, -, -, e0, e1⟩ := idx_facts ⟨(i 0).val / 4000, by rw [hN]; omega⟩
  intro a
  match a with
  | ⟨0, _⟩ =>
    show win5_7.index _ (0 : Fin 2) * 4000 ≤ (i 0).val ∧ (i 0).val < win5_7.index _ (0 : Fin 2) * 4000 + 4000
    rw [e0]; show (i 0).val / 4000 * 4000 ≤ (i 0).val ∧ (i 0).val < (i 0).val / 4000 * 4000 + 4000; omega
  | ⟨1, _⟩ =>
    show win5_7.index _ (1 : Fin 2) * 128 ≤ (i 1).val ∧ (i 1).val < win5_7.index _ (1 : Fin 2) * 128 + 128
    rw [e1]; omega

/-- The output array after the layer is the whole-array function. -/
theorem final (c : Dev nD) : (dat5 V c).arrAt 7 cfg5.N = whole V c :=
  (dat5 V c).arrAt_eq_of_cover 7 (whole V c) (fun t _ => flushed_eq V c t) cover

/-- THE OUTPUT AT (p, q): the affine map, against the weight and bias, of row p of the normalised pre-activations
    n (p, k) = max ((z1 (p, k) - mu (0, k)) · rsqrt (var (0, k) + eps) · g (0, k) + beta (0, k), 0). -/
theorem arrAt_apply (c : Dev nD) (p : Fin 100000) (q : Fin 128) :
    ((dat5 V c).arrAt 7 cfg5.N : S100000x128.Idx → EReal) (ix2 p q)
      = affine (fun k => normRelu ((V c main_v137_0 : S100000x256.Idx → EReal) (ix2 p k))
          ((V c main_v149 : S1x256.Idx → EReal) (ix2 (0 : Fin 1) k))
          ((V c main_v153 : S1x256.Idx → EReal) (ix2 (0 : Fin 1) k))
          ((V c main_v154 : S1x256.Idx → EReal) (ix2 (0 : Fin 1) k))
          ((V c main_v155 : S1x256.Idx → EReal) (ix2 (0 : Fin 1) k)))
        (V c main_v132 : S256x128.Idx → EReal) (fun q => (V c main_v156 : S1x128.Idx → EReal) (ix2 (0 : Fin 1) q)) q := by
  rw [final V c]
  rfl

end Cert.SecondUpdateArray

end
-- ==== Proof.Bridge5.lean ====
/-
  The kernel's second node-update layer, the program's result, is the reference's.

  The kernel's layer, read as one array, is at (p, q) the affine map of row p of the normalised activations
  n (p, k) = max ((z2 (p, k) - mu k) · rsqrt (var k + eps) · g k + beta k, 0) against the layer's weight and bias
  (no positive part after it); so is the reference's.  Given that the two programs agree on z2 and on the
  per-column mean and variance, they agree on the result: the scale, shift, weight and bias are the same second
  slices of the stacked parameter arrays on both sides, and a vector re-laid as a [1, n] row has the vector's
  entry k at (0, k).
-/
import proofs.«168167_j60026462929460_2_alg».proof.Proof.SecondUpdateArray
import proofs.«168167_j60026462929460_2_alg».proof.Proof.Fold5
import proofs.«168167_j60026462929460_2_alg».proof.Proof.RefNorm
import proofs.«168167_j60026462929460_2_alg».proof.Proof.LibBroadcast
import proofs.«168167_j60026462929460_2_alg».proof.Proof.Bridge1

noncomputable section

namespace Cert.Bridge

open Idealize.ShloMosaic Idealize.ShloMosaic.TcCoe Idealize.ShloMosaic.ValueIdx Idealize.SL.Sem
open Cert.KernelIdeal Cert.KernelIdeal.Gen Cert.DenseLayer Cert.Layout Cert.NormalizedEntry

variable (m : (ℓ : Loc nD τ sig) → Buf (Elt Ideal) ℓ) (ρ : Dev nD → PrngReg)

/-- Two affine maps with equal rows, weights and biases agree. -/
theorem affine_congr {k n : ℕ} {z z' : Fin k → EReal} {w w' : (⟨2, ![k, n]⟩ : Shape).Idx → EReal} {b b' : Fin n → EReal}
    (hz : z = z') (hw : w = w') (hb : b = b') (q : Fin n) : affine z w b q = affine z' w' b' q := by
  subst hz hw hb; rfl

/-- The kernel's result, as one array, is the reference's, given the same z2, mean and variance. -/
theorem kOut_eq (c : Dev nD) (hZ : V19 m ρ c main_v137_0 = rZ2 (kA m c))
    (hMu : ∀ q : Fin 256, (V19 m ρ c main_v149 : S1x256.Idx → EReal) (ix2 (0 : Fin 1) q) = rMu2 (kA m c) (ix1 q))
    (hVar : ∀ q : Fin 256, (V19 m ρ c main_v153 : S1x256.Idx → EReal) (ix2 (0 : Fin 1) q) = rVar2 (kA m c) (ix1 q)) :
    (dat5 (V19 m ρ) c).arrAt 7 cfg5.N = rOut (kA m c) := by
  funext i
  obtain ⟨p, q, rfl⟩ : ∃ (p : Fin 100000) (q : Fin 128), i = ix2 p q := ⟨i 0, i 1, eq_ix2 i⟩
  rw [rOut_at]
  refine (Cert.SecondUpdateArray.arrAt_apply (V19 m ρ) c p q).trans ?_
  refine affine_congr (funext fun k => ?_) ?_ (funext fun r => ?_) q
  · rw [hZ, hMu k, hVar k, Cert.Fold.V19_main_v154, Cert.Fold.V19_main_v155, shapeCast_row_apply,
      shapeCast_row_apply]
    rfl
  · rw [Cert.Fold.V19_main_v132]
    rfl
  · rw [Cert.Fold.V19_main_v156, shapeCast_row_apply]
    rfl

end Cert.Bridge

end
-- ==== Proof.KernelStats.lean ====
/-
  The batch mean and variance computed from per-tile partial sums, read at an index.

  A [200, 256] array S holds 25 tiles of 8 identical rows: row 8 · t of S is tile t's partial sum of a column.  It is
  re-laid as [25, 8, 256] (row 8 · t + r becomes (t, r)), the rows r = 0 are kept ([25, 1, 256]), the unit axis is
  dropped ([25, 256]), the 25 rows are added up from the constant 0 ([256]), the vector is placed as a [1, 256] row
  and divided entrywise by the constant 100000.  Entry (0, q) of the result is therefore

      (0 + sum over t < 25 of S (8 · t, q)) / 100000.

  The variance takes the same quotient of a second array Q (partial sums of squares) and subtracts the square of the
  mean: entry (0, q) is that quotient for Q minus mean · mean.

  Every step is a layout operation reading one entry of its operand (a change of shape keeps the row-major position,
  a slice shifts by its offsets, a broadcast repeats), except the sum over the leading axis, which over the extended
  reals is the initial value plus the finite sum of that axis's entries.
-/
import proofs.«168167_j60026462929460_2_alg».proof.KernelIdeal
import Idealize.ShloMosaic.Lib.Pipeline.Value
import Idealize.ShloMosaic.Lib.ValueIdx
import Idealize.ShloMosaic.PureOps.Ideal.Laws

noncomputable section

open scoped BigOperators

namespace Cert.KernelIdeal.Stats

open Idealize.ShloMosaic Idealize.ShloMosaic.ValueIdx
open Cert.KernelIdeal

variable [Facts₀]

open Facts₀

/-! ## The operations, composed in the program's order -/

/-- The 25 tiles' first rows added up from 0, as a [1, 256] row. -/
def sumOfPartials (S : FVec Ideal S200x256 .f32) : FVec Ideal S1x256 .f32 :=
  broadcastInDim S1x256 ![1] bcast_S256_S1x256_1
    (Host.reduceAdd
      (shapeCast S25x256
        (extractStridedSlice S25x1x256 ![0, 0, 0] (shapeCast S25x8x256 S shapeCasts_S200x256_S25x8x256)
          slices_S25x8x256_S25x1x256_0_0_0)
        shapeCasts_S25x1x256_S25x256)
      (constant (F := Ideal) S_ .f32 0x00000000#32) reducesTo_S25x256_S256_d0 h_S_)

/-- The constant 100000 repeated over a [1, 256] row. -/
def countRow : FVec Ideal S1x256 .f32 :=
  broadcastInDim S1x256 ![] bcast_S_S1x256 (constant (F := Ideal) S_ .f32 0x47C35000#32)

/-- The mean: the tiles' sums added up, over 100000. -/
def meanOfPartials (S : FVec Ideal S200x256 .f32) : FVec Ideal S1x256 .f32 :=
  Host.divf (sumOfPartials S) countRow

/-- The variance: the mean of squares minus the squared mean. -/
def varOfPartials (Q S : FVec Ideal S200x256 .f32) : FVec Ideal S1x256 .f32 :=
  subf (Host.divf (sumOfPartials Q) countRow) (mulf (meanOfPartials S) (meanOfPartials S))

/-! ## Each operation read at an index -/

/-- Re-laid as [25, 8, 256], entry (t, r, q) is entry (8 · t + r, q). -/
theorem tiles_apply (S : FVec Ideal S200x256 .f32) (t : Fin 25) (r : Fin 8) (q : Fin 256) :
    shapeCast S25x8x256 S shapeCasts_S200x256_S25x8x256 (ix3 t r q)
      = S (ix2 (⟨8 * t.val + r.val, by have := t.isLt; have := r.isLt; omega⟩ : Fin 200) q) :=
  shapeCast_apply S _ _ _ (by
    rw [Shape.rowMajor_val_two, Shape.rowMajor_val_three]
    show (8 * t.val + r.val) * 256 + q.val = (t.val * 8 + r.val) * 256 + q.val
    rw [Nat.mul_comm 8 t.val])

/-- The slice keeping the rows r = 0: entry (t, 0, q) is entry (t, 0, q). -/
theorem firstRows_apply (x : FVec Ideal S25x8x256 .f32) (t : Fin 25) (q : Fin 256) :
    extractStridedSlice S25x1x256 ![0, 0, 0] x slices_S25x8x256_S25x1x256_0_0_0 (ix3 t (0 : Fin 1) q)
      = x (ix3 t (0 : Fin 8) q) :=
  extractStridedSlice_apply _ x _ _ _ (fun a => by
    match a with
    | ⟨0, _⟩ => show t.val = 0 + t.val; rw [Nat.zero_add]
    | ⟨1, _⟩ => show (0 : ℕ) = 0 + 0; rfl
    | ⟨2, _⟩ => show q.val = 0 + q.val; rw [Nat.zero_add])

/-- The unit axis dropped: entry (t, q) is entry (t, 0, q). -/
theorem dropUnit_apply (x : FVec Ideal S25x1x256 .f32) (t : Fin 25) (q : Fin 256) :
    shapeCast S25x256 x shapeCasts_S25x1x256_S25x256 (ix2 t q) = x (ix3 t (0 : Fin 1) q) :=
  shapeCast_apply x _ _ _ (by
    rw [Shape.rowMajor_val_three, Shape.rowMajor_val_two]
    show (t.val * 1 + 0) * 256 + q.val = t.val * 256 + q.val
    rw [Nat.mul_one, Nat.add_zero])

/-- The sum over the leading axis from an initial value: entry q is the initial value plus the 25 rows' entries q. -/
theorem sumRows_apply (x : FVec Ideal S25x256 .f32) (init : FVec Ideal S_ .f32) (q : Fin 256) :
    Host.reduceAdd x init reducesTo_S25x256_S256_d0 h_S_ (ix1 q) = init ix0 + ∑ t : Fin 25, x (ix2 t q) := by
  simp only [Host.reduceAdd, Ideal.hostReduceAdd_def]
  rw [Ideal.hostReduceAdd_single reducesTo_S25x256_S256_d0 (by decide)]
  rw [show Shape.Idx.first h_S_ = ix0 from eq_ix0 _]
  refine congrArg (_ + ·) (Finset.sum_congr rfl fun k _ => ?_)
  exact congrArg x (funext fun a => Fin.ext (by match a with | ⟨0, _⟩ => rfl | ⟨1, _⟩ => rfl))

/-- A vector placed as a [1, 256] row: entry (0, q) is entry q. -/
theorem asRow_apply (u : FVec Ideal S256 .f32) (q : Fin 256) :
    broadcastInDim S1x256 ![1] bcast_S256_S1x256_1 u (ix2 (0 : Fin 1) q) = u (ix1 q) :=
  broadcastInDim_apply _ _ u _ _ (fun a => by
    match a with
    | ⟨0, _⟩ =>
      show q.val = if (256 : ℕ) = 1 then 0 else q.val
      rw [if_neg (by decide)])

/-- The constant 100000 repeated: every entry is that number. -/
theorem countRow_apply (j : S1x256.Idx) : countRow j = Ideal.ofBits .f32 0x47C35000#32 :=
  broadcastInDim_apply _ bcast_S_S1x256 _ j ix0 (fun a => a.elim0)

/-! ## The statistics read at an index -/

/-- Entry (0, q) of the summed row: 0 plus the 25 tiles' first rows' entries q. -/
theorem sumOfPartials_apply (S : FVec Ideal S200x256 .f32) (q : Fin 256) :
    sumOfPartials S (ix2 (0 : Fin 1) q)
      = Ideal.ofBits .f32 0x00000000#32
        + ∑ t : Fin 25, S (ix2 (⟨8 * t.val, by have := t.isLt; omega⟩ : Fin 200) q) := by
  unfold sumOfPartials
  refine (asRow_apply _ q).trans ?_
  refine (sumRows_apply _ _ q).trans ?_
  refine congrArg (_ + ·) (Finset.sum_congr rfl fun t _ => ?_)
  refine (dropUnit_apply _ t q).trans ?_
  refine (firstRows_apply _ t q).trans ?_
  exact tiles_apply S t 0 q

/-- THE MEAN at (0, q): (0 + the sum over t < 25 of S (8 · t, q)) / 100000, the host's division. -/
theorem meanOfPartials_apply (S : FVec Ideal S200x256 .f32) (q : Fin 256) :
    meanOfPartials S (ix2 (0 : Fin 1) q)
      = FloatOps.hostDivf (F := Ideal) (φ := .f32)
          (Ideal.ofBits .f32 0x00000000#32
            + ∑ t : Fin 25, S (ix2 (⟨8 * t.val, by have := t.isLt; omega⟩ : Fin 200) q))
          (Ideal.ofBits .f32 0x47C35000#32) := by
  show FloatOps.hostDivf (F := Ideal) (φ := .f32) (sumOfPartials S (ix2 (0 : Fin 1) q)) (countRow (ix2 (0 : Fin 1) q)) = _
  rw [sumOfPartials_apply, countRow_apply]

/-- THE VARIANCE at (0, q): the same quotient for Q, minus the mean times the mean. -/
theorem varOfPartials_apply (Q S : FVec Ideal S200x256 .f32) (q : Fin 256) :
    varOfPartials Q S (ix2 (0 : Fin 1) q)
      = FloatOps.hostDivf (F := Ideal) (φ := .f32)
          (Ideal.ofBits .f32 0x00000000#32
            + ∑ t : Fin 25, Q (ix2 (⟨8 * t.val, by have := t.isLt; omega⟩ : Fin 200) q))
          (Ideal.ofBits .f32 0x47C35000#32)
        - meanOfPartials S (ix2 (0 : Fin 1) q) * meanOfPartials S (ix2 (0 : Fin 1) q) := by
  show FloatOps.hostDivf (F := Ideal) (φ := .f32) (sumOfPartials Q (ix2 (0 : Fin 1) q)) (countRow (ix2 (0 : Fin 1) q))
      - meanOfPartials S (ix2 (0 : Fin 1) q) * meanOfPartials S (ix2 (0 : Fin 1) q) = _
  rw [sumOfPartials_apply, countRow_apply]

/-- The variance at (0, q) with the mean written out. -/
theorem varOfPartials_apply' (Q S : FVec Ideal S200x256 .f32) (q : Fin 256) :
    varOfPartials Q S (ix2 (0 : Fin 1) q)
      = FloatOps.hostDivf (F := Ideal) (φ := .f32)
          (Ideal.ofBits .f32 0x00000000#32
            + ∑ t : Fin 25, Q (ix2 (⟨8 * t.val, by have := t.isLt; omega⟩ : Fin 200) q))
          (Ideal.ofBits .f32 0x47C35000#32)
        - FloatOps.hostDivf (F := Ideal) (φ := .f32)
            (Ideal.ofBits .f32 0x00000000#32
              + ∑ t : Fin 25, S (ix2 (⟨8 * t.val, by have := t.isLt; omega⟩ : Fin 200) q))
            (Ideal.ofBits .f32 0x47C35000#32)
          * FloatOps.hostDivf (F := Ideal) (φ := .f32)
            (Ideal.ofBits .f32 0x00000000#32
              + ∑ t : Fin 25, S (ix2 (⟨8 * t.val, by have := t.isLt; omega⟩ : Fin 200) q))
            (Ideal.ofBits .f32 0x47C35000#32) := by
  rw [varOfPartials_apply, meanOfPartials_apply]

end Cert.KernelIdeal.Stats

end
-- ==== Proof.KernelStatsLaw.lean ====
/-
  The batch statistics computed from per-tile partial sums are the batch statistics of the whole column.

  A column of 100000 numbers is cut into 25 tiles of 4000 consecutive entries.  A [200, 256] array S holds, in each of
  the 8 rows of tile t (rows 8 · t, …, 8 · t + 7) and in column q, the sum from zero of tile t of column q; a second
  array Q holds the sums of squares likewise.  The tile of row r is r / 8, and the tile of row 8 · t is t.

  MEAN.  Adding the 25 first rows from zero and dividing by 100000 is adding the whole column from zero and dividing
  by 100000: the tiles' sums add up to the column's sum in any commutative additive monoid, so no finiteness is
  needed.

  VARIANCE, for a column of real numbers.  The same quotient of the sums of squares, minus the squared mean, is the
  mean of the squared deviations from the mean.
-/
import proofs.«168167_j60026462929460_2_alg».proof.Proof.KernelStats
import proofs.«168167_j60026462929460_2_alg».proof.Proof.BatchStats
import proofs.«168167_j60026462929460_2_alg».proof.Proof.LibRealEntries

noncomputable section

open scoped BigOperators

namespace Cert.KernelIdeal.Stats

open Idealize.ShloMosaic Idealize.ShloMosaic.ValueIdx
open Cert.KernelIdeal Cert.ColumnStats Cert.RealEntries

variable [Facts₀]

variable (z : Fin 100000 → Fin 256 → EReal) (S Q : FVec Ideal S200x256 .f32)

/-! ## From the tiles' first rows -/

/-- THE MEAN from the first rows: if row 8 · t holds tile t's sums, the mean is the whole column's. -/
theorem mean_law_first
    (hS : ∀ (t : Fin 25) (q : Fin 256),
      S (ix2 (⟨8 * t.val, by have := t.isLt; omega⟩ : Fin 200) q) = Zw + ∑ j : Fin 4000, z (row t j) q)
    (q : Fin 256) :
    meanOfPartials S (ix2 (0 : Fin 1) q) = Ideal.div (Zw + ∑ i : Fin 100000, z i q) Dw := by
  refine (meanOfPartials_apply S q).trans ?_
  rw [show (∑ t : Fin 25, S (ix2 (⟨8 * t.val, by have := t.isLt; omega⟩ : Fin 200) q))
      = ∑ t : Fin 25, (Zw + ∑ j : Fin 4000, z (row t j) q) from Finset.sum_congr rfl fun t _ => hS t q]
  exact mean_tiled Zw_eq Dw fun i => z i q

/-- THE VARIANCE from the first rows, for a real column: the mean of squares minus the squared mean is the mean
    squared deviation from the mean. -/
theorem var_law_first
    (hS : ∀ (t : Fin 25) (q : Fin 256),
      S (ix2 (⟨8 * t.val, by have := t.isLt; omega⟩ : Fin 200) q) = Zw + ∑ j : Fin 4000, z (row t j) q)
    (hQ : ∀ (t : Fin 25) (q : Fin 256),
      Q (ix2 (⟨8 * t.val, by have := t.isLt; omega⟩ : Fin 200) q)
        = Zw + ∑ j : Fin 4000, z (row t j) q * z (row t j) q)
    (q : Fin 256) (hz : ∀ i, IsReal (z i q)) {mu : EReal}
    (hmu : mu = Ideal.div (Zw + ∑ i : Fin 100000, z i q) Dw) :
    varOfPartials Q S (ix2 (0 : Fin 1) q)
      = Ideal.div (Zw + ∑ i : Fin 100000, (z i q - mu) * (z i q - mu)) Dw := by
  refine (varOfPartials_apply Q S q).trans ?_
  rw [mean_law_first z S hS q, ← hmu]
  rw [show (∑ t : Fin 25, Q (ix2 (⟨8 * t.val, by have := t.isLt; omega⟩ : Fin 200) q))
      = ∑ t : Fin 25, (Zw + ∑ j : Fin 4000, z (row t j) q * z (row t j) q) from
    Finset.sum_congr rfl fun t _ => hQ t q]
  exact variance_tiled (fun i => z i q) hz Zw_eq Dw_eq hmu

/-! ## From all 200 rows -/

/-- The tile of row 8 · t is t. -/
theorem tile_first (t : Fin 25) (h1 : 8 * t.val < 200) (h2 : (⟨8 * t.val, h1⟩ : Fin 200).val / 8 < 25) :
    (⟨(⟨8 * t.val, h1⟩ : Fin 200).val / 8, h2⟩ : Fin 25) = t :=
  Fin.ext (by show 8 * t.val / 8 = t.val; omega)

/-- A statement about every row, read at the tiles' first rows. -/
theorem first_of_rows (f : Fin 25 → Fin 256 → EReal) (X : FVec Ideal S200x256 .f32)
    (hX : ∀ (r : Fin 200) (q : Fin 256), X (ix2 r q) = f ⟨r.val / 8, by have := r.isLt; omega⟩ q)
    (t : Fin 25) (q : Fin 256) :
    X (ix2 (⟨8 * t.val, by have := t.isLt; omega⟩ : Fin 200) q) = f t q := by
  refine (hX _ q).trans ?_
  rw [tile_first t]

/-- THE MEAN: if every row r holds the sums of tile r / 8, the mean is the whole column's.  No finiteness. -/
theorem mean_law
    (hS : ∀ (r : Fin 200) (q : Fin 256),
      S (ix2 r q) = Zw + ∑ j : Fin 4000, z (row ⟨r.val / 8, by have := r.isLt; omega⟩ j) q)
    (q : Fin 256) :
    meanOfPartials S (ix2 (0 : Fin 1) q) = Ideal.div (Zw + ∑ i : Fin 100000, z i q) Dw :=
  mean_law_first z S (first_of_rows (fun t q => Zw + ∑ j : Fin 4000, z (row t j) q) S hS) q

/-- THE VARIANCE, for a real column, with the mean named mu. -/
theorem var_law
    (hS : ∀ (r : Fin 200) (q : Fin 256),
      S (ix2 r q) = Zw + ∑ j : Fin 4000, z (row ⟨r.val / 8, by have := r.isLt; omega⟩ j) q)
    (hQ : ∀ (r : Fin 200) (q : Fin 256),
      Q (ix2 r q) = Zw + ∑ j : Fin 4000, z (row ⟨r.val / 8, by have := r.isLt; omega⟩ j) q
        * z (row ⟨r.val / 8, by have := r.isLt; omega⟩ j) q)
    (q : Fin 256) (hz : ∀ i, IsReal (z i q)) {mu : EReal}
    (hmu : mu = Ideal.div (Zw + ∑ i : Fin 100000, z i q) Dw) :
    varOfPartials Q S (ix2 (0 : Fin 1) q)
      = Ideal.div (Zw + ∑ i : Fin 100000, (z i q - mu) * (z i q - mu)) Dw :=
  var_law_first z S Q (first_of_rows (fun t q => Zw + ∑ j : Fin 4000, z (row t j) q) S hS)
    (first_of_rows (fun t q => Zw + ∑ j : Fin 4000, z (row t j) q * z (row t j) q) Q hQ) q hz hmu

/-- THE VARIANCE, for a real column, with the mean written out. -/
theorem var_law'
    (hS : ∀ (r : Fin 200) (q : Fin 256),
      S (ix2 r q) = Zw + ∑ j : Fin 4000, z (row ⟨r.val / 8, by have := r.isLt; omega⟩ j) q)
    (hQ : ∀ (r : Fin 200) (q : Fin 256),
      Q (ix2 r q) = Zw + ∑ j : Fin 4000, z (row ⟨r.val / 8, by have := r.isLt; omega⟩ j) q
        * z (row ⟨r.val / 8, by have := r.isLt; omega⟩ j) q)
    (q : Fin 256) (hz : ∀ i, IsReal (z i q)) :
    varOfPartials Q S (ix2 (0 : Fin 1) q)
      = Ideal.div (Zw + ∑ i : Fin 100000,
          (z i q - Ideal.div (Zw + ∑ i : Fin 100000, z i q) Dw)
            * (z i q - Ideal.div (Zw + ∑ i : Fin 100000, z i q) Dw)) Dw :=
  var_law z S Q hS hQ q hz rfl

end Cert.KernelIdeal.Stats

end
-- ==== Proof.KernelStatsBridge.lean ====
/-
  The batch statistics computed from per-tile partial sums are the reference's batch statistics, for both layers.

  If the [200, 256] arrays of partial sums and of partial sums of squares hold, in every row of tile t and in column
  q, the sum from zero of tile t of column q of a layer's pre-normalisation activations (of their squares), then the
  mean computed from the partial sums is the reference's batch mean of column q; and if the activations are real
  numbers, the variance computed from the partial sums is the reference's batch variance of column q.
-/
import proofs.«168167_j60026462929460_2_alg».proof.Proof.KernelStatsLaw
import proofs.«168167_j60026462929460_2_alg».proof.Proof.RefNorm

noncomputable section

open scoped BigOperators

namespace Cert.Bridge

open Idealize.ShloMosaic Idealize.ShloMosaic.ValueIdx
open Cert.ColumnStats Cert.RealEntries Cert.KernelIdeal.Stats

variable [Cert.KernelIdeal.Facts₀]

variable (A : Args) (S Q : FVec Ideal Cert.KernelIdeal.S200x256 .f32)

/-! ## Layer 1 -/

/-- Layer 1's mean from the partial sums is the reference's batch mean. -/
theorem mean1_of_partials
    (hS : ∀ (r : Fin 200) (q : Fin 256),
      S (ix2 r q) = Zw + ∑ j : Fin 4000, rZ1 A (ix2 (row ⟨r.val / 8, by have := r.isLt; omega⟩ j) q))
    (q : Fin 256) :
    meanOfPartials S (ix2 (0 : Fin 1) q) = rMu1 A (ix1 q) :=
  (mean_law (fun i q => rZ1 A (ix2 i q)) S hS q).trans (rMu1_at A q).symm

/-- Layer 1's variance from the partial sums is the reference's batch variance, for real activations. -/
theorem var1_of_partials
    (hS : ∀ (r : Fin 200) (q : Fin 256),
      S (ix2 r q) = Zw + ∑ j : Fin 4000, rZ1 A (ix2 (row ⟨r.val / 8, by have := r.isLt; omega⟩ j) q))
    (hQ : ∀ (r : Fin 200) (q : Fin 256),
      Q (ix2 r q) = Zw + ∑ j : Fin 4000, rZ1 A (ix2 (row ⟨r.val / 8, by have := r.isLt; omega⟩ j) q)
        * rZ1 A (ix2 (row ⟨r.val / 8, by have := r.isLt; omega⟩ j) q))
    (hz : ∀ i, IsReal (rZ1 A i)) (q : Fin 256) :
    varOfPartials Q S (ix2 (0 : Fin 1) q) = rVar1 A (ix1 q) :=
  (var_law (fun i q => rZ1 A (ix2 i q)) S Q hS hQ q (fun i => hz (ix2 i q)) (rMu1_at A q)).trans
    (rVar1_at A q).symm

/-! ## Layer 2 -/

/-- Layer 2's mean from the partial sums is the reference's batch mean. -/
theorem mean2_of_partials
    (hS : ∀ (r : Fin 200) (q : Fin 256),
      S (ix2 r q) = Zw + ∑ j : Fin 4000, rZ2 A (ix2 (row ⟨r.val / 8, by have := r.isLt; omega⟩ j) q))
    (q : Fin 256) :
    meanOfPartials S (ix2 (0 : Fin 1) q) = rMu2 A (ix1 q) :=
  (mean_law (fun i q => rZ2 A (ix2 i q)) S hS q).trans (rMu2_at A q).symm

/-- Layer 2's variance from the partial sums is the reference's batch variance, for real activations. -/
theorem var2_of_partials
    (hS : ∀ (r : Fin 200) (q : Fin 256),
      S (ix2 r q) = Zw + ∑ j : Fin 4000, rZ2 A (ix2 (row ⟨r.val / 8, by have := r.isLt; omega⟩ j) q))
    (hQ : ∀ (r : Fin 200) (q : Fin 256),
      Q (ix2 r q) = Zw + ∑ j : Fin 4000, rZ2 A (ix2 (row ⟨r.val / 8, by have := r.isLt; omega⟩ j) q)
        * rZ2 A (ix2 (row ⟨r.val / 8, by have := r.isLt; omega⟩ j) q))
    (hz : ∀ i, IsReal (rZ2 A i)) (q : Fin 256) :
    varOfPartials Q S (ix2 (0 : Fin 1) q) = rVar2 A (ix1 q) :=
  (var_law (fun i q => rZ2 A (ix2 i q)) S Q hS hQ q (fun i => hz (ix2 i q)) (rMu2_at A q)).trans
    (rVar2_at A q).symm

end Cert.Bridge

end
-- ==== Proof.LibRowGatherScatter.lean ====
/-
  Rows taken by index and rows added by index, read at one element.

  For a table `x : [N, C]` and a column of integers `idx : [E, 1]`:

  * taking rows — the gather whose result `[E, C]` has in row `e` the row of `x` that `idx (e, 0)` names — reads at
    `(e, c)` the entry `x (r, c)`, where `r` is `idx (e, 0)` as a signed integer brought into `[0, N − 1]`;
  * adding rows — the scatter that adds row `e` of `u : [E, C]` onto the row of `x` that `idx (e, 0)` names, a row
    named outside `[0, N)` being dropped — has at `(n, c)`, over the extended reals, the entry `x (n, c)` plus the sum
    of `u (e, c)` over exactly those `e` whose integer `idx (e, 0)` is `n`.

  The columns never mix: entry `(·, c)` of either result depends on column `c` only.
-/
import Idealize.ShloMosaic.Lib.ValueIdx
import Idealize.ShloMosaic.PureOps.Ideal.Laws

noncomputable section

open scoped BigOperators

namespace Cert.RowGatherScatter

open Idealize.ShloMosaic Idealize.ShloMosaic.ValueIdx

/-! ## Taking rows -/

section Gather
variable {α : Type}

/-- The dimension numbers of "take the rows `idx` of an `[N, C]` table": the row axis collapsed and indexed, the
    column axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry `e` of the index column names: its integer read signed and brought into `[0, N − 1]`. -/
def rowOf {N E w : Nat} (hN : 0 < N) (idx : IVec ⟨2, ![E, 1]⟩ w) (e : Fin E) : Fin N :=
  ⟨min (idx (ix2 e 0)).toInt.toNat (N - 1), by omega⟩

/-- THE ROWS TAKEN, READ AT `(e, c)`: the table at the named row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  refine congrArg x ?_
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from (by decide : (1 : Fin 2) ∉ ([0] : List (Fin 2))))]
    simp only [Nat.add_zero, Nat.zero_add]
    rfl

end Gather

/-! ## Adding rows -/

section Scatter

/-- The dimension numbers of "add the rows of `u : [E, C]` onto the rows `idx` of an `[N, C]` table": the row axis
    inserted and indexed, the column axis the update's window. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- Update `(e, c)` starts, on the row axis, at the integer `idx (e, 0)` read signed. -/
theorem start_row (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at zero; -/
theorem start_col (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ ([0] : List (Fin 2))))]

/-- its window coordinate is nothing on the row axis -/
theorem window_row (e : Fin E) (c : Fin C) : (rowScatterDims N E C wf).window (ix2 e c) 0 = 0 := by
  unfold ScatterDims.window
  rw [dif_neg (show (0 : Fin 2) ∉ (rowScatterDims N E C wf).sKept from
    (by decide : (0 : Fin 2) ∉ (List.finRange 2).filter (· ∉ ([0] : List (Fin 2)))))]

/-- and its own column on the column axis. -/
theorem window_col (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (· ∉ ([0] : List (Fin 2)))))]
  rfl

/-- WHERE UPDATE `(e, c)` LANDS: on `(n, c')` exactly when its integer is `n` and the columns agree. -/
theorem resultIdx?_rows (idx : IVec ⟨2, ![E, 1]⟩ w) (e : Fin E) (c : Fin C) (n : Fin N) (c' : Fin C) :
    (rowScatterDims N E C wf).resultIdx? (ix2 e c) idx = some (ix2 n c') ↔ (idx (ix2 e 0)).toInt = (n.val : Int) ∧ c = c' := by
  unfold ScatterDims.resultIdx?
  constructor
  · intro h
    split at h
    · rename_i hin
      have h' := Option.some.inj h
      have h0 := congrArg (fun f => (f 0).val) h'
      have h1 := congrArg (fun f => (f 1).val) h'
      simp only [start_row, start_col, window_row, window_col] at h0 h1
      have hb := hin 0
      rw [start_row, window_row] at hb
      refine ⟨?_, Fin.ext ?_⟩
      · have : ((idx (ix2 e 0)).toInt + ((0 : Nat) : Int)).toNat = n.val := h0
        omega
      · have : (((0 : Int)) + ((c.val : Nat) : Int)).toNat = c'.val := h1
        omega
    · exact absurd h (by simp)
  · rintro ⟨hr, rfl⟩
    have h0 : 0 ≤ (rowScatterDims N E C wf).start (ix2 e c) idx 0 + (rowScatterDims N E C wf).window (ix2 e c) 0
        ∧ (rowScatterDims N E C wf).start (ix2 e c) idx 0 + (rowScatterDims N E C wf).window (ix2 e c) 0
          < (⟨2, ![N, C]⟩ : Shape).size 0 := by
      rw [start_row, window_row, hr]
      have := n.isLt
      refine ⟨by omega, ?_⟩
      show ((n.val : Int) + ((0 : Nat) : Int)) < ((N : Nat) : Int)
      omega
    have h1 : 0 ≤ (rowScatterDims N E C wf).start (ix2 e c) idx 1 + (rowScatterDims N E C wf).window (ix2 e c) 1
        ∧ (rowScatterDims N E C wf).start (ix2 e c) idx 1 + (rowScatterDims N E C wf).window (ix2 e c) 1
          < (⟨2, ![N, C]⟩ : Shape).size 1 := by
      rw [start_col, window_col]
      have := c.isLt
      refine ⟨by omega, ?_⟩
      show ((0 : Int) + ((c.val : Nat) : Int)) < ((C : Nat) : Int)
      omega
    have hin : ∀ a : Fin 2, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := fun a => match a with
      | ⟨0, _⟩ => h0
      | ⟨1, _⟩ => h1
    rw [dif_pos hin]
    refine congrArg some ?_
    funext a
    refine Fin.ext ?_
    match a with
    | ⟨0, _⟩ =>
      show ((rowScatterDims N E C wf).start (ix2 e c) idx 0 + (rowScatterDims N E C wf).window (ix2 e c) 0).toNat = n.val
      rw [start_row, window_row, hr]; omega
    | ⟨1, _⟩ =>
      show ((rowScatterDims N E C wf).start (ix2 e c) idx 1 + (rowScatterDims N E C wf).window (ix2 e c) 1).toNat = c.val
      rw [start_col, window_col]; omega

/-- The updates that land in row `n`: the entries of the index column whose integer is `n`. -/
def hits (idx : IVec ⟨2, ![E, 1]⟩ w) (n : Fin N) : Finset (Fin E) :=
  Finset.univ.filter fun e => (idx (ix2 e 0)).toInt = (n.val : Int)

/-- THE ROWS ADDED, READ AT `(n, c)` over the extended reals: the table's entry plus the sum, over the updates that
    land in row `n`, of their entries in column `c`. -/
theorem scatterAdd_rows_apply (x : FVec Ideal ⟨2, ![N, C]⟩ .f32) (idx : IVec ⟨2, ![E, 1]⟩ w)
    (u : FVec Ideal ⟨2, ![E, C]⟩ .f32) (n : Fin N) (c : Fin C) :
    Host.scatterAdd (rowScatterDims N E C wf) x idx u (ix2 n c) = x (ix2 n c) + ∑ e ∈ hits idx n, u (ix2 e c) := by
  show Ideal.hostScatterAdd (rowScatterDims N E C wf) x idx u (ix2 n c) = _
  unfold Ideal.hostScatterAdd
  refine congrArg (fun s => x (ix2 n c) + s) ?_
  rw [Finset.sum_filter, sum_idx2]
  unfold hits
  rw [Finset.sum_filter]
  refine Finset.sum_congr rfl fun e _ => ?_
  by_cases he : (idx (ix2 e 0)).toInt = (n.val : Int)
  · rw [if_pos he]
    rw [Finset.sum_eq_single c]
    · rw [if_pos ((resultIdx?_rows wf idx e c n c).mpr ⟨he, rfl⟩)]
    · intro c' _ hc'
      rw [if_neg (fun h => hc' ((resultIdx?_rows wf idx e c' n c).mp h).2)]
    · intro h; exact absurd (Finset.mem_univ c) h
  · rw [if_neg he]
    refine Finset.sum_eq_zero fun c' _ => ?_
    rw [if_neg (fun h => he ((resultIdx?_rows wf idx e c' n c).mp h).1)]

end Scatter

end Cert.RowGatherScatter

end
-- ==== Proof.LibScatterSetReal.lean ====
/-
  Writing rows by index: every entry of the result is an entry of the table or an entry of the updates.

  The scatter whose body returns the update replaces, update after update, the result's element at the place the
  update's integer names by the update's element, and drops an update whose place is outside the table.  Whatever the
  integers are — repeated, negative, too large — after every step each element of the running result is either an
  element of the table it started from or an element of the updates.  So any property that holds of every element of
  the table and of every element of the updates holds of every element of the result.  This is stated for every
  scatter (any shapes, any dimension numbers, any element type), then for the row scatter of an [N, C] table by an
  [E, 1] column of integers, and for the property "is a real number" of extended reals.
-/
import proofs.«168167_j60026462929460_2_alg».proof.Proof.LibRowGatherScatter
import proofs.«168167_j60026462929460_2_alg».proof.Proof.LibRealEntries

noncomputable section

namespace Cert.ScatterSet

open Idealize.ShloMosaic Idealize.ShloMosaic.ValueIdx Cert.RealEntries Cert.RowGatherScatter

/-- One step of the fold keeps "every element has the property": the step either leaves the running result alone or
    puts an update's element at one place. -/
theorem step_all {α : Type} {s si u : Shape} {w : Nat} (d : ScatterDims s si u) (P : α → Prop)
    (idx : IVec si w) (upd : u.Idx → α) (hu : ∀ j, P (upd j)) (r : s.Idx → α) (hr : ∀ i, P (r i))
    (n : Fin u.numel) (i : s.Idx) :
    P ((match d.resultIdx? (u.rowMajor.symm n) idx with
      | some k => fun i' => if i' = k then (fun (_ b : α) => b) (r k) (upd (u.rowMajor.symm n)) else r i'
      | none => r) i) := by
  generalize d.resultIdx? (u.rowMajor.symm n) idx = o
  cases o with
  | none => exact hr i
  | some k =>
    show P (if i = k then upd (u.rowMajor.symm n) else r i)
    by_cases h : i = k
    · rw [if_pos h]; exact hu _
    · rw [if_neg h]; exact hr i

/-- The fold over any list of update positions keeps "every element has the property". -/
theorem foldl_all {α : Type} {s si u : Shape} {w : Nat} (d : ScatterDims s si u) (P : α → Prop)
    (idx : IVec si w) (upd : u.Idx → α) (hu : ∀ j, P (upd j)) :
    ∀ (l : List (Fin u.numel)) (r : s.Idx → α), (∀ i, P (r i)) → ∀ i,
      P (l.foldl (fun r n =>
        match d.resultIdx? (u.rowMajor.symm n) idx with
        | some k => fun i' => if i' = k then (fun (_ b : α) => b) (r k) (upd (u.rowMajor.symm n)) else r i'
        | none => r) r i)
  | [], r, hr, i => hr i
  | n :: l, r, hr, i => by
    rw [List.foldl_cons]
    exact foldl_all d P idx upd hu l _ (fun i' => step_all d P idx upd hu r hr n i') i

/-- A SCATTER THAT WRITES THE UPDATE (its body returns the update's element): a property of every element of the
    operand and of every element of the updates is a property of every element of the result.  Any shapes, any
    dimension numbers, any integers in the index array (repeated and out-of-range ones included). -/
theorem scatter_set_all {α : Type} {s si u : Shape} {w : Nat} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  exact foldl_all d P idx upd hu _ x hx i

/-- ROWS WRITTEN BY INDEX into an [N, C] table from an [E, C] array of rows, the rows named by an [E, 1] column of
    integers: every element of the result has any property that every element of the table and every element of the
    rows has. -/
theorem rowScatter_set_all {α : Type} {N E C w : Nat}
    (wf : ScatterDims.WF ⟨2, ![N, C]⟩ ⟨2, ![E, 1]⟩ ⟨2, ![E, C]⟩ [1] [0] [0] 1) (P : α → Prop)
    (x : (⟨2, ![N, C]⟩ : Shape).Idx → α) (idx : IVec ⟨2, ![E, 1]⟩ w) (u : (⟨2, ![E, C]⟩ : Shape).Idx → α)
    (hx : ∀ i, P (x i)) (hu : ∀ j, P (u j)) (i : (⟨2, ![N, C]⟩ : Shape).Idx) :
    P (Host.scatter (rowScatterDims N E C wf) (fun _ b => b) x idx u i) :=
  scatter_set_all (rowScatterDims N E C wf) P x idx u hx hu i

/-- Real rows written by index into a real table give a real table. -/
theorem rowScatter_set_real {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (u : FVec Ideal ⟨2, ![E, C]⟩ .f32)
    (hx : ∀ i, IsReal (x i)) (hu : ∀ j, IsReal (u j)) (i : (⟨2, ![N, C]⟩ : Shape).Idx) :
    IsReal (Host.scatter (rowScatterDims N E C wf) (fun _ b => b) x idx u i) :=
  rowScatter_set_all wf IsReal x idx u hx hu i

end Cert.ScatterSet

end
-- ==== Proof.RefReal1.lean ====
/-
  Real entries along the reference's stages, first layer up to the activations before normalisation.

  When every float argument has real entries, so has every stage of the reference computation: a sum of products of
  reals plus a real bias is real; the maximum with zero of a real is real; a row taken from a real table is an entry
  of that table; writing real rows into a real table leaves a real table; adding real rows into the zero table gives
  finite sums of reals.  The stages are visited in the order the reference computes them.
-/
import proofs.«168167_j60026462929460_2_alg».proof.Proof.RefStages
import proofs.«168167_j60026462929460_2_alg».proof.Proof.LibRealClosure
import proofs.«168167_j60026462929460_2_alg».proof.Proof.LibScatterSetReal

noncomputable section

open scoped BigOperators

namespace Cert.Bridge

open Idealize.ShloMosaic Idealize.ShloMosaic.ValueIdx Cert.ReferenceIdeal Cert.ReferenceIdeal.Read Cert.RealEntries

/-! ## Three general facts -/

/-- The maximum of a real with the number zero is real. -/
theorem max_zero_real {x : EReal} (hx : IsReal x) :
    IsReal (FloatOps.maximumf (F := Ideal) (φ := .f32) x (FloatOps.ofBits (F := Ideal) .f32 0x00000000#32)) :=
  IsReal.max hx isReal_zero_word

/-- Every entry of a gather is an entry of the table it reads. -/
theorem gather_real {s si t : Shape} {w : Nat} (d : GatherDims s si t) (x : s.Idx → EReal) (idx : IVec si w)
    (hx : ∀ i, IsReal (x i)) (j : t.Idx) : IsReal (Host.gather d x idx j) := by
  unfold Host.gather
  exact hx _

/-- Adding real updates into a real table: each entry is the table's entry plus a finite sum of updates. -/
theorem scatterAdd_real {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-! ## The hypothesis -/

/-- Every float argument has real entries. -/
structure ArgsReal (A : Args) : Prop where
  h0 : ∀ i, IsReal (A.a0 i)
  h2 : ∀ i, IsReal (A.a2 i)
  h3 : ∀ i, IsReal (A.a3 i)
  h4 : ∀ i, IsReal (A.a4 i)
  h5 : ∀ i, IsReal (A.a5 i)
  h6 : ∀ i, IsReal (A.a6 i)
  h7 : ∀ i, IsReal (A.a7 i)
  h8 : ∀ i, IsReal (A.a8 i)
  h9 : ∀ i, IsReal (A.a9 i)
  h10 : ∀ i, IsReal (A.a10 i)
  h11 : ∀ i, IsReal (A.a11 i)
  h12 : ∀ i, IsReal (A.a12 i)
  h13 : ∀ i, IsReal (A.a13 i)
  h14 : ∀ i, IsReal (A.a14 i)
  h15 : ∀ i, IsReal (A.a15 i)
  h16 : ∀ i, IsReal (A.a16 i)
  h17 : ∀ i, IsReal (A.a17 i)

variable (A : Args) (H : ArgsReal A)
include H

/-! ## The node projection and the first edge encoding -/

/-- h0 = x·W + b. -/
theorem real_v7 (i : S100000x128.Idx) : IsReal (val_main_v7 (F := Ideal) A.a0 A.a3 A.a4 i) := by
  rw [val_main_v7_apply, val_main_v4_apply, val_main_v6_apply, val_main_v5_apply]
  exact IsReal.addf (IsReal.sum _ _ fun k _ => (H.h0 _).mul (H.h3 _)) (H.h4 _)

/-- ee0 = edge attribute · w + c. -/
theorem real_v11 (i : S600000x128.Idx) : IsReal (val_main_v11 (F := Ideal) A.a2 A.a5 A.a6 i) := by
  rw [val_main_v11_apply, val_main_v8_apply, val_main_v10_apply, val_main_v9_apply]
  exact IsReal.addf (IsReal.sum _ _ fun k _ => (H.h2 _).mul (H.h5 _)) (H.h6 _)

/-! ## The two overwrite-scatters -/

/-- relu(h0[src] + ee0). -/
theorem real_v20 (i : S600000x128.Idx) :
    IsReal (val_main_v20 (F := Ideal) A.a0 A.a1 A.a2 A.a3 A.a4 A.a5 A.a6 i) := by
  rw [val_main_v20_apply, val_main_call0_v0_apply, val_main_call0_cst_apply, val_main_v19_apply]
  unfold val_main_v18
  exact max_zero_real (IsReal.addf (gather_real _ _ _ (real_v7 A H) i) (real_v11 A H i))

/-- h0 with the rows named by src overwritten. -/
theorem real_v27 (i : S100000x128.Idx) :
    IsReal (val_main_v27 (F := Ideal) A.a0 A.a1 A.a2 A.a3 A.a4 A.a5 A.a6 i) := by
  unfold val_main_v27
  exact Cert.ScatterSet.scatter_set_all _ IsReal _ _ _ (real_v7 A H) (real_v20 A H) i

/-- relu(h0[dst] + ee0). -/
theorem real_v36 (i : S600000x128.Idx) :
    IsReal (val_main_v36 (F := Ideal) A.a0 A.a1 A.a2 A.a3 A.a4 A.a5 A.a6 i) := by
  rw [val_main_v36_apply, val_main_call1_v0_apply, val_main_call1_cst_apply, val_main_v35_apply]
  unfold val_main_v34
  exact max_zero_real (IsReal.addf (gather_real _ _ _ (real_v7 A H) i) (real_v11 A H i))

/-- The node features after both overwrite-scatters. -/
theorem real_v43 (i : S100000x128.Idx) :
    IsReal (val_main_v43 (F := Ideal) A.a0 A.a1 A.a2 A.a3 A.a4 A.a5 A.a6 i) := by
  unfold val_main_v43
  exact Cert.ScatterSet.scatter_set_all _ IsReal _ _ _ (real_v27 A H) (real_v36 A H) i

/-! ## The first layer's slices of the stacked parameters -/

theorem real_v45 (i : S_.Idx) : IsReal (val_main_v45 (F := Ideal) A.a7 i) := by
  unfold val_main_v45 shapeCast
  rw [val_main_v44_apply]
  exact H.h7 _

theorem real_v47 (i : S1x128.Idx) : IsReal (val_main_v47 (F := Ideal) A.a8 i) := by
  rw [val_main_v47_apply, val_main_v46_apply]; exact H.h8 _

theorem real_v49 (i : S128.Idx) : IsReal (val_main_v49 (F := Ideal) A.a9 i) := by
  rw [val_main_v49_apply, val_main_v48_apply]; exact H.h9 _

theorem real_v51 (i : S128x128.Idx) : IsReal (val_main_v51 (F := Ideal) A.a10 i) := by
  rw [val_main_v51_apply, val_main_v50_apply]; exact H.h10 _

theorem real_v53 (i : S128.Idx) : IsReal (val_main_v53 (F := Ideal) A.a11 i) := by
  rw [val_main_v53_apply, val_main_v52_apply]; exact H.h11 _

theorem real_v55 (i : S128x256.Idx) : IsReal (val_main_v55 (F := Ideal) A.a12 i) := by
  rw [val_main_v55_apply, val_main_v54_apply]; exact H.h12 _

theorem real_v57 (i : S256.Idx) : IsReal (val_main_v57 (F := Ideal) A.a13 i) := by
  rw [val_main_v57_apply, val_main_v56_apply]; exact H.h13 _

theorem real_v59 (i : S256.Idx) : IsReal (val_main_v59 (F := Ideal) A.a14 i) := by
  rw [val_main_v59_apply, val_main_v58_apply]; exact H.h14 _

theorem real_v61 (i : S256.Idx) : IsReal (val_main_v61 (F := Ideal) A.a15 i) := by
  rw [val_main_v61_apply, val_main_v60_apply]; exact H.h15 _

theorem real_v63 (i : S256x128.Idx) : IsReal (val_main_v63 (F := Ideal) A.a16 i) := by
  rw [val_main_v63_apply, val_main_v62_apply]; exact H.h16 _

theorem real_v65 (i : S128.Idx) : IsReal (val_main_v65 (F := Ideal) A.a17 i) := by
  rw [val_main_v65_apply, val_main_v64_apply]; exact H.h17 _

/-! ## The first layer's edge encoder -/

/-- relu(edge attribute · w1 + c1). -/
theorem real_v70 (i : S600000x128.Idx) : IsReal (val_main_v70 (F := Ideal) A.a2 A.a8 A.a9 i) := by
  rw [val_main_v70_apply, val_main_call2_v0_apply, val_main_call2_cst_apply, val_main_v69_apply, val_main_v66_apply,
    val_main_v68_apply, val_main_v67_apply]
  exact max_zero_real (IsReal.addf (IsReal.sum _ _ fun k _ => (H.h2 _).mul (real_v47 A H _)) (real_v49 A H _))

/-- The first layer's edge encoding. -/
theorem real_v74 (i : S600000x128.Idx) : IsReal (val_main_v74 (F := Ideal) A.a2 A.a8 A.a9 A.a10 A.a11 i) := by
  rw [val_main_v74_apply, val_main_v71_apply, val_main_v73_apply, val_main_v72_apply]
  exact IsReal.addf (IsReal.sum _ _ fun k _ => (real_v70 A H _).mul (real_v51 A H _)) (real_v53 A H _)

/-! ## Messages, their sum over the incoming edges, and the activations -/

/-- relu(h[src] + ee). -/
theorem real_v83 (i : S600000x128.Idx) :
    IsReal (val_main_v83 (F := Ideal) A.a0 A.a1 A.a2 A.a3 A.a4 A.a5 A.a6 A.a8 A.a9 A.a10 A.a11 i) := by
  rw [val_main_v83_apply, val_main_call3_v0_apply, val_main_call3_cst_apply, val_main_v82_apply]
  unfold val_main_v81
  exact max_zero_real (IsReal.addf (gather_real _ _ _ (real_v43 A H) i) (real_v74 A H i))

/-- The messages added, row by row, into the zero table. -/
theorem real_v86 (i : S100000x128.Idx) :
    IsReal (val_main_v86 (F := Ideal) A.a0 A.a1 A.a2 A.a3 A.a4 A.a5 A.a6 A.a8 A.a9 A.a10 A.a11 i) := by
  unfold val_main_v86
  refine scatterAdd_real _ _ _ _ (fun j => ?_) (real_v83 A H) i
  rw [val_main_v84_apply, val_main_cst_apply]
  exact isReal_zero_word

/-- 1 + eps. -/
theorem real_v87 (i : S_.Idx) : IsReal (val_main_v87 (F := Ideal) A.a7 i) := by
  rw [val_main_v87_apply, val_main_cst_9_apply]
  exact IsReal.addf isReal_one_word (real_v45 A H i)

/-- (1 + eps)·h + agg. -/
theorem real_v90 (i : S100000x128.Idx) :
    IsReal (val_main_v90 (F := Ideal) A.a0 A.a1 A.a2 A.a3 A.a4 A.a5 A.a6 A.a7 A.a8 A.a9 A.a10 A.a11 i) := by
  rw [val_main_v90_apply, val_main_v89_apply, val_main_v88_apply]
  exact IsReal.addf (IsReal.mulf (real_v87 A H _) (real_v43 A H i)) (real_v86 A H i)

/-- THE FIRST LAYER'S ACTIVATIONS z1 = ((1 + eps)·h + agg)·M1 + c1 are real. -/
theorem real_v94 (i : S100000x256.Idx) :
    IsReal (val_main_v94 (F := Ideal) A.a0 A.a1 A.a2 A.a3 A.a4 A.a5 A.a6 A.a7 A.a8 A.a9 A.a10 A.a11 A.a12 A.a13 i) := by
  rw [val_main_v94_apply, val_main_v91_apply, val_main_v93_apply, val_main_v92_apply]
  exact IsReal.addf (IsReal.sum _ _ fun k _ => (real_v90 A H _).mul (real_v55 A H _)) (real_v57 A H _)

/-! ## The same facts under the stages' names -/

theorem rH0_real (i : S100000x128.Idx) : IsReal (rH0 A i) := real_v7 A H i
theorem rEE0_real (i : S600000x128.Idx) : IsReal (rEE0 A i) := real_v11 A H i
theorem rH1_real (i : S100000x128.Idx) : IsReal (rH1 A i) := real_v43 A H i
theorem rEE1_real (i : S600000x128.Idx) : IsReal (rEE1 A i) := real_v74 A H i
theorem rAgg1_real (i : S100000x128.Idx) : IsReal (rAgg1 A i) := real_v86 A H i
theorem rZ1_real (i : S100000x256.Idx) : IsReal (rZ1 A i) := real_v94 A H i

end Cert.Bridge

end
-- ==== Proof.RefReal2.lean ====
/-
  Real entries along the reference's stages, first layer from the column statistics to the layer's output.

  The activations z1 are real (first part).  Their column mean — zero plus a finite sum of reals, divided by the
  real 100000 — is real; the column variance — zero plus a finite sum of squares of reals, divided by 100000 — is a
  nonnegative real; adding the small positive constant gives a positive real, whose reciprocal square root is real.
  The normalised, scaled and shifted activations, their positive part, and the second affine map with its positive
  part are then sums, products and maxima of reals.
-/
import proofs.«168167_j60026462929460_2_alg».proof.Proof.RefReal1

noncomputable section

open scoped BigOperators

namespace Cert.Bridge

open Idealize.ShloMosaic Idealize.ShloMosaic.ValueIdx Cert.ReferenceIdeal Cert.ReferenceIdeal.Read Cert.RealEntries

/-! ## Two general facts -/

/-- Zero plus a finite sum of squares of reals is a nonnegative real. -/
theorem sum_sq_real_nonneg {ι : Type} [Fintype ι] (f : ι → EReal) (hf : ∀ k, IsReal (f k)) :
    IsReal (Ideal.ofBits .f32 0x00000000#32 + ∑ k, f k * f k)
      ∧ 0 ≤ Ideal.ofBits .f32 0x00000000#32 + ∑ k, f k * f k := by
  rw [ofBits_zero, zero_add]
  refine ⟨IsReal.sum _ _ fun k _ => (hf k).mul (hf k), Finset.sum_nonneg fun k _ => ?_⟩
  obtain ⟨r, hr⟩ := hf k
  rw [hr, ← EReal.coe_mul]
  exact_mod_cast mul_self_nonneg r

/-- A nonnegative real divided by 100000 is a nonnegative real. -/
theorem div_100000_real_nonneg {x : EReal} (hx : IsReal x) (h0 : 0 ≤ x) :
    IsReal (Ideal.div x (Ideal.ofBits .f32 0x47C35000#32)) ∧ 0 ≤ Ideal.div x (Ideal.ofBits .f32 0x47C35000#32) := by
  refine ⟨IsReal.div hx isReal_100000_word ofBits_100000_ne_zero, ?_⟩
  obtain ⟨r, rfl⟩ := hx
  have hr : 0 ≤ r := by exact_mod_cast h0
  rw [ofBits_100000, Ideal.div_coe (by norm_num : (100000 : ℝ) ≠ 0), ← EReal.coe_mul]
  exact_mod_cast mul_nonneg hr (by norm_num)

variable (A : Args) (H : ArgsReal A)
include H

/-! ## The column mean -/

/-- The column sums of z1. -/
theorem real_v95 (i : S256.Idx) : IsReal (val_main_v95 (F := Ideal) A.a0 A.a1 A.a2 A.a3 A.a4 A.a5 A.a6 A.a7 A.a8 A.a9 A.a10 A.a11 A.a12 A.a13 i) := by
  rw [val_main_v95_apply, val_main_cst_10_apply]
  exact IsReal.add isReal_zero_word (IsReal.sum _ _ fun k _ => real_v94 A H _)

/-- The column means of z1. -/
theorem real_v97 (i : S256.Idx) : IsReal (val_main_v97 (F := Ideal) A.a0 A.a1 A.a2 A.a3 A.a4 A.a5 A.a6 A.a7 A.a8 A.a9 A.a10 A.a11 A.a12 A.a13 i) := by
  rw [val_main_v97_apply, val_main_v96_apply, val_main_cst_11_apply]
  exact IsReal.hostDivf (real_v95 A H i) isReal_100000_word ofBits_100000_ne_zero

/-- z1 minus its column mean (as the variance reads it). -/
theorem real_v100 (i : S100000x256.Idx) : IsReal (val_main_v100 (F := Ideal) A.a0 A.a1 A.a2 A.a3 A.a4 A.a5 A.a6 A.a7 A.a8 A.a9 A.a10 A.a11 A.a12 A.a13 i) := by
  rw [val_main_v100_apply, val_main_v99_apply, val_main_v98_apply]
  exact IsReal.subf (real_v94 A H i) (real_v97 A H _)

/-- z1 minus its column mean (as the normalisation reads it). -/
theorem real_v107 (i : S100000x256.Idx) : IsReal (val_main_v107 (F := Ideal) A.a0 A.a1 A.a2 A.a3 A.a4 A.a5 A.a6 A.a7 A.a8 A.a9 A.a10 A.a11 A.a12 A.a13 i) := by
  rw [val_main_v107_apply, val_main_v106_apply, val_main_v105_apply]
  exact IsReal.subf (real_v94 A H i) (real_v97 A H _)

/-! ## The column variance -/

/-- THE COLUMN VARIANCE of z1 is a nonnegative real: a sum of squares of reals over 100000. -/
theorem real_v104 (i : S256.Idx) :
    IsReal (val_main_v104 (F := Ideal) A.a0 A.a1 A.a2 A.a3 A.a4 A.a5 A.a6 A.a7 A.a8 A.a9 A.a10 A.a11 A.a12 A.a13 i) ∧ 0 ≤ val_main_v104 (F := Ideal) A.a0 A.a1 A.a2 A.a3 A.a4 A.a5 A.a6 A.a7 A.a8 A.a9 A.a10 A.a11 A.a12 A.a13 i := by
  rw [val_main_v104_apply, val_main_v103_apply, val_main_cst_13_apply, val_main_v102_apply, val_main_cst_12_apply]
  simp only [val_main_v101_apply]
  obtain ⟨hr, hn⟩ := sum_sq_real_nonneg
    (fun k : Fin 100000 => val_main_v100 (F := Ideal) A.a0 A.a1 A.a2 A.a3 A.a4 A.a5 A.a6 A.a7 A.a8 A.a9 A.a10 A.a11 A.a12 A.a13 (idx_main_v102 i k)) (fun k => real_v100 A H _)
  exact div_100000_real_nonneg hr hn

/-- The variance plus the small positive constant is a positive real. -/
theorem real_v109 (i : S256.Idx) :
    IsReal (val_main_v109 (F := Ideal) A.a0 A.a1 A.a2 A.a3 A.a4 A.a5 A.a6 A.a7 A.a8 A.a9 A.a10 A.a11 A.a12 A.a13 i) ∧ 0 < val_main_v109 (F := Ideal) A.a0 A.a1 A.a2 A.a3 A.a4 A.a5 A.a6 A.a7 A.a8 A.a9 A.a10 A.a11 A.a12 A.a13 i := by
  rw [val_main_v109_apply, val_main_v108_apply, val_main_cst_14_apply]
  obtain ⟨hr, hn⟩ := real_v104 A H i
  exact add_pos_real hr hn isReal_eps_word eps_word_pos

/-- Its reciprocal square root is real. -/
theorem real_v110 (i : S256.Idx) : IsReal (val_main_v110 (F := Ideal) A.a0 A.a1 A.a2 A.a3 A.a4 A.a5 A.a6 A.a7 A.a8 A.a9 A.a10 A.a11 A.a12 A.a13 i) := by
  rw [val_main_v110_apply]
  exact IsReal.rsqrt_host (real_v109 A H i).1 (real_v109 A H i).2

/-! ## Normalisation and the second affine map -/

/-- (z1 − mean)·rsqrt(var + eps)·gamma + beta. -/
theorem real_v119 (i : S100000x256.Idx) : IsReal (val_main_v119 (F := Ideal) A.a0 A.a1 A.a2 A.a3 A.a4 A.a5 A.a6 A.a7 A.a8 A.a9 A.a10 A.a11 A.a12 A.a13 A.a14 A.a15 i) := by
  rw [val_main_v119_apply, val_main_v116_apply, val_main_v113_apply, val_main_v112_apply, val_main_v111_apply,
    val_main_v115_apply, val_main_v114_apply, val_main_v118_apply, val_main_v117_apply]
  exact IsReal.addf (IsReal.mulf (IsReal.mulf (real_v107 A H i) (real_v110 A H _)) (real_v59 A H _)) (real_v61 A H _)

/-- Its positive part. -/
theorem real_v120 (i : S100000x256.Idx) : IsReal (val_main_v120 (F := Ideal) A.a0 A.a1 A.a2 A.a3 A.a4 A.a5 A.a6 A.a7 A.a8 A.a9 A.a10 A.a11 A.a12 A.a13 A.a14 A.a15 i) := by
  rw [val_main_v120_apply, val_main_call4_v0_apply, val_main_call4_cst_apply]
  exact max_zero_real (real_v119 A H i)

/-- The second affine map. -/
theorem real_v124 (i : S100000x128.Idx) : IsReal (val_main_v124 (F := Ideal) A.a0 A.a1 A.a2 A.a3 A.a4 A.a5 A.a6 A.a7 A.a8 A.a9 A.a10 A.a11 A.a12 A.a13 A.a14 A.a15 A.a16 A.a17 i) := by
  rw [val_main_v124_apply, val_main_v121_apply, val_main_v123_apply, val_main_v122_apply]
  exact IsReal.addf (IsReal.sum _ _ fun k _ => (real_v120 A H _).mul (real_v63 A H _)) (real_v65 A H _)

/-- THE FIRST LAYER'S OUTPUT (the positive part of the second affine map) is real. -/
theorem real_v125 (i : S100000x128.Idx) : IsReal (val_main_v125 (F := Ideal) A.a0 A.a1 A.a2 A.a3 A.a4 A.a5 A.a6 A.a7 A.a8 A.a9 A.a10 A.a11 A.a12 A.a13 A.a14 A.a15 A.a16 A.a17 i) := by
  rw [val_main_v125_apply, val_main_call5_v0_apply, val_main_call5_cst_apply]
  exact max_zero_real (real_v124 A H i)

/-! ## The same facts under the stages' names -/

theorem rMu1_real (i : S256.Idx) : IsReal (rMu1 A i) := real_v97 A H i
theorem rVar1_real (i : S256.Idx) : IsReal (rVar1 A i) := (real_v104 A H i).1
theorem rVar1_nonneg (i : S256.Idx) : 0 ≤ rVar1 A i := (real_v104 A H i).2
theorem rH2_real (i : S100000x128.Idx) : IsReal (rH2 A i) := real_v125 A H i

end Cert.Bridge

end
-- ==== Proof.RefReal3.lean ====
/-
  Real entries along the reference's stages, second layer up to the activations before normalisation.

  The second layer repeats the first on the first layer's output, with the second slices of the stacked parameters:
  its edge encoding, its messages relu(h[src] + ee), their sums over the incoming edges, and the activations
  z1 = ((1 + eps)·h + agg)·M1 + c1 are sums, products and maxima of reals.
-/
import proofs.«168167_j60026462929460_2_alg».proof.Proof.RefReal2

noncomputable section

open scoped BigOperators

namespace Cert.Bridge

open Idealize.ShloMosaic Idealize.ShloMosaic.ValueIdx Cert.ReferenceIdeal Cert.ReferenceIdeal.Read Cert.RealEntries

variable (A : Args) (H : ArgsReal A)
include H

/-! ## The second layer's slices of the stacked parameters -/

theorem real_v127 (i : S_.Idx) : IsReal (val_main_v127 (F := Ideal) A.a7 i) := by
  unfold val_main_v127 shapeCast
  rw [val_main_v126_apply]
  exact H.h7 _

theorem real_v129 (i : S1x128.Idx) : IsReal (val_main_v129 (F := Ideal) A.a8 i) := by
  rw [val_main_v129_apply, val_main_v128_apply]; exact H.h8 _

theorem real_v131 (i : S128.Idx) : IsReal (val_main_v131 (F := Ideal) A.a9 i) := by
  rw [val_main_v131_apply, val_main_v130_apply]; exact H.h9 _

theorem real_v133 (i : S128x128.Idx) : IsReal (val_main_v133 (F := Ideal) A.a10 i) := by
  rw [val_main_v133_apply, val_main_v132_apply]; exact H.h10 _

theorem real_v135 (i : S128.Idx) : IsReal (val_main_v135 (F := Ideal) A.a11 i) := by
  rw [val_main_v135_apply, val_main_v134_apply]; exact H.h11 _

theorem real_v137 (i : S128x256.Idx) : IsReal (val_main_v137 (F := Ideal) A.a12 i) := by
  rw [val_main_v137_apply, val_main_v136_apply]; exact H.h12 _

theorem real_v139 (i : S256.Idx) : IsReal (val_main_v139 (F := Ideal) A.a13 i) := by
  rw [val_main_v139_apply, val_main_v138_apply]; exact H.h13 _

theorem real_v141 (i : S256.Idx) : IsReal (val_main_v141 (F := Ideal) A.a14 i) := by
  rw [val_main_v141_apply, val_main_v140_apply]; exact H.h14 _

theorem real_v143 (i : S256.Idx) : IsReal (val_main_v143 (F := Ideal) A.a15 i) := by
  rw [val_main_v143_apply, val_main_v142_apply]; exact H.h15 _

theorem real_v145 (i : S256x128.Idx) : IsReal (val_main_v145 (F := Ideal) A.a16 i) := by
  rw [val_main_v145_apply, val_main_v144_apply]; exact H.h16 _

theorem real_v147 (i : S128.Idx) : IsReal (val_main_v147 (F := Ideal) A.a17 i) := by
  rw [val_main_v147_apply, val_main_v146_apply]; exact H.h17 _

/-! ## The second layer's edge encoder -/

/-- relu(edge attribute · w1 + c1). -/
theorem real_v152 (i : S600000x128.Idx) : IsReal (val_main_v152 (F := Ideal) A.a2 A.a8 A.a9 i) := by
  rw [val_main_v152_apply, val_main_call6_v0_apply, val_main_call6_cst_apply, val_main_v151_apply, val_main_v148_apply,
    val_main_v150_apply, val_main_v149_apply]
  exact max_zero_real (IsReal.addf (IsReal.sum _ _ fun k _ => (H.h2 _).mul (real_v129 A H _)) (real_v131 A H _))

/-- The second layer's edge encoding. -/
theorem real_v156 (i : S600000x128.Idx) : IsReal (val_main_v156 (F := Ideal) A.a2 A.a8 A.a9 A.a10 A.a11 i) := by
  rw [val_main_v156_apply, val_main_v153_apply, val_main_v155_apply, val_main_v154_apply]
  exact IsReal.addf (IsReal.sum _ _ fun k _ => (real_v152 A H _).mul (real_v133 A H _)) (real_v135 A H _)

/-! ## Messages, their sum over the incoming edges, and the activations -/

/-- relu(h[src] + ee). -/
theorem real_v165 (i : S600000x128.Idx) : IsReal (val_main_v165 (F := Ideal) A.a0 A.a1 A.a2 A.a3 A.a4 A.a5 A.a6 A.a7 A.a8 A.a9 A.a10 A.a11 A.a12 A.a13 A.a14 A.a15 A.a16 A.a17 i) := by
  rw [val_main_v165_apply, val_main_call7_v0_apply, val_main_call7_cst_apply, val_main_v164_apply]
  unfold val_main_v163
  exact max_zero_real (IsReal.addf (gather_real _ _ _ (real_v125 A H) i) (real_v156 A H i))

/-- The messages added, row by row, into the zero table. -/
theorem real_v168 (i : S100000x128.Idx) : IsReal (val_main_v168 (F := Ideal) A.a0 A.a1 A.a2 A.a3 A.a4 A.a5 A.a6 A.a7 A.a8 A.a9 A.a10 A.a11 A.a12 A.a13 A.a14 A.a15 A.a16 A.a17 i) := by
  unfold val_main_v168
  refine scatterAdd_real _ _ _ _ (fun j => ?_) (real_v165 A H) i
  rw [val_main_v166_apply, val_main_cst_17_apply]
  exact isReal_zero_word

/-- 1 + eps. -/
theorem real_v169 (i : S_.Idx) : IsReal (val_main_v169 (F := Ideal) A.a7 i) := by
  rw [val_main_v169_apply, val_main_cst_18_apply]
  exact IsReal.addf isReal_one_word (real_v127 A H i)

/-- (1 + eps)·h + agg. -/
theorem real_v172 (i : S100000x128.Idx) : IsReal (val_main_v172 (F := Ideal) A.a0 A.a1 A.a2 A.a3 A.a4 A.a5 A.a6 A.a7 A.a8 A.a9 A.a10 A.a11 A.a12 A.a13 A.a14 A.a15 A.a16 A.a17 i) := by
  rw [val_main_v172_apply, val_main_v171_apply, val_main_v170_apply]
  exact IsReal.addf (IsReal.mulf (real_v169 A H _) (real_v125 A H i)) (real_v168 A H i)

/-- THE SECOND LAYER'S ACTIVATIONS z1 = ((1 + eps)·h + agg)·M1 + c1 are real. -/
theorem real_v176 (i : S100000x256.Idx) : IsReal (val_main_v176 (F := Ideal) A.a0 A.a1 A.a2 A.a3 A.a4 A.a5 A.a6 A.a7 A.a8 A.a9 A.a10 A.a11 A.a12 A.a13 A.a14 A.a15 A.a16 A.a17 i) := by
  rw [val_main_v176_apply, val_main_v173_apply, val_main_v175_apply, val_main_v174_apply]
  exact IsReal.addf (IsReal.sum _ _ fun k _ => (real_v172 A H _).mul (real_v137 A H _)) (real_v139 A H _)

/-! ## The same facts under the stages' names -/

theorem rEE2_real (i : S600000x128.Idx) : IsReal (rEE2 A i) := real_v156 A H i
theorem rAgg2_real (i : S100000x128.Idx) : IsReal (rAgg2 A i) := real_v168 A H i
theorem rZ2_real (i : S100000x256.Idx) : IsReal (rZ2 A i) := real_v176 A H i

end Cert.Bridge

end
-- ==== Proof.RefReal4.lean ====
/-
  Real entries along the reference's stages, second layer from the column statistics to the result.

  As in the first layer: the column mean of the real activations is real, their column variance is a nonnegative
  real, the variance plus the small positive constant is a positive real with a real reciprocal square root, and the
  normalised, scaled and shifted activations, their positive part and the last affine map are real.  The second
  layer ends with the affine map (no positive part after it).
-/
import proofs.«168167_j60026462929460_2_alg».proof.Proof.RefReal3

noncomputable section

open scoped BigOperators

namespace Cert.Bridge

open Idealize.ShloMosaic Idealize.ShloMosaic.ValueIdx Cert.ReferenceIdeal Cert.ReferenceIdeal.Read Cert.RealEntries

variable (A : Args) (H : ArgsReal A)
include H

/-! ## The column mean -/

/-- The column sums of the second layer's z1. -/
theorem real_v177 (i : S256.Idx) : IsReal (val_main_v177 (F := Ideal) A.a0 A.a1 A.a2 A.a3 A.a4 A.a5 A.a6 A.a7 A.a8 A.a9 A.a10 A.a11 A.a12 A.a13 A.a14 A.a15 A.a16 A.a17 i) := by
  rw [val_main_v177_apply, val_main_cst_19_apply]
  exact IsReal.add isReal_zero_word (IsReal.sum _ _ fun k _ => real_v176 A H _)

/-- Its column means. -/
theorem real_v179 (i : S256.Idx) : IsReal (val_main_v179 (F := Ideal) A.a0 A.a1 A.a2 A.a3 A.a4 A.a5 A.a6 A.a7 A.a8 A.a9 A.a10 A.a11 A.a12 A.a13 A.a14 A.a15 A.a16 A.a17 i) := by
  rw [val_main_v179_apply, val_main_v178_apply, val_main_cst_20_apply]
  exact IsReal.hostDivf (real_v177 A H i) isReal_100000_word ofBits_100000_ne_zero

/-- z1 minus its column mean (as the variance reads it). -/
theorem real_v182 (i : S100000x256.Idx) : IsReal (val_main_v182 (F := Ideal) A.a0 A.a1 A.a2 A.a3 A.a4 A.a5 A.a6 A.a7 A.a8 A.a9 A.a10 A.a11 A.a12 A.a13 A.a14 A.a15 A.a16 A.a17 i) := by
  rw [val_main_v182_apply, val_main_v181_apply, val_main_v180_apply]
  exact IsReal.subf (real_v176 A H i) (real_v179 A H _)

/-- z1 minus its column mean (as the normalisation reads it). -/
theorem real_v189 (i : S100000x256.Idx) : IsReal (val_main_v189 (F := Ideal) A.a0 A.a1 A.a2 A.a3 A.a4 A.a5 A.a6 A.a7 A.a8 A.a9 A.a10 A.a11 A.a12 A.a13 A.a14 A.a15 A.a16 A.a17 i) := by
  rw [val_main_v189_apply, val_main_v188_apply, val_main_v187_apply]
  exact IsReal.subf (real_v176 A H i) (real_v179 A H _)

/-! ## The column variance -/

/-- THE COLUMN VARIANCE of the second layer's z1 is a nonnegative real. -/
theorem real_v186 (i : S256.Idx) :
    IsReal (val_main_v186 (F := Ideal) A.a0 A.a1 A.a2 A.a3 A.a4 A.a5 A.a6 A.a7 A.a8 A.a9 A.a10 A.a11 A.a12 A.a13 A.a14 A.a15 A.a16 A.a17 i) ∧ 0 ≤ val_main_v186 (F := Ideal) A.a0 A.a1 A.a2 A.a3 A.a4 A.a5 A.a6 A.a7 A.a8 A.a9 A.a10 A.a11 A.a12 A.a13 A.a14 A.a15 A.a16 A.a17 i := by
  rw [val_main_v186_apply, val_main_v185_apply, val_main_cst_22_apply, val_main_v184_apply, val_main_cst_21_apply]
  simp only [val_main_v183_apply]
  obtain ⟨hr, hn⟩ := sum_sq_real_nonneg
    (fun k : Fin 100000 => val_main_v182 (F := Ideal) A.a0 A.a1 A.a2 A.a3 A.a4 A.a5 A.a6 A.a7 A.a8 A.a9 A.a10 A.a11 A.a12 A.a13 A.a14 A.a15 A.a16 A.a17 (idx_main_v184 i k)) (fun k => real_v182 A H _)
  exact div_100000_real_nonneg hr hn

/-- The variance plus the small positive constant is a positive real. -/
theorem real_v191 (i : S256.Idx) :
    IsReal (val_main_v191 (F := Ideal) A.a0 A.a1 A.a2 A.a3 A.a4 A.a5 A.a6 A.a7 A.a8 A.a9 A.a10 A.a11 A.a12 A.a13 A.a14 A.a15 A.a16 A.a17 i) ∧ 0 < val_main_v191 (F := Ideal) A.a0 A.a1 A.a2 A.a3 A.a4 A.a5 A.a6 A.a7 A.a8 A.a9 A.a10 A.a11 A.a12 A.a13 A.a14 A.a15 A.a16 A.a17 i := by
  rw [val_main_v191_apply, val_main_v190_apply, val_main_cst_23_apply]
  obtain ⟨hr, hn⟩ := real_v186 A H i
  exact add_pos_real hr hn isReal_eps_word eps_word_pos

/-- Its reciprocal square root is real. -/
theorem real_v192 (i : S256.Idx) : IsReal (val_main_v192 (F := Ideal) A.a0 A.a1 A.a2 A.a3 A.a4 A.a5 A.a6 A.a7 A.a8 A.a9 A.a10 A.a11 A.a12 A.a13 A.a14 A.a15 A.a16 A.a17 i) := by
  rw [val_main_v192_apply]
  exact IsReal.rsqrt_host (real_v191 A H i).1 (real_v191 A H i).2

/-! ## Normalisation and the last affine map -/

/-- (z1 − mean)·rsqrt(var + eps)·gamma + beta. -/
theorem real_v201 (i : S100000x256.Idx) : IsReal (val_main_v201 (F := Ideal) A.a0 A.a1 A.a2 A.a3 A.a4 A.a5 A.a6 A.a7 A.a8 A.a9 A.a10 A.a11 A.a12 A.a13 A.a14 A.a15 A.a16 A.a17 i) := by
  rw [val_main_v201_apply, val_main_v198_apply, val_main_v195_apply, val_main_v194_apply, val_main_v193_apply,
    val_main_v197_apply, val_main_v196_apply, val_main_v200_apply, val_main_v199_apply]
  exact IsReal.addf (IsReal.mulf (IsReal.mulf (real_v189 A H i) (real_v192 A H _)) (real_v141 A H _)) (real_v143 A H _)

/-- Its positive part. -/
theorem real_v202 (i : S100000x256.Idx) : IsReal (val_main_v202 (F := Ideal) A.a0 A.a1 A.a2 A.a3 A.a4 A.a5 A.a6 A.a7 A.a8 A.a9 A.a10 A.a11 A.a12 A.a13 A.a14 A.a15 A.a16 A.a17 i) := by
  rw [val_main_v202_apply, val_main_call8_v0_apply, val_main_call8_cst_apply]
  exact max_zero_real (real_v201 A H i)

/-- THE RESULT (the last affine map) is real. -/
theorem real_v206 (i : S100000x128.Idx) : IsReal (val_main_v206 (F := Ideal) A.a0 A.a1 A.a2 A.a3 A.a4 A.a5 A.a6 A.a7 A.a8 A.a9 A.a10 A.a11 A.a12 A.a13 A.a14 A.a15 A.a16 A.a17 i) := by
  rw [val_main_v206_apply, val_main_v203_apply, val_main_v205_apply, val_main_v204_apply]
  exact IsReal.addf (IsReal.sum _ _ fun k _ => (real_v202 A H _).mul (real_v145 A H _)) (real_v147 A H _)

/-! ## The same facts under the stages' names -/

theorem rMu2_real (i : S256.Idx) : IsReal (rMu2 A i) := real_v179 A H i
theorem rVar2_real (i : S256.Idx) : IsReal (rVar2 A i) := (real_v186 A H i).1
theorem rVar2_nonneg (i : S256.Idx) : 0 ≤ rVar2 A i := (real_v186 A H i).2
theorem rOut_real (i : S100000x128.Idx) : IsReal (rOut A i) := real_v206 A H i

end Cert.Bridge

end
-- ==== Proof.PreReal.lean ====
/-
  Every float argument has real entries.

  The precondition is the conjunction, over the seventeen float arguments, of "the `and`-reduction over the whole
  argument of the entrywise test |x| < +∞ is true".  A conjunction of truth values is true only when each conjunct is,
  and each conjunct makes every entry of its argument a real number.
-/
import proofs.«168167_j60026462929460_2_alg».proof.Pre_finite_inputs
import proofs.«168167_j60026462929460_2_alg».proof.Proof.LibRealEntries

noncomputable section

namespace Cert.PreReal

open Idealize.ShloMosaic Cert.RealEntries Cert.Pre_finite_inputs

variable [Cert.Pre_finite_inputs.Facts]

/-- When the finiteness test of all the arguments is the all-ones word, every entry of every float argument is a
    real number. -/
theorem args_real (a0 : FVec Ideal S100000x128 .f32) (a1 : IVec S2x600000 32) (a2 : FVec Ideal S600000x1 .f32) (a3 : FVec Ideal S128x128 .f32) (a4 : FVec Ideal S128 .f32) (a5 : FVec Ideal S1x128 .f32) (a6 : FVec Ideal S128 .f32) (a7 : FVec Ideal S2 .f32) (a8 : FVec Ideal S2x1x128 .f32) (a9 : FVec Ideal S2x128 .f32) (a10 : FVec Ideal S2x128x128 .f32) (a11 : FVec Ideal S2x128 .f32) (a12 : FVec Ideal S2x128x256 .f32) (a13 : FVec Ideal S2x256 .f32) (a14 : FVec Ideal S2x256 .f32) (a15 : FVec Ideal S2x256 .f32) (a16 : FVec Ideal S2x256x128 .f32) (a17 : FVec Ideal S2x128 .f32)
    (h : Cert.Pre_finite_inputs.fn (F := Ideal) a0 a1 a2 a3 a4 a5 a6 a7 a8 a9 a10 a11 a12 a13 a14 a15 a16 a17 = (fun _ => 1#1)) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) := by
  have h0 := congrFun h ValueIdx.ix0
  dsimp only [fn, fn_part1, fn_part2, fn_part3, fn_part4, andi] at h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  exact ⟨entries_real a0 _ _ _ h0, entries_real a2 _ _ _ e2, entries_real a3 _ _ _ e3, entries_real a4 _ _ _ e4, entries_real a5 _ _ _ e5, entries_real a6 _ _ _ e6, entries_real a7 _ _ _ e7, entries_real a8 _ _ _ e8, entries_real a9 _ _ _ e9, entries_real a10 _ _ _ e10, entries_real a11 _ _ _ e11, entries_real a12 _ _ _ e12, entries_real a13 _ _ _ e13, entries_real a14 _ _ _ e14, entries_real a15 _ _ _ e15, entries_real a16 _ _ _ e16, entries_real a17 _ _ _ e17⟩

end Cert.PreReal

end
-- ==== Proof.ArgsRealOfPre.lean ====
/-
  From the finiteness precondition to "every float argument has real entries".

  The precondition's conjunction over the seventeen float arguments gives one fact per argument; they are collected
  into the hypothesis the stage-by-stage statements take.
-/
import proofs.«168167_j60026462929460_2_alg».proof.Proof.PreReal
import proofs.«168167_j60026462929460_2_alg».proof.Proof.RefReal1

noncomputable section

namespace Cert.Bridge

open Idealize.ShloMosaic Cert.RealEntries

/-- When the finiteness test of the eighteen arguments is the all-ones word, every float argument has real entries. -/
theorem ArgsReal.of_pre [Cert.Pre_finite_inputs.Facts] (A : Args)
    (h : Cert.Pre_finite_inputs.fn (F := Ideal) A.a0 A.a1 A.a2 A.a3 A.a4 A.a5 A.a6 A.a7 A.a8 A.a9 A.a10 A.a11 A.a12 A.a13 A.a14 A.a15 A.a16 A.a17 = (fun _ => 1#1)) : ArgsReal A := by
  obtain ⟨h0, h2, h3, h4, h5, h6, h7, h8, h9, h10, h11, h12, h13, h14, h15, h16, h17⟩ := Cert.PreReal.args_real A.a0 A.a1 A.a2 A.a3 A.a4 A.a5 A.a6 A.a7 A.a8 A.a9 A.a10 A.a11 A.a12 A.a13 A.a14 A.a15 A.a16 A.a17 h
  exact ⟨h0, h2, h3, h4, h5, h6, h7, h8, h9, h10, h11, h12, h13, h14, h15, h16, h17⟩

end Cert.Bridge

end
-- ==== Proof.Assemble.lean ====
/-
  From the kernel's buffers to the reference's stages, region by region.

  Each tiled region of the kernel writes one of the reference's affine stages (its value as a whole array, read through
  the blocks it flushed); the host operations between the regions are the reference's own gathers and scatters applied to
  those arrays. Walking the program in order: the node projection and the three edge encodings; the two overwrite-scatters;
  per layer the aggregation, the affine map z1 with its per-tile sums and sums of squares, the batch mean and variance
  (where the precondition is used: every entry of z1 is a real number), and the normalised, relu'd, second affine map.
-/
import proofs.«168167_j60026462929460_2_alg».proof.Proof.Fold
import proofs.«168167_j60026462929460_2_alg».proof.Proof.Bridge0
import proofs.«168167_j60026462929460_2_alg».proof.Proof.Bridge1
import proofs.«168167_j60026462929460_2_alg».proof.Proof.GlueBridge
import proofs.«168167_j60026462929460_2_alg».proof.Proof.Bridge2
import proofs.«168167_j60026462929460_2_alg».proof.Proof.Bridge3
import proofs.«168167_j60026462929460_2_alg».proof.Proof.Bridge4
import proofs.«168167_j60026462929460_2_alg».proof.Proof.Bridge5
import proofs.«168167_j60026462929460_2_alg».proof.Proof.KernelStatsBridge
import proofs.«168167_j60026462929460_2_alg».proof.Proof.RefReal4
import proofs.«168167_j60026462929460_2_alg».proof.Proof.ArgsRealOfPre

noncomputable section

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The node features entering layer 1's region are the reference's, after the two overwrite-scatters. -/
theorem h1_eq : V11 m ρ c main_v59 = rH1 (kA m c) := by
  rw [Cert.Fold.V11_main_v59, kH0_eq, kEE0_eq]
  exact hUpd_ref (kA m c)

/-- Layer 1's aggregated messages entering its region are the reference's. -/
theorem agg1_eq : V11 m ρ c main_v71 = rAgg1 (kA m c) := by
  rw [Cert.Fold.V11_main_v71, kH0_eq, kEE0_eq, kEE1_eq]
  exact (congrArg (fun h => Cert.Fold.aggMsg (F := Ideal) h (kA m c).a1 (rEE1 (kA m c))) (hUpd_ref (kA m c))).trans
    (aggMsg_ref1 (kA m c))

/-- Layer 1's z1, written by the kernel's third region, is the reference's. -/
theorem z1_eq : Cert.Fold.kZ1 m ρ c = rZ1 (kA m c) :=
  kZ1_eq m ρ c (h1_eq m ρ c) (agg1_eq m ρ c)

section Real

/-- Layer 1's batch mean: the per-tile sums added up and divided by N are the column's mean. -/
theorem mu1_eq (q : Fin 256) :
    (V13 m ρ c main_v100 : S1x256.Idx → EReal) (ix2 (0 : Fin 1) q) = rMu1 (kA m c) (ix1 q) := by
  rw [Cert.Fold.V13_main_v100]
  exact mean1_of_partials (kA m c) (Cert.Fold.kS1 m ρ c)
    (fun r q => kS1_at m ρ c (h1_eq m ρ c) (agg1_eq m ρ c) r q) q

/-- Layer 1's batch variance: E[z²] − E[z]² from the per-tile sums is E[(z − E[z])²], the entries being real. -/
theorem var1_eq (H : ArgsReal (kA m c)) (q : Fin 256) :
    (V13 m ρ c main_v104 : S1x256.Idx → EReal) (ix2 (0 : Fin 1) q) = rVar1 (kA m c) (ix1 q) := by
  rw [Cert.Fold.V13_main_v104]
  exact var1_of_partials (kA m c) (Cert.Fold.kS1 m ρ c) (Cert.Fold.kQ1 m ρ c)
    (fun r q => kS1_at m ρ c (h1_eq m ρ c) (agg1_eq m ρ c) r q)
    (fun r q => kQ1_at m ρ c (h1_eq m ρ c) (agg1_eq m ρ c) r q)
    (rZ1_real (kA m c) H) q

/-- Layer 1's output, written by the kernel's fourth region, is the reference's. -/
theorem h2_eq (H : ArgsReal (kA m c)) : Cert.Fold.kH2 m ρ c = rH2 (kA m c) :=
  kH2_eq m ρ c ((Cert.Fold.V13_main_v88_0 m ρ c).trans (z1_eq m ρ c)) (mu1_eq m ρ c) (var1_eq m ρ c H)

/-- Layer 2's inputs: the node features and the aggregated messages. -/
theorem h2_in_eq (H : ArgsReal (kA m c)) : V17 m ρ c main_v108 = rH2 (kA m c) :=
  (Cert.Fold.V17_main_v108 m ρ c).trans (h2_eq m ρ c H)

theorem agg2_eq (H : ArgsReal (kA m c)) : V17 m ρ c main_v120 = rAgg2 (kA m c) := by
  rw [Cert.Fold.V17_main_v120, h2_eq m ρ c H, kEE2_eq]
  exact aggMsg_ref2 (kA m c)

theorem z2_eq (H : ArgsReal (kA m c)) : Cert.Fold.kZ2 m ρ c = rZ2 (kA m c) :=
  kZ2_eq m ρ c (h2_in_eq m ρ c H) (agg2_eq m ρ c H)

theorem mu2_eq (H : ArgsReal (kA m c)) (q : Fin 256) :
    (V19 m ρ c main_v149 : S1x256.Idx → EReal) (ix2 (0 : Fin 1) q) = rMu2 (kA m c) (ix1 q) := by
  rw [Cert.Fold.V19_main_v149]
  exact mean2_of_partials (kA m c) (Cert.Fold.kS2 m ρ c)
    (fun r q => kS2_at m ρ c (h2_in_eq m ρ c H) (agg2_eq m ρ c H) r q) q

theorem var2_eq (H : ArgsReal (kA m c)) (q : Fin 256) :
    (V19 m ρ c main_v153 : S1x256.Idx → EReal) (ix2 (0 : Fin 1) q) = rVar2 (kA m c) (ix1 q) := by
  rw [Cert.Fold.V19_main_v153]
  exact var2_of_partials (kA m c) (Cert.Fold.kS2 m ρ c) (Cert.Fold.kQ2 m ρ c)
    (fun r q => kS2_at m ρ c (h2_in_eq m ρ c H) (agg2_eq m ρ c H) r q)
    (fun r q => kQ2_at m ρ c (h2_in_eq m ρ c H) (agg2_eq m ρ c H) r q)
    (rZ2_real (kA m c) H) q

/-- The kernel's result buffer holds the reference's last stage of the kernel's own arguments. -/
theorem result_eq (H : ArgsReal (kA m c)) : W20 m ρ c (Proc.devRef .tc main_v157) = rOut (kA m c) :=
  (Cert.Fold.W20_main_v157 m ρ c).trans
    (kOut_eq m ρ c ((Cert.Fold.V19_main_v137_0 m ρ c).trans (z2_eq m ρ c H)) (mu2_eq m ρ c H) (var2_eq m ρ c H))

end Real

end Cert.Bridge

end
-- ==== Proof.lean ====
/-
  The certificate of a two-layer message-passing network (node projection, edge encoders, two overwrite-scatters,
  and per layer: gather + relu + scatter-add aggregation, a tiled affine map, batch normalisation over the node axis,
  relu and a second tiled affine map) against its plain reference.

  Frames: the two kernel programs run to the end with their arguments unchanged (the launch of their six tiled
  regions among host operations); the reference, a straight line of host operations, does too.
  The idealized kernel equals the idealized reference on the extended reals: every tiled product is the affine map of
  its rows, which is what the reference's products are; the gathers and scatters between the regions are the same
  operations on both sides; and the batch statistics, which the kernel forms from per-tile sums and sums of squares as
  E[z²] − E[z]², agree with the reference's E[(z − E[z])²] because under the precondition every entry reaching them
  is a real number. The ideal pass rewrote nothing, so the idealization claim is trivial.
-/
import proofs.«168167_j60026462929460_2_alg».proof.Defs
import proofs.«168167_j60026462929460_2_alg».proof.Proof.Gen.Kernel
import proofs.«168167_j60026462929460_2_alg».proof.Proof.Gen.Kernel.Frame
import proofs.«168167_j60026462929460_2_alg».proof.Proof.Gen.KernelIdeal
import proofs.«168167_j60026462929460_2_alg».proof.Proof.Gen.KernelIdeal.Frame
import proofs.«168167_j60026462929460_2_alg».proof.Proof.Gen.ReferenceIdeal
import proofs.«168167_j60026462929460_2_alg».proof.Proof.Gen.Pre_finite_inputs
import proofs.«168167_j60026462929460_2_alg».proof.Proof.KernelRun
import proofs.«168167_j60026462929460_2_alg».proof.Proof.RefRun
import proofs.«168167_j60026462929460_2_alg».proof.Proof.Assemble
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- Both idealized programs end with the reference's last stage of the kernel's argument arrays. -/
theorem algebraic : Cert.algebraic_KernelIdeal_ReferenceIdeal := by
  intro m ρ m' ρ' hpre hagree
  refine ⟨fun c => Cert.Bridge.rOut (Cert.Bridge.kA m c), ?_, ?_⟩
  · exact (θ_run Cert.KernelIdeal.defs _ _).mono
      (fun _ h c => ⟨(h c).1.trans (Cert.Bridge.result_eq m ρ c (Cert.Bridge.ArgsReal.of_pre _ (hpre c))), (h c).2⟩)
      (Cert.KernelRun.run_value (F := Ideal) m ρ)
  · refine (θ_run Cert.ReferenceIdeal.defs _ _).mono (fun _ h c => ⟨(h c).1.trans ?_, (h c).2⟩)
      (Cert.RefRun.run (F := Ideal) m' ρ')
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
